-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_arg2)) (v2 : (c : Dev Cert.KernelIdeal.nD) → Buf (Elt Ideal) ((c.tc : Thread Cert.KernelIdeal.nD Cert.KernelIdeal.τ).loc Cert.KernelIdeal.main_arg4)) (v3 : (c : Dev Cert.KernelIdeal.nD) → Buf (Elt Ideal) ((c.tc : Thread Cert.KernelIdeal.nD Cert.KernelIdeal.τ).loc Cert.KernelIdeal.main_arg6)) (v4 : (c : Dev Cert.KernelIdeal.nD) → Buf (Elt Ideal) ((c.tc : Thread Cert.KernelIdeal.nD Cert.KernelIdeal.τ).loc Cert.KernelIdeal.main_arg8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_arg6) = v3 c
          ∧ r.2.mem ((c.tc : Thread Cert.KernelIdeal.nD Cert.KernelIdeal.τ).loc Cert.KernelIdeal.main_arg8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_arg6) = v3 c
          ∧ r.2.mem ((c.tc : Thread Cert.ReferenceIdeal.nD Cert.ReferenceIdeal.τ).loc Cert.ReferenceIdeal.main_arg8) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S128x8 : Shape := ⟨2, ![128, 8]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S128x8 : S_.BroadcastsInDim S128x8 (![] : Fin 0 → Fin S128x8.rank)
  reducesTo_S128x8_S_d0_1 : S128x8.ReducesTo [0, 1] S_

variable [Facts]

def fn_part2 {F : FTy → Type} [FloatOps F] (main_arg7 : FVec F S8 .f32) (main_arg8 : FVec F S128x8 .f32) (main_arg9 : FVec F S8 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S128x8 .f32 := Host.absf main_arg8
  let main_cst_14 : FVec F S_ .f32 := constant S_ .f32 0x7F800000#32
  let main_v40 : FVec F S128x8 .f32 := broadcastInDim S128x8 ![] bcast_S_S128x8 main_cst_14
  let main_v41 : IVec S128x8 1 := cmpf .olt main_v39 main_v40
  let main_c_15 : IVec S_ 1 := constantI S_ 1 1#1
  let main_v42 : IVec S_ 1 := (fun x v => Host.reduce IntOp.andi x v reducesTo_S128x8_S_d0_1 h_S_) main_v41 main_c_15
  let main_v43 : IVec S_ 1 := andi main_v38 main_v42
  let main_v44 : FVec F S8 .f32 := Host.absf main_arg9
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  main_v48

def fn_part1 {F : FTy → Type} [FloatOps F] (main_arg4 : FVec F S128x16 .f32) (main_arg5 : FVec F S16 .f32) (main_arg6 : FVec F S16x8 .f32) (main_arg7 : FVec F S8 .f32) (main_arg8 : FVec F S128x8 .f32) (main_arg9 : FVec F S8 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S128x16 .f32 := Host.absf main_arg4
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x8 .f32 := Host.absf main_arg6
  let main_cst_10 : FVec F S_ .f32 := constant S_ .f32 0x7F800000#32
  let main_v30 : FVec F S16x8 .f32 := broadcastInDim S16x8 ![] bcast_S_S16x8 main_cst_10
  let main_v31 : IVec S16x8 1 := cmpf .olt main_v29 main_v30
  let main_c_11 : IVec S_ 1 := constantI S_ 1 1#1
  let main_v32 : IVec S_ 1 := (fun x v => Host.reduce IntOp.andi x v reducesTo_S16x8_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x16 .f32) (main_arg3 : FVec F S16 .f32) (main_arg4 : FVec F S128x16 .f32) (main_arg5 : FVec F S16 .f32) (main_arg6 : FVec F S16x8 .f32) (main_arg7 : FVec F S8 .f32) (main_arg8 : FVec F S128x8 .f32) (main_arg9 : FVec F S8 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S128x8 : Shape := ⟨2, ![128, 8]⟩
abbrev S1x16 : Shape := ⟨2, ![1, 16]⟩
abbrev S1x8 : Shape := ⟨2, ![1, 8]⟩
abbrev S10000x16 : Shape := ⟨2, ![10000, 16]⟩
abbrev S10000x8 : Shape := ⟨2, ![10000, 8]⟩
abbrev S200x10000 : Shape := ⟨2, ![200, 10000]⟩
abbrev S400x16 : Shape := ⟨2, ![400, 16]⟩
abbrev S400x8 : Shape := ⟨2, ![400, 8]⟩
abbrev S10000x24 : Shape := ⟨2, ![10000, 24]⟩
abbrev S200x24 : Shape := ⟨2, ![200, 24]⟩
abbrev S200x16 : Shape := ⟨2, ![200, 16]⟩
abbrev S200x8 : Shape := ⟨2, ![200, 8]⟩
abbrev S2000x8 : Shape := ⟨2, ![2000, 8]⟩
abbrev S200x2048 : Shape := ⟨2, ![200, 2048]⟩
abbrev S2048x8 : Shape := ⟨2, ![2048, 8]⟩
abbrev S200x4096 : Shape := ⟨2, ![200, 4096]⟩
abbrev S4096x8 : Shape := ⟨2, ![4096, 8]⟩
abbrev S200x6016 : Shape := ⟨2, ![200, 6016]⟩
abbrev S6016x8 : Shape := ⟨2, ![6016, 8]⟩
abbrev S200x8064 : Shape := ⟨2, ![200, 8064]⟩
abbrev S8064x8 : Shape := ⟨2, ![8064, 8]⟩

abbrev nBuf : Space → Nat
  | .hbm => 25
  | .vmem => 71
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S128x16, .f32⟩
  | .hbm, ⟨5, _⟩ => ⟨S16, .f32⟩
  | .hbm, ⟨6, _⟩ => ⟨S16x8, .f32⟩
  | .hbm, ⟨7, _⟩ => ⟨S8, .f32⟩
  | .hbm, ⟨8, _⟩ => ⟨S128x8, .f32⟩
  | .hbm, ⟨9, _⟩ => ⟨S8, .f32⟩
  | .hbm, ⟨10, _⟩ => ⟨S1x16, .f32⟩
  | .hbm, ⟨11, _⟩ => ⟨S1x16, .f32⟩
  | .hbm, ⟨12, _⟩ => ⟨S1x8, .f32⟩
  | .hbm, ⟨13, _⟩ => ⟨S1x8, .f32⟩
  | .hbm, ⟨14, _⟩ => ⟨S10000x16, .f32⟩
  | .hbm, ⟨15, _⟩ => ⟨S10000x16, .f32⟩
  | .hbm, ⟨16, _⟩ => ⟨S10000x8, .f32⟩
  | .hbm, ⟨17, _⟩ => ⟨S10000x8, .f32⟩
  | .hbm, ⟨18, _⟩ => ⟨S10000x8, .f32⟩
  | .hbm, ⟨19, _⟩ => ⟨S2000x8, .f32⟩
  | .hbm, ⟨20, _⟩ => ⟨S2000x8, .f32⟩
  | .hbm, ⟨21, _⟩ => ⟨S2000x8, .f32⟩
  | .hbm, ⟨22, _⟩ => ⟨S2000x8, .f32⟩
  | .hbm, ⟨23, _⟩ => ⟨S2000x8, .f32⟩
  | .hbm, ⟨24, _⟩ => ⟨S10000x8, .f32⟩
  | .local _ .vmem, ⟨0, _⟩ => ⟨S10000x128, .f32⟩
  | .local _ .vmem, ⟨1, _⟩ => ⟨S128x16, .f32⟩
  | .local _ .vmem, ⟨2, _⟩ => ⟨S128x16, .f32⟩
  | .local _ .vmem, ⟨3, _⟩ => ⟨S128x8, .f32⟩
  | .local _ .vmem, ⟨4, _⟩ => ⟨S1x16, .f32⟩
  | .local _ .vmem, ⟨5, _⟩ => ⟨S1x8, .f32⟩
  | .local _ .vmem, ⟨6, _⟩ => ⟨S10000x16, .f32⟩
  | .local _ .vmem, ⟨7, _⟩ => ⟨S10000x16, .f32⟩
  | .local _ .vmem, ⟨8, _⟩ => ⟨S10000x8, .f32⟩
  | .local _ .vmem, ⟨9, _⟩ => ⟨S200x10000, .f32⟩
  | .local _ .vmem, ⟨10, _⟩ => ⟨S200x10000, .f32⟩
  | .local _ .vmem, ⟨11, _⟩ => ⟨S200x10000, .f32⟩
  | .local _ .vmem, ⟨12, _⟩ => ⟨S200x10000, .f32⟩
  | .local _ .vmem, ⟨13, _⟩ => ⟨S10000x16, .f32⟩
  | .local _ .vmem, ⟨14, _⟩ => ⟨S400x16, .f32⟩
  | .local _ .vmem, ⟨15, _⟩ => ⟨S400x16, .f32⟩
  | .local _ .vmem, ⟨16, _⟩ => ⟨S1x16, .f32⟩
  | .local _ .vmem, ⟨17, _⟩ => ⟨S16x8, .f32⟩
  | .local _ .vmem, ⟨18, _⟩ => ⟨S400x8, .f32⟩
  | .local _ .vmem, ⟨19, _⟩ => ⟨S400x8, .f32⟩
  | .local _ .vmem, ⟨20, _⟩ => ⟨S1x8, .f32⟩
  | .local _ .vmem, ⟨21, _⟩ => ⟨S400x8, .f32⟩
  | .local _ .vmem, ⟨22, _⟩ => ⟨S400x8, .f32⟩
  | .local _ .vmem, ⟨23, _⟩ => ⟨S400x8, .f32⟩
  | .local _ .vmem, ⟨24, _⟩ => ⟨S400x8, .f32⟩
  | .local _ .vmem, ⟨25, _⟩ => ⟨S10000x24, .f32⟩
  | .local _ .vmem, ⟨26, _⟩ => ⟨S200x2048, .f32⟩
  | .local _ .vmem, ⟨27, _⟩ => ⟨S200x2048, .f32⟩
  | .local _ .vmem, ⟨28, _⟩ => ⟨S200x2048, .f32⟩
  | .local _ .vmem, ⟨29, _⟩ => ⟨S200x2048, .f32⟩
  | .local _ .vmem, ⟨30, _⟩ => ⟨S2048x8, .f32⟩
  | .local _ .vmem, ⟨31, _⟩ => ⟨S400x8, .f32⟩
  | .local _ .vmem, ⟨32, _⟩ => ⟨S400x8, .f32⟩
  | .local _ .vmem, ⟨33, _⟩ => ⟨S400x8, .f32⟩
  | .local _ .vmem, ⟨34, _⟩ => ⟨S400x8, .f32⟩
  | .local _ .vmem, ⟨35, _⟩ => ⟨S200x4096, .f32⟩
  | .local _ .vmem, ⟨36, _⟩ => ⟨S200x4096, .f32⟩
  | .local _ .vmem, ⟨37, _⟩ => ⟨S200x4096, .f32⟩
  | .local _ .vmem, ⟨38, _⟩ => ⟨S200x4096, .f32⟩
  | .local _ .vmem, ⟨39, _⟩ => ⟨S4096x8, .f32⟩
  | .local _ .vmem, ⟨40, _⟩ => ⟨S400x8, .f32⟩
  | .local _ .vmem, ⟨41, _⟩ => ⟨S400x8, .f32⟩
  | .local _ .vmem, ⟨42, _⟩ => ⟨S400x8, .f32⟩
  | .local _ .vmem, ⟨43, _⟩ => ⟨S400x8, .f32⟩
  | .local _ .vmem, ⟨44, _⟩ => ⟨S200x6016, .f32⟩
  | .local _ .vmem, ⟨45, _⟩ => ⟨S200x6016, .f32⟩
  | .local _ .vmem, ⟨46, _⟩ => ⟨S200x6016, .f32⟩
  | .local _ .vmem, ⟨47, _⟩ => ⟨S200x6016, .f32⟩
  | .local _ .vmem, ⟨48, _⟩ => ⟨S6016x8, .f32⟩
  | .local _ .vmem, ⟨49, _⟩ => ⟨S400x8, .f32⟩
  | .local _ .vmem, ⟨50, _⟩ => ⟨S400x8, .f32⟩
  | .local _ .vmem, ⟨51, _⟩ => ⟨S400x8, .f32⟩
  | .local _ .vmem, ⟨52, _⟩ => ⟨S400x8, .f32⟩
  | .local _ .vmem, ⟨53, _⟩ => ⟨S200x8064, .f32⟩
  | .local _ .vmem, ⟨54, _⟩ => ⟨S200x8064, .f32⟩
  | .local _ .vmem, ⟨55, _⟩ => ⟨S200x8064, .f32⟩
  | .local _ .vmem, ⟨56, _⟩ => ⟨S200x8064, .f32⟩
  | .local _ .vmem, ⟨57, _⟩ => ⟨S8064x8, .f32⟩
  | .local _ .vmem, ⟨58, _⟩ => ⟨S400x8, .f32⟩
  | .local _ .vmem, ⟨59, _⟩ => ⟨S400x8, .f32⟩
  | .local _ .vmem, ⟨60, _⟩ => ⟨S400x8, .f32⟩
  | .local _ .vmem, ⟨61, _⟩ => ⟨S400x8, .f32⟩
  | .local _ .vmem, ⟨62, _⟩ => ⟨S200x10000, .f32⟩
  | .local _ .vmem, ⟨63, _⟩ => ⟨S200x10000, .f32⟩
  | .local _ .vmem, ⟨64, _⟩ => ⟨S200x10000, .f32⟩
  | .local _ .vmem, ⟨65, _⟩ => ⟨S200x10000, .f32⟩
  | .local _ .vmem, ⟨66, _⟩ => ⟨S10000x8, .f32⟩
  | .local _ .vmem, ⟨67, _⟩ => ⟨S400x8, .f32⟩
  | .local _ .vmem, ⟨68, _⟩ => ⟨S400x8, .f32⟩
  | .local _ .vmem, ⟨69, _⟩ => ⟨S400x8, .f32⟩
  | .local _ .vmem, ⟨70, _⟩ => ⟨S400x8, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v5_0 : Ref sig .tc := ⟨.hbm, 17, rfl⟩
abbrev main_v5_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_scratch0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg3_1 : Ref sig .tc := ⟨.vmem, 32, rfl⟩
abbrev cc2_stg4_0 : Ref sig .tc := ⟨.vmem, 33, rfl⟩
abbrev cc2_stg4_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg4_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg3_1 : Ref sig .tc := ⟨.vmem, 50, rfl⟩
abbrev cc4_stg4_0 : Ref sig .tc := ⟨.vmem, 51, rfl⟩
abbrev cc4_stg4_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg1_1 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg3_1 : Ref sig .tc := ⟨.vmem, 59, rfl⟩
abbrev cc5_stg4_0 : Ref sig .tc := ⟨.vmem, 60, rfl⟩
abbrev cc5_stg4_1 : Ref sig .tc := ⟨.vmem, 61, rfl⟩
abbrev cc6_stg0_0 : Ref sig .tc := ⟨.vmem, 62, rfl⟩
abbrev cc6_stg0_1 : Ref sig .tc := ⟨.vmem, 63, rfl⟩
abbrev cc6_stg1_0 : Ref sig .tc := ⟨.vmem, 64, rfl⟩
abbrev cc6_stg1_1 : Ref sig .tc := ⟨.vmem, 65, rfl⟩
abbrev cc6_stg2_0 : Ref sig .tc := ⟨.vmem, 66, rfl⟩
abbrev cc6_stg3_0 : Ref sig .tc := ⟨.vmem, 67, rfl⟩
abbrev cc6_stg3_1 : Ref sig .tc := ⟨.vmem, 68, rfl⟩
abbrev cc6_stg4_0 : Ref sig .tc := ⟨.vmem, 69, rfl⟩
abbrev cc6_stg4_1 : Ref sig .tc := ⟨.vmem, 70, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem8_0 : DmaSem sig := 21
abbrev cc1_sem8_1 : DmaSem sig := 22
abbrev cc1_sem9_0 : DmaSem sig := 23
abbrev cc1_sem9_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem3_0 : DmaSem sig := 30
abbrev cc2_sem3_1 : DmaSem sig := 31
abbrev cc2_sem4_0 : DmaSem sig := 32
abbrev cc2_sem4_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem3_0 : DmaSem sig := 39
abbrev cc3_sem3_1 : DmaSem sig := 40
abbrev cc3_sem4_0 : DmaSem sig := 41
abbrev cc3_sem4_1 : DmaSem sig := 42
abbrev cc4_sem0_0 : DmaSem sig := 43
abbrev cc4_sem0_1 : DmaSem sig := 44
abbrev cc4_sem1_0 : DmaSem sig := 45
abbrev cc4_sem1_1 : DmaSem sig := 46
abbrev cc4_sem2_0 : DmaSem sig := 47
abbrev cc4_sem3_0 : DmaSem sig := 48
abbrev cc4_sem3_1 : DmaSem sig := 49
abbrev cc4_sem4_0 : DmaSem sig := 50
abbrev cc4_sem4_1 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem3_0 : DmaSem sig := 57
abbrev cc5_sem3_1 : DmaSem sig := 58
abbrev cc5_sem4_0 : DmaSem sig := 59
abbrev cc5_sem4_1 : DmaSem sig := 60
abbrev cc6_sem0_0 : DmaSem sig := 61
abbrev cc6_sem0_1 : DmaSem sig := 62
abbrev cc6_sem1_0 : DmaSem sig := 63
abbrev cc6_sem1_1 : DmaSem sig := 64
abbrev cc6_sem2_0 : DmaSem sig := 65
abbrev cc6_sem3_0 : DmaSem sig := 66
abbrev cc6_sem3_1 : DmaSem sig := 67
abbrev cc6_sem4_0 : DmaSem sig := 68
abbrev cc6_sem4_1 : DmaSem sig := 69

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10000x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S10000x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S10000x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨1, ![25], ![false]⟩

def k1_off1 (i : grid1.Coords) : Fin 2 → Nat :=
  let c48_i32 : BitVec 32 := 48#32
  let c2_i32 : BitVec 32 := 2#32
  let arg0 : BitVec 32 := BitVec.ofNat 32 (i 0).val
  let v0 : BitVec 32 := Scalar.muli c2_i32 arg0
  let v1 : BitVec 32 := Scalar.subi c48_i32 v0
  let c1_i32 : BitVec 32 := 1#32
  let v23 : BitVec 32 := Scalar.addi v1 c1_i32
  let c200_i32 : BitVec 32 := 200#32
  let v24 : BitVec 32 := Scalar.muli v23 c200_i32
  let v25 : Index := Scalar.indexCast v24
  let c16 : Index := 16#32
  ![v25.toNat, 16]
def k1_off2 (i : grid1.Coords) : Fin 2 → Nat :=
  let c48_i32 : BitVec 32 := 48#32
  let c2_i32 : BitVec 32 := 2#32
  let arg0 : BitVec 32 := BitVec.ofNat 32 (i 0).val
  let v0 : BitVec 32 := Scalar.muli c2_i32 arg0
  let v1 : BitVec 32 := Scalar.subi c48_i32 v0
  let c200_i32_34 : BitVec 32 := 200#32
  let v57 : BitVec 32 := Scalar.muli v1 c200_i32_34
  let v58 : Index := Scalar.indexCast v57
  let c16_35 : Index := 16#32
  ![v58.toNat, 16]
def cc1_transform_0 (i : grid1.Coords) : Fin 2 → Nat :=
  let arg0 : BitVec 32 := BitVec.ofNat 32 (i 0).val
  let c2_i32 : BitVec 32 := 2#32
  let v0 : BitVec 32 := Scalar.muli c2_i32 arg0
  let c48_i32 : BitVec 32 := 48#32
  let v1 : BitVec 32 := Scalar.subi c48_i32 v0
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let c2_i32 : BitVec 32 := 2#32
  let v0 : BitVec 32 := Scalar.muli c2_i32 arg0
  let c49_i32 : BitVec 32 := 49#32
  let v1 : BitVec 32 := Scalar.subi c49_i32 v0
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c24_i32 : BitVec 32 := 24#32
  let v0 : BitVec 32 := Scalar.subi c24_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c24_i32 : BitVec 32 := 24#32
  let v0 : BitVec 32 := Scalar.subi c24_i32 arg0
  let c0_i32 : BitVec 32 := 0#32
  let c0_i32_0 : BitVec 32 := 0#32
  ![v0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c24_i32 : BitVec 32 := 24#32
  let v0 : BitVec 32 := Scalar.subi c24_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c24_i32 : BitVec 32 := 24#32
  let v0 : BitVec 32 := Scalar.subi c24_i32 arg0
  let c0_i32 : BitVec 32 := 0#32
  let c0_i32_0 : BitVec 32 := 0#32
  ![v0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x8 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S400x8 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S400x8 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi c0_i32 v0
  let c0_i32_0 : BitVec 32 := 0#32
  let c0_i32_1 : BitVec 32 := 0#32
  ![v1.toNat, c0_i32_0.toNat]

def cc2_transform_1 (i : grid2.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi c0_i32 v0
  let c1_i32 : BitVec 32 := 1#32
  let v2 : BitVec 32 := Scalar.addi v1 c1_i32
  let c0_i32_0 : BitVec 32 := 0#32
  let c0_i32_1 : BitVec 32 := 0#32
  ![v2.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S200x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x8 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c2_i32 : BitVec 32 := 2#32
  let v0 : BitVec 32 := Scalar.muli c2_i32 arg0
  let c10_i32 : BitVec 32 := 10#32
  let v1 : BitVec 32 := Scalar.addi c10_i32 v0
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let c2_i32 : BitVec 32 := 2#32
  let v0 : BitVec 32 := Scalar.muli c2_i32 arg0
  let c10_i32 : BitVec 32 := 10#32
  let v1 : BitVec 32 := Scalar.addi c10_i32 v0
  let c1_i32 : BitVec 32 := 1#32
  let v2 : BitVec 32 := Scalar.addi v1 c1_i32
  let c0_i32 : BitVec 32 := 0#32
  let c0_i32_0 : BitVec 32 := 0#32
  ![v2.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c5_i32 : BitVec 32 := 5#32
  let v0 : BitVec 32 := Scalar.addi c5_i32 arg0
  let c0_i32 : BitVec 32 := 0#32
  let c0_i32_0 : BitVec 32 := 0#32
  ![v0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S200x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S4096x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x8 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S400x8 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c2_i32 : BitVec 32 := 2#32
  let v0 : BitVec 32 := Scalar.muli c2_i32 arg0
  let c20_i32 : BitVec 32 := 20#32
  let v1 : BitVec 32 := Scalar.addi c20_i32 v0
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let c2_i32 : BitVec 32 := 2#32
  let v0 : BitVec 32 := Scalar.muli c2_i32 arg0
  let c20_i32 : BitVec 32 := 20#32
  let v1 : BitVec 32 := Scalar.addi c20_i32 v0
  let c1_i32 : BitVec 32 := 1#32
  let v2 : BitVec 32 := Scalar.addi v1 c1_i32
  let c0_i32 : BitVec 32 := 0#32
  let c0_i32_0 : BitVec 32 := 0#32
  ![v2.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![v0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S200x6016 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S200x6016 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S6016x8 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S400x8 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S400x8 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c2_i32 : BitVec 32 := 2#32
  let v0 : BitVec 32 := Scalar.muli c2_i32 arg0
  let c30_i32 : BitVec 32 := 30#32
  let v1 : BitVec 32 := Scalar.addi c30_i32 v0
  let c0_i32 : BitVec 32 := 0#32
  let c0_i32_0 : BitVec 32 := 0#32
  ![v1.toNat, c0_i32.toNat]

def cc5_transform_1 (i : grid5.Coords) : Fin 2 → Nat :=
  let arg0 : BitVec 32 := BitVec.ofNat 32 (i 0).val
  let c2_i32 : BitVec 32 := 2#32
  let v0 : BitVec 32 := Scalar.muli c2_i32 arg0
  let c30_i32 : BitVec 32 := 30#32
  let v1 : BitVec 32 := Scalar.addi c30_i32 v0
  let c1_i32 : BitVec 32 := 1#32
  let v2 : BitVec 32 := Scalar.addi v1 c1_i32
  let c0_i32 : BitVec 32 := 0#32
  let c0_i32_0 : BitVec 32 := 0#32
  ![v2.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c15_i32 : BitVec 32 := 15#32
  let v0 : BitVec 32 := Scalar.addi c15_i32 arg0
  let c0_i32 : BitVec 32 := 0#32
  let c0_i32_0 : BitVec 32 := 0#32
  ![v0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S200x8064 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S200x8064 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S8064x8 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S400x8 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S400x8 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c2_i32 : BitVec 32 := 2#32
  let v0 : BitVec 32 := Scalar.muli c2_i32 arg0
  let c40_i32 : BitVec 32 := 40#32
  let v1 : BitVec 32 := Scalar.addi c40_i32 v0
  let c0_i32 : BitVec 32 := 0#32
  let c0_i32_0 : BitVec 32 := 0#32
  ![v1.toNat, c0_i32.toNat]

def cc6_transform_1 (i : grid6.Coords) : Fin 2 → Nat :=
  let arg0 : BitVec 32 := BitVec.ofNat 32 (i 0).val
  let c2_i32 : BitVec 32 := 2#32
  let v0 : BitVec 32 := Scalar.muli c2_i32 arg0
  let c40_i32 : BitVec 32 := 40#32
  let v1 : BitVec 32 := Scalar.addi c40_i32 v0
  let c1_i32 : BitVec 32 := 1#32
  let v2 : BitVec 32 := Scalar.addi v1 c1_i32
  let c0_i32 : BitVec 32 := 0#32
  let c0_i32_0 : BitVec 32 := 0#32
  ![v2.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S200x10000 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S200x10000 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S10000x8 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S400x8 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S400x8 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  shapeCasts_S16_S1x16 : S16.ShapeCasts S1x16
  shapeCasts_S8_S1x8 : S8.ShapeCasts S1x8
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  inb_S10000x8_S10000x8_0_0 : ∀ a, (![0, 0] : Fin 2 → Nat) a + S10000x8.size a ≤ S10000x8.size a
  h_S10000x8 : 0 < S10000x8.numel
  shapeCasts_S10000x16_S10000x16 : S10000x16.ShapeCasts S10000x16
  inb_S10000x24_S10000x16_0_0 : ∀ a, (![0, 0] : Fin 2 → Nat) a + S10000x16.size a ≤ S10000x24.size a
  inb_S10000x24_S10000x8_0_16 : ∀ a, (![0, 16] : Fin 2 → Nat) a + S10000x8.size a ≤ S10000x24.size a
  shapeCasts_S10000x8_S10000x8 : S10000x8.ShapeCasts S10000x8
  inb_S200x10000_S200x10000_0_0 : ∀ a, (![0, 0] : Fin 2 → Nat) a + S200x10000.size a ≤ S200x10000.size a
  h_S200x10000 : 0 < S200x10000.numel
  inb_S10000x24_S10000x24_0_0 : ∀ a, (![0, 0] : Fin 2 → Nat) a + S10000x24.size a ≤ S10000x24.size a
  h_S10000x24 : 0 < S10000x24.numel
  slices_S200x24_o0_0_S200x16 : S200x24.Slices ![0, 0] S200x16
  broadcasts_S1x16_S200x16 : S1x16.Broadcasts S200x16
  inb_S400x16_S200x16_200_0 : ∀ a, (![200, 0] : Fin 2 → Nat) a + S200x16.size a ≤ S400x16.size a
  h_S200x16 : 0 < S200x16.numel
  shapeCasts_S200x16_S200x16 : S200x16.ShapeCasts S200x16
  inb_S16x8_S16x8_0_0 : ∀ a, (![0, 0] : Fin 2 → Nat) a + S16x8.size a ≤ S16x8.size a
  h_S16x8 : 0 < S16x8.numel
  h_S200x8 : 0 < S200x8.numel
  shapeCasts_S200x8_S200x8 : S200x8.ShapeCasts S200x8
  inb_S400x8_S200x8_200_0 : ∀ a, (![200, 0] : Fin 2 → Nat) a + S200x8.size a ≤ S400x8.size a
  slices_S200x24_o0_16_S200x8 : S200x24.Slices ![0, 16] S200x8
  broadcasts_S1x8_S200x8 : S1x8.Broadcasts S200x8
  inb_S400x16_S200x16_0_0 : ∀ a, (![0, 0] : Fin 2 → Nat) a + S200x16.size a ≤ S400x16.size a
  inb_S400x8_S200x8_0_0 : ∀ a, (![0, 0] : Fin 2 → Nat) a + S200x8.size a ≤ S400x8.size a
  iota_S2048x8_d0_w32 : S2048x8.Iotas .tc 32 [0]
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S200x2048_S200x2048_0_0 : ∀ a, (![0, 0] : Fin 2 → Nat) a + S200x2048.size a ≤ S200x2048.size a
  h_S200x2048 : 0 < S200x2048.numel
  iota_S4096x8_d0_w32 : S4096x8.Iotas .tc 32 [0]
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S200x4096_S200x4096_0_0 : ∀ a, (![0, 0] : Fin 2 → Nat) a + S200x4096.size a ≤ S200x4096.size a
  h_S200x4096 : 0 < S200x4096.numel
  iota_S6016x8_d0_w32 : S6016x8.Iotas .tc 32 [0]
  inb_S6016x8_S6016x8_0_0 : ∀ a, (![0, 0] : Fin 2 → Nat) a + S6016x8.size a ≤ S6016x8.size a
  h_S6016x8 : 0 < S6016x8.numel
  shapeCasts_S6016x8_S6016x8 : S6016x8.ShapeCasts S6016x8
  inb_S200x6016_S200x6016_0_0 : ∀ a, (![0, 0] : Fin 2 → Nat) a + S200x6016.size a ≤ S200x6016.size a
  h_S200x6016 : 0 < S200x6016.numel
  iota_S8064x8_d0_w32 : S8064x8.Iotas .tc 32 [0]
  inb_S8064x8_S8064x8_0_0 : ∀ a, (![0, 0] : Fin 2 → Nat) a + S8064x8.size a ≤ S8064x8.size a
  h_S8064x8 : 0 < S8064x8.numel
  shapeCasts_S8064x8_S8064x8 : S8064x8.ShapeCasts S8064x8
  inb_S200x8064_S200x8064_0_0 : ∀ a, (![0, 0] : Fin 2 → Nat) a + S200x8064.size a ≤ S200x8064.size a
  h_S200x8064 : 0 < S200x8064.numel
  iota_S10000x8_d0_w32 : S10000x8.Iotas .tc 32 [0]
  concatenates_S2000x8_S2000x8_S2000x8_S2000x8_S2000x8_S10000x8_d0 : Shape.Concatenates [S2000x8, S2000x8, S2000x8, S2000x8, S2000x8] S10000x8 0
  dot_S10000x128_S128x16_S10000x16_1_0_0_1_n_n_wf : DotDims.WF S10000x128 S128x16 S10000x16 [1] [0] [0] [1] [] []
  dot_S10000x128_S128x8_S10000x8_1_0_0_1_n_n_wf : DotDims.WF S10000x128 S128x8 S10000x8 [1] [0] [0] [1] [] []
  dot_S200x10000_S10000x24_S200x24_1_0_0_1_n_n_wf : DotDims.WF S200x10000 S10000x24 S200x24 [1] [0] [0] [1] [] []
  dot_S200x16_S16x8_S200x8_1_0_0_1_n_n_wf : DotDims.WF S200x16 S16x8 S200x8 [1] [0] [0] [1] [] []
  dot_S200x2048_S2048x8_S200x8_1_0_0_1_n_n_wf : DotDims.WF S200x2048 S2048x8 S200x8 [1] [0] [0] [1] [] []
  dot_S200x4096_S4096x8_S200x8_1_0_0_1_n_n_wf : DotDims.WF S200x4096 S4096x8 S200x8 [1] [0] [0] [1] [] []
  dot_S200x6016_S6016x8_S200x8_1_0_0_1_n_n_wf : DotDims.WF S200x6016 S6016x8 S200x8 [1] [0] [0] [1] [] []
  dot_S200x8064_S8064x8_S200x8_1_0_0_1_n_n_wf : DotDims.WF S200x8064 S8064x8 S200x8 [1] [0] [0] [1] [] []
  dot_S200x10000_S10000x8_S200x8_1_0_0_1_n_n_wf : DotDims.WF S200x10000 S10000x8 S200x8 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hrank1 : 0 < grid1.rank
  k1_off1_inb : ∀ i : grid1.Coords, ∀ a, (k1_off1 i) a + S200x8.size a ≤ S10000x24.size a
  k1_off2_inb : ∀ i : grid1.Coords, ∀ a, (k1_off2 i) a + S200x8.size a ≤ S10000x24.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S10000x16.size a
  hwx1_2 : ∀ i : grid1.Coords, EltTy.bits .f32 = 32 ∨ (Rect.block (s := S10000x16) S10000x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x16.size a ≤ S10000x16.size a
  hwx1_3 : ∀ i : grid1.Coords, EltTy.bits .f32 = 32 ∨ (Rect.block (s := S10000x16) S400x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x8.size a ≤ S16x8.size a
  hwx1_5 : ∀ i : grid1.Coords, EltTy.bits .f32 = 32 ∨ (Rect.block (s := S16x8) S16x8.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x8.size a ≤ S10000x8.size a
  hwx1_6 : ∀ i : grid1.Coords, EltTy.bits .f32 = 32 ∨ (Rect.block (s := S10000x8) S400x8.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x8.size a ≤ S1x8.size a
  hwx1_7 : ∀ i : grid1.Coords, EltTy.bits .f32 = 32 ∨ (Rect.block (s := S1x8) S1x8.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S400x8.size a ≤ S10000x8.size a
  hwx1_8 : ∀ i : grid1.Coords, EltTy.bits .f32 = 32 ∨ (Rect.block (s := S10000x8) S400x8.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S400x8.size a ≤ S10000x8.size a
  hwx1_9 : ∀ i : grid1.Coords, EltTy.bits .f32 = 32 ∨ (Rect.block (s := S10000x8) S400x8.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S200x2048.size a < S10000x10000.size a
  hwx2_0 : ∀ i : grid2.Coords, EltTy.bits .f32 = 32 ∨ (Rect.unit (s := S10000x10000) (fun a => cc2_transform_0 i a * S200x2048.size a) (fun a => (Pipeline.Clip.of (cc2_transform_0 i a) (S200x2048.size a) (S10000x10000.size a)).extent (S200x2048.size a)) fun a => Pipeline.Clip.inb (Pipeline.Clip.ok_of (hstart2_0 i a))).WholeWords (EltTy.packing .f32)
  hwxs2_0 : ∀ i : grid2.Coords, EltTy.bits .f32 = 32 ∨ (Rect.unit (s := S200x2048) (fun _ => 0) (fun a => (Pipeline.Clip.of (cc2_transform_0 i a) (S200x2048.size a) (S10000x10000.size a)).extent (S200x2048.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S200x2048.size a < S10000x10000.size a
  hwx2_1 : ∀ i : grid2.Coords, EltTy.bits .f32 = 32 ∨ (Rect.unit (s := S10000x10000) (fun a => cc2_transform_1 i a * S200x2048.size a) (fun a => (Pipeline.Clip.of (cc2_transform_1 i a) (S200x2048.size a) (S10000x10000.size a)).extent (S200x2048.size a)) fun a => Pipeline.Clip.inb (Pipeline.Clip.ok_of (hstart2_1 i a))).WholeWords (EltTy.packing .f32)
  hwxs2_1 : ∀ i : grid2.Coords, EltTy.bits .f32 = 32 ∨ (Rect.unit (s := S200x2048) (fun _ => 0) (fun a => (Pipeline.Clip.of (cc2_transform_1 i a) (S200x2048.size a) (S10000x10000.size a)).extent (S200x2048.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hstart2_2 : ∀ (i : grid2.Coords) a, cc2_transform_2 i a * S2048x8.size a < S10000x8.size a
  hwx2_2 : ∀ i : grid2.Coords, EltTy.bits .f32 = 32 ∨ (Rect.unit (s := S10000x8) (fun a => cc2_transform_2 i a * S2048x8.size a) (fun a => (Pipeline.Clip.of (cc2_transform_2 i a) (S2048x8.size a) (S10000x8.size a)).extent (S2048x8.size a)) fun a => Pipeline.Clip.inb (Pipeline.Clip.ok_of (hstart2_2 i a))).WholeWords (EltTy.packing .f32)
  hwxs2_2 : ∀ i : grid2.Coords, EltTy.bits .f32 = 32 ∨ (Rect.unit (s := S2048x8) (fun _ => 0) (fun a => (Pipeline.Clip.of (cc2_transform_2 i a) (S2048x8.size a) (S10000x8.size a)).extent (S2048x8.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x8.size a ≤ S10000x8.size a
  hwx2_3 : ∀ i : grid2.Coords, EltTy.bits .f32 = 32 ∨ (Rect.block (s := S10000x8) S400x8.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x8.size a ≤ S2000x8.size a
  hwx2_4 : ∀ i : grid2.Coords, EltTy.bits .f32 = 32 ∨ (Rect.block (s := S2000x8) S400x8.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S200x4096.size a < S10000x10000.size a
  hwx3_0 : ∀ i : grid3.Coords, EltTy.bits .f32 = 32 ∨ (Rect.unit (s := S10000x10000) (fun a => cc3_transform_0 i a * S200x4096.size a) (fun a => (Pipeline.Clip.of (cc3_transform_0 i a) (S200x4096.size a) (S10000x10000.size a)).extent (S200x4096.size a)) fun a => Pipeline.Clip.inb (Pipeline.Clip.ok_of (hstart3_0 i a))).WholeWords (EltTy.packing .f32)
  hwxs3_0 : ∀ i : grid3.Coords, EltTy.bits .f32 = 32 ∨ (Rect.unit (s := S200x4096) (fun _ => 0) (fun a => (Pipeline.Clip.of (cc3_transform_0 i a) (S200x4096.size a) (S10000x10000.size a)).extent (S200x4096.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S200x4096.size a < S10000x10000.size a
  hwx3_1 : ∀ i : grid3.Coords, EltTy.bits .f32 = 32 ∨ (Rect.unit (s := S10000x10000) (fun a => cc3_transform_1 i a * S200x4096.size a) (fun a => (Pipeline.Clip.of (cc3_transform_1 i a) (S200x4096.size a) (S10000x10000.size a)).extent (S200x4096.size a)) fun a => Pipeline.Clip.inb (Pipeline.Clip.ok_of (hstart3_1 i a))).WholeWords (EltTy.packing .f32)
  hwxs3_1 : ∀ i : grid3.Coords, EltTy.bits .f32 = 32 ∨ (Rect.unit (s := S200x4096) (fun _ => 0) (fun a => (Pipeline.Clip.of (cc3_transform_1 i a) (S200x4096.size a) (S10000x10000.size a)).extent (S200x4096.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hstart3_2 : ∀ (i : grid3.Coords) a, cc3_transform_2 i a * S4096x8.size a < S10000x8.size a
  hwx3_2 : ∀ i : grid3.Coords, EltTy.bits .f32 = 32 ∨ (Rect.unit (s := S10000x8) (fun a => cc3_transform_2 i a * S4096x8.size a) (fun a => (Pipeline.Clip.of (cc3_transform_2 i a) (S4096x8.size a) (S10000x8.size a)).extent (S4096x8.size a)) fun a => Pipeline.Clip.inb (Pipeline.Clip.ok_of (hstart3_2 i a))).WholeWords (EltTy.packing .f32)
  hwxs3_2 : ∀ i : grid3.Coords, EltTy.bits .f32 = 32 ∨ (Rect.unit (s := S4096x8) (fun _ => 0) (fun a => (Pipeline.Clip.of (cc3_transform_2 i a) (S4096x8.size a) (S10000x8.size a)).extent (S4096x8.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x8.size a ≤ S10000x8.size a
  hwx3_3 : ∀ i : grid3.Coords, EltTy.bits .f32 = 32 ∨ (Rect.block (s := S10000x8) S400x8.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S400x8.size a ≤ S2000x8.size a
  hwx3_4 : ∀ i : grid3.Coords, EltTy.bits .f32 = 32 ∨ (Rect.block (s := S2000x8) S400x8.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hstart4_0 : ∀ (i : grid4.Coords) a, cc4_transform_0 i a * S200x6016.size a < S10000x10000.size a
  hwx4_0 : ∀ i : grid4.Coords, EltTy.bits .f32 = 32 ∨ (Rect.unit (s := S10000x10000) (fun a => cc4_transform_0 i a * S200x6016.size a) (fun a => (Pipeline.Clip.of (cc4_transform_0 i a) (S200x6016.size a) (S10000x10000.size a)).extent (S200x6016.size a)) fun a => Pipeline.Clip.inb (Pipeline.Clip.ok_of (hstart4_0 i a))).WholeWords (EltTy.packing .f32)
  hwxs4_0 : ∀ i : grid4.Coords, EltTy.bits .f32 = 32 ∨ (Rect.unit (s := S200x6016) (fun _ => 0) (fun a => (Pipeline.Clip.of (cc4_transform_0 i a) (S200x6016.size a) (S10000x10000.size a)).extent (S200x6016.size a)) fun a => (Nat.zero_add _).trans_le (Pipeline.Clip.extent_le (Pipeline.Clip.ok_of (hstart4_0 i a)))).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hstart4_1 : ∀ (i : grid4.Coords) a, cc4_transform_1 i a * S200x6016.size a < S10000x10000.size a
  hwx4_1 : ∀ i : grid4.Coords, EltTy.bits .f32 = 32 ∨ (Rect.unit (s := S10000x10000) (fun a => cc4_transform_1 i a * S200x6016.size a) (fun a => (Pipeline.Clip.of (cc4_transform_1 i a) (S200x6016.size a) (S10000x10000.size a)).extent (S200x6016.size a)) fun a => Pipeline.Clip.inb (Pipeline.Clip.ok_of (hstart4_1 i a))).WholeWords (EltTy.packing .f32)
  hwxs4_1 : ∀ i : grid4.Coords, EltTy.bits .f32 = 32 ∨ (Rect.unit (s := S200x6016) (fun _ => 0) (fun a => (Pipeline.Clip.of (cc4_transform_1 i a) (S200x6016.size a) (S10000x10000.size a)).extent (S200x6016.size a)) fun a => (Nat.zero_add _).trans_le (Pipeline.Clip.extent_le (Pipeline.Clip.ok_of (hstart4_1 i a)))).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hstart4_2 : ∀ (i : grid4.Coords) a, cc4_transform_2 i a * S6016x8.size a < S10000x8.size a
  hwx4_2 : ∀ i : grid4.Coords, EltTy.bits .f32 = 32 ∨ (Rect.unit (s := S10000x8) (fun a => cc4_transform_2 i a * S6016x8.size a) (fun a => (Pipeline.Clip.of (cc4_transform_2 i a) (S6016x8.size a) (S10000x8.size a)).extent (S6016x8.size a)) fun a => Pipeline.Clip.inb (Pipeline.Clip.ok_of (hstart4_2 i a))).WholeWords (EltTy.packing .f32)
  hwxs4_2 : ∀ i : grid4.Coords, EltTy.bits .f32 = 32 ∨ (Rect.unit (s := S6016x8) (fun _ => 0) (fun a => (Pipeline.Clip.of (cc4_transform_2 i a) (S6016x8.size a) (S10000x8.size a)).extent (S6016x8.size a)) fun a => (Nat.zero_add _).trans_le (Pipeline.Clip.extent_le (Pipeline.Clip.ok_of (hstart4_2 i a)))).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S400x8.size a ≤ S10000x8.size a
  hwx4_3 : ∀ i : grid4.Coords, EltTy.bits .f32 = 32 ∨ (Rect.block (s := S10000x8) S400x8.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S400x8.size a ≤ S2000x8.size a
  hwx4_4 : ∀ i : grid4.Coords, EltTy.bits .f32 = 32 ∨ (Rect.block (s := S2000x8) S400x8.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hstart5_0 : ∀ (i : grid5.Coords) a, cc5_transform_0 i a * S200x8064.size a < S10000x10000.size a
  hwx5_0 : ∀ i : grid5.Coords, EltTy.bits .f32 = 32 ∨ (Rect.unit (s := S10000x10000) (fun a => cc5_transform_0 i a * S200x8064.size a) (fun a => (Pipeline.Clip.of (cc5_transform_0 i a) (S200x8064.size a) (S10000x10000.size a)).extent (S200x8064.size a)) fun a => Pipeline.Clip.inb (Pipeline.Clip.ok_of (hstart5_0 i a))).WholeWords (EltTy.packing .f32)
  hwxs5_0 : ∀ i : grid5.Coords, EltTy.bits .f32 = 32 ∨ (Rect.unit (s := S200x8064) (fun _ => 0) (fun a => (Pipeline.Clip.of (cc5_transform_0 i a) (S200x8064.size a) (S10000x10000.size a)).extent (S200x8064.size a)) fun a => (Nat.zero_add _).trans_le (Pipeline.Clip.extent_le (Pipeline.Clip.ok_of (hstart5_0 i a)))).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hstart5_1 : ∀ (i : grid5.Coords) a, cc5_transform_1 i a * S200x8064.size a < S10000x10000.size a
  hwx5_1 : ∀ i : grid5.Coords, EltTy.bits .f32 = 32 ∨ (Rect.unit (s := S10000x10000) (fun a => cc5_transform_1 i a * S200x8064.size a) (fun a => (Pipeline.Clip.of (cc5_transform_1 i a) (S200x8064.size a) (S10000x10000.size a)).extent (S200x8064.size a)) fun a => Pipeline.Clip.inb (Pipeline.Clip.ok_of (hstart5_1 i a))).WholeWords (EltTy.packing .f32)
  hwxs5_1 : ∀ i : grid5.Coords, EltTy.bits .f32 = 32 ∨ (Rect.unit (s := S200x8064) (fun _ => 0) (fun a => (Pipeline.Clip.of (cc5_transform_1 i a) (S200x8064.size a) (S10000x10000.size a)).extent (S200x8064.size a)) fun a => (Nat.zero_add _).trans_le (Pipeline.Clip.extent_le (Pipeline.Clip.ok_of (hstart5_1 i a)))).WholeWords (EltTy.packing .f32)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hstart5_2 : ∀ (i : grid5.Coords) a, cc5_transform_2 i a * S8064x8.size a < S10000x8.size a
  hwx5_2 : ∀ i : grid5.Coords, EltTy.bits .f32 = 32 ∨ (Rect.unit (s := S10000x8) (fun a => cc5_transform_2 i a * S8064x8.size a) (fun a => (Pipeline.Clip.of (cc5_transform_2 i a) (S8064x8.size a) (S10000x8.size a)).extent (S8064x8.size a)) fun a => Pipeline.Clip.inb (Pipeline.Clip.ok_of (hstart5_2 i a))).WholeWords (EltTy.packing .f32)
  hwxs5_2 : ∀ i : grid5.Coords, EltTy.bits .f32 = 32 ∨ (Rect.unit (s := S8064x8) (fun _ => 0) (fun a => (Pipeline.Clip.of (cc5_transform_2 i a) (S8064x8.size a) (S10000x8.size a)).extent (S8064x8.size a)) fun a => (Nat.zero_add _).trans_le (Pipeline.Clip.extent_le (Pipeline.Clip.ok_of (hstart5_2 i a)))).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S400x8.size a ≤ S10000x8.size a
  hwx5_3 : ∀ i : grid5.Coords, EltTy.bits .f32 = 32 ∨ (Rect.block (s := S10000x8) S400x8.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S400x8.size a ≤ S2000x8.size a
  hwx5_4 : ∀ i : grid5.Coords, EltTy.bits .f32 = 32 ∨ (Rect.block (s := S2000x8) S400x8.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S200x10000.size a ≤ S10000x10000.size a
  hwx6_0 : ∀ i : grid6.Coords, EltTy.bits .f32 = 32 ∨ (Rect.block (s := S10000x10000) S200x10000.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S200x10000.size a ≤ S10000x10000.size a
  hwx6_1 : ∀ i : grid6.Coords, EltTy.bits .f32 = 32 ∨ (Rect.block (s := S10000x10000) S200x10000.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S10000x8.size a ≤ S10000x8.size a
  hwx6_2 : ∀ i : grid6.Coords, EltTy.bits .f32 = 32 ∨ (Rect.block (s := S10000x8) S10000x8.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S400x8.size a ≤ S10000x8.size a
  hwx6_3 : ∀ i : grid6.Coords, EltTy.bits .f32 = 32 ∨ (Rect.block (s := S10000x8) S400x8.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S400x8.size a ≤ S2000x8.size a
  hwx6_4 : ∀ i : grid6.Coords, EltTy.bits .f32 = 32 ∨ (Rect.block (s := S2000x8) S400x8.size (cc6_transform_4 i) (hinb6_4 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x128_S128x8_S10000x8_1_0_0_1_n_n : DotDims S10000x128 S128x8 S10000x8 where
  lhsContracting := [1]
  rhsContracting := [0]
  lhsNonContracting := [0]
  rhsNonContracting := [1]
  lhsBatch := []
  rhsBatch := []
  wf := dot_S10000x128_S128x8_S10000x8_1_0_0_1_n_n_wf
def dot_S200x10000_S10000x24_S200x24_1_0_0_1_n_n : DotDims S200x10000 S10000x24 S200x24 where
  lhsContracting := [1]
  rhsContracting := [0]
  lhsNonContracting := [0]
  rhsNonContracting := [1]
  lhsBatch := []
  rhsBatch := []
  wf := dot_S200x10000_S10000x24_S200x24_1_0_0_1_n_n_wf
def dot_S200x16_S16x8_S200x8_1_0_0_1_n_n : DotDims S200x16 S16x8 S200x8 where
  lhsContracting := [1]
  rhsContracting := [0]
  lhsNonContracting := [0]
  rhsNonContracting := [1]
  lhsBatch := []
  rhsBatch := []
  wf := dot_S200x16_S16x8_S200x8_1_0_0_1_n_n_wf
def dot_S200x2048_S2048x8_S200x8_1_0_0_1_n_n : DotDims S200x2048 S2048x8 S200x8 where
  lhsContracting := [1]
  rhsContracting := [0]
  lhsNonContracting := [0]
  rhsNonContracting := [1]
  lhsBatch := []
  rhsBatch := []
  wf := dot_S200x2048_S2048x8_S200x8_1_0_0_1_n_n_wf
def dot_S200x4096_S4096x8_S200x8_1_0_0_1_n_n : DotDims S200x4096 S4096x8 S200x8 where
  lhsContracting := [1]
  rhsContracting := [0]
  lhsNonContracting := [0]
  rhsNonContracting := [1]
  lhsBatch := []
  rhsBatch := []
  wf := dot_S200x4096_S4096x8_S200x8_1_0_0_1_n_n_wf
def dot_S200x6016_S6016x8_S200x8_1_0_0_1_n_n : DotDims S200x6016 S6016x8 S200x8 where
  lhsContracting := [1]
  rhsContracting := [0]
  lhsNonContracting := [0]
  rhsNonContracting := [1]
  lhsBatch := []
  rhsBatch := []
  wf := dot_S200x6016_S6016x8_S200x8_1_0_0_1_n_n_wf
def dot_S200x8064_S8064x8_S200x8_1_0_0_1_n_n : DotDims S200x8064 S8064x8 S200x8 where
  lhsContracting := [1]
  rhsContracting := [0]
  lhsNonContracting := [0]
  rhsNonContracting := [1]
  lhsBatch := []
  rhsBatch := []
  wf := dot_S200x8064_S8064x8_S200x8_1_0_0_1_n_n_wf
def dot_S200x10000_S10000x8_S200x8_1_0_0_1_n_n : DotDims S200x10000 S10000x8 S200x8 where
  lhsContracting := [1]
  rhsContracting := [0]
  lhsNonContracting := [0]
  rhsNonContracting := [1]
  lhsBatch := []
  rhsBatch := []
  wf := dot_S200x10000_S10000x8_S200x8_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_arg4) false false (stage0_2 0) (sem0_2 0) (Memref.isWhole_whole _) (hstage0_2 0)

abbrev win0_3 : Pipeline.Window sig grid0 :=
  Pipeline.Window.whole (Memref.whole main_arg8) false false (stage0_3 0) (sem0_3 0) (Memref.isWhole_whole _) (hstage0_3 0)

abbrev win0_4 : Pipeline.Window sig grid0 :=
  Pipeline.Window.whole (Memref.whole main_v1) false false (stage0_4 0) (sem0_4 0) (Memref.isWhole_whole _) (hstage0_4 0)

abbrev win0_5 : Pipeline.Window sig grid0 :=
  Pipeline.Window.whole (Memref.whole main_v3) false false (stage0_5 0) (sem0_5 0) (Memref.isWhole_whole _) (hstage0_5 0)

abbrev win0_6 : Pipeline.Window sig grid0 :=
  Pipeline.Window.whole (Memref.whole main_v4_0) true false (stage0_6 0) (sem0_6 0) (Memref.isWhole_whole _) (hstage0_6 0)

abbrev win0_7 : Pipeline.Window sig grid0 :=
  Pipeline.Window.whole (Memref.whole main_v4_1) true false (stage0_7 0) (sem0_7 0) (Memref.isWhole_whole _) (hstage0_7 0)

abbrev win0_8 : Pipeline.Window sig grid0 :=
  Pipeline.Window.whole (Memref.whole main_v4_2) true false (stage0_8 0) (sem0_8 0) (Memref.isWhole_whole _) (hstage0_8 0)

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_0) S10000x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4_1) S400x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S16x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4_2) S400x8.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v2) S1x8.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v5_0) S400x8.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v5_1) S400x8.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpecClip (Memref.whole main_arg1) S200x2048.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpecClip (Memref.whole main_arg1) S200x2048.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v5_0) S2048x8.size cc2_transform_2 reads2_2 false false 1 stage2_2 sem2_2
    hrank2 hreads2_2 hstart2_2 nbuf2_2 (Memref.isWhole_whole _) hwx2_2 hwxs2_2 hstage2_2

abbrev win2_3 : Pipeline.Window sig grid2 :=
  Pipeline.Window.ofSpec (Memref.whole main_v5_1) S400x8.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v6) S400x8.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpecClip (Memref.whole main_arg1) S200x4096.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpecClip (Memref.whole main_arg1) S200x4096.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v5_0) S4096x8.size cc3_transform_2 reads3_2 false false 1 stage3_2 sem3_2
    hrank3 hreads3_2 hstart3_2 nbuf3_2 (Memref.isWhole_whole _) hwx3_2 hwxs3_2 hstage3_2

abbrev win3_3 : Pipeline.Window sig grid3 :=
  Pipeline.Window.ofSpec (Memref.whole main_v5_1) S400x8.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v7) S400x8.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpecClip (Memref.whole main_arg1) S200x6016.size cc4_transform_0 reads4_0 false false 2 stage4_0 sem4_0
    hrank4 hreads4_0 hstart4_0 nbuf4_0 (Memref.isWhole_whole _) hwx4_0 hwxs4_0 hstage4_0

abbrev win4_1 : Pipeline.Window sig grid4 :=
  Pipeline.Window.ofSpecClip (Memref.whole main_arg1) S200x6016.size cc4_transform_1 reads4_1 false false 2 stage4_1 sem4_1
    hrank4 hreads4_1 hstart4_1 nbuf4_1 (Memref.isWhole_whole _) hwx4_1 hwxs4_1 hstage4_1

abbrev win4_2 : Pipeline.Window sig grid4 :=
  Pipeline.Window.ofSpecClip (Memref.whole main_v5_0) S6016x8.size cc4_transform_2 reads4_2 false false 1 stage4_2 sem4_2
    hrank4 hreads4_2 hstart4_2 nbuf4_2 (Memref.isWhole_whole _) hwx4_2 hwxs4_2 hstage4_2

abbrev win4_3 : Pipeline.Window sig grid4 :=
  Pipeline.Window.ofSpec (Memref.whole main_v5_1) S400x8.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v8) S400x8.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpecClip (Memref.whole main_arg1) S200x8064.size cc5_transform_0 reads5_0 false false 2 stage5_0 sem5_0
    hrank5 hreads5_0 hstart5_0 nbuf5_0 (Memref.isWhole_whole _) hwx5_0 hwxs5_0 hstage5_0

abbrev win5_1 : Pipeline.Window sig grid5 :=
  Pipeline.Window.ofSpecClip (Memref.whole main_arg1) S200x8064.size cc5_transform_1 reads5_1 false false 2 stage5_1 sem5_1
    hrank5 hreads5_1 hstart5_1 nbuf5_1 (Memref.isWhole_whole _) hwx5_1 hwxs5_1 hstage5_1

abbrev win5_2 : Pipeline.Window sig grid5 :=
  Pipeline.Window.ofSpecClip (Memref.whole main_v5_0) S8064x8.size cc5_transform_2 reads5_2 false false 1 stage5_2 sem5_2
    hrank5 hreads5_2 hstart5_2 nbuf5_2 (Memref.isWhole_whole _) hwx5_2 hwxs5_2 hstage5_2

abbrev win5_3 : Pipeline.Window sig grid5 :=
  Pipeline.Window.ofSpec (Memref.whole main_v5_1) S400x8.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v9) S400x8.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_arg1) S200x10000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg1) S200x10000.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v5_0) S10000x8.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v5_1) S400x8.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v10) S400x8.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S128x8 : Shape := ⟨2, ![128, 8]⟩
abbrev S10000x16 : Shape := ⟨2, ![10000, 16]⟩
abbrev S1x16 : Shape := ⟨2, ![1, 16]⟩
abbrev S10000x8 : Shape := ⟨2, ![10000, 8]⟩
abbrev S1x8 : Shape := ⟨2, ![1, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S128x16, .f32⟩
  | .hbm, ⟨5, _⟩ => ⟨S16, .f32⟩
  | .hbm, ⟨6, _⟩ => ⟨S16x8, .f32⟩
  | .hbm, ⟨7, _⟩ => ⟨S8, .f32⟩
  | .hbm, ⟨8, _⟩ => ⟨S128x8, .f32⟩
  | .hbm, ⟨9, _⟩ => ⟨S8, .f32⟩
  | .hbm, ⟨10, _⟩ => ⟨S10000x16, .f32⟩
  | .hbm, ⟨11, _⟩ => ⟨S1x16, .f32⟩
  | .hbm, ⟨12, _⟩ => ⟨S10000x16, .f32⟩
  | .hbm, ⟨13, _⟩ => ⟨S10000x16, .f32⟩
  | .hbm, ⟨14, _⟩ => ⟨S10000x8, .f32⟩
  | .hbm, ⟨15, _⟩ => ⟨S1x8, .f32⟩
  | .hbm, ⟨16, _⟩ => ⟨S10000x8, .f32⟩
  | .hbm, ⟨17, _⟩ => ⟨S10000x8, .f32⟩
  | .hbm, ⟨18, _⟩ => ⟨S10000x16, .f32⟩
  | .hbm, ⟨19, _⟩ => ⟨S10000x16, .f32⟩
  | .hbm, ⟨20, _⟩ => ⟨S1x16, .f32⟩
  | .hbm, ⟨21, _⟩ => ⟨S10000x16, .f32⟩
  | .hbm, ⟨22, _⟩ => ⟨S10000x16, .f32⟩
  | .hbm, ⟨23, _⟩ => ⟨S10000x16, .f32⟩
  | .hbm, ⟨24, _⟩ => ⟨S_, .f32⟩
  | .hbm, ⟨25, _⟩ => ⟨S10000x16, .f32⟩
  | .hbm, ⟨26, _⟩ => ⟨S10000x16, .i1⟩
  | .hbm, ⟨27, _⟩ => ⟨S_, .f32⟩
  | .hbm, ⟨28, _⟩ => ⟨S10000x16, .f32⟩
  | .hbm, ⟨29, _⟩ => ⟨S10000x16, .f32⟩
  | .hbm, ⟨30, _⟩ => ⟨S10000x16, .f32⟩
  | .hbm, ⟨31, _⟩ => ⟨S10000x8, .f32⟩
  | .hbm, ⟨32, _⟩ => ⟨S10000x8, .f32⟩
  | .hbm, ⟨33, _⟩ => ⟨S1x8, .f32⟩
  | .hbm, ⟨34, _⟩ => ⟨S10000x8, .f32⟩
  | .hbm, ⟨35, _⟩ => ⟨S10000x8, .f32⟩
  | .hbm, ⟨36, _⟩ => ⟨S10000x8, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S8_S1x8_1 : S8.BroadcastsInDim S1x8 (![1] : Fin 1 → Fin S1x8.rank)
  bcast_S1x8_S10000x8_0_1 : S1x8.BroadcastsInDim S10000x8 (![0, 1] : Fin 2 → Fin S10000x8.rank)
  bcast_S_S10000x16 : S_.BroadcastsInDim S10000x16 (![] : Fin 0 → Fin S10000x16.rank)
  dot_S10000x128_S128x16_S10000x16_1_0_0_1_n_n_wf : DotDims.WF S10000x128 S128x16 S10000x16 [1] [0] [0] [1] [] []
  dot_S10000x128_S128x8_S10000x8_1_0_0_1_n_n_wf : DotDims.WF S10000x128 S128x8 S10000x8 [1] [0] [0] [1] [] []
  dot_S10000x10000_S10000x16_S10000x16_1_0_0_1_n_n_wf : DotDims.WF S10000x10000 S10000x16 S10000x16 [1] [0] [0] [1] [] []
  dot_S10000x16_S16x8_S10000x8_1_0_0_1_n_n_wf : DotDims.WF S10000x16 S16x8 S10000x8 [1] [0] [0] [1] [] []
  dot_S10000x10000_S10000x8_S10000x8_1_0_0_1_n_n_wf : DotDims.WF S10000x10000 S10000x8 S10000x8 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x128_S128x8_S10000x8_1_0_0_1_n_n : DotDims S10000x128 S128x8 S10000x8 where
  lhsContracting := [1]
  rhsContracting := [0]
  lhsNonContracting := [0]
  rhsNonContracting := [1]
  lhsBatch := []
  rhsBatch := []
  wf := dot_S10000x128_S128x8_S10000x8_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def dot_S10000x10000_S10000x8_S10000x8_1_0_0_1_n_n : DotDims S10000x10000 S10000x8 S10000x8 where
  lhsContracting := [1]
  rhsContracting := [0]
  lhsNonContracting := [0]
  rhsNonContracting := [1]
  lhsBatch := []
  rhsBatch := []
  wf := dot_S10000x10000_S10000x8_S10000x8_1_0_0_1_n_n_wf

class Facts : Prop extends Facts₀ where

variable [Facts]
-- ==== Proof.LibSharedSplit.lean ====
/-
  Windows that stand on one buffer.

  A pipeline holds its windows' arrays one window at a time, each at a share of its own, while the thread that enters
  the pipeline holds the DISTINCT buffers behind those arrays, each once, at the full share. When every window stands on
  a buffer of its own the two are the same separating conjunction re-indexed. Here two windows `w₁ ≠ w₂` stand on one
  buffer and every other window on a buffer of its own: the conjunction over the distinct buffers, each at the full
  share, is then the conjunction over the windows in which the shared buffer is dealt between `w₁` and `w₂` by two
  shares that compose to the full one, every other window holding its buffer at the full share.

  Nothing here mentions memory: a buffer's assertion is any family `Φ b s` indexed by the buffer and a share-like
  parameter, with `Φ b full = Φ b left ∗ Φ b right`; so the contents are those of the buffer, not of the window, and the
  statement has no dependent types.
-/
import Idealize.SL.ProofMode.BigOp

namespace Idealize.SL.BI

open Idealize.SL Idealize.SL.RA
open scoped Idealize.SL.BI
open Idealize.SL.BI.BIBase Idealize.SL.BI.Laws

universe u v w

variable {M : Type u} [URA M] {I : Type v} {J : Type w} [Fintype I] [DecidableEq I] [DecidableEq J]

/-- The buffers behind the windows `f w`, each once at `full`, against the windows one by one, when `w₁` and `w₂`
    stand on one buffer (`hf`) dealt between them as `left` and `right` (`hop`, `h₁`, `h₂`), `f` is injective
    away from `w₂` (`hinj`) and every other window holds its buffer at `full` (`hσ`). -/
theorem bigSep_image_two_on_one {S : Type*} (f : I → J) (w₁ w₂ : I) (hne : w₁ ≠ w₂) (hf : f w₁ = f w₂)
    (hinj : Set.InjOn f ((Finset.univ.erase w₂ : Finset I) : Set I))
    (Φ : J → S → sProp M) (full left right : S)
    (hop : ∀ b, Φ b full = iprop(Φ b left ∗ Φ b right))
    (σ : I → S) (h₁ : σ w₁ = left) (h₂ : σ w₂ = right) (hσ : ∀ w, w ≠ w₁ → w ≠ w₂ → σ w = full) :
    bigSep ((Finset.univ : Finset I).image f) (fun b => Φ b full) = bigSep Finset.univ (fun w => Φ (f w) (σ w)) := by
  classical
  have himg : (Finset.univ : Finset I).image f = (Finset.univ.erase w₂).image f := by
    ext b
    simp only [Finset.mem_image, Finset.mem_univ, true_and, Finset.mem_erase, and_true]
    constructor
    · rintro ⟨x, rfl⟩
      by_cases h : x = w₂
      · exact ⟨w₁, hne, by rw [h, hf]⟩
      · exact ⟨x, h, rfl⟩
    · rintro ⟨x, _, rfl⟩; exact ⟨x, rfl⟩
  have hw₁ : w₁ ∈ (Finset.univ.erase w₂ : Finset I) := Finset.mem_erase.mpr ⟨hne, Finset.mem_univ _⟩
  have hR : bigSep ((Finset.univ.erase w₂ : Finset I).erase w₁) (fun x => Φ (f x) full)
      = bigSep ((Finset.univ.erase w₂ : Finset I).erase w₁) (fun x => Φ (f x) (σ x)) :=
    bigSep_congr fun x hx => by
      rw [hσ x (Finset.ne_of_mem_erase hx) (Finset.ne_of_mem_erase (Finset.mem_of_mem_erase hx))]
  rw [himg, bigSep_image_of_injOn hinj, bigSep_erase hw₁, bigSep_univ_split w₂ (Φ := fun x => Φ (f x) (σ x)),
    bigSep_erase hw₁ (Φ := fun x => Φ (f x) (σ x)), hR, h₁, h₂, ← hf, hop (f w₁)]
  refine equiv_iff.mp ⟨?_, ?_⟩
  · exact fun a h => sep_assoc a (sep_mono sep_comm (fun _ h => h) a h)
  · exact fun a h => sep_mono sep_comm (fun _ h => h) a (sep_assoc' a h)

end Idealize.SL.BI
-- ==== Proof.LibSharedRegion.lean ====
/-
  Entering and leaving a pipeline two of whose windows stand on one array.

  Before a kernel region the thread owns each unscoped buffer of its core exactly once and entirely, with contents
  `V`. The pipeline instead accounts for arrays window by window (`Dat.arrays`), window `w` with share `dat.share w`. When two INPUT windows `w₁ ≠ w₂` read one array and every other window an array of its own, the proof
  data deal that array between the two by the left and the right half of the full share (an input is only read, and
  either half suffices to read), and the unscoped buffers at `V` ARE the arrays at `V`'s contents beside the buffers
  that are no window's array. Being an equation it serves in both directions: read left to right it is the region's
  entry, read right to left — at the contents the region leaves — its exit, the two halves put back together.
-/
import Idealize.ShloMosaic.Lib.Pipeline.Frame
import proofs.«181509_g20452634264145_cont_8to1_1942_16_alg».proof.Proof.LibSharedSplit

noncomputable section

namespace Idealize.ShloMosaic.Pipeline

open Idealize.SL
open Idealize.SL.BI (sProp bigSep bigSep_congr bigSep_sdiff_split)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type} {Λ₀ : SL.Sem.Labels}
variable {Ix : Type} [DecidableEq Ix] {Name : Type} [DecidableEq Name] {U : Type} [URA U] {Lvl : Type}

local notation "𝕄" => MT nD τ sig Ix Val Name U Lvl

variable {cfg : Cfg sig Λ₀} {c : Dev nD} (dat : Dat τ Val Ix Name U Lvl cfg c)

/-- When every array is a whole buffer, the pipeline's arrays are one points-to per window, window `w` holding its
    buffer at the share `dat.share w`. -/
theorem Dat.arrays_eq_shares (harr : ∀ w, (cfg.spec w).arr.IsWhole)
    (F : (w : Fin cfg.W) → Buf Val ((cfg.spec w).arr.view.loc (c.tc : Thread nD τ))) :
    dat.arrays F = bigSep Finset.univ fun w => (((c.tc : Thread nD τ).loc (arrRef cfg.spec w)) ↦{dat.share w} F w : sProp 𝕄) := by
  unfold Dat.arrays
  exact bigSep_congr fun w _ => by rw [(harr w).set_eq_univ]

/-- One full points-to per DISTINCT array is the same resource as one points-to per WINDOW, provided `w₁` and `w₂` are
    the only two windows on a common array and hold it by the left and the right half, while each remaining window has
    an array to itself at the full share. The contents are `V`'s on both sides. -/
theorem arrBufs_eq_arrays_two_on_one (harr : ∀ w, (cfg.spec w).arr.IsWhole) (w₁ w₂ : Fin cfg.W) (hne : w₁ ≠ w₂)
    (hf : arrRef cfg.spec w₁ = arrRef cfg.spec w₂)
    (hinj : Set.InjOn (arrRef cfg.spec) ((Finset.univ.erase w₂ : Finset (Fin cfg.W)) : Set (Fin cfg.W)))
    (h₁ : dat.share w₁ = fullShare.left) (h₂ : dat.share w₂ = fullShare.right)
    (hσ : ∀ w, w ≠ w₁ → w ≠ w₂ → dat.share w = fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) = dat.arrays F := by
  classical
  rw [Dat.arrays_eq_shares dat harr F]
  unfold arrBufs
  rw [BI.bigSep_image_two_on_one (arrRef cfg.spec) w₁ w₂ hne hf hinj
    (fun b s => (((c.tc : Thread nD τ).loc b) ↦{s} V b : sProp 𝕄)) fullShare fullShare.left fullShare.right
    (fun b => BI.equiv_iff.mp
      ⟨(pointsTo_share (ℓ := (c.tc : Thread nD τ).loc b) (f := V b) (PosShare.mem_left_op_right fullShare)).1,
       (pointsTo_share (ℓ := (c.tc : Thread nD τ).loc b) (f := V b) (PosShare.mem_left_op_right fullShare)).2⟩) dat.share h₁ h₂ hσ]
  exact bigSep_congr fun w _ => by rw [hF w]

/-- Whatever the windows share, a core's unscoped buffers split into those some window reads or writes and the
    others (the library's split, at this one configuration). -/
theorem unscopedBufs_eq_arrBufs_rest (hunscoped : ∀ w, (arrRef cfg.spec w).isScoped = false)
    (V : (b : Ref sig .tc) → Buf Val ((c.tc : Thread nD τ).loc b)) :
    (unscopedBufs c V : sProp 𝕄) = iprop(arrBufs cfg.spec c V ∗ unscopedRest cfg.spec c V) :=
  PerCore.unscopedBufs_split₀ (P := Unit) (fun _ _ => cfg) () c hunscoped V

/-- ENTRY and EXIT in one equation: all unscoped buffers at `V` amount to the pipeline's per-window arrays, filled from
    `V`, together with the buffers no window touches — under the two-windows-on-one-array hypotheses above. -/
theorem unscopedBufs_eq_arrays_two_on_one (harr : ∀ w, (cfg.spec w).arr.IsWhole)
    (hunscoped : ∀ w, (arrRef cfg.spec w).isScoped = false) (w₁ w₂ : Fin cfg.W) (hne : w₁ ≠ w₂)
    (hf : arrRef cfg.spec w₁ = arrRef cfg.spec w₂)
    (hinj : Set.InjOn (arrRef cfg.spec) ((Finset.univ.erase w₂ : Finset (Fin cfg.W)) : Set (Fin cfg.W)))
    (h₁ : dat.share w₁ = fullShare.left) (h₂ : dat.share w₂ = fullShare.right)
    (hσ : ∀ w, w ≠ w₁ → w ≠ w₂ → dat.share w = fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (unscopedBufs c V : sProp 𝕄) = iprop(dat.arrays F ∗ unscopedRest cfg.spec c V) := by
  rw [unscopedBufs_eq_arrBufs_rest (cfg := cfg) hunscoped V,
    arrBufs_eq_arrays_two_on_one dat harr w₁ w₂ hne hf hinj h₁ h₂ hσ V F hF]

/-- Changing the contents only AT the windows' arrays does not change what is held of the untouched buffers. -/
theorem unscopedRest_congr {gr W : Nat} (win : Fin W → WinSpec sig gr) (c : Dev nD)
    (V V' : (b : Ref sig .tc) → Buf Val ((c.tc : Thread nD τ).loc b))
    (h : ∀ b, b ∉ Finset.univ.image (arrRef win) → V' b = V b) :
    (unscopedRest win c V : sProp 𝕄) = unscopedRest win c V' := by
  classical
  unfold unscopedRest
  exact bigSep_congr fun b hb => by rw [h b (Finset.mem_sdiff.mp hb).2]

end Idealize.ShloMosaic.Pipeline

end
-- ==== Proof.BReg0.lean ====
/- The half of region 0 of @main (custom_call 0, `cc0__small_mm_kernel`, one point, nine windows on nine distinct
   arrays), at a parameter `V`: the core's buffer contents when the region is entered. Each window's block read off
   its array; what the body's one store per output leaves in the output's staging buffer, as a function of the input
   blocks; the body's triple; the pipeline's proof data over the invariant `ΦA`; its body obligation. Generic in
   the float model. -/
import proofs.«181509_g20452634264145_cont_8to1_1942_16_alg».proof.Proof.Gen.Kernel.Launch
import proofs.«181509_g20452634264145_cont_8to1_1942_16_alg».proof.Proof.Gen.Kernel.Skeleton
import proofs.«181509_g20452634264145_cont_8to1_1942_16_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's staging buffer holds its block at the point, for any proof data whose array is `V`'s and whose
    body leaves the block in place: the window is whole, uncut and never idle. -/

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rX : Rect S10000x128 := Rect.unit (s := S10000x128) ![0, 0] S10000x128.size inb_S10000x128_S10000x128_0_0
abbrev rW16 : Rect S128x16 := Rect.unit (s := S128x16) ![0, 0] S128x16.size inb_S128x16_S128x16_0_0
abbrev rW8 : Rect S128x8 := Rect.unit (s := S128x8) ![0, 0] S128x8.size inb_S128x8_S128x8_0_0
abbrev rB16 : Rect S1x16 := Rect.unit (s := S1x16) ![0, 0] S1x16.size inb_S1x16_S1x16_0_0
abbrev rB8 : Rect S1x8 := Rect.unit (s := S1x8) ![0, 0] S1x8.size inb_S1x8_S1x8_0_0
abbrev rO16 : Rect S10000x16 := Rect.unit (s := S10000x16) ![0, 0] S10000x16.size inb_S10000x16_S10000x16_0_0
abbrev rO8 : Rect S10000x8 := Rect.unit (s := S10000x8) ![0, 0] S10000x8.size inb_S10000x8_S10000x8_0_0

/-! ## What the body leaves in each output window's buffer -/

/-- Output window 6's staging buffer after the body: its one store, of `x · W1`. -/
def out0_6 (x0 : Vec F S10000x128 .f32) (x1 : Vec F S128x16 .f32) : Vec F S10000x16 .f32 :=
  View.canon [⟨rO16, k0_pay1 (View.ld x0 rX) (View.ld x1 rW16)⟩]

/-- Output window 7's staging buffer after the body: its one store, of `x · W2 + b2`. -/
def out0_7 (x0 : Vec F S10000x128 .f32) (x2 : Vec F S128x16 .f32) (x4 : Vec F S1x16 .f32) : Vec F S10000x16 .f32 :=
  View.canon [⟨rO16, k0_pay2 (View.ld x0 rX) (View.ld x2 rW16) (View.ld x4 rB16)⟩]

/-- Output window 8's staging buffer after the body: its one store, of `x · W4 + b4`. -/
def out0_8 (x0 : Vec F S10000x128 .f32) (x3 : Vec F S128x8 .f32) (x5 : Vec F S1x8 .f32) : Vec F S10000x8 .f32 :=
  View.canon [⟨rO8, k0_pay3 (View.ld x0 rX) (View.ld x3 rW8) (View.ld x5 rB8)⟩]

/-- A store of the whole buffer covers it. -/
theorem cover0_16 (p0 : Vec F S10000x16 .f32) (y : S10000x16.Idx) :
    ∃ pc ∈ ([⟨rO16, p0⟩] : List (View.Piece (Elt F) S10000x16 .f32)), y ∈ pc.1.set :=
  View.cover_of_tiled [⟨rO16, p0⟩] S10000x16.size (by rfl) y

theorem cover0_8 (p0 : Vec F S10000x8 .f32) (y : S10000x8.Idx) :
    ∃ pc ∈ ([⟨rO8, p0⟩] : List (View.Piece (Elt F) S10000x8 .f32)), y ∈ pc.1.set :=
  View.cover_of_tiled [⟨rO8, p0⟩] S10000x8.size (by rfl) y

/-! ## The body's triple -/

set_option maxHeartbeats 4000000 in
/-- The kernel body on whole staging memrefs, the inputs' at read contents and the outputs' at anything, runs to the
    continuation holding the inputs' as they were and each output's at `out0_W` of the inputs'. The body reads each
    output's buffer once before storing into it; the value read is not used. -/
theorem sound_kernel0 (c : Dev nD) (E : Set ℕ) (a0 : Memref sig .tc .vmem S10000x128 .f32) (ha0 : a0.IsWhole) (a1 : Memref sig .tc .vmem S128x16 .f32) (ha1 : a1.IsWhole) (a2 : Memref sig .tc .vmem S128x16 .f32) (ha2 : a2.IsWhole) (a3 : Memref sig .tc .vmem S128x8 .f32) (ha3 : a3.IsWhole) (a4 : Memref sig .tc .vmem S1x16 .f32) (ha4 : a4.IsWhole) (a5 : Memref sig .tc .vmem S1x8 .f32) (ha5 : a5.IsWhole) (a6 : Memref sig .tc .vmem S10000x16 .f32) (ha6 : a6.IsWhole) (a7 : Memref sig .tc .vmem S10000x16 .f32) (ha7 : a7.IsWhole) (a8 : Memref sig .tc .vmem S10000x8 .f32) (ha8 : a8.IsWhole)
    (x0 : Vec F S10000x128 .f32) (x1 : Vec F S128x16 .f32) (x2 : Vec F S128x16 .f32) (x3 : Vec F S128x8 .f32) (x4 : Vec F S1x16 .f32) (x5 : Vec F S1x8 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (∃ d, owns (c : Thread nD τ) a6 fullShare d) ∗ (∃ d, owns (c : Thread nD τ) a7 fullShare d) ∗ (∃ d, owns (c : Thread nD τ) a8 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare (out0_6 x0 x1) ∗ owns (c : Thread nD τ) a7 fullShare (out0_7 x0 x2 x4)
            ∗ owns (c : Thread nD τ) a8 fullShare (out0_8 x0 x3 x5)) -∗ K ⟨⟩))
      ⊢ wp frame (wpE (defs₀ (F := F)) Variants.none c none) E (cc0__small_mm_kernel a0 ha0 a1 ha1 a2 ha2 a3 ha3 a4 ha4 a5 ha5 a6 ha6 a7 ha7 a8 ha8) K := by
  simp only [cc0__small_mm_kernel_eq_skeleton]; unfold cc0__small_mm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_16 _)
  isplitl [H7]
  · iexists _; isplitr
    swap; · iexact H7
    ipureintro
    exact View.read_writes_eq_canon _ _ _ (cover0_16 _)
  iexists _; isplitr
  swap; · iexact H8
  ipureintro
  exact View.read_writes_eq_canon _ _ _ (cover0_8 _)

/-! ## The pipeline's proof data -/

/-- The proof data of pipeline 0 on core `c`: the arrays as the region finds them (`V`); after the body at the point
    each input's buffer at its block and each output's at `out0_W` of the input blocks; the invariant `ΦA` (the scoped
    rest and the generator register, untouched); nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t)
    | ⟨7, _⟩ => out0_7 (iblk0 V c 0 t) (iblk0 V c 2 t) (iblk0 V c 4 t)
    | ⟨8, _⟩ => out0_8 (iblk0 V c 0 t) (iblk0 V c 3 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) := by dsimp only [dat0]
theorem after0_7 (c : Dev nD) (t : Fin cfg0.N) : (dat0 V c).after 7 t = out0_7 (iblk0 V c 0 t) (iblk0 V c 2 t) (iblk0 V c 4 t) := by dsimp only [dat0]
theorem after0_8 (c : Dev nD) (t : Fin cfg0.N) : (dat0 V c).after 8 t = out0_8 (iblk0 V c 0 t) (iblk0 V c 3 t) (iblk0 V c 5 t) := by dsimp only [dat0]

/-- Each input's staging buffer holds its block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 4000000 in
/-- The body at the point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at the point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.BReg1RunB.lean ====
import proofs.«181509_g20452634264145_cont_8to1_1942_16_alg».proof.Proof.Gen.Kernel.Launch
import proofs.«181509_g20452634264145_cont_8to1_1942_16_alg».proof.Proof.Gen.Kernel.Skeleton
import proofs.«181509_g20452634264145_cont_8to1_1942_16_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Region 1: the branch on the first grid point -/

/-- The body's one conditional: taken exactly when the grid coordinate is zero (the scratch is then filled whole:
    columns 0..15 from the first projection, columns 16..23 with zeros). -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)

/-- The scratch the body carries from one grid point to the next, whole, and the view its contents are stated through. -/
abbrev scM1_0 : Memref sig .tc .vmem S10000x24 .f32 := Memref.whole cc1_scratch0
abbrev VS1_0 : View sig .tc .vmem S10000x24 .f32 := scM1_0.view
abbrev VO1_8 : View sig .tc .vmem S400x8 .f32 := (Memref.whole cc1_stg8_0 : Memref sig .tc .vmem S400x8 .f32).view
abbrev VO1_9 : View sig .tc .vmem S400x8 .f32 := (Memref.whole cc1_stg9_0 : Memref sig .tc .vmem S400x8 .f32).view

set_option maxHeartbeats 4000000 in
/-- At a later grid point (the conditional not taken): on whole staging memrefs holding the eight input blocks, the two
    output buffers at anything and the scratch at the contents `xs0` the point before left, the body runs; the inputs
    are as they were, each output buffer holds its two half-blocks stored, and the scratch holds `xs0` with the two
    new row blocks of its last eight columns written. -/
noncomputable def kernelRun1_B (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : ¬cond1_0 i)
    (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) (xs0 : Vec F S10000x24 .f32) :
    Σ' (L8 : List (View.Piece (Elt F) S400x8 .f32)) (L9 : List (View.Piece (Elt F) S400x8 .f32)), { LS0 : List (View.Piece (Elt F) S10000x24 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (arg11.view.loc (c : Thread nD τ) ↦[arg11.view.set]{fullShare} arg11.view.writes (Elt F) (harg11.unread xs0) LS0)) -∗ K ⟨⟩))
          ⊢ wp frame (wpE (defs₀ (F := F)) Variants.none c none) E (cc1__pass1_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__pass1_kernel_eq_skeleton]; unfold cc1__pass1_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg11.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexact HS0

end Cert.Kernel.Hand

end
-- ==== Proof.BReg1RunA.lean ====
import proofs.«181509_g20452634264145_cont_8to1_1942_16_alg».proof.Proof.BReg1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- At the first grid point (the conditional taken): on whole staging memrefs holding the eight input blocks, the two
    output buffers and the scratch at anything, the body runs; the inputs are as they were, each output buffer holds its
    two half-blocks stored, and the scratch holds the pieces stored into it: its first sixteen columns and its last eight
    whole, then the two new row blocks of its last eight columns. -/
noncomputable def kernelRun1_A (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : cond1_0 i)
    (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) :
    Σ' (L8 : List (View.Piece (Elt F) S400x8 .f32)) (L9 : List (View.Piece (Elt F) S400x8 .f32)), { LS0 : List (View.Piece (Elt F) S10000x24 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc1__pass1_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__pass1_kernel_eq_skeleton]; unfold cc1__pass1_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _; iexact HS0

end Cert.Kernel.Hand

end
-- ==== Proof.BReg1.lean ====
import proofs.«181509_g20452634264145_cont_8to1_1942_16_alg».proof.Proof.BReg1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1 of @main (the first pass over the adjacency, bottom-up), at the entry contents `V`

Twenty-five grid points; point `t` handles the two row blocks `48 - 2t` and `49 - 2t` of the adjacency. The scratch
`[10000, 24]` is carried from point to point: columns 0..15 hold the first projection, columns 16..23 the second
projection's rows found so far (zero elsewhere). -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not. -/
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, fetched there or not. -/
theorem before1_7_of {c : Dev nD} (dat : Dat τ (Elt F) Unit ℕ (Pipeline.UD sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it to the body. -/
abbrev ms1_0 (t : Fin cfg1.N) : Memref sig .tc .vmem S200x10000 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S200x10000 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10000x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S400x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x16 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S16x8 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S400x8 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x8 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S400x8 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S400x8 .f32 := win1_9.stage (cfg1.slots t 9)
abbrev hs1_9 (t : Fin cfg1.N) : (ms1_9 t).IsWhole := hstage1_9 ((cfg1.slots t 9).cast nbuf1_9)

/-- The class invariant with the carried scratch taken out of the scoped rest. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := Pipeline.UD sig nD τ) (Lvl := ℕ) (Val := Elt F) spec1 c [cc1_scratch0]) ∗ (∃ r, prngReg c r)) := by
  unfold Pipeline.ΦA; rw [scopedRest1_split]; simp only [scM1_0, owns_whole]; try rfl

end Region1

/-! ## What each case leaves in the two output buffers and in the scratch -/

/-- First point: each output block is its two stored halves. -/
theorem cover1_A_8 (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) (y : S400x8.Idx) :
    ∃ pc ∈ (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7).1 S200x8.size (by sl_kernel_rfl) y
theorem cover1_A_9 (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) (y : S400x8.Idx) :
    ∃ pc ∈ (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7).2.1 S200x8.size (by sl_kernel_rfl) y
theorem cover1_B_8 (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : ¬cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) (xs0 : Vec F S10000x24 .f32) (y : S400x8.Idx) :
    ∃ pc ∈ (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 xs0).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 xs0).1 S200x8.size (by sl_kernel_rfl) y
theorem cover1_B_9 (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : ¬cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) (xs0 : Vec F S10000x24 .f32) (y : S400x8.Idx) :
    ∃ pc ∈ (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 xs0).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 xs0).2.1 S200x8.size (by sl_kernel_rfl) y

/-- The two whole-height column bands `[0,16)` and `[16,24)` of the scratch. -/
abbrev r1_lo : Rect S10000x24 := Rect.unit (s := S10000x24) ![0, 0] S10000x16.size inb_S10000x24_S10000x16_0_0
abbrev r1_hi : Rect S10000x24 := Rect.unit (s := S10000x24) ![0, 16] S10000x8.size inb_S10000x24_S10000x8_0_16
/-- Every index of the scratch lies in one of the two bands. -/
theorem bands_cover (y : S10000x24.Idx) : y ∈ r1_lo.set ∨ y ∈ r1_hi.set := by
  by_cases h : (y 1).val < 16
  · left; rw [Rect.mem_set_unit]; intro a
    match a with
    | ⟨0, _⟩ => exact ⟨Nat.zero_le _, by have := (y 0).isLt; simpa using this⟩
    | ⟨1, _⟩ => exact ⟨Nat.zero_le _, by simpa using h⟩
  · right; rw [Rect.mem_set_unit]; intro a
    match a with
    | ⟨0, _⟩ => exact ⟨Nat.zero_le _, by have := (y 0).isLt; simpa using this⟩
    | ⟨1, _⟩ => exact ⟨by simpa using Nat.le_of_not_lt h, by have := (y 1).isLt; simpa using this⟩

/-- First point: the scratch is covered by what is stored into it (the two bands are stored whole before the two row blocks). -/
theorem scover1_A_0 (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) (y : S10000x24.Idx) :
    ∃ pc ∈ (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7).2.2.1, y ∈ pc.1.set := by
  have hL : ∃ a b v2 v1, (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7).2.2.1 = [a, b, ⟨r1_hi, v2⟩, ⟨r1_lo, v1⟩] := by
    unfold kernelRun1_A; dsimp only; sl_unfold_run_names; exact ⟨_, _, _, _, rfl⟩
  obtain ⟨a, b, v2, v1, hL⟩ := hL
  rw [hL]
  rcases bands_cover y with h | h
  · exact ⟨⟨r1_lo, v1⟩, by simp, h⟩
  · exact ⟨⟨r1_hi, v2⟩, by simp, h⟩

/-- What the first point leaves in the outputs and in the scratch: the pieces read back. -/
def out1_A_8 (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) : Vec F S400x8 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7).1)
def out1_A_9 (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) : Vec F S400x8 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7).2.1)
def sout1_A_0 (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) : Vec F S10000x24 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7).2.2.1)
/-- What a later point leaves: the outputs' pieces read back; the scratch's two new row blocks written over what the point before left. -/
def out1_B_8 (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : ¬cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) (xs0 : Vec F S10000x24 .f32) : Vec F S400x8 .f32 :=
  VO1_8.read (Elt F) (VO1_8.writes (Elt F) VO1_8.junk (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 xs0).1)
def out1_B_9 (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : ¬cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) (xs0 : Vec F S10000x24 .f32) : Vec F S400x8 .f32 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 xs0).2.1)
def sout1_B_0 (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : ¬cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) (xs0 : Vec F S10000x24 .f32) : Vec F S10000x24 .f32 :=
  arg11.view.read (Elt F) (arg11.view.writes (Elt F) (harg11.unread xs0) (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 xs0).2.2.1)

section Region1b

variable (V : (c : Dev nD) → (b : Ref sig .tc) → Buf (Elt F) ((c : Thread nD τ).loc b))

theorem hcA1 (hn : 0 < cfg1.N) : cond1_0 (grid1.coords ⟨0, hn⟩) := (hcond1_0 ⟨0, hn⟩).mpr (Nat.zero_mod _)
theorem hcB1 (n : ℕ) (hn : n + 1 < cfg1.N) : ¬cond1_0 (grid1.coords ⟨n + 1, hn⟩) := fun h => by
  have h' : (n + 1) % 25 = 0 := (hcond1_0 ⟨n + 1, hn⟩).mp h
  have hN : n + 1 < 25 := lt_of_lt_of_eq hn (show cfg1.N = 25 from N_1)
  omega

/-- What the two output buffers and the scratch hold after the body at point `n`: the first point from the input blocks
    alone, a later one from the input blocks and the scratch the point before left. -/
def outsAt1 (c : Dev nD) : (n : ℕ) → n < cfg1.N → Vec F S400x8 .f32 × Vec F S400x8 .f32 × Vec F S10000x24 .f32
  | 0, hn =>
    (out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) (hcA1 hn) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩),
     out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) (hcA1 hn) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) (hcA1 hn) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    (out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (hcB1 n hn) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.2,
     out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (hcB1 n hn) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.2,
     sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (hcB1 n hn) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.2)

/-- The invariant before position `n`: before the first point the class's; afterwards the scratch at what the point
    before left in it, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ Pipeline.scopedRestBut (Ix := Unit) (Name := ℕ) (U := Pipeline.UD sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2.2) ∗ Pipeline.scopedRestBut (Ix := Unit) (Name := ℕ) (U := Pipeline.UD sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ Pipeline.scopedRestBut (Ix := Unit) (Name := ℕ) (U := Pipeline.UD sig nD τ) (Lvl := ℕ) (Val := Elt F) spec1 c [cc1_scratch0]) ∗ (∃ r, prngReg c r)) := by
  cases n with
  | zero => exact absurd rfl hz
  | succ n => rfl

/-- The proof data of pipeline 1 on core `c`: the arrays as the region finds them; after the body at point `t` each
    input's buffer at its block and the outputs' at `outsAt1`; the invariant `PhiS1`; nothing owed; the adjacency,
    which two windows read, dealt to them by the two halves of the full share. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
    | ⟨9, _⟩ => (outsAt1 V c t.val t.isLt).2.1
    | ⟨_ + 10, h⟩ => absurd h (Nat.not_lt.2 (Nat.le_add_left _ _))
  Φ t := PhiS1 V c t.val (Nat.le_of_lt_succ t.isLt)
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]
theorem share1_0 (c : Dev nD) : (dat1 V c).share 0 = fullShare.left := rfl
theorem share1_1 (c : Dev nD) : (dat1 V c).share 1 = fullShare.right := rfl
theorem share1_rest (c : Dev nD) : ∀ w : Fin cfg1.W, w ≠ 0 → w ≠ 1 → (dat1 V c).share w = fullShare := by
  intro w h0 h1
  match w with
  | ⟨0, _⟩ => exact absurd rfl h0
  | ⟨1, _⟩ => exact absurd rfl h1
  | ⟨2, _⟩ | ⟨3, _⟩ | ⟨4, _⟩ | ⟨5, _⟩ | ⟨6, _⟩ | ⟨7, _⟩ | ⟨8, _⟩ | ⟨9, _⟩ => rfl
  | ⟨_ + 10, h⟩ => exact absurd h (Nat.not_lt.2 (Nat.le_add_left _ _))

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]
theorem after1_9 (c : Dev nD) (t : Fin cfg1.N) : (dat1 V c).after 9 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

end Region1b

end Cert.Kernel.Hand

end
-- ==== Proof.BReg1Body.lean ====
import proofs.«181509_g20452634264145_cont_8to1_1942_16_alg».proof.Proof.BReg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1c

variable (V : (c : Dev nD) → (b : Ref sig .tc) → Buf (Elt F) ((c : Thread nD τ).loc b))

theorem hcA1' (t : Fin cfg1.N) (hz : t.val = 0) : cond1_0 (grid1.coords t) := (hcond1_0 t).mpr (by rw [hz])
theorem hcB1' (t : Fin cfg1.N) (hz : t.val ≠ 0) : ¬cond1_0 (grid1.coords t) := fun h => by
  have h' := (hcond1_0 t).mp h
  have hN : t.val < 25 := lt_of_lt_of_eq t.isLt (show cfg1.N = 25 from N_1)
  omega

/-- `outsAt1` at the first point. -/
theorem outsAt1_A (c : Dev nD) (t : Fin cfg1.N) (hz : t.val = 0) :
    outsAt1 V c t.val t.isLt =
      (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (hcA1' t hz) (iblk1 V c 0 t) (iblk1 V c 1 t) (iblk1 V c 2 t) (iblk1 V c 3 t) (iblk1 V c 4 t) (iblk1 V c 5 t) (iblk1 V c 6 t) (iblk1 V c 7 t),
       out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (hcA1' t hz) (iblk1 V c 0 t) (iblk1 V c 1 t) (iblk1 V c 2 t) (iblk1 V c 3 t) (iblk1 V c 4 t) (iblk1 V c 5 t) (iblk1 V c 6 t) (iblk1 V c 7 t),
       sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (hcA1' t hz) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => rfl
  | succ n => exact absurd hz (Nat.succ_ne_zero n)

/-- `outsAt1` at a later point: from the scratch the point before left. -/
theorem outsAt1_B (c : Dev nD) (t : Fin cfg1.N) (hz : t.val ≠ 0) :
    outsAt1 V c t.val t.isLt =
      (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (hcB1' t hz) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.2,
       out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (hcB1' t hz) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.2,
       sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (hcB1' t hz) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.2) := by
  obtain ⟨n, hn⟩ := t
  cases n with
  | zero => exact absurd rfl hz
  | succ n => rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 4800000 in
/-- The body at any point: the inputs' memrefs hold their blocks; at the first point the scratch is at anything and the
    body fills it whole, at a later point it holds what the point before left; either way the run applies and the
    invariant takes the scratch back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5, after1_6, after1_7, after1_8, after1_9]
  by_cases hz : t.val = 0
  · rw [outsAt1_A V c t hz]
    unfold out1_A_8 out1_A_9 sout1_A_0; (try dsimp only)
    rw [PhiS1_castSucc V c t, PhiS1_zero V c _ _ hz, PhiA1_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_A c (grid1.coords t) _ _ _ _ _ _ _ _ _ _ _ _ _ _ _ _ _ _ _ _ _ _ (hcA1' t hz) (iblk1 V c 0 t) (iblk1 V c 1 t) (iblk1 V c 2 t) (iblk1 V c 3 t) (iblk1 V c 4 t) (iblk1 V c 5 t) (iblk1 V c 6 t) (iblk1 V c 7 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    iintro ⟨H0, H1, H2, H3, H4, H5, H6, H7, ⟨%e8, H8⟩, ⟨%e9, H9⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover1_A_8 c _ _ _ _ _ _ _ _ _ _ _ _ _ _ _ _ _ _ _ _ _ _ _ _ _ _ _ _ _ _ _ _)
    unfold owns; iexists _; isplitr
    swap; · iexact H9
    ipureintro; exact View.read_writes_of_cover _ _ _ _ _ (cover1_A_9 c _ _ _ _ _ _ _ _ _ _ _ _ _ _ _ _ _ _ _ _ _ _ _ _ _ _ _ _ _ _ _ _)
  · rw [outsAt1_B V c t hz]
    unfold out1_B_8 out1_B_9 sout1_B_0; (try dsimp only)
    rw [PhiS1_castSucc V c t, PhiS1_pos V c _ _ hz]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_B c (grid1.coords t) _ _ _ _ _ _ _ _ _ _ _ _ _ _ _ _ _ _ _ _ _ _ (hcB1' t hz) (iblk1 V c 0 t) (iblk1 V c 1 t) (iblk1 V c 2 t) (iblk1 V c 3 t) (iblk1 V c 4 t) (iblk1 V c 5 t) (iblk1 V c 6 t) (iblk1 V c 7 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    iintro ⟨H0, H1, H2, H3, H4, H5, H6, H7, ⟨%e8, H8⟩, ⟨%e9, H9⟩, HS0⟩
    isplitl [HS0 HR Hg]
    · isplitl [HS0 HR]
      · isplitl [HS0]
        · unfold owns; iexists _; isplitr
          swap; · iexact HS0
          ipureintro; rfl
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover1_B_8 c _ _ _ _ _ _ _ _ _ _ _ _ _ _ _ _ _ _ _ _ _ _ _ _ _ _ _ _ _ _ _ _ _)
    unfold owns; iexists _; isplitr
    swap; · iexact H9
    ipureintro; exact View.read_writes_of_cover _ _ _ _ _ (cover1_B_9 c _ _ _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratch's named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi1_out V c _ (by rw [Fin.val_last]; have : cfg1.N = 25 := N_1; omega)

end Region1c

end Cert.Kernel.Hand

end
-- ==== Proof.BReg2.lean ====
/-
  Region 2 of @main (custom_call 2, the second pass over rows [0, 2000) of the adjacency): the
  kernel's half of its frame, at a parameter `V` — the core's buffer contents when the region is entered.

  The pipeline has five windows over five grid points. Windows 0 and 1 both stand on the adjacency (two adjacent
  row blocks of 200 rows, the first 2048 columns of each), window 2 is the first 2048 rows of the second layer's
  input `s2` (one block, fetched once), window 3 the 400 rows of the partial result `part` the point works on,
  window 4 the 400 rows of the result. The body reads the four inputs whole, masks the rows of `s2` beyond the
  diagonal block, and writes the result's block in two halves of 200 rows: each half is the partial result's half
  plus the product of one adjacency row block with the masked `s2`.

  No transfer of these windows is cut: every block lies inside its array. The staging buffer of an input therefore
  holds the array's block whole, which is how the inputs' contents are stated (`ib2`).
-/
import proofs.«181509_g20452634264145_cont_8to1_1942_16_alg».proof.Proof.Gen.Kernel.Launch
import proofs.«181509_g20452634264145_cont_8to1_1942_16_alg».proof.Proof.Gen.Kernel.Skeleton
import proofs.«181509_g20452634264145_cont_8to1_1942_16_alg».proof.Proof.Gen.Kernel.Points
import Idealize.ShloMosaic.Lib.Pipeline.FrameBody
import Idealize.ShloMosaic.Lib.Ring
import Idealize.ShloMosaic.Lib.Tactic

-- membership in a rectangle of long extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`): the part of the block
    inside the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The same as contents of a whole staging buffer: the block laid over contents nothing names. Every block of
    this region lies inside its array (`clip2_W`), so nothing of the underlying contents shows. -/
def ib2 (c : Dev nD) (w : Fin cfg2.W) (t : Fin cfg2.N) : (cfg2.win w).block.Idx → Elt F (cfg2.win w).elt :=
  (cfg2.win w).fill (cfg2.grid.coords t) (fun _ => Classical.arbitrary _) (iblk2 V c w t)

/-- No transfer of an input window is cut, at any point and on any axis: the block lies inside the array. -/
theorem clip2_0 : ∀ (t : Fin cfg2.N) (a : Fin (cfg2.win 0).shape.rank), (cfg2.win 0).clip (cfg2.grid.coords t) a = none :=
  (by decide +kernel : ∀ (t : Fin grid2.N) (a : Fin win2_0.shape.rank), win2_0.clip (grid2.coords t) a = none)
theorem clip2_1 : ∀ (t : Fin cfg2.N) (a : Fin (cfg2.win 1).shape.rank), (cfg2.win 1).clip (cfg2.grid.coords t) a = none :=
  (by decide +kernel : ∀ (t : Fin grid2.N) (a : Fin win2_1.shape.rank), win2_1.clip (grid2.coords t) a = none)
theorem clip2_2 : ∀ (t : Fin cfg2.N) (a : Fin (cfg2.win 2).shape.rank), (cfg2.win 2).clip (cfg2.grid.coords t) a = none :=
  (by decide +kernel : ∀ (t : Fin grid2.N) (a : Fin win2_2.shape.rank), win2_2.clip (grid2.coords t) a = none)
theorem clip2_3 : ∀ (t : Fin cfg2.N) (a : Fin (cfg2.win 3).shape.rank), (cfg2.win 3).clip (cfg2.grid.coords t) a = none :=
  (by decide +kernel : ∀ (t : Fin grid2.N) (a : Fin win2_3.shape.rank), win2_3.clip (grid2.coords t) a = none)

/-- Input window 0's current staging buffer holds its block at every point, fetched there or not, for ANY proof
    data whose array is `V`'s (`hA`) and whose body leaves the block in place (`hafter`): a window not fetched at a
    point has the block index of the point before, so its buffer still holds this point's block. -/
theorem before2_0_of {c : Dev nD} (dat : Dat τ (Elt F) Unit ℕ (Pipeline.UD sig nD τ) ℕ cfg2 c) (hA : dat.A 0 = V c (Pipeline.arrRef spec2 0))
    (hafter : ∀ t, dat.after 0 t = ib2 V c 0 t) (t : Fin cfg2.N) (d) : dat.before 0 t d = ib2 V c 0 t :=
  (dat.before_in_eq_fetched 0 rfl (fun _ => rfl) (fun t t' _ => funext fun a => (clip2_0 t a).trans (clip2_0 t' a).symm)
      (fun t => by rw [hafter]; unfold ib2; rw [Window.cut_fill]; unfold Dat.blockOf iblk2; rw [hA]) t d).trans
    ((dat.fetched_of_clip_none 0 t (clip2_0 t) d _).trans (by unfold Dat.fetched Dat.blockOf ib2 iblk2; rw [hA]))
/-- Input window 1's current staging buffer holds its block at every point, fetched there or not, for ANY proof
    data whose array is `V`'s (`hA`) and whose body leaves the block in place (`hafter`): a window not fetched at a
    point has the block index of the point before, so its buffer still holds this point's block. -/
theorem before2_1_of {c : Dev nD} (dat : Dat τ (Elt F) Unit ℕ (Pipeline.UD sig nD τ) ℕ cfg2 c) (hA : dat.A 1 = V c (Pipeline.arrRef spec2 1))
    (hafter : ∀ t, dat.after 1 t = ib2 V c 1 t) (t : Fin cfg2.N) (d) : dat.before 1 t d = ib2 V c 1 t :=
  (dat.before_in_eq_fetched 1 rfl (fun _ => rfl) (fun t t' _ => funext fun a => (clip2_1 t a).trans (clip2_1 t' a).symm)
      (fun t => by rw [hafter]; unfold ib2; rw [Window.cut_fill]; unfold Dat.blockOf iblk2; rw [hA]) t d).trans
    ((dat.fetched_of_clip_none 1 t (clip2_1 t) d _).trans (by unfold Dat.fetched Dat.blockOf ib2 iblk2; rw [hA]))
/-- Input window 2's current staging buffer holds its block at every point, fetched there or not, for ANY proof
    data whose array is `V`'s (`hA`) and whose body leaves the block in place (`hafter`): a window not fetched at a
    point has the block index of the point before, so its buffer still holds this point's block (this window is
    fetched at the first point only, and its one block serves every point). -/
theorem before2_2_of {c : Dev nD} (dat : Dat τ (Elt F) Unit ℕ (Pipeline.UD sig nD τ) ℕ cfg2 c) (hA : dat.A 2 = V c (Pipeline.arrRef spec2 2))
    (hafter : ∀ t, dat.after 2 t = ib2 V c 2 t) (t : Fin cfg2.N) (d) : dat.before 2 t d = ib2 V c 2 t :=
  (dat.before_in_eq_fetched 2 rfl (fun _ => rfl) (fun t t' _ => funext fun a => (clip2_2 t a).trans (clip2_2 t' a).symm)
      (fun t => by rw [hafter]; unfold ib2; rw [Window.cut_fill]; unfold Dat.blockOf iblk2; rw [hA]) t d).trans
    ((dat.fetched_of_clip_none 2 t (clip2_2 t) d _).trans (by unfold Dat.fetched Dat.blockOf ib2 iblk2; rw [hA]))
/-- Input window 3's current staging buffer holds its block at every point, fetched there or not, for ANY proof
    data whose array is `V`'s (`hA`) and whose body leaves the block in place (`hafter`): a window not fetched at a
    point has the block index of the point before, so its buffer still holds this point's block. -/
theorem before2_3_of {c : Dev nD} (dat : Dat τ (Elt F) Unit ℕ (Pipeline.UD sig nD τ) ℕ cfg2 c) (hA : dat.A 3 = V c (Pipeline.arrRef spec2 3))
    (hafter : ∀ t, dat.after 3 t = ib2 V c 3 t) (t : Fin cfg2.N) (d) : dat.before 3 t d = ib2 V c 3 t :=
  (dat.before_in_eq_fetched 3 rfl (fun _ => rfl) (fun t t' _ => funext fun a => (clip2_3 t a).trans (clip2_3 t' a).symm)
      (fun t => by rw [hafter]; unfold ib2; rw [Window.cut_fill]; unfold Dat.blockOf iblk2; rw [hA]) t d).trans
    ((dat.fetched_of_clip_none 3 t (clip2_3 t) d _).trans (by unfold Dat.fetched Dat.blockOf ib2 iblk2; rw [hA]))

/-! ## The body's accesses -/

abbrev r2_a : Rect S200x2048 := Rect.unit (s := S200x2048) ![0, 0] S200x2048.size inb_S200x2048_S200x2048_0_0
abbrev r2_s : Rect S2048x8 := Rect.unit (s := S2048x8) ![0, 0] S2048x8.size inb_S2048x8_S2048x8_0_0
abbrev r2_lo : Rect S400x8 := Rect.unit (s := S400x8) ![0, 0] S200x8.size inb_S400x8_S200x8_0_0
abbrev r2_hi : Rect S400x8 := Rect.unit (s := S400x8) ![200, 0] S200x8.size inb_S400x8_S200x8_200_0

/-! ## What the body leaves in the output window's buffer -/

/-- Window 4's staging buffer after the body at grid coordinates `i`, from the input windows' blocks: its two stores
    as pieces, LAST FIRST — rows 200..399 from the second adjacency row block, rows 0..199 from the first. -/
def out2_4 (i : grid2.Coords) (x0 x1 : Vec F S200x2048 .f32) (x2 : Vec F S2048x8 .f32) (x3 : Vec F S400x8 .f32) : Vec F S400x8 .f32 :=
  View.canon [⟨r2_hi, k2_pay3 i (View.ld x2 r2_s) (View.ld x3 r2_hi) (View.ld x1 r2_a)⟩,
    ⟨r2_lo, k2_pay2 i (View.ld x2 r2_s) (View.ld x3 r2_lo) (View.ld x0 r2_a)⟩]

/-- The two stores tile the buffer (checked by evaluation), so they cover it. -/
theorem cover2_4 (p1 p0 : Vec F S200x8 .f32) (y : S400x8.Idx) :
    ∃ pc ∈ ([⟨r2_hi, p1⟩, ⟨r2_lo, p0⟩] : List (View.Piece (Elt F) S400x8 .f32)), y ∈ pc.1.set :=
  View.cover_of_tiled [⟨r2_hi, p1⟩, ⟨r2_lo, p0⟩] S200x8.size (by rfl) y

/-! ## The body's triple -/

set_option maxHeartbeats 1000000 in
/-- The kernel body on whole staging memrefs, the inputs' at read contents `x0 … x3` and the output's at anything,
    runs to the continuation holding the inputs' as they were and the output's at `out2_4` of the inputs'. (The body
    also loads each half of the output's buffer before storing to it; the values are not used.) -/
theorem sound_kernel2 (c : Dev nD) (E : Set ℕ) (i : grid2.Coords)
    (arg1 : Memref sig .tc .vmem S200x2048 .f32) (harg1 : arg1.IsWhole) (arg2 : Memref sig .tc .vmem S200x2048 .f32) (harg2 : arg2.IsWhole)
    (arg3 : Memref sig .tc .vmem S2048x8 .f32) (harg3 : arg3.IsWhole) (arg4 : Memref sig .tc .vmem S400x8 .f32) (harg4 : arg4.IsWhole)
    (arg5 : Memref sig .tc .vmem S400x8 .f32) (harg5 : arg5.IsWhole)
    (x0 x1 : Vec F S200x2048 .f32) (x2 : Vec F S2048x8 .f32) (x3 : Vec F S400x8 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 i x0 x1 x2 x3)) -∗ K ⟨⟩))
      ⊢ wp frame (wpE (defs₀ (F := F)) Variants.none c none) E (cc2__pass2_kernel i arg1 harg1 arg2 harg2 arg3 harg3 arg4 harg4 arg5 harg5) K := by
  simp only [cc2__pass2_kernel_eq_skeleton]; unfold cc2__pass2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _ _)

/-! ## The pipeline's proof data -/

/-- The proof data of pipeline 2 on core `c`: the arrays as the region finds them (`V`); after the body at point `t`
    each input's buffer at its block and the output's at `out2_4` of the input blocks; the invariant the scoped rest
    and the generator register, untouched; nothing owed. The adjacency is read through two windows: they hold it by
    the left and the right half of the full share; every other window holds its array whole. -/
def dat2 (c : Dev nD) : Dat τ (Elt F) Unit ℕ (Pipeline.UD sig nD τ) ℕ cfg2 c where
  A w := V c (Pipeline.arrRef spec2 w)
  after w t := match w with
    | ⟨0, _⟩ => ib2 V c 0 t
    | ⟨1, _⟩ => ib2 V c 1 t
    | ⟨2, _⟩ => ib2 V c 2 t
    | ⟨3, _⟩ => ib2 V c 3 t
    | ⟨4, _⟩ => out2_4 (cfg2.grid.coords t) (ib2 V c 0 t) (ib2 V c 1 t) (ib2 V c 2 t) (ib2 V c 3 t)
  Φ _ := Pipeline.ΦA spec2 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq2 (c : Dev nD) (w : Fin cfg2.W) : (dat2 V c).A w = V c (Pipeline.arrRef spec2 w) := by
  dsimp only [dat2]

/-- The shares the windows hold their arrays at: the two windows on the adjacency its two halves, the rest whole. -/
theorem share2_0 (c : Dev nD) : (dat2 V c).share 0 = fullShare.left := rfl
theorem share2_1 (c : Dev nD) : (dat2 V c).share 1 = fullShare.right := rfl
theorem share2_rest (c : Dev nD) (w : Fin cfg2.W) (h0 : w ≠ 0) (h1 : w ≠ 1) : (dat2 V c).share w = fullShare := by
  match w, h0, h1 with
  | ⟨0, _⟩, h0, _ => exact absurd rfl h0
  | ⟨1, _⟩, _, h1 => exact absurd rfl h1
  | ⟨2, _⟩, _, _ => rfl
  | ⟨3, _⟩, _, _ => rfl
  | ⟨4, _⟩, _, _ => rfl

/-- What the body leaves, window by window. -/
theorem after2_0 (c : Dev nD) (t : Fin cfg2.N) : (dat2 V c).after 0 t = ib2 V c 0 t := by dsimp only [dat2]
theorem after2_1 (c : Dev nD) (t : Fin cfg2.N) : (dat2 V c).after 1 t = ib2 V c 1 t := by dsimp only [dat2]
theorem after2_2 (c : Dev nD) (t : Fin cfg2.N) : (dat2 V c).after 2 t = ib2 V c 2 t := by dsimp only [dat2]
theorem after2_3 (c : Dev nD) (t : Fin cfg2.N) : (dat2 V c).after 3 t = ib2 V c 3 t := by dsimp only [dat2]
theorem after2_4 (c : Dev nD) (t : Fin cfg2.N) :
    (dat2 V c).after 4 t = out2_4 (cfg2.grid.coords t) (ib2 V c 0 t) (ib2 V c 1 t) (ib2 V c 2 t) (ib2 V c 3 t) := by dsimp only [dat2]

/-- Each input's current staging buffer holds its block at every point, fetched there or not. -/
theorem before2_0 (c : Dev nD) (t : Fin cfg2.N) (d) : (dat2 V c).before 0 t d = ib2 V c 0 t :=
  before2_0_of V (dat2 V c) (A_eq2 V c 0) (after2_0 V c) t d
theorem before2_1 (c : Dev nD) (t : Fin cfg2.N) (d) : (dat2 V c).before 1 t d = ib2 V c 1 t :=
  before2_1_of V (dat2 V c) (A_eq2 V c 1) (after2_1 V c) t d
theorem before2_2 (c : Dev nD) (t : Fin cfg2.N) (d) : (dat2 V c).before 2 t d = ib2 V c 2 t :=
  before2_2_of V (dat2 V c) (A_eq2 V c 2) (after2_2 V c) t d
theorem before2_3 (c : Dev nD) (t : Fin cfg2.N) (d) : (dat2 V c).before 3 t d = ib2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (ib2 V c 0 t) (ib2 V c 1 t) (ib2 V c 2 t) (ib2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BReg3.lean ====
/-
  Region 3 of @main (custom_call 3, the second pass over rows [2000, 4000) of the adjacency): the
  kernel's half of its frame, at a parameter `V` — the core's buffer contents when the region is entered.

  The pipeline has five windows over five grid points. Windows 0 and 1 both stand on the adjacency (two adjacent
  row blocks of 200 rows, the first 4096 columns of each), window 2 is the first 4096 rows of the second layer's
  input `s2` (one block, fetched once), window 3 the 400 rows of the partial result `part` the point works on,
  window 4 the 400 rows of the result. The body reads the four inputs whole, masks the rows of `s2` beyond the
  diagonal block, and writes the result's block in two halves of 200 rows: each half is the partial result's half
  plus the product of one adjacency row block with the masked `s2`.

  No transfer of these windows is cut: every block lies inside its array. The staging buffer of an input therefore
  holds the array's block whole, which is how the inputs' contents are stated (`ib3`).
-/
import proofs.«181509_g20452634264145_cont_8to1_1942_16_alg».proof.Proof.Gen.Kernel.Launch
import proofs.«181509_g20452634264145_cont_8to1_1942_16_alg».proof.Proof.Gen.Kernel.Skeleton
import proofs.«181509_g20452634264145_cont_8to1_1942_16_alg».proof.Proof.Gen.Kernel.Points
import Idealize.ShloMosaic.Lib.Pipeline.FrameBody
import Idealize.ShloMosaic.Lib.Ring
import Idealize.ShloMosaic.Lib.Tactic

-- membership in a rectangle of long extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`): the part of the block
    inside the array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The same as contents of a whole staging buffer: the block laid over contents nothing names. Every block of
    this region lies inside its array (`clip3_W`), so nothing of the underlying contents shows. -/
def ib3 (c : Dev nD) (w : Fin cfg3.W) (t : Fin cfg3.N) : (cfg3.win w).block.Idx → Elt F (cfg3.win w).elt :=
  (cfg3.win w).fill (cfg3.grid.coords t) (fun _ => Classical.arbitrary _) (iblk3 V c w t)

/-- No transfer of an input window is cut, at any point and on any axis: the block lies inside the array. -/
theorem clip3_0 : ∀ (t : Fin cfg3.N) (a : Fin (cfg3.win 0).shape.rank), (cfg3.win 0).clip (cfg3.grid.coords t) a = none :=
  (by decide +kernel : ∀ (t : Fin grid3.N) (a : Fin win3_0.shape.rank), win3_0.clip (grid3.coords t) a = none)
theorem clip3_1 : ∀ (t : Fin cfg3.N) (a : Fin (cfg3.win 1).shape.rank), (cfg3.win 1).clip (cfg3.grid.coords t) a = none :=
  (by decide +kernel : ∀ (t : Fin grid3.N) (a : Fin win3_1.shape.rank), win3_1.clip (grid3.coords t) a = none)
theorem clip3_2 : ∀ (t : Fin cfg3.N) (a : Fin (cfg3.win 2).shape.rank), (cfg3.win 2).clip (cfg3.grid.coords t) a = none :=
  (by decide +kernel : ∀ (t : Fin grid3.N) (a : Fin win3_2.shape.rank), win3_2.clip (grid3.coords t) a = none)
theorem clip3_3 : ∀ (t : Fin cfg3.N) (a : Fin (cfg3.win 3).shape.rank), (cfg3.win 3).clip (cfg3.grid.coords t) a = none :=
  (by decide +kernel : ∀ (t : Fin grid3.N) (a : Fin win3_3.shape.rank), win3_3.clip (grid3.coords t) a = none)

/-- Input window 0's current staging buffer holds its block at every point, fetched there or not, for ANY proof
    data whose array is `V`'s (`hA`) and whose body leaves the block in place (`hafter`): a window not fetched at a
    point has the block index of the point before, so its buffer still holds this point's block. -/
theorem before3_0_of {c : Dev nD} (dat : Dat τ (Elt F) Unit ℕ (Pipeline.UD sig nD τ) ℕ cfg3 c) (hA : dat.A 0 = V c (Pipeline.arrRef spec3 0))
    (hafter : ∀ t, dat.after 0 t = ib3 V c 0 t) (t : Fin cfg3.N) (d) : dat.before 0 t d = ib3 V c 0 t :=
  (dat.before_in_eq_fetched 0 rfl (fun _ => rfl) (fun t t' _ => funext fun a => (clip3_0 t a).trans (clip3_0 t' a).symm)
      (fun t => by rw [hafter]; unfold ib3; rw [Window.cut_fill]; unfold Dat.blockOf iblk3; rw [hA]) t d).trans
    ((dat.fetched_of_clip_none 0 t (clip3_0 t) d _).trans (by unfold Dat.fetched Dat.blockOf ib3 iblk3; rw [hA]))
/-- Input window 1's current staging buffer holds its block at every point, fetched there or not, for ANY proof
    data whose array is `V`'s (`hA`) and whose body leaves the block in place (`hafter`): a window not fetched at a
    point has the block index of the point before, so its buffer still holds this point's block. -/
theorem before3_1_of {c : Dev nD} (dat : Dat τ (Elt F) Unit ℕ (Pipeline.UD sig nD τ) ℕ cfg3 c) (hA : dat.A 1 = V c (Pipeline.arrRef spec3 1))
    (hafter : ∀ t, dat.after 1 t = ib3 V c 1 t) (t : Fin cfg3.N) (d) : dat.before 1 t d = ib3 V c 1 t :=
  (dat.before_in_eq_fetched 1 rfl (fun _ => rfl) (fun t t' _ => funext fun a => (clip3_1 t a).trans (clip3_1 t' a).symm)
      (fun t => by rw [hafter]; unfold ib3; rw [Window.cut_fill]; unfold Dat.blockOf iblk3; rw [hA]) t d).trans
    ((dat.fetched_of_clip_none 1 t (clip3_1 t) d _).trans (by unfold Dat.fetched Dat.blockOf ib3 iblk3; rw [hA]))
/-- Input window 2's current staging buffer holds its block at every point, fetched there or not, for ANY proof
    data whose array is `V`'s (`hA`) and whose body leaves the block in place (`hafter`): a window not fetched at a
    point has the block index of the point before, so its buffer still holds this point's block (this window is
    fetched at the first point only, and its one block serves every point). -/
theorem before3_2_of {c : Dev nD} (dat : Dat τ (Elt F) Unit ℕ (Pipeline.UD sig nD τ) ℕ cfg3 c) (hA : dat.A 2 = V c (Pipeline.arrRef spec3 2))
    (hafter : ∀ t, dat.after 2 t = ib3 V c 2 t) (t : Fin cfg3.N) (d) : dat.before 2 t d = ib3 V c 2 t :=
  (dat.before_in_eq_fetched 2 rfl (fun _ => rfl) (fun t t' _ => funext fun a => (clip3_2 t a).trans (clip3_2 t' a).symm)
      (fun t => by rw [hafter]; unfold ib3; rw [Window.cut_fill]; unfold Dat.blockOf iblk3; rw [hA]) t d).trans
    ((dat.fetched_of_clip_none 2 t (clip3_2 t) d _).trans (by unfold Dat.fetched Dat.blockOf ib3 iblk3; rw [hA]))
/-- Input window 3's current staging buffer holds its block at every point, fetched there or not, for ANY proof
    data whose array is `V`'s (`hA`) and whose body leaves the block in place (`hafter`): a window not fetched at a
    point has the block index of the point before, so its buffer still holds this point's block. -/
theorem before3_3_of {c : Dev nD} (dat : Dat τ (Elt F) Unit ℕ (Pipeline.UD sig nD τ) ℕ cfg3 c) (hA : dat.A 3 = V c (Pipeline.arrRef spec3 3))
    (hafter : ∀ t, dat.after 3 t = ib3 V c 3 t) (t : Fin cfg3.N) (d) : dat.before 3 t d = ib3 V c 3 t :=
  (dat.before_in_eq_fetched 3 rfl (fun _ => rfl) (fun t t' _ => funext fun a => (clip3_3 t a).trans (clip3_3 t' a).symm)
      (fun t => by rw [hafter]; unfold ib3; rw [Window.cut_fill]; unfold Dat.blockOf iblk3; rw [hA]) t d).trans
    ((dat.fetched_of_clip_none 3 t (clip3_3 t) d _).trans (by unfold Dat.fetched Dat.blockOf ib3 iblk3; rw [hA]))

/-! ## The body's accesses -/

abbrev r3_a : Rect S200x4096 := Rect.unit (s := S200x4096) ![0, 0] S200x4096.size inb_S200x4096_S200x4096_0_0
abbrev r3_s : Rect S4096x8 := Rect.unit (s := S4096x8) ![0, 0] S4096x8.size inb_S4096x8_S4096x8_0_0
abbrev r3_lo : Rect S400x8 := Rect.unit (s := S400x8) ![0, 0] S200x8.size inb_S400x8_S200x8_0_0
abbrev r3_hi : Rect S400x8 := Rect.unit (s := S400x8) ![200, 0] S200x8.size inb_S400x8_S200x8_200_0

/-! ## What the body leaves in the output window's buffer -/

/-- Window 4's staging buffer after the body at grid coordinates `i`, from the input windows' blocks: its two stores
    as pieces, LAST FIRST — rows 200..399 from the second adjacency row block, rows 0..199 from the first. -/
def out3_4 (i : grid3.Coords) (x0 x1 : Vec F S200x4096 .f32) (x2 : Vec F S4096x8 .f32) (x3 : Vec F S400x8 .f32) : Vec F S400x8 .f32 :=
  View.canon [⟨r3_hi, k3_pay3 i (View.ld x2 r3_s) (View.ld x3 r3_hi) (View.ld x1 r3_a)⟩,
    ⟨r3_lo, k3_pay2 i (View.ld x2 r3_s) (View.ld x3 r3_lo) (View.ld x0 r3_a)⟩]

/-- The two stores tile the buffer (checked by evaluation), so they cover it. -/
theorem cover3_4 (p1 p0 : Vec F S200x8 .f32) (y : S400x8.Idx) :
    ∃ pc ∈ ([⟨r3_hi, p1⟩, ⟨r3_lo, p0⟩] : List (View.Piece (Elt F) S400x8 .f32)), y ∈ pc.1.set :=
  View.cover_of_tiled [⟨r3_hi, p1⟩, ⟨r3_lo, p0⟩] S200x8.size (by rfl) y

/-! ## The body's triple -/

set_option maxHeartbeats 1000000 in
/-- The kernel body on whole staging memrefs, the inputs' at read contents `x0 … x3` and the output's at anything,
    runs to the continuation holding the inputs' as they were and the output's at `out3_4` of the inputs'. (The body
    also loads each half of the output's buffer before storing to it; the values are not used.) -/
theorem sound_kernel3 (c : Dev nD) (E : Set ℕ) (i : grid3.Coords)
    (arg1 : Memref sig .tc .vmem S200x4096 .f32) (harg1 : arg1.IsWhole) (arg2 : Memref sig .tc .vmem S200x4096 .f32) (harg2 : arg2.IsWhole)
    (arg3 : Memref sig .tc .vmem S4096x8 .f32) (harg3 : arg3.IsWhole) (arg4 : Memref sig .tc .vmem S400x8 .f32) (harg4 : arg4.IsWhole)
    (arg5 : Memref sig .tc .vmem S400x8 .f32) (harg5 : arg5.IsWhole)
    (x0 x1 : Vec F S200x4096 .f32) (x2 : Vec F S4096x8 .f32) (x3 : Vec F S400x8 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 i x0 x1 x2 x3)) -∗ K ⟨⟩))
      ⊢ wp frame (wpE (defs₀ (F := F)) Variants.none c none) E (cc3__pass2_kernel i arg1 harg1 arg2 harg2 arg3 harg3 arg4 harg4 arg5 harg5) K := by
  simp only [cc3__pass2_kernel_eq_skeleton]; unfold cc3__pass2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _ _)

/-! ## The pipeline's proof data -/

/-- The proof data of pipeline 3 on core `c`: the arrays as the region finds them (`V`); after the body at point `t`
    each input's buffer at its block and the output's at `out3_4` of the input blocks; the invariant the scoped rest
    and the generator register, untouched; nothing owed. The adjacency is read through two windows: they hold it by
    the left and the right half of the full share; every other window holds its array whole. -/
def dat3 (c : Dev nD) : Dat τ (Elt F) Unit ℕ (Pipeline.UD sig nD τ) ℕ cfg3 c where
  A w := V c (Pipeline.arrRef spec3 w)
  after w t := match w with
    | ⟨0, _⟩ => ib3 V c 0 t
    | ⟨1, _⟩ => ib3 V c 1 t
    | ⟨2, _⟩ => ib3 V c 2 t
    | ⟨3, _⟩ => ib3 V c 3 t
    | ⟨4, _⟩ => out3_4 (cfg3.grid.coords t) (ib3 V c 0 t) (ib3 V c 1 t) (ib3 V c 2 t) (ib3 V c 3 t)
  Φ _ := Pipeline.ΦA spec3 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq3 (c : Dev nD) (w : Fin cfg3.W) : (dat3 V c).A w = V c (Pipeline.arrRef spec3 w) := by
  dsimp only [dat3]

/-- The shares the windows hold their arrays at: the two windows on the adjacency its two halves, the rest whole. -/
theorem share3_0 (c : Dev nD) : (dat3 V c).share 0 = fullShare.left := rfl
theorem share3_1 (c : Dev nD) : (dat3 V c).share 1 = fullShare.right := rfl
theorem share3_rest (c : Dev nD) (w : Fin cfg3.W) (h0 : w ≠ 0) (h1 : w ≠ 1) : (dat3 V c).share w = fullShare := by
  match w, h0, h1 with
  | ⟨0, _⟩, h0, _ => exact absurd rfl h0
  | ⟨1, _⟩, _, h1 => exact absurd rfl h1
  | ⟨2, _⟩, _, _ => rfl
  | ⟨3, _⟩, _, _ => rfl
  | ⟨4, _⟩, _, _ => rfl

/-- What the body leaves, window by window. -/
theorem after3_0 (c : Dev nD) (t : Fin cfg3.N) : (dat3 V c).after 0 t = ib3 V c 0 t := by dsimp only [dat3]
theorem after3_1 (c : Dev nD) (t : Fin cfg3.N) : (dat3 V c).after 1 t = ib3 V c 1 t := by dsimp only [dat3]
theorem after3_2 (c : Dev nD) (t : Fin cfg3.N) : (dat3 V c).after 2 t = ib3 V c 2 t := by dsimp only [dat3]
theorem after3_3 (c : Dev nD) (t : Fin cfg3.N) : (dat3 V c).after 3 t = ib3 V c 3 t := by dsimp only [dat3]
theorem after3_4 (c : Dev nD) (t : Fin cfg3.N) :
    (dat3 V c).after 4 t = out3_4 (cfg3.grid.coords t) (ib3 V c 0 t) (ib3 V c 1 t) (ib3 V c 2 t) (ib3 V c 3 t) := by dsimp only [dat3]

/-- Each input's current staging buffer holds its block at every point, fetched there or not. -/
theorem before3_0 (c : Dev nD) (t : Fin cfg3.N) (d) : (dat3 V c).before 0 t d = ib3 V c 0 t :=
  before3_0_of V (dat3 V c) (A_eq3 V c 0) (after3_0 V c) t d
theorem before3_1 (c : Dev nD) (t : Fin cfg3.N) (d) : (dat3 V c).before 1 t d = ib3 V c 1 t :=
  before3_1_of V (dat3 V c) (A_eq3 V c 1) (after3_1 V c) t d
theorem before3_2 (c : Dev nD) (t : Fin cfg3.N) (d) : (dat3 V c).before 2 t d = ib3 V c 2 t :=
  before3_2_of V (dat3 V c) (A_eq3 V c 2) (after3_2 V c) t d
theorem before3_3 (c : Dev nD) (t : Fin cfg3.N) (d) : (dat3 V c).before 3 t d = ib3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (ib3 V c 0 t) (ib3 V c 1 t) (ib3 V c 2 t) (ib3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.BReg4.lean ====
/-
  Region 4 of @main (custom_call 4, the second pass over rows [4000, 6000) of the adjacency): the
  kernel's half of its frame, at a parameter `V` — the core's buffer contents when the region is entered.

  The pipeline has five windows over five grid points. Windows 0 and 1 both stand on the adjacency (two adjacent
  row blocks of 200 rows, the first 6016 columns of each), window 2 is the first 6016 rows of the second layer's
  input `s2` (one block, fetched once), window 3 the 400 rows of the partial result `part` the point works on,
  window 4 the 400 rows of the result. The body reads the four inputs whole, masks the rows of `s2` beyond the
  diagonal block, and writes the result's block in two halves of 200 rows: each half is the partial result's half
  plus the product of one adjacency row block with the masked `s2`.

  No transfer of these windows is cut: every block lies inside its array. The staging buffer of an input therefore
  holds the array's block whole, which is how the inputs' contents are stated (`ib4`).
-/
import proofs.«181509_g20452634264145_cont_8to1_1942_16_alg».proof.Proof.Gen.Kernel.Launch
import proofs.«181509_g20452634264145_cont_8to1_1942_16_alg».proof.Proof.Gen.Kernel.Skeleton
import proofs.«181509_g20452634264145_cont_8to1_1942_16_alg».proof.Proof.Gen.Kernel.Points
import Idealize.ShloMosaic.Lib.Pipeline.FrameBody
import Idealize.ShloMosaic.Lib.Ring
import Idealize.ShloMosaic.Lib.Tactic

-- membership in a rectangle of long extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`): the part of the block
    inside the array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The same as contents of a whole staging buffer: the block laid over contents nothing names. Every block of
    this region lies inside its array (`clip4_W`), so nothing of the underlying contents shows. -/
def ib4 (c : Dev nD) (w : Fin cfg4.W) (t : Fin cfg4.N) : (cfg4.win w).block.Idx → Elt F (cfg4.win w).elt :=
  (cfg4.win w).fill (cfg4.grid.coords t) (fun _ => Classical.arbitrary _) (iblk4 V c w t)

/-- No transfer of an input window is cut, at any point and on any axis: the block lies inside the array. -/
theorem clip4_0 : ∀ (t : Fin cfg4.N) (a : Fin (cfg4.win 0).shape.rank), (cfg4.win 0).clip (cfg4.grid.coords t) a = none :=
  (by decide +kernel : ∀ (t : Fin grid4.N) (a : Fin win4_0.shape.rank), win4_0.clip (grid4.coords t) a = none)
theorem clip4_1 : ∀ (t : Fin cfg4.N) (a : Fin (cfg4.win 1).shape.rank), (cfg4.win 1).clip (cfg4.grid.coords t) a = none :=
  (by decide +kernel : ∀ (t : Fin grid4.N) (a : Fin win4_1.shape.rank), win4_1.clip (grid4.coords t) a = none)
theorem clip4_2 : ∀ (t : Fin cfg4.N) (a : Fin (cfg4.win 2).shape.rank), (cfg4.win 2).clip (cfg4.grid.coords t) a = none :=
  (by decide +kernel : ∀ (t : Fin grid4.N) (a : Fin win4_2.shape.rank), win4_2.clip (grid4.coords t) a = none)
theorem clip4_3 : ∀ (t : Fin cfg4.N) (a : Fin (cfg4.win 3).shape.rank), (cfg4.win 3).clip (cfg4.grid.coords t) a = none :=
  (by decide +kernel : ∀ (t : Fin grid4.N) (a : Fin win4_3.shape.rank), win4_3.clip (grid4.coords t) a = none)

/-- Input window 0's current staging buffer holds its block at every point, fetched there or not, for ANY proof
    data whose array is `V`'s (`hA`) and whose body leaves the block in place (`hafter`): a window not fetched at a
    point has the block index of the point before, so its buffer still holds this point's block. -/
theorem before4_0_of {c : Dev nD} (dat : Dat τ (Elt F) Unit ℕ (Pipeline.UD sig nD τ) ℕ cfg4 c) (hA : dat.A 0 = V c (Pipeline.arrRef spec4 0))
    (hafter : ∀ t, dat.after 0 t = ib4 V c 0 t) (t : Fin cfg4.N) (d) : dat.before 0 t d = ib4 V c 0 t :=
  (dat.before_in_eq_fetched 0 rfl (fun _ => rfl) (fun t t' _ => funext fun a => (clip4_0 t a).trans (clip4_0 t' a).symm)
      (fun t => by rw [hafter]; unfold ib4; rw [Window.cut_fill]; unfold Dat.blockOf iblk4; rw [hA]) t d).trans
    ((dat.fetched_of_clip_none 0 t (clip4_0 t) d _).trans (by unfold Dat.fetched Dat.blockOf ib4 iblk4; rw [hA]))
/-- Input window 1's current staging buffer holds its block at every point, fetched there or not, for ANY proof
    data whose array is `V`'s (`hA`) and whose body leaves the block in place (`hafter`): a window not fetched at a
    point has the block index of the point before, so its buffer still holds this point's block. -/
theorem before4_1_of {c : Dev nD} (dat : Dat τ (Elt F) Unit ℕ (Pipeline.UD sig nD τ) ℕ cfg4 c) (hA : dat.A 1 = V c (Pipeline.arrRef spec4 1))
    (hafter : ∀ t, dat.after 1 t = ib4 V c 1 t) (t : Fin cfg4.N) (d) : dat.before 1 t d = ib4 V c 1 t :=
  (dat.before_in_eq_fetched 1 rfl (fun _ => rfl) (fun t t' _ => funext fun a => (clip4_1 t a).trans (clip4_1 t' a).symm)
      (fun t => by rw [hafter]; unfold ib4; rw [Window.cut_fill]; unfold Dat.blockOf iblk4; rw [hA]) t d).trans
    ((dat.fetched_of_clip_none 1 t (clip4_1 t) d _).trans (by unfold Dat.fetched Dat.blockOf ib4 iblk4; rw [hA]))
/-- Input window 2's current staging buffer holds its block at every point, fetched there or not, for ANY proof
    data whose array is `V`'s (`hA`) and whose body leaves the block in place (`hafter`): a window not fetched at a
    point has the block index of the point before, so its buffer still holds this point's block (this window is
    fetched at the first point only, and its one block serves every point). -/
theorem before4_2_of {c : Dev nD} (dat : Dat τ (Elt F) Unit ℕ (Pipeline.UD sig nD τ) ℕ cfg4 c) (hA : dat.A 2 = V c (Pipeline.arrRef spec4 2))
    (hafter : ∀ t, dat.after 2 t = ib4 V c 2 t) (t : Fin cfg4.N) (d) : dat.before 2 t d = ib4 V c 2 t :=
  (dat.before_in_eq_fetched 2 rfl (fun _ => rfl) (fun t t' _ => funext fun a => (clip4_2 t a).trans (clip4_2 t' a).symm)
      (fun t => by rw [hafter]; unfold ib4; rw [Window.cut_fill]; unfold Dat.blockOf iblk4; rw [hA]) t d).trans
    ((dat.fetched_of_clip_none 2 t (clip4_2 t) d _).trans (by unfold Dat.fetched Dat.blockOf ib4 iblk4; rw [hA]))
/-- Input window 3's current staging buffer holds its block at every point, fetched there or not, for ANY proof
    data whose array is `V`'s (`hA`) and whose body leaves the block in place (`hafter`): a window not fetched at a
    point has the block index of the point before, so its buffer still holds this point's block. -/
theorem before4_3_of {c : Dev nD} (dat : Dat τ (Elt F) Unit ℕ (Pipeline.UD sig nD τ) ℕ cfg4 c) (hA : dat.A 3 = V c (Pipeline.arrRef spec4 3))
    (hafter : ∀ t, dat.after 3 t = ib4 V c 3 t) (t : Fin cfg4.N) (d) : dat.before 3 t d = ib4 V c 3 t :=
  (dat.before_in_eq_fetched 3 rfl (fun _ => rfl) (fun t t' _ => funext fun a => (clip4_3 t a).trans (clip4_3 t' a).symm)
      (fun t => by rw [hafter]; unfold ib4; rw [Window.cut_fill]; unfold Dat.blockOf iblk4; rw [hA]) t d).trans
    ((dat.fetched_of_clip_none 3 t (clip4_3 t) d _).trans (by unfold Dat.fetched Dat.blockOf ib4 iblk4; rw [hA]))

/-! ## The body's accesses -/

abbrev r4_a : Rect S200x6016 := Rect.unit (s := S200x6016) ![0, 0] S200x6016.size inb_S200x6016_S200x6016_0_0
abbrev r4_s : Rect S6016x8 := Rect.unit (s := S6016x8) ![0, 0] S6016x8.size inb_S6016x8_S6016x8_0_0
abbrev r4_lo : Rect S400x8 := Rect.unit (s := S400x8) ![0, 0] S200x8.size inb_S400x8_S200x8_0_0
abbrev r4_hi : Rect S400x8 := Rect.unit (s := S400x8) ![200, 0] S200x8.size inb_S400x8_S200x8_200_0

/-! ## What the body leaves in the output window's buffer -/

/-- Window 4's staging buffer after the body at grid coordinates `i`, from the input windows' blocks: its two stores
    as pieces, LAST FIRST — rows 200..399 from the second adjacency row block, rows 0..199 from the first. -/
def out4_4 (i : grid4.Coords) (x0 x1 : Vec F S200x6016 .f32) (x2 : Vec F S6016x8 .f32) (x3 : Vec F S400x8 .f32) : Vec F S400x8 .f32 :=
  View.canon [⟨r4_hi, k4_pay3 i (View.ld x2 r4_s) (View.ld x3 r4_hi) (View.ld x1 r4_a)⟩,
    ⟨r4_lo, k4_pay2 i (View.ld x2 r4_s) (View.ld x3 r4_lo) (View.ld x0 r4_a)⟩]

/-- The two stores tile the buffer (checked by evaluation), so they cover it. -/
theorem cover4_4 (p1 p0 : Vec F S200x8 .f32) (y : S400x8.Idx) :
    ∃ pc ∈ ([⟨r4_hi, p1⟩, ⟨r4_lo, p0⟩] : List (View.Piece (Elt F) S400x8 .f32)), y ∈ pc.1.set :=
  View.cover_of_tiled [⟨r4_hi, p1⟩, ⟨r4_lo, p0⟩] S200x8.size (by rfl) y

/-! ## The body's triple -/

set_option maxHeartbeats 1000000 in
/-- The kernel body on whole staging memrefs, the inputs' at read contents `x0 … x3` and the output's at anything,
    runs to the continuation holding the inputs' as they were and the output's at `out4_4` of the inputs'. (The body
    also loads each half of the output's buffer before storing to it; the values are not used.) -/
theorem sound_kernel4 (c : Dev nD) (E : Set ℕ) (i : grid4.Coords)
    (arg1 : Memref sig .tc .vmem S200x6016 .f32) (harg1 : arg1.IsWhole) (arg2 : Memref sig .tc .vmem S200x6016 .f32) (harg2 : arg2.IsWhole)
    (arg3 : Memref sig .tc .vmem S6016x8 .f32) (harg3 : arg3.IsWhole) (arg4 : Memref sig .tc .vmem S400x8 .f32) (harg4 : arg4.IsWhole)
    (arg5 : Memref sig .tc .vmem S400x8 .f32) (harg5 : arg5.IsWhole)
    (x0 x1 : Vec F S200x6016 .f32) (x2 : Vec F S6016x8 .f32) (x3 : Vec F S400x8 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 i x0 x1 x2 x3)) -∗ K ⟨⟩))
      ⊢ wp frame (wpE (defs₀ (F := F)) Variants.none c none) E (cc4__pass2_kernel i arg1 harg1 arg2 harg2 arg3 harg3 arg4 harg4 arg5 harg5) K := by
  simp only [cc4__pass2_kernel_eq_skeleton]; unfold cc4__pass2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _ _)

/-! ## The pipeline's proof data -/

/-- The proof data of pipeline 4 on core `c`: the arrays as the region finds them (`V`); after the body at point `t`
    each input's buffer at its block and the output's at `out4_4` of the input blocks; the invariant the scoped rest
    and the generator register, untouched; nothing owed. The adjacency is read through two windows: they hold it by
    the left and the right half of the full share; every other window holds its array whole. -/
def dat4 (c : Dev nD) : Dat τ (Elt F) Unit ℕ (Pipeline.UD sig nD τ) ℕ cfg4 c where
  A w := V c (Pipeline.arrRef spec4 w)
  after w t := match w with
    | ⟨0, _⟩ => ib4 V c 0 t
    | ⟨1, _⟩ => ib4 V c 1 t
    | ⟨2, _⟩ => ib4 V c 2 t
    | ⟨3, _⟩ => ib4 V c 3 t
    | ⟨4, _⟩ => out4_4 (cfg4.grid.coords t) (ib4 V c 0 t) (ib4 V c 1 t) (ib4 V c 2 t) (ib4 V c 3 t)
  Φ _ := Pipeline.ΦA spec4 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq4 (c : Dev nD) (w : Fin cfg4.W) : (dat4 V c).A w = V c (Pipeline.arrRef spec4 w) := by
  dsimp only [dat4]

/-- The shares the windows hold their arrays at: the two windows on the adjacency its two halves, the rest whole. -/
theorem share4_0 (c : Dev nD) : (dat4 V c).share 0 = fullShare.left := rfl
theorem share4_1 (c : Dev nD) : (dat4 V c).share 1 = fullShare.right := rfl
theorem share4_rest (c : Dev nD) (w : Fin cfg4.W) (h0 : w ≠ 0) (h1 : w ≠ 1) : (dat4 V c).share w = fullShare := by
  match w, h0, h1 with
  | ⟨0, _⟩, h0, _ => exact absurd rfl h0
  | ⟨1, _⟩, _, h1 => exact absurd rfl h1
  | ⟨2, _⟩, _, _ => rfl
  | ⟨3, _⟩, _, _ => rfl
  | ⟨4, _⟩, _, _ => rfl

/-- What the body leaves, window by window. -/
theorem after4_0 (c : Dev nD) (t : Fin cfg4.N) : (dat4 V c).after 0 t = ib4 V c 0 t := by dsimp only [dat4]
theorem after4_1 (c : Dev nD) (t : Fin cfg4.N) : (dat4 V c).after 1 t = ib4 V c 1 t := by dsimp only [dat4]
theorem after4_2 (c : Dev nD) (t : Fin cfg4.N) : (dat4 V c).after 2 t = ib4 V c 2 t := by dsimp only [dat4]
theorem after4_3 (c : Dev nD) (t : Fin cfg4.N) : (dat4 V c).after 3 t = ib4 V c 3 t := by dsimp only [dat4]
theorem after4_4 (c : Dev nD) (t : Fin cfg4.N) :
    (dat4 V c).after 4 t = out4_4 (cfg4.grid.coords t) (ib4 V c 0 t) (ib4 V c 1 t) (ib4 V c 2 t) (ib4 V c 3 t) := by dsimp only [dat4]

/-- Each input's current staging buffer holds its block at every point, fetched there or not. -/
theorem before4_0 (c : Dev nD) (t : Fin cfg4.N) (d) : (dat4 V c).before 0 t d = ib4 V c 0 t :=
  before4_0_of V (dat4 V c) (A_eq4 V c 0) (after4_0 V c) t d
theorem before4_1 (c : Dev nD) (t : Fin cfg4.N) (d) : (dat4 V c).before 1 t d = ib4 V c 1 t :=
  before4_1_of V (dat4 V c) (A_eq4 V c 1) (after4_1 V c) t d
theorem before4_2 (c : Dev nD) (t : Fin cfg4.N) (d) : (dat4 V c).before 2 t d = ib4 V c 2 t :=
  before4_2_of V (dat4 V c) (A_eq4 V c 2) (after4_2 V c) t d
theorem before4_3 (c : Dev nD) (t : Fin cfg4.N) (d) : (dat4 V c).before 3 t d = ib4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (ib4 V c 0 t) (ib4 V c 1 t) (ib4 V c 2 t) (ib4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.BReg5.lean ====
/-
  Region 5 of @main (custom_call 5, the second pass over rows [6000, 8000) of the adjacency): the
  kernel's half of its frame, at a parameter `V` — the core's buffer contents when the region is entered.

  The pipeline has five windows over five grid points. Windows 0 and 1 both stand on the adjacency (two adjacent
  row blocks of 200 rows, the first 8064 columns of each), window 2 is the first 8064 rows of the second layer's
  input `s2` (one block, fetched once), window 3 the 400 rows of the partial result `part` the point works on,
  window 4 the 400 rows of the result. The body reads the four inputs whole, masks the rows of `s2` beyond the
  diagonal block, and writes the result's block in two halves of 200 rows: each half is the partial result's half
  plus the product of one adjacency row block with the masked `s2`.

  No transfer of these windows is cut: every block lies inside its array. The staging buffer of an input therefore
  holds the array's block whole, which is how the inputs' contents are stated (`ib5`).
-/
import proofs.«181509_g20452634264145_cont_8to1_1942_16_alg».proof.Proof.Gen.Kernel.Launch
import proofs.«181509_g20452634264145_cont_8to1_1942_16_alg».proof.Proof.Gen.Kernel.Skeleton
import proofs.«181509_g20452634264145_cont_8to1_1942_16_alg».proof.Proof.Gen.Kernel.Points
import Idealize.ShloMosaic.Lib.Pipeline.FrameBody
import Idealize.ShloMosaic.Lib.Ring
import Idealize.ShloMosaic.Lib.Tactic

-- membership in a rectangle of long extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`): the part of the block
    inside the array. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The same as contents of a whole staging buffer: the block laid over contents nothing names. Every block of
    this region lies inside its array (`clip5_W`), so nothing of the underlying contents shows. -/
def ib5 (c : Dev nD) (w : Fin cfg5.W) (t : Fin cfg5.N) : (cfg5.win w).block.Idx → Elt F (cfg5.win w).elt :=
  (cfg5.win w).fill (cfg5.grid.coords t) (fun _ => Classical.arbitrary _) (iblk5 V c w t)

/-- No transfer of an input window is cut, at any point and on any axis: the block lies inside the array. -/
theorem clip5_0 : ∀ (t : Fin cfg5.N) (a : Fin (cfg5.win 0).shape.rank), (cfg5.win 0).clip (cfg5.grid.coords t) a = none :=
  (by decide +kernel : ∀ (t : Fin grid5.N) (a : Fin win5_0.shape.rank), win5_0.clip (grid5.coords t) a = none)
theorem clip5_1 : ∀ (t : Fin cfg5.N) (a : Fin (cfg5.win 1).shape.rank), (cfg5.win 1).clip (cfg5.grid.coords t) a = none :=
  (by decide +kernel : ∀ (t : Fin grid5.N) (a : Fin win5_1.shape.rank), win5_1.clip (grid5.coords t) a = none)
theorem clip5_2 : ∀ (t : Fin cfg5.N) (a : Fin (cfg5.win 2).shape.rank), (cfg5.win 2).clip (cfg5.grid.coords t) a = none :=
  (by decide +kernel : ∀ (t : Fin grid5.N) (a : Fin win5_2.shape.rank), win5_2.clip (grid5.coords t) a = none)
theorem clip5_3 : ∀ (t : Fin cfg5.N) (a : Fin (cfg5.win 3).shape.rank), (cfg5.win 3).clip (cfg5.grid.coords t) a = none :=
  (by decide +kernel : ∀ (t : Fin grid5.N) (a : Fin win5_3.shape.rank), win5_3.clip (grid5.coords t) a = none)

/-- Input window 0's current staging buffer holds its block at every point, fetched there or not, for ANY proof
    data whose array is `V`'s (`hA`) and whose body leaves the block in place (`hafter`): a window not fetched at a
    point has the block index of the point before, so its buffer still holds this point's block. -/
theorem before5_0_of {c : Dev nD} (dat : Dat τ (Elt F) Unit ℕ (Pipeline.UD sig nD τ) ℕ cfg5 c) (hA : dat.A 0 = V c (Pipeline.arrRef spec5 0))
    (hafter : ∀ t, dat.after 0 t = ib5 V c 0 t) (t : Fin cfg5.N) (d) : dat.before 0 t d = ib5 V c 0 t :=
  (dat.before_in_eq_fetched 0 rfl (fun _ => rfl) (fun t t' _ => funext fun a => (clip5_0 t a).trans (clip5_0 t' a).symm)
      (fun t => by rw [hafter]; unfold ib5; rw [Window.cut_fill]; unfold Dat.blockOf iblk5; rw [hA]) t d).trans
    ((dat.fetched_of_clip_none 0 t (clip5_0 t) d _).trans (by unfold Dat.fetched Dat.blockOf ib5 iblk5; rw [hA]))
/-- Input window 1's current staging buffer holds its block at every point, fetched there or not, for ANY proof
    data whose array is `V`'s (`hA`) and whose body leaves the block in place (`hafter`): a window not fetched at a
    point has the block index of the point before, so its buffer still holds this point's block. -/
theorem before5_1_of {c : Dev nD} (dat : Dat τ (Elt F) Unit ℕ (Pipeline.UD sig nD τ) ℕ cfg5 c) (hA : dat.A 1 = V c (Pipeline.arrRef spec5 1))
    (hafter : ∀ t, dat.after 1 t = ib5 V c 1 t) (t : Fin cfg5.N) (d) : dat.before 1 t d = ib5 V c 1 t :=
  (dat.before_in_eq_fetched 1 rfl (fun _ => rfl) (fun t t' _ => funext fun a => (clip5_1 t a).trans (clip5_1 t' a).symm)
      (fun t => by rw [hafter]; unfold ib5; rw [Window.cut_fill]; unfold Dat.blockOf iblk5; rw [hA]) t d).trans
    ((dat.fetched_of_clip_none 1 t (clip5_1 t) d _).trans (by unfold Dat.fetched Dat.blockOf ib5 iblk5; rw [hA]))
/-- Input window 2's current staging buffer holds its block at every point, fetched there or not, for ANY proof
    data whose array is `V`'s (`hA`) and whose body leaves the block in place (`hafter`): a window not fetched at a
    point has the block index of the point before, so its buffer still holds this point's block (this window is
    fetched at the first point only, and its one block serves every point). -/
theorem before5_2_of {c : Dev nD} (dat : Dat τ (Elt F) Unit ℕ (Pipeline.UD sig nD τ) ℕ cfg5 c) (hA : dat.A 2 = V c (Pipeline.arrRef spec5 2))
    (hafter : ∀ t, dat.after 2 t = ib5 V c 2 t) (t : Fin cfg5.N) (d) : dat.before 2 t d = ib5 V c 2 t :=
  (dat.before_in_eq_fetched 2 rfl (fun _ => rfl) (fun t t' _ => funext fun a => (clip5_2 t a).trans (clip5_2 t' a).symm)
      (fun t => by rw [hafter]; unfold ib5; rw [Window.cut_fill]; unfold Dat.blockOf iblk5; rw [hA]) t d).trans
    ((dat.fetched_of_clip_none 2 t (clip5_2 t) d _).trans (by unfold Dat.fetched Dat.blockOf ib5 iblk5; rw [hA]))
/-- Input window 3's current staging buffer holds its block at every point, fetched there or not, for ANY proof
    data whose array is `V`'s (`hA`) and whose body leaves the block in place (`hafter`): a window not fetched at a
    point has the block index of the point before, so its buffer still holds this point's block. -/
theorem before5_3_of {c : Dev nD} (dat : Dat τ (Elt F) Unit ℕ (Pipeline.UD sig nD τ) ℕ cfg5 c) (hA : dat.A 3 = V c (Pipeline.arrRef spec5 3))
    (hafter : ∀ t, dat.after 3 t = ib5 V c 3 t) (t : Fin cfg5.N) (d) : dat.before 3 t d = ib5 V c 3 t :=
  (dat.before_in_eq_fetched 3 rfl (fun _ => rfl) (fun t t' _ => funext fun a => (clip5_3 t a).trans (clip5_3 t' a).symm)
      (fun t => by rw [hafter]; unfold ib5; rw [Window.cut_fill]; unfold Dat.blockOf iblk5; rw [hA]) t d).trans
    ((dat.fetched_of_clip_none 3 t (clip5_3 t) d _).trans (by unfold Dat.fetched Dat.blockOf ib5 iblk5; rw [hA]))

/-! ## The body's accesses -/

abbrev r5_a : Rect S200x8064 := Rect.unit (s := S200x8064) ![0, 0] S200x8064.size inb_S200x8064_S200x8064_0_0
abbrev r5_s : Rect S8064x8 := Rect.unit (s := S8064x8) ![0, 0] S8064x8.size inb_S8064x8_S8064x8_0_0
abbrev r5_lo : Rect S400x8 := Rect.unit (s := S400x8) ![0, 0] S200x8.size inb_S400x8_S200x8_0_0
abbrev r5_hi : Rect S400x8 := Rect.unit (s := S400x8) ![200, 0] S200x8.size inb_S400x8_S200x8_200_0

/-! ## What the body leaves in the output window's buffer -/

/-- Window 4's staging buffer after the body at grid coordinates `i`, from the input windows' blocks: its two stores
    as pieces, LAST FIRST — rows 200..399 from the second adjacency row block, rows 0..199 from the first. -/
def out5_4 (i : grid5.Coords) (x0 x1 : Vec F S200x8064 .f32) (x2 : Vec F S8064x8 .f32) (x3 : Vec F S400x8 .f32) : Vec F S400x8 .f32 :=
  View.canon [⟨r5_hi, k5_pay3 i (View.ld x2 r5_s) (View.ld x3 r5_hi) (View.ld x1 r5_a)⟩,
    ⟨r5_lo, k5_pay2 i (View.ld x2 r5_s) (View.ld x3 r5_lo) (View.ld x0 r5_a)⟩]

/-- The two stores tile the buffer (checked by evaluation), so they cover it. -/
theorem cover5_4 (p1 p0 : Vec F S200x8 .f32) (y : S400x8.Idx) :
    ∃ pc ∈ ([⟨r5_hi, p1⟩, ⟨r5_lo, p0⟩] : List (View.Piece (Elt F) S400x8 .f32)), y ∈ pc.1.set :=
  View.cover_of_tiled [⟨r5_hi, p1⟩, ⟨r5_lo, p0⟩] S200x8.size (by rfl) y

/-! ## The body's triple -/

set_option maxHeartbeats 1000000 in
/-- The kernel body on whole staging memrefs, the inputs' at read contents `x0 … x3` and the output's at anything,
    runs to the continuation holding the inputs' as they were and the output's at `out5_4` of the inputs'. (The body
    also loads each half of the output's buffer before storing to it; the values are not used.) -/
theorem sound_kernel5 (c : Dev nD) (E : Set ℕ) (i : grid5.Coords)
    (arg1 : Memref sig .tc .vmem S200x8064 .f32) (harg1 : arg1.IsWhole) (arg2 : Memref sig .tc .vmem S200x8064 .f32) (harg2 : arg2.IsWhole)
    (arg3 : Memref sig .tc .vmem S8064x8 .f32) (harg3 : arg3.IsWhole) (arg4 : Memref sig .tc .vmem S400x8 .f32) (harg4 : arg4.IsWhole)
    (arg5 : Memref sig .tc .vmem S400x8 .f32) (harg5 : arg5.IsWhole)
    (x0 x1 : Vec F S200x8064 .f32) (x2 : Vec F S8064x8 .f32) (x3 : Vec F S400x8 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5_4 i x0 x1 x2 x3)) -∗ K ⟨⟩))
      ⊢ wp frame (wpE (defs₀ (F := F)) Variants.none c none) E (cc5__pass2_kernel i arg1 harg1 arg2 harg2 arg3 harg3 arg4 harg4 arg5 harg5) K := by
  simp only [cc5__pass2_kernel_eq_skeleton]; unfold cc5__pass2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _ _)

/-! ## The pipeline's proof data -/

/-- The proof data of pipeline 5 on core `c`: the arrays as the region finds them (`V`); after the body at point `t`
    each input's buffer at its block and the output's at `out5_4` of the input blocks; the invariant the scoped rest
    and the generator register, untouched; nothing owed. The adjacency is read through two windows: they hold it by
    the left and the right half of the full share; every other window holds its array whole. -/
def dat5 (c : Dev nD) : Dat τ (Elt F) Unit ℕ (Pipeline.UD sig nD τ) ℕ cfg5 c where
  A w := V c (Pipeline.arrRef spec5 w)
  after w t := match w with
    | ⟨0, _⟩ => ib5 V c 0 t
    | ⟨1, _⟩ => ib5 V c 1 t
    | ⟨2, _⟩ => ib5 V c 2 t
    | ⟨3, _⟩ => ib5 V c 3 t
    | ⟨4, _⟩ => out5_4 (cfg5.grid.coords t) (ib5 V c 0 t) (ib5 V c 1 t) (ib5 V c 2 t) (ib5 V c 3 t)
  Φ _ := Pipeline.ΦA spec5 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq5 (c : Dev nD) (w : Fin cfg5.W) : (dat5 V c).A w = V c (Pipeline.arrRef spec5 w) := by
  dsimp only [dat5]

/-- The shares the windows hold their arrays at: the two windows on the adjacency its two halves, the rest whole. -/
theorem share5_0 (c : Dev nD) : (dat5 V c).share 0 = fullShare.left := rfl
theorem share5_1 (c : Dev nD) : (dat5 V c).share 1 = fullShare.right := rfl
theorem share5_rest (c : Dev nD) (w : Fin cfg5.W) (h0 : w ≠ 0) (h1 : w ≠ 1) : (dat5 V c).share w = fullShare := by
  match w, h0, h1 with
  | ⟨0, _⟩, h0, _ => exact absurd rfl h0
  | ⟨1, _⟩, _, h1 => exact absurd rfl h1
  | ⟨2, _⟩, _, _ => rfl
  | ⟨3, _⟩, _, _ => rfl
  | ⟨4, _⟩, _, _ => rfl

/-- What the body leaves, window by window. -/
theorem after5_0 (c : Dev nD) (t : Fin cfg5.N) : (dat5 V c).after 0 t = ib5 V c 0 t := by dsimp only [dat5]
theorem after5_1 (c : Dev nD) (t : Fin cfg5.N) : (dat5 V c).after 1 t = ib5 V c 1 t := by dsimp only [dat5]
theorem after5_2 (c : Dev nD) (t : Fin cfg5.N) : (dat5 V c).after 2 t = ib5 V c 2 t := by dsimp only [dat5]
theorem after5_3 (c : Dev nD) (t : Fin cfg5.N) : (dat5 V c).after 3 t = ib5 V c 3 t := by dsimp only [dat5]
theorem after5_4 (c : Dev nD) (t : Fin cfg5.N) :
    (dat5 V c).after 4 t = out5_4 (cfg5.grid.coords t) (ib5 V c 0 t) (ib5 V c 1 t) (ib5 V c 2 t) (ib5 V c 3 t) := by dsimp only [dat5]

/-- Each input's current staging buffer holds its block at every point, fetched there or not. -/
theorem before5_0 (c : Dev nD) (t : Fin cfg5.N) (d) : (dat5 V c).before 0 t d = ib5 V c 0 t :=
  before5_0_of V (dat5 V c) (A_eq5 V c 0) (after5_0 V c) t d
theorem before5_1 (c : Dev nD) (t : Fin cfg5.N) (d) : (dat5 V c).before 1 t d = ib5 V c 1 t :=
  before5_1_of V (dat5 V c) (A_eq5 V c 1) (after5_1 V c) t d
theorem before5_2 (c : Dev nD) (t : Fin cfg5.N) (d) : (dat5 V c).before 2 t d = ib5 V c 2 t :=
  before5_2_of V (dat5 V c) (A_eq5 V c 2) (after5_2 V c) t d
theorem before5_3 (c : Dev nD) (t : Fin cfg5.N) (d) : (dat5 V c).before 3 t d = ib5 V c 3 t :=
  before5_3_of V (dat5 V c) (A_eq5 V c 3) (after5_3 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (ib5 V c 0 t) (ib5 V c 1 t) (ib5 V c 2 t) (ib5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.BReg6.lean ====
/-
  Region 6 of @main (custom_call 6, the second pass over rows [8000, 10000) of the adjacency): the
  kernel's half of its frame, at a parameter `V` — the core's buffer contents when the region is entered.

  The pipeline has five windows over five grid points. Windows 0 and 1 both stand on the adjacency (two adjacent
  row blocks of 200 rows, the first 10000 columns of each), window 2 is the first 10000 rows of the second layer's
  input `s2` (one block, fetched once), window 3 the 400 rows of the partial result `part` the point works on,
  window 4 the 400 rows of the result. The body reads the four inputs whole, masks the rows of `s2` beyond the
  diagonal block, and writes the result's block in two halves of 200 rows: each half is the partial result's half
  plus the product of one adjacency row block with the masked `s2`.

  No transfer of these windows is cut: every block lies inside its array. The staging buffer of an input therefore
  holds the array's block whole, which is how the inputs' contents are stated (`ib6`).
-/
import proofs.«181509_g20452634264145_cont_8to1_1942_16_alg».proof.Proof.Gen.Kernel.Launch
import proofs.«181509_g20452634264145_cont_8to1_1942_16_alg».proof.Proof.Gen.Kernel.Skeleton
import proofs.«181509_g20452634264145_cont_8to1_1942_16_alg».proof.Proof.Gen.Kernel.Points
import Idealize.ShloMosaic.Lib.Pipeline.FrameBody
import Idealize.ShloMosaic.Lib.Ring
import Idealize.ShloMosaic.Lib.Tactic

-- membership in a rectangle of long extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`): the part of the block
    inside the array. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The same as contents of a whole staging buffer: the block laid over contents nothing names. Every block of
    this region lies inside its array (`clip6_W`), so nothing of the underlying contents shows. -/
def ib6 (c : Dev nD) (w : Fin cfg6.W) (t : Fin cfg6.N) : (cfg6.win w).block.Idx → Elt F (cfg6.win w).elt :=
  (cfg6.win w).fill (cfg6.grid.coords t) (fun _ => Classical.arbitrary _) (iblk6 V c w t)

/-- No transfer of an input window is cut, at any point and on any axis: the block lies inside the array. -/
theorem clip6_0 : ∀ (t : Fin cfg6.N) (a : Fin (cfg6.win 0).shape.rank), (cfg6.win 0).clip (cfg6.grid.coords t) a = none :=
  (by decide +kernel : ∀ (t : Fin grid6.N) (a : Fin win6_0.shape.rank), win6_0.clip (grid6.coords t) a = none)
theorem clip6_1 : ∀ (t : Fin cfg6.N) (a : Fin (cfg6.win 1).shape.rank), (cfg6.win 1).clip (cfg6.grid.coords t) a = none :=
  (by decide +kernel : ∀ (t : Fin grid6.N) (a : Fin win6_1.shape.rank), win6_1.clip (grid6.coords t) a = none)
theorem clip6_2 : ∀ (t : Fin cfg6.N) (a : Fin (cfg6.win 2).shape.rank), (cfg6.win 2).clip (cfg6.grid.coords t) a = none :=
  (by decide +kernel : ∀ (t : Fin grid6.N) (a : Fin win6_2.shape.rank), win6_2.clip (grid6.coords t) a = none)
theorem clip6_3 : ∀ (t : Fin cfg6.N) (a : Fin (cfg6.win 3).shape.rank), (cfg6.win 3).clip (cfg6.grid.coords t) a = none :=
  (by decide +kernel : ∀ (t : Fin grid6.N) (a : Fin win6_3.shape.rank), win6_3.clip (grid6.coords t) a = none)

/-- Input window 0's current staging buffer holds its block at every point, fetched there or not, for ANY proof
    data whose array is `V`'s (`hA`) and whose body leaves the block in place (`hafter`): a window not fetched at a
    point has the block index of the point before, so its buffer still holds this point's block. -/
theorem before6_0_of {c : Dev nD} (dat : Dat τ (Elt F) Unit ℕ (Pipeline.UD sig nD τ) ℕ cfg6 c) (hA : dat.A 0 = V c (Pipeline.arrRef spec6 0))
    (hafter : ∀ t, dat.after 0 t = ib6 V c 0 t) (t : Fin cfg6.N) (d) : dat.before 0 t d = ib6 V c 0 t :=
  (dat.before_in_eq_fetched 0 rfl (fun _ => rfl) (fun t t' _ => funext fun a => (clip6_0 t a).trans (clip6_0 t' a).symm)
      (fun t => by rw [hafter]; unfold ib6; rw [Window.cut_fill]; unfold Dat.blockOf iblk6; rw [hA]) t d).trans
    ((dat.fetched_of_clip_none 0 t (clip6_0 t) d _).trans (by unfold Dat.fetched Dat.blockOf ib6 iblk6; rw [hA]))
/-- Input window 1's current staging buffer holds its block at every point, fetched there or not, for ANY proof
    data whose array is `V`'s (`hA`) and whose body leaves the block in place (`hafter`): a window not fetched at a
    point has the block index of the point before, so its buffer still holds this point's block. -/
theorem before6_1_of {c : Dev nD} (dat : Dat τ (Elt F) Unit ℕ (Pipeline.UD sig nD τ) ℕ cfg6 c) (hA : dat.A 1 = V c (Pipeline.arrRef spec6 1))
    (hafter : ∀ t, dat.after 1 t = ib6 V c 1 t) (t : Fin cfg6.N) (d) : dat.before 1 t d = ib6 V c 1 t :=
  (dat.before_in_eq_fetched 1 rfl (fun _ => rfl) (fun t t' _ => funext fun a => (clip6_1 t a).trans (clip6_1 t' a).symm)
      (fun t => by rw [hafter]; unfold ib6; rw [Window.cut_fill]; unfold Dat.blockOf iblk6; rw [hA]) t d).trans
    ((dat.fetched_of_clip_none 1 t (clip6_1 t) d _).trans (by unfold Dat.fetched Dat.blockOf ib6 iblk6; rw [hA]))
/-- Input window 2's current staging buffer holds its block at every point, fetched there or not, for ANY proof
    data whose array is `V`'s (`hA`) and whose body leaves the block in place (`hafter`): a window not fetched at a
    point has the block index of the point before, so its buffer still holds this point's block (this window is
    fetched at the first point only, and its one block serves every point). -/
theorem before6_2_of {c : Dev nD} (dat : Dat τ (Elt F) Unit ℕ (Pipeline.UD sig nD τ) ℕ cfg6 c) (hA : dat.A 2 = V c (Pipeline.arrRef spec6 2))
    (hafter : ∀ t, dat.after 2 t = ib6 V c 2 t) (t : Fin cfg6.N) (d) : dat.before 2 t d = ib6 V c 2 t :=
  (dat.before_in_eq_fetched 2 rfl (fun _ => rfl) (fun t t' _ => funext fun a => (clip6_2 t a).trans (clip6_2 t' a).symm)
      (fun t => by rw [hafter]; unfold ib6; rw [Window.cut_fill]; unfold Dat.blockOf iblk6; rw [hA]) t d).trans
    ((dat.fetched_of_clip_none 2 t (clip6_2 t) d _).trans (by unfold Dat.fetched Dat.blockOf ib6 iblk6; rw [hA]))
/-- Input window 3's current staging buffer holds its block at every point, fetched there or not, for ANY proof
    data whose array is `V`'s (`hA`) and whose body leaves the block in place (`hafter`): a window not fetched at a
    point has the block index of the point before, so its buffer still holds this point's block. -/
theorem before6_3_of {c : Dev nD} (dat : Dat τ (Elt F) Unit ℕ (Pipeline.UD sig nD τ) ℕ cfg6 c) (hA : dat.A 3 = V c (Pipeline.arrRef spec6 3))
    (hafter : ∀ t, dat.after 3 t = ib6 V c 3 t) (t : Fin cfg6.N) (d) : dat.before 3 t d = ib6 V c 3 t :=
  (dat.before_in_eq_fetched 3 rfl (fun _ => rfl) (fun t t' _ => funext fun a => (clip6_3 t a).trans (clip6_3 t' a).symm)
      (fun t => by rw [hafter]; unfold ib6; rw [Window.cut_fill]; unfold Dat.blockOf iblk6; rw [hA]) t d).trans
    ((dat.fetched_of_clip_none 3 t (clip6_3 t) d _).trans (by unfold Dat.fetched Dat.blockOf ib6 iblk6; rw [hA]))

/-! ## The body's accesses -/

abbrev r6_a : Rect S200x10000 := Rect.unit (s := S200x10000) ![0, 0] S200x10000.size inb_S200x10000_S200x10000_0_0
abbrev r6_s : Rect S10000x8 := Rect.unit (s := S10000x8) ![0, 0] S10000x8.size inb_S10000x8_S10000x8_0_0
abbrev r6_lo : Rect S400x8 := Rect.unit (s := S400x8) ![0, 0] S200x8.size inb_S400x8_S200x8_0_0
abbrev r6_hi : Rect S400x8 := Rect.unit (s := S400x8) ![200, 0] S200x8.size inb_S400x8_S200x8_200_0

/-! ## What the body leaves in the output window's buffer -/

/-- Window 4's staging buffer after the body at grid coordinates `i`, from the input windows' blocks: its two stores
    as pieces, LAST FIRST — rows 200..399 from the second adjacency row block, rows 0..199 from the first. -/
def out6_4 (i : grid6.Coords) (x0 x1 : Vec F S200x10000 .f32) (x2 : Vec F S10000x8 .f32) (x3 : Vec F S400x8 .f32) : Vec F S400x8 .f32 :=
  View.canon [⟨r6_hi, k6_pay3 i (View.ld x2 r6_s) (View.ld x3 r6_hi) (View.ld x1 r6_a)⟩,
    ⟨r6_lo, k6_pay2 i (View.ld x2 r6_s) (View.ld x3 r6_lo) (View.ld x0 r6_a)⟩]

/-- The two stores tile the buffer (checked by evaluation), so they cover it. -/
theorem cover6_4 (p1 p0 : Vec F S200x8 .f32) (y : S400x8.Idx) :
    ∃ pc ∈ ([⟨r6_hi, p1⟩, ⟨r6_lo, p0⟩] : List (View.Piece (Elt F) S400x8 .f32)), y ∈ pc.1.set :=
  View.cover_of_tiled [⟨r6_hi, p1⟩, ⟨r6_lo, p0⟩] S200x8.size (by rfl) y

/-! ## The body's triple -/

set_option maxHeartbeats 1000000 in
/-- The kernel body on whole staging memrefs, the inputs' at read contents `x0 … x3` and the output's at anything,
    runs to the continuation holding the inputs' as they were and the output's at `out6_4` of the inputs'. (The body
    also loads each half of the output's buffer before storing to it; the values are not used.) -/
theorem sound_kernel6 (c : Dev nD) (E : Set ℕ) (i : grid6.Coords)
    (arg1 : Memref sig .tc .vmem S200x10000 .f32) (harg1 : arg1.IsWhole) (arg2 : Memref sig .tc .vmem S200x10000 .f32) (harg2 : arg2.IsWhole)
    (arg3 : Memref sig .tc .vmem S10000x8 .f32) (harg3 : arg3.IsWhole) (arg4 : Memref sig .tc .vmem S400x8 .f32) (harg4 : arg4.IsWhole)
    (arg5 : Memref sig .tc .vmem S400x8 .f32) (harg5 : arg5.IsWhole)
    (x0 x1 : Vec F S200x10000 .f32) (x2 : Vec F S10000x8 .f32) (x3 : Vec F S400x8 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out6_4 i x0 x1 x2 x3)) -∗ K ⟨⟩))
      ⊢ wp frame (wpE (defs₀ (F := F)) Variants.none c none) E (cc6__pass2_kernel i arg1 harg1 arg2 harg2 arg3 harg3 arg4 harg4 arg5 harg5) K := by
  simp only [cc6__pass2_kernel_eq_skeleton]; unfold cc6__pass2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _ _)

/-! ## The pipeline's proof data -/

/-- The proof data of pipeline 6 on core `c`: the arrays as the region finds them (`V`); after the body at point `t`
    each input's buffer at its block and the output's at `out6_4` of the input blocks; the invariant the scoped rest
    and the generator register, untouched; nothing owed. The adjacency is read through two windows: they hold it by
    the left and the right half of the full share; every other window holds its array whole. -/
def dat6 (c : Dev nD) : Dat τ (Elt F) Unit ℕ (Pipeline.UD sig nD τ) ℕ cfg6 c where
  A w := V c (Pipeline.arrRef spec6 w)
  after w t := match w with
    | ⟨0, _⟩ => ib6 V c 0 t
    | ⟨1, _⟩ => ib6 V c 1 t
    | ⟨2, _⟩ => ib6 V c 2 t
    | ⟨3, _⟩ => ib6 V c 3 t
    | ⟨4, _⟩ => out6_4 (cfg6.grid.coords t) (ib6 V c 0 t) (ib6 V c 1 t) (ib6 V c 2 t) (ib6 V c 3 t)
  Φ _ := Pipeline.ΦA spec6 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq6 (c : Dev nD) (w : Fin cfg6.W) : (dat6 V c).A w = V c (Pipeline.arrRef spec6 w) := by
  dsimp only [dat6]

/-- The shares the windows hold their arrays at: the two windows on the adjacency its two halves, the rest whole. -/
theorem share6_0 (c : Dev nD) : (dat6 V c).share 0 = fullShare.left := rfl
theorem share6_1 (c : Dev nD) : (dat6 V c).share 1 = fullShare.right := rfl
theorem share6_rest (c : Dev nD) (w : Fin cfg6.W) (h0 : w ≠ 0) (h1 : w ≠ 1) : (dat6 V c).share w = fullShare := by
  match w, h0, h1 with
  | ⟨0, _⟩, h0, _ => exact absurd rfl h0
  | ⟨1, _⟩, _, h1 => exact absurd rfl h1
  | ⟨2, _⟩, _, _ => rfl
  | ⟨3, _⟩, _, _ => rfl
  | ⟨4, _⟩, _, _ => rfl

/-- What the body leaves, window by window. -/
theorem after6_0 (c : Dev nD) (t : Fin cfg6.N) : (dat6 V c).after 0 t = ib6 V c 0 t := by dsimp only [dat6]
theorem after6_1 (c : Dev nD) (t : Fin cfg6.N) : (dat6 V c).after 1 t = ib6 V c 1 t := by dsimp only [dat6]
theorem after6_2 (c : Dev nD) (t : Fin cfg6.N) : (dat6 V c).after 2 t = ib6 V c 2 t := by dsimp only [dat6]
theorem after6_3 (c : Dev nD) (t : Fin cfg6.N) : (dat6 V c).after 3 t = ib6 V c 3 t := by dsimp only [dat6]
theorem after6_4 (c : Dev nD) (t : Fin cfg6.N) :
    (dat6 V c).after 4 t = out6_4 (cfg6.grid.coords t) (ib6 V c 0 t) (ib6 V c 1 t) (ib6 V c 2 t) (ib6 V c 3 t) := by dsimp only [dat6]

/-- Each input's current staging buffer holds its block at every point, fetched there or not. -/
theorem before6_0 (c : Dev nD) (t : Fin cfg6.N) (d) : (dat6 V c).before 0 t d = ib6 V c 0 t :=
  before6_0_of V (dat6 V c) (A_eq6 V c 0) (after6_0 V c) t d
theorem before6_1 (c : Dev nD) (t : Fin cfg6.N) (d) : (dat6 V c).before 1 t d = ib6 V c 1 t :=
  before6_1_of V (dat6 V c) (A_eq6 V c 1) (after6_1 V c) t d
theorem before6_2 (c : Dev nD) (t : Fin cfg6.N) (d) : (dat6 V c).before 2 t d = ib6 V c 2 t :=
  before6_2_of V (dat6 V c) (A_eq6 V c 2) (after6_2 V c) t d
theorem before6_3 (c : Dev nD) (t : Fin cfg6.N) (d) : (dat6 V c).before 3 t d = ib6 V c 3 t :=
  before6_3_of V (dat6 V c) (A_eq6 V c 3) (after6_3 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ (grid6.coords t) _ _ _ _ _ _ _ _ _ _ (ib6 V c 0 t) (ib6 V c 1 t) (ib6 V c 2 t) (ib6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.BRun.lean ====
/-
  @main from the launch to the return.

  The program is a stretch of four host reshapes, seven kernel regions and one host concatenate. Each region's half —
  its proof data at the contents it is entered with and its body obligation — is in the region's own module. Here the
  buffers' contents are followed from item to item, each region is made a segment of @main entered with every unscoped
  buffer at the contents before it and left with them at the contents after it, and the segments are run from the launch:
  every execution terminates, nothing faulting, with every unscoped buffer at the last contents of the fold. From that:
  the argument arrays end as launched, and the result array is the five row bands of regions 2 to 6 one above the other.

  In regions 1 to 6 two input windows stand on one array (the adjacency matrix): the array is dealt between them by the two
  halves of the full share on the way in and the halves are put back together on the way out.
-/
import proofs.«181509_g20452634264145_cont_8to1_1942_16_alg».proof.Proof.Gen.Kernel.Regions
import proofs.«181509_g20452634264145_cont_8to1_1942_16_alg».proof.Proof.Gen.Kernel.Skeleton
import proofs.«181509_g20452634264145_cont_8to1_1942_16_alg».proof.Proof.Gen.Kernel.Points
import proofs.«181509_g20452634264145_cont_8to1_1942_16_alg».proof.Proof.LibSharedRegion
import proofs.«181509_g20452634264145_cont_8to1_1942_16_alg».proof.Proof.BReg0
import proofs.«181509_g20452634264145_cont_8to1_1942_16_alg».proof.Proof.BReg1Body
import proofs.«181509_g20452634264145_cont_8to1_1942_16_alg».proof.Proof.BReg2
import proofs.«181509_g20452634264145_cont_8to1_1942_16_alg».proof.Proof.BReg3
import proofs.«181509_g20452634264145_cont_8to1_1942_16_alg».proof.Proof.BReg4
import proofs.«181509_g20452634264145_cont_8to1_1942_16_alg».proof.Proof.BReg5
import proofs.«181509_g20452634264145_cont_8to1_1942_16_alg».proof.Proof.BReg6
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The buffers' contents between the items of @main

Core `c`'s unscoped buffers are followed through @main's nine items. At launch they hold the memory `m`; a stretch of host
operations replaces the buffers it writes by the operations' results; a kernel region replaces each array one of its
OUTPUT windows stands on by what the pipeline's write-backs leave there (`Dat.arrAt … N`, from the region's proof data
taken at the contents the region is entered with) and leaves every other buffer alone: an input window only reads. -/

variable (m : (ℓ : Loc nD τ sig) → Buf (Elt F) ℓ)

/-- At launch. -/
abbrev W0 (c : Dev nD) : Valuation τ sig (Elt F) := fun b => m (c, b)
/-- After the four reshapes (region 0 is entered here). -/
abbrev W1 (c : Dev nD) : Valuation τ sig (Elt F) := StableHlo.after hostOps0 (W0 m c)
/-- No reshape writes `r`: it holds what it held at launch. -/
theorem W1_of (c : Dev nD) (r : Ref sig .tc) (h : r ∉ hostOps0_W) : W1 m c (Proc.devRef .tc r) = W0 m c (Proc.devRef .tc r) :=
  StableHlo.after_of_writes_sub hostOps0 _ hostOps0_writes h
/-- The contents region 0 is entered with, read at the TensorCore's references. -/
abbrev Vin0 : (c : Dev nD) → (b : Ref sig .tc) → Buf (Elt F) ((c : Thread nD τ).loc b) := fun c b => W1 m c b

/-- After region 0: `main_v4_0`, `main_v4_1`, `main_v4_2` at what the write-backs of windows 6, 7, 8 leave, the rest as entered. -/
def W2 (c : Dev nD) : Valuation τ sig (Elt F) :=
  Function.update (Function.update (Function.update (W1 m c) (Proc.devRef .tc main_v4_0) ((dat0 (Vin0 m) c).arrAt 6 cfg0.N)
    ) (Proc.devRef .tc main_v4_1) ((dat0 (Vin0 m) c).arrAt 7 cfg0.N)
    ) (Proc.devRef .tc main_v4_2) ((dat0 (Vin0 m) c).arrAt 8 cfg0.N)
/-- A buffer that is no output array of region 0 holds after it what it held before. -/
theorem W2_of (c : Dev nD) (r : Ref sig .tc) (h0 : r ≠ main_v4_0) (h1 : r ≠ main_v4_1) (h2 : r ≠ main_v4_2) :
    W2 m c (Proc.devRef .tc r) = W1 m c (Proc.devRef .tc r) := by
  simp only [W2, Function.update_of_ne (StableHlo.devRef_ne_of_ne h0 : (Proc.devRef .tc r : DevRef τ sig) ≠ Proc.devRef .tc main_v4_0), Function.update_of_ne (StableHlo.devRef_ne_of_ne h1 : (Proc.devRef .tc r : DevRef τ sig) ≠ Proc.devRef .tc main_v4_1), Function.update_of_ne (StableHlo.devRef_ne_of_ne h2 : (Proc.devRef .tc r : DevRef τ sig) ≠ Proc.devRef .tc main_v4_2)]
theorem W2_main_v4_0 (c : Dev nD) : W2 m c (Proc.devRef .tc main_v4_0) = (dat0 (Vin0 m) c).arrAt 6 cfg0.N := by
  simp only [W2, Function.update_of_ne (StableHlo.devRef_ne_of_ne (by decide) : (Proc.devRef .tc main_v4_0 : DevRef τ sig) ≠ Proc.devRef .tc main_v4_1), Function.update_of_ne (StableHlo.devRef_ne_of_ne (by decide) : (Proc.devRef .tc main_v4_0 : DevRef τ sig) ≠ Proc.devRef .tc main_v4_2), Function.update_self]
theorem W2_main_v4_1 (c : Dev nD) : W2 m c (Proc.devRef .tc main_v4_1) = (dat0 (Vin0 m) c).arrAt 7 cfg0.N := by
  simp only [W2, Function.update_of_ne (StableHlo.devRef_ne_of_ne (by decide) : (Proc.devRef .tc main_v4_1 : DevRef τ sig) ≠ Proc.devRef .tc main_v4_2), Function.update_self]
theorem W2_main_v4_2 (c : Dev nD) : W2 m c (Proc.devRef .tc main_v4_2) = (dat0 (Vin0 m) c).arrAt 8 cfg0.N := by
  simp only [W2, Function.update_self]
/-- The contents region 0 is left with and region 1 is entered with, read at the TensorCore's references. -/
abbrev Vin1 : (c : Dev nD) → (b : Ref sig .tc) → Buf (Elt F) ((c : Thread nD τ).loc b) := fun c b => W2 m c b
/-- Every window's array holds after region 0 what the pipeline leaves there: an output's by the definition of the
    contents after the region, an input's because it is never written back and is no output's array. -/
theorem hF0 (c : Dev nD) : ∀ w : Fin cfg0.W, (dat0 (Vin0 m) c).arrAt w cfg0.N = Vin1 m c (Pipeline.arrRef spec0 w)
  | 0 => ((dat0 (Vin0 m) c).arrAt_in 0 rfl _).trans ((A_eq0 (Vin0 m) c 0).trans (W2_of m c main_arg0 (by decide) (by decide) (by decide)).symm)
  | 1 => ((dat0 (Vin0 m) c).arrAt_in 1 rfl _).trans ((A_eq0 (Vin0 m) c 1).trans (W2_of m c main_arg2 (by decide) (by decide) (by decide)).symm)
  | 2 => ((dat0 (Vin0 m) c).arrAt_in 2 rfl _).trans ((A_eq0 (Vin0 m) c 2).trans (W2_of m c main_arg4 (by decide) (by decide) (by decide)).symm)
  | 3 => ((dat0 (Vin0 m) c).arrAt_in 3 rfl _).trans ((A_eq0 (Vin0 m) c 3).trans (W2_of m c main_arg8 (by decide) (by decide) (by decide)).symm)
  | 4 => ((dat0 (Vin0 m) c).arrAt_in 4 rfl _).trans ((A_eq0 (Vin0 m) c 4).trans (W2_of m c main_v1 (by decide) (by decide) (by decide)).symm)
  | 5 => ((dat0 (Vin0 m) c).arrAt_in 5 rfl _).trans ((A_eq0 (Vin0 m) c 5).trans (W2_of m c main_v3 (by decide) (by decide) (by decide)).symm)
  | 6 => (W2_main_v4_0 m c).symm
  | 7 => (W2_main_v4_1 m c).symm
  | 8 => (W2_main_v4_2 m c).symm
  | ⟨_ + 9, h⟩ => absurd h (Nat.not_lt.2 (Nat.le_add_left _ _))
/-- Off the windows' arrays region 0 changes nothing. -/
theorem hrest0 (c : Dev nD) : ∀ b, b ∉ Finset.univ.image (Pipeline.arrRef spec0) → Vin1 m c b = Vin0 m c b :=
  fun b hb => W2_of m c b (fun e => hb (Finset.mem_image.mpr ⟨6, Finset.mem_univ _, e.symm⟩)) (fun e => hb (Finset.mem_image.mpr ⟨7, Finset.mem_univ _, e.symm⟩)) (fun e => hb (Finset.mem_image.mpr ⟨8, Finset.mem_univ _, e.symm⟩))

/-- After region 1: `main_v5_0`, `main_v5_1` at what the write-backs of windows 8, 9 leave, the rest as entered. -/
def W3 (c : Dev nD) : Valuation τ sig (Elt F) :=
  Function.update (Function.update (W2 m c) (Proc.devRef .tc main_v5_0) ((dat1 (Vin1 m) c).arrAt 8 cfg1.N)
    ) (Proc.devRef .tc main_v5_1) ((dat1 (Vin1 m) c).arrAt 9 cfg1.N)
/-- A buffer that is no output array of region 1 holds after it what it held before. -/
theorem W3_of (c : Dev nD) (r : Ref sig .tc) (h0 : r ≠ main_v5_0) (h1 : r ≠ main_v5_1) :
    W3 m c (Proc.devRef .tc r) = W2 m c (Proc.devRef .tc r) := by
  simp only [W3, Function.update_of_ne (StableHlo.devRef_ne_of_ne h0 : (Proc.devRef .tc r : DevRef τ sig) ≠ Proc.devRef .tc main_v5_0), Function.update_of_ne (StableHlo.devRef_ne_of_ne h1 : (Proc.devRef .tc r : DevRef τ sig) ≠ Proc.devRef .tc main_v5_1)]
theorem W3_main_v5_0 (c : Dev nD) : W3 m c (Proc.devRef .tc main_v5_0) = (dat1 (Vin1 m) c).arrAt 8 cfg1.N := by
  simp only [W3, Function.update_of_ne (StableHlo.devRef_ne_of_ne (by decide) : (Proc.devRef .tc main_v5_0 : DevRef τ sig) ≠ Proc.devRef .tc main_v5_1), Function.update_self]
theorem W3_main_v5_1 (c : Dev nD) : W3 m c (Proc.devRef .tc main_v5_1) = (dat1 (Vin1 m) c).arrAt 9 cfg1.N := by
  simp only [W3, Function.update_self]
/-- The contents region 1 is left with and region 2 is entered with, read at the TensorCore's references. -/
abbrev Vin2 : (c : Dev nD) → (b : Ref sig .tc) → Buf (Elt F) ((c : Thread nD τ).loc b) := fun c b => W3 m c b
/-- Every window's array holds after region 1 what the pipeline leaves there: an output's by the definition of the
    contents after the region, an input's because it is never written back and is no output's array. -/
theorem hF1 (c : Dev nD) : ∀ w : Fin cfg1.W, (dat1 (Vin1 m) c).arrAt w cfg1.N = Vin2 m c (Pipeline.arrRef spec1 w)
  | 0 => ((dat1 (Vin1 m) c).arrAt_in 0 rfl _).trans ((A_eq1 (Vin1 m) c 0).trans (W3_of m c main_arg1 (by decide) (by decide)).symm)
  | 1 => ((dat1 (Vin1 m) c).arrAt_in 1 rfl _).trans ((A_eq1 (Vin1 m) c 1).trans (W3_of m c main_arg1 (by decide) (by decide)).symm)
  | 2 => ((dat1 (Vin1 m) c).arrAt_in 2 rfl _).trans ((A_eq1 (Vin1 m) c 2).trans (W3_of m c main_v4_0 (by decide) (by decide)).symm)
  | 3 => ((dat1 (Vin1 m) c).arrAt_in 3 rfl _).trans ((A_eq1 (Vin1 m) c 3).trans (W3_of m c main_v4_1 (by decide) (by decide)).symm)
  | 4 => ((dat1 (Vin1 m) c).arrAt_in 4 rfl _).trans ((A_eq1 (Vin1 m) c 4).trans (W3_of m c main_v0 (by decide) (by decide)).symm)
  | 5 => ((dat1 (Vin1 m) c).arrAt_in 5 rfl _).trans ((A_eq1 (Vin1 m) c 5).trans (W3_of m c main_arg6 (by decide) (by decide)).symm)
  | 6 => ((dat1 (Vin1 m) c).arrAt_in 6 rfl _).trans ((A_eq1 (Vin1 m) c 6).trans (W3_of m c main_v4_2 (by decide) (by decide)).symm)
  | 7 => ((dat1 (Vin1 m) c).arrAt_in 7 rfl _).trans ((A_eq1 (Vin1 m) c 7).trans (W3_of m c main_v2 (by decide) (by decide)).symm)
  | 8 => (W3_main_v5_0 m c).symm
  | 9 => (W3_main_v5_1 m c).symm
  | ⟨_ + 10, h⟩ => absurd h (Nat.not_lt.2 (Nat.le_add_left _ _))
/-- Off the windows' arrays region 1 changes nothing. -/
theorem hrest1 (c : Dev nD) : ∀ b, b ∉ Finset.univ.image (Pipeline.arrRef spec1) → Vin2 m c b = Vin1 m c b :=
  fun b hb => W3_of m c b (fun e => hb (Finset.mem_image.mpr ⟨8, Finset.mem_univ _, e.symm⟩)) (fun e => hb (Finset.mem_image.mpr ⟨9, Finset.mem_univ _, e.symm⟩))

/-- After region 2: `main_v6` at what the write-backs of window 4 leave, the rest as entered. -/
def W4 (c : Dev nD) : Valuation τ sig (Elt F) :=
  Function.update (W3 m c) (Proc.devRef .tc main_v6) ((dat2 (Vin2 m) c).arrAt 4 cfg2.N)
/-- A buffer that is no output array of region 2 holds after it what it held before. -/
theorem W4_of (c : Dev nD) (r : Ref sig .tc) (h0 : r ≠ main_v6) :
    W4 m c (Proc.devRef .tc r) = W3 m c (Proc.devRef .tc r) := by
  simp only [W4, Function.update_of_ne (StableHlo.devRef_ne_of_ne h0 : (Proc.devRef .tc r : DevRef τ sig) ≠ Proc.devRef .tc main_v6)]
theorem W4_main_v6 (c : Dev nD) : W4 m c (Proc.devRef .tc main_v6) = (dat2 (Vin2 m) c).arrAt 4 cfg2.N := by
  simp only [W4, Function.update_self]
/-- The contents region 2 is left with and region 3 is entered with, read at the TensorCore's references. -/
abbrev Vin3 : (c : Dev nD) → (b : Ref sig .tc) → Buf (Elt F) ((c : Thread nD τ).loc b) := fun c b => W4 m c b
/-- Every window's array holds after region 2 what the pipeline leaves there: an output's by the definition of the
    contents after the region, an input's because it is never written back and is no output's array. -/
theorem hF2 (c : Dev nD) : ∀ w : Fin cfg2.W, (dat2 (Vin2 m) c).arrAt w cfg2.N = Vin3 m c (Pipeline.arrRef spec2 w)
  | 0 => ((dat2 (Vin2 m) c).arrAt_in 0 rfl _).trans ((A_eq2 (Vin2 m) c 0).trans (W4_of m c main_arg1 (by decide)).symm)
  | 1 => ((dat2 (Vin2 m) c).arrAt_in 1 rfl _).trans ((A_eq2 (Vin2 m) c 1).trans (W4_of m c main_arg1 (by decide)).symm)
  | 2 => ((dat2 (Vin2 m) c).arrAt_in 2 rfl _).trans ((A_eq2 (Vin2 m) c 2).trans (W4_of m c main_v5_0 (by decide)).symm)
  | 3 => ((dat2 (Vin2 m) c).arrAt_in 3 rfl _).trans ((A_eq2 (Vin2 m) c 3).trans (W4_of m c main_v5_1 (by decide)).symm)
  | 4 => (W4_main_v6 m c).symm
  | ⟨_ + 5, h⟩ => absurd h (Nat.not_lt.2 (Nat.le_add_left _ _))
/-- Off the windows' arrays region 2 changes nothing. -/
theorem hrest2 (c : Dev nD) : ∀ b, b ∉ Finset.univ.image (Pipeline.arrRef spec2) → Vin3 m c b = Vin2 m c b :=
  fun b hb => W4_of m c b (fun e => hb (Finset.mem_image.mpr ⟨4, Finset.mem_univ _, e.symm⟩))

/-- After region 3: `main_v7` at what the write-backs of window 4 leave, the rest as entered. -/
def W5 (c : Dev nD) : Valuation τ sig (Elt F) :=
  Function.update (W4 m c) (Proc.devRef .tc main_v7) ((dat3 (Vin3 m) c).arrAt 4 cfg3.N)
/-- A buffer that is no output array of region 3 holds after it what it held before. -/
theorem W5_of (c : Dev nD) (r : Ref sig .tc) (h0 : r ≠ main_v7) :
    W5 m c (Proc.devRef .tc r) = W4 m c (Proc.devRef .tc r) := by
  simp only [W5, Function.update_of_ne (StableHlo.devRef_ne_of_ne h0 : (Proc.devRef .tc r : DevRef τ sig) ≠ Proc.devRef .tc main_v7)]
theorem W5_main_v7 (c : Dev nD) : W5 m c (Proc.devRef .tc main_v7) = (dat3 (Vin3 m) c).arrAt 4 cfg3.N := by
  simp only [W5, Function.update_self]
/-- The contents region 3 is left with and region 4 is entered with, read at the TensorCore's references. -/
abbrev Vin4 : (c : Dev nD) → (b : Ref sig .tc) → Buf (Elt F) ((c : Thread nD τ).loc b) := fun c b => W5 m c b
/-- Every window's array holds after region 3 what the pipeline leaves there: an output's by the definition of the
    contents after the region, an input's because it is never written back and is no output's array. -/
theorem hF3 (c : Dev nD) : ∀ w : Fin cfg3.W, (dat3 (Vin3 m) c).arrAt w cfg3.N = Vin4 m c (Pipeline.arrRef spec3 w)
  | 0 => ((dat3 (Vin3 m) c).arrAt_in 0 rfl _).trans ((A_eq3 (Vin3 m) c 0).trans (W5_of m c main_arg1 (by decide)).symm)
  | 1 => ((dat3 (Vin3 m) c).arrAt_in 1 rfl _).trans ((A_eq3 (Vin3 m) c 1).trans (W5_of m c main_arg1 (by decide)).symm)
  | 2 => ((dat3 (Vin3 m) c).arrAt_in 2 rfl _).trans ((A_eq3 (Vin3 m) c 2).trans (W5_of m c main_v5_0 (by decide)).symm)
  | 3 => ((dat3 (Vin3 m) c).arrAt_in 3 rfl _).trans ((A_eq3 (Vin3 m) c 3).trans (W5_of m c main_v5_1 (by decide)).symm)
  | 4 => (W5_main_v7 m c).symm
  | ⟨_ + 5, h⟩ => absurd h (Nat.not_lt.2 (Nat.le_add_left _ _))
/-- Off the windows' arrays region 3 changes nothing. -/
theorem hrest3 (c : Dev nD) : ∀ b, b ∉ Finset.univ.image (Pipeline.arrRef spec3) → Vin4 m c b = Vin3 m c b :=
  fun b hb => W5_of m c b (fun e => hb (Finset.mem_image.mpr ⟨4, Finset.mem_univ _, e.symm⟩))

/-- After region 4: `main_v8` at what the write-backs of window 4 leave, the rest as entered. -/
def W6 (c : Dev nD) : Valuation τ sig (Elt F) :=
  Function.update (W5 m c) (Proc.devRef .tc main_v8) ((dat4 (Vin4 m) c).arrAt 4 cfg4.N)
/-- A buffer that is no output array of region 4 holds after it what it held before. -/
theorem W6_of (c : Dev nD) (r : Ref sig .tc) (h0 : r ≠ main_v8) :
    W6 m c (Proc.devRef .tc r) = W5 m c (Proc.devRef .tc r) := by
  simp only [W6, Function.update_of_ne (StableHlo.devRef_ne_of_ne h0 : (Proc.devRef .tc r : DevRef τ sig) ≠ Proc.devRef .tc main_v8)]
theorem W6_main_v8 (c : Dev nD) : W6 m c (Proc.devRef .tc main_v8) = (dat4 (Vin4 m) c).arrAt 4 cfg4.N := by
  simp only [W6, Function.update_self]
/-- The contents region 4 is left with and region 5 is entered with, read at the TensorCore's references. -/
abbrev Vin5 : (c : Dev nD) → (b : Ref sig .tc) → Buf (Elt F) ((c : Thread nD τ).loc b) := fun c b => W6 m c b
/-- Every window's array holds after region 4 what the pipeline leaves there: an output's by the definition of the
    contents after the region, an input's because it is never written back and is no output's array. -/
theorem hF4 (c : Dev nD) : ∀ w : Fin cfg4.W, (dat4 (Vin4 m) c).arrAt w cfg4.N = Vin5 m c (Pipeline.arrRef spec4 w)
  | 0 => ((dat4 (Vin4 m) c).arrAt_in 0 rfl _).trans ((A_eq4 (Vin4 m) c 0).trans (W6_of m c main_arg1 (by decide)).symm)
  | 1 => ((dat4 (Vin4 m) c).arrAt_in 1 rfl _).trans ((A_eq4 (Vin4 m) c 1).trans (W6_of m c main_arg1 (by decide)).symm)
  | 2 => ((dat4 (Vin4 m) c).arrAt_in 2 rfl _).trans ((A_eq4 (Vin4 m) c 2).trans (W6_of m c main_v5_0 (by decide)).symm)
  | 3 => ((dat4 (Vin4 m) c).arrAt_in 3 rfl _).trans ((A_eq4 (Vin4 m) c 3).trans (W6_of m c main_v5_1 (by decide)).symm)
  | 4 => (W6_main_v8 m c).symm
  | ⟨_ + 5, h⟩ => absurd h (Nat.not_lt.2 (Nat.le_add_left _ _))
/-- Off the windows' arrays region 4 changes nothing. -/
theorem hrest4 (c : Dev nD) : ∀ b, b ∉ Finset.univ.image (Pipeline.arrRef spec4) → Vin5 m c b = Vin4 m c b :=
  fun b hb => W6_of m c b (fun e => hb (Finset.mem_image.mpr ⟨4, Finset.mem_univ _, e.symm⟩))

/-- After region 5: `main_v9` at what the write-backs of window 4 leave, the rest as entered. -/
def W7 (c : Dev nD) : Valuation τ sig (Elt F) :=
  Function.update (W6 m c) (Proc.devRef .tc main_v9) ((dat5 (Vin5 m) c).arrAt 4 cfg5.N)
/-- A buffer that is no output array of region 5 holds after it what it held before. -/
theorem W7_of (c : Dev nD) (r : Ref sig .tc) (h0 : r ≠ main_v9) :
    W7 m c (Proc.devRef .tc r) = W6 m c (Proc.devRef .tc r) := by
  simp only [W7, Function.update_of_ne (StableHlo.devRef_ne_of_ne h0 : (Proc.devRef .tc r : DevRef τ sig) ≠ Proc.devRef .tc main_v9)]
theorem W7_main_v9 (c : Dev nD) : W7 m c (Proc.devRef .tc main_v9) = (dat5 (Vin5 m) c).arrAt 4 cfg5.N := by
  simp only [W7, Function.update_self]
/-- The contents region 5 is left with and region 6 is entered with, read at the TensorCore's references. -/
abbrev Vin6 : (c : Dev nD) → (b : Ref sig .tc) → Buf (Elt F) ((c : Thread nD τ).loc b) := fun c b => W7 m c b
/-- Every window's array holds after region 5 what the pipeline leaves there: an output's by the definition of the
    contents after the region, an input's because it is never written back and is no output's array. -/
theorem hF5 (c : Dev nD) : ∀ w : Fin cfg5.W, (dat5 (Vin5 m) c).arrAt w cfg5.N = Vin6 m c (Pipeline.arrRef spec5 w)
  | 0 => ((dat5 (Vin5 m) c).arrAt_in 0 rfl _).trans ((A_eq5 (Vin5 m) c 0).trans (W7_of m c main_arg1 (by decide)).symm)
  | 1 => ((dat5 (Vin5 m) c).arrAt_in 1 rfl _).trans ((A_eq5 (Vin5 m) c 1).trans (W7_of m c main_arg1 (by decide)).symm)
  | 2 => ((dat5 (Vin5 m) c).arrAt_in 2 rfl _).trans ((A_eq5 (Vin5 m) c 2).trans (W7_of m c main_v5_0 (by decide)).symm)
  | 3 => ((dat5 (Vin5 m) c).arrAt_in 3 rfl _).trans ((A_eq5 (Vin5 m) c 3).trans (W7_of m c main_v5_1 (by decide)).symm)
  | 4 => (W7_main_v9 m c).symm
  | ⟨_ + 5, h⟩ => absurd h (Nat.not_lt.2 (Nat.le_add_left _ _))
/-- Off the windows' arrays region 5 changes nothing. -/
theorem hrest5 (c : Dev nD) : ∀ b, b ∉ Finset.univ.image (Pipeline.arrRef spec5) → Vin6 m c b = Vin5 m c b :=
  fun b hb => W7_of m c b (fun e => hb (Finset.mem_image.mpr ⟨4, Finset.mem_univ _, e.symm⟩))

/-- After region 6: `main_v10` at what the write-backs of window 4 leave, the rest as entered. -/
def W8 (c : Dev nD) : Valuation τ sig (Elt F) :=
  Function.update (W7 m c) (Proc.devRef .tc main_v10) ((dat6 (Vin6 m) c).arrAt 4 cfg6.N)
/-- A buffer that is no output array of region 6 holds after it what it held before. -/
theorem W8_of (c : Dev nD) (r : Ref sig .tc) (h0 : r ≠ main_v10) :
    W8 m c (Proc.devRef .tc r) = W7 m c (Proc.devRef .tc r) := by
  simp only [W8, Function.update_of_ne (StableHlo.devRef_ne_of_ne h0 : (Proc.devRef .tc r : DevRef τ sig) ≠ Proc.devRef .tc main_v10)]
theorem W8_main_v10 (c : Dev nD) : W8 m c (Proc.devRef .tc main_v10) = (dat6 (Vin6 m) c).arrAt 4 cfg6.N := by
  simp only [W8, Function.update_self]
/-- The contents region 6 is left with, read at the TensorCore's references. -/
abbrev Vin7 : (c : Dev nD) → (b : Ref sig .tc) → Buf (Elt F) ((c : Thread nD τ).loc b) := fun c b => W8 m c b
/-- Every window's array holds after region 6 what the pipeline leaves there: an output's by the definition of the
    contents after the region, an input's because it is never written back and is no output's array. -/
theorem hF6 (c : Dev nD) : ∀ w : Fin cfg6.W, (dat6 (Vin6 m) c).arrAt w cfg6.N = Vin7 m c (Pipeline.arrRef spec6 w)
  | 0 => ((dat6 (Vin6 m) c).arrAt_in 0 rfl _).trans ((A_eq6 (Vin6 m) c 0).trans (W8_of m c main_arg1 (by decide)).symm)
  | 1 => ((dat6 (Vin6 m) c).arrAt_in 1 rfl _).trans ((A_eq6 (Vin6 m) c 1).trans (W8_of m c main_arg1 (by decide)).symm)
  | 2 => ((dat6 (Vin6 m) c).arrAt_in 2 rfl _).trans ((A_eq6 (Vin6 m) c 2).trans (W8_of m c main_v5_0 (by decide)).symm)
  | 3 => ((dat6 (Vin6 m) c).arrAt_in 3 rfl _).trans ((A_eq6 (Vin6 m) c 3).trans (W8_of m c main_v5_1 (by decide)).symm)
  | 4 => (W8_main_v10 m c).symm
  | ⟨_ + 5, h⟩ => absurd h (Nat.not_lt.2 (Nat.le_add_left _ _))
/-- Off the windows' arrays region 6 changes nothing. -/
theorem hrest6 (c : Dev nD) : ∀ b, b ∉ Finset.univ.image (Pipeline.arrRef spec6) → Vin7 m c b = Vin6 m c b :=
  fun b hb => W8_of m c b (fun e => hb (Finset.mem_image.mpr ⟨4, Finset.mem_univ _, e.symm⟩))

/-- After the concatenate: the end of @main. -/
abbrev W9 (c : Dev nD) : Valuation τ sig (Elt F) := StableHlo.after hostOps7 (W8 m c)
/-- The concatenate writes `main_v11` only. -/
theorem W9_of (c : Dev nD) (r : Ref sig .tc) (h : r ∉ hostOps7_W) : W9 m c (Proc.devRef .tc r) = W8 m c (Proc.devRef .tc r) :=
  StableHlo.after_of_writes_sub hostOps7 _ hostOps7_writes h

/-! ### The arguments end as launched

No host operation and no region writes an argument array (a region reads it through input windows), so the contents at
the end, read at an argument, walk back item by item to the launch memory. -/
theorem W9_main_arg0 (c : Dev nD) : W9 m c (Proc.devRef .tc main_arg0) = m ((c : Thread nD τ).loc main_arg0) :=
  (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide) (by decide)).trans <| (W2_of m c main_arg0 (by decide) (by decide) (by decide)).trans <| (W1_of m c main_arg0 (by decide)).trans rfl
theorem W9_main_arg1 (c : Dev nD) : W9 m c (Proc.devRef .tc main_arg1) = m ((c : Thread nD τ).loc main_arg1) :=
  (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide) (by decide)).trans <| (W2_of m c main_arg1 (by decide) (by decide) (by decide)).trans <| (W1_of m c main_arg1 (by decide)).trans rfl
theorem W9_main_arg2 (c : Dev nD) : W9 m c (Proc.devRef .tc main_arg2) = m ((c : Thread nD τ).loc main_arg2) :=
  (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide) (by decide)).trans <| (W2_of m c main_arg2 (by decide) (by decide) (by decide)).trans <| (W1_of m c main_arg2 (by decide)).trans rfl
theorem W9_main_arg3 (c : Dev nD) : W9 m c (Proc.devRef .tc main_arg3) = m ((c : Thread nD τ).loc main_arg3) :=
  (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide) (by decide)).trans <| (W2_of m c main_arg3 (by decide) (by decide) (by decide)).trans <| (W1_of m c main_arg3 (by decide)).trans rfl
theorem W9_main_arg4 (c : Dev nD) : W9 m c (Proc.devRef .tc main_arg4) = m ((c : Thread nD τ).loc main_arg4) :=
  (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide) (by decide)).trans <| (W2_of m c main_arg4 (by decide) (by decide) (by decide)).trans <| (W1_of m c main_arg4 (by decide)).trans rfl
theorem W9_main_arg5 (c : Dev nD) : W9 m c (Proc.devRef .tc main_arg5) = m ((c : Thread nD τ).loc main_arg5) :=
  (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide) (by decide)).trans <| (W2_of m c main_arg5 (by decide) (by decide) (by decide)).trans <| (W1_of m c main_arg5 (by decide)).trans rfl
theorem W9_main_arg6 (c : Dev nD) : W9 m c (Proc.devRef .tc main_arg6) = m ((c : Thread nD τ).loc main_arg6) :=
  (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide) (by decide)).trans <| (W2_of m c main_arg6 (by decide) (by decide) (by decide)).trans <| (W1_of m c main_arg6 (by decide)).trans rfl
theorem W9_main_arg7 (c : Dev nD) : W9 m c (Proc.devRef .tc main_arg7) = m ((c : Thread nD τ).loc main_arg7) :=
  (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide) (by decide)).trans <| (W2_of m c main_arg7 (by decide) (by decide) (by decide)).trans <| (W1_of m c main_arg7 (by decide)).trans rfl
theorem W9_main_arg8 (c : Dev nD) : W9 m c (Proc.devRef .tc main_arg8) = m ((c : Thread nD τ).loc main_arg8) :=
  (W9_of m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide) (by decide)).trans <| (W2_of m c main_arg8 (by decide) (by decide) (by decide)).trans <| (W1_of m c main_arg8 (by decide)).trans rfl
theorem W9_main_arg9 (c : Dev nD) : W9 m c (Proc.devRef .tc main_arg9) = m ((c : Thread nD τ).loc main_arg9) :=
  (W9_of m c main_arg9 (by decide)).trans <| (W8_of m c main_arg9 (by decide)).trans <| (W7_of m c main_arg9 (by decide)).trans <| (W6_of m c main_arg9 (by decide)).trans <| (W5_of m c main_arg9 (by decide)).trans <| (W4_of m c main_arg9 (by decide)).trans <| (W3_of m c main_arg9 (by decide) (by decide)).trans <| (W2_of m c main_arg9 (by decide) (by decide) (by decide)).trans <| (W1_of m c main_arg9 (by decide)).trans rfl

/-! # The proof data family and the thread state -/

/-- Every pipeline's proof data, each at the contents its region is entered with. -/
def pdats : (p : Fin 7) → (c : Dev nD) → Dat τ (Elt F) Unit ℕ (Pipeline.UD sig nD τ) ℕ (Pipeline.pin (pcfgs (F := F)) adm p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c
  | ⟨5, _⟩ => fun c => dat5 (Vin5 m) c
  | ⟨6, _⟩ => fun c => dat6 (Vin6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's invariant
    takes it in and gives it back) and the core owing nothing. -/
abbrev R (c : Dev nD) : sProp 𝕄 := iprop((∃ r, prngReg c r) ∗ ∃ W, owes (c : Thread nD τ) (0 : CellTallies nD τ sig Unit) W)
/-- The thread state between two items: every unscoped buffer at the contents `W c`, beside `R c`. -/
abbrev T (W : Dev nD → Valuation τ sig (Elt F)) (c : Dev nD) : sProp 𝕄 :=
  iprop(StableHlo.held (c : Thread nD τ) (Pipeline.ucRefs τ sig) (W c) ∗ R c)
/-- A stretch of host operations as a segment, from the contents `W`: it leaves the contents `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ### The windows' arrays in regions 1 to 6

Windows 0 and 1 stand on `main_arg1`; away from window 1 no two windows share an array; every array is an unscoped buffer. -/
theorem arr_unscoped1 : ∀ w : Fin 10, (Pipeline.arrRef spec1 w).isScoped = false := by decide
theorem arr_inj1 : Set.InjOn (Pipeline.arrRef spec1) ((Finset.univ.erase 1 : Finset (Fin 10)) : Set (Fin 10)) := by
  have h : ∀ a ∈ (Finset.univ.erase 1 : Finset (Fin 10)), ∀ b ∈ (Finset.univ.erase 1 : Finset (Fin 10)),
      Pipeline.arrRef spec1 a = Pipeline.arrRef spec1 b → a = b := by decide
  exact fun a ha b hb e => h a (Finset.mem_coe.mp ha) b (Finset.mem_coe.mp hb) e
theorem arr_unscoped2 : ∀ w : Fin 5, (Pipeline.arrRef spec2 w).isScoped = false := by decide
theorem arr_inj2 : Set.InjOn (Pipeline.arrRef spec2) ((Finset.univ.erase 1 : Finset (Fin 5)) : Set (Fin 5)) := by
  have h : ∀ a ∈ (Finset.univ.erase 1 : Finset (Fin 5)), ∀ b ∈ (Finset.univ.erase 1 : Finset (Fin 5)),
      Pipeline.arrRef spec2 a = Pipeline.arrRef spec2 b → a = b := by decide
  exact fun a ha b hb e => h a (Finset.mem_coe.mp ha) b (Finset.mem_coe.mp hb) e
theorem arr_unscoped3 : ∀ w : Fin 5, (Pipeline.arrRef spec3 w).isScoped = false := by decide
theorem arr_inj3 : Set.InjOn (Pipeline.arrRef spec3) ((Finset.univ.erase 1 : Finset (Fin 5)) : Set (Fin 5)) := by
  have h : ∀ a ∈ (Finset.univ.erase 1 : Finset (Fin 5)), ∀ b ∈ (Finset.univ.erase 1 : Finset (Fin 5)),
      Pipeline.arrRef spec3 a = Pipeline.arrRef spec3 b → a = b := by decide
  exact fun a ha b hb e => h a (Finset.mem_coe.mp ha) b (Finset.mem_coe.mp hb) e
theorem arr_unscoped4 : ∀ w : Fin 5, (Pipeline.arrRef spec4 w).isScoped = false := by decide
theorem arr_inj4 : Set.InjOn (Pipeline.arrRef spec4) ((Finset.univ.erase 1 : Finset (Fin 5)) : Set (Fin 5)) := by
  have h : ∀ a ∈ (Finset.univ.erase 1 : Finset (Fin 5)), ∀ b ∈ (Finset.univ.erase 1 : Finset (Fin 5)),
      Pipeline.arrRef spec4 a = Pipeline.arrRef spec4 b → a = b := by decide
  exact fun a ha b hb e => h a (Finset.mem_coe.mp ha) b (Finset.mem_coe.mp hb) e
theorem arr_unscoped5 : ∀ w : Fin 5, (Pipeline.arrRef spec5 w).isScoped = false := by decide
theorem arr_inj5 : Set.InjOn (Pipeline.arrRef spec5) ((Finset.univ.erase 1 : Finset (Fin 5)) : Set (Fin 5)) := by
  have h : ∀ a ∈ (Finset.univ.erase 1 : Finset (Fin 5)), ∀ b ∈ (Finset.univ.erase 1 : Finset (Fin 5)),
      Pipeline.arrRef spec5 a = Pipeline.arrRef spec5 b → a = b := by decide
  exact fun a ha b hb e => h a (Finset.mem_coe.mp ha) b (Finset.mem_coe.mp hb) e
theorem arr_unscoped6 : ∀ w : Fin 5, (Pipeline.arrRef spec6 w).isScoped = false := by decide
theorem arr_inj6 : Set.InjOn (Pipeline.arrRef spec6) ((Finset.univ.erase 1 : Finset (Fin 5)) : Set (Fin 5)) := by
  have h : ∀ a ∈ (Finset.univ.erase 1 : Finset (Fin 5)), ∀ b ∈ (Finset.univ.erase 1 : Finset (Fin 5)),
      Pipeline.arrRef spec6 a = Pipeline.arrRef spec6 b → a = b := by decide
  exact fun a ha b hb e => h a (Finset.mem_coe.mp ha) b (Finset.mem_coe.mp hb) e

/-! # The regions as segments -/

set_option backward.isDefEq.respectTransparency.types false in
/-- Region 0, entered with every unscoped buffer at `W1` and left with them at `W2`. Every window stands on an array of its
    own: the arrays are split out of the unscoped buffers, each at the full share, and put back at the contents the
    pipeline leaves. The generator register goes into the region's invariant and comes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre := T (W1 m)
  post := T (W2 m)
  X c := iprop(∃ r, prngReg c r)
  Y c := iprop(∃ r, prngReg c r)
  Z c := Pipeline.unscopedRest (Ix := Unit) (Name := ℕ) (U := Pipeline.UD sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun w => A_eq0 (Vin0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (Vin0 m c) (Vin1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Entering region 1: every unscoped buffer at `W2` is the pipeline's arrays window by window — `main_arg1` dealt between
    windows 0 and 1 by the two halves of the full share, every other window's array whole — beside the buffers no window stands on. -/
theorem split1 (c : Dev nD) :
    (StableHlo.held (c : Thread nD τ) (Pipeline.ucRefs τ sig) (W2 m c) : sProp 𝕄)
      = iprop((pdats m 1 c).arrays ((pdats m 1 c).arrAt · 0)
          ∗ Pipeline.unscopedRest (Ix := Unit) (Name := ℕ) (U := Pipeline.UD sig nD τ) (Lvl := ℕ) spec1 c (Vin1 m c)) := by
  rw [← Pipeline.unscopedBufs_held (Ix := Unit) (Name := ℕ) (U := Pipeline.UD sig nD τ) (Lvl := ℕ) c (W2 m c)]
  exact Pipeline.unscopedBufs_eq_arrays_two_on_one (pdats m 1 c) arr_whole1 arr_unscoped1 0 1 (by decide : (0 : Fin 10) ≠ 1) rfl arr_inj1
    (share1_0 (Vin1 m) c) (share1_1 (Vin1 m) c) (share1_rest (Vin1 m) c) (Vin1 m c) _ (fun w => A_eq1 (Vin1 m) c w)
set_option backward.isDefEq.respectTransparency.types false in
/-- Leaving region 1: the arrays at what the pipeline leaves, the two halves of `main_arg1` put back together, beside the
    untouched buffers, are every unscoped buffer at `W3`. -/
theorem join1 (c : Dev nD) :
    (iprop((pdats m 1 c).arrays ((pdats m 1 c).arrAt · cfg1.N)
          ∗ Pipeline.unscopedRest (Ix := Unit) (Name := ℕ) (U := Pipeline.UD sig nD τ) (Lvl := ℕ) spec1 c (Vin1 m c)) : sProp 𝕄)
      = StableHlo.held (c : Thread nD τ) (Pipeline.ucRefs τ sig) (W3 m c) := by
  rw [← Pipeline.unscopedBufs_held (Ix := Unit) (Name := ℕ) (U := Pipeline.UD sig nD τ) (Lvl := ℕ) c (W3 m c),
    Pipeline.unscopedRest_congr spec1 c (Vin1 m c) (Vin2 m c) (hrest1 m c)]
  exact (Pipeline.unscopedBufs_eq_arrays_two_on_one (pdats m 1 c) arr_whole1 arr_unscoped1 0 1 (by decide : (0 : Fin 10) ≠ 1) rfl arr_inj1
    (share1_0 (Vin1 m) c) (share1_1 (Vin1 m) c) (share1_rest (Vin1 m) c) (Vin2 m c) _ (hF1 m c)).symm

set_option backward.isDefEq.respectTransparency.types false in
/-- Region 1, entered with every unscoped buffer at `W2` and left with them at `W3` (`split1`, `join1`). The generator
    register goes into the region's invariant and comes back, through the invariant's two ends `hin1`, `hout1`; nothing owed; no semaphore of the kernel's own. -/
def reg1 :
    Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vin1 m) c).loose
  hwaits := Pipeline.hwaits_of_owed_zero _ _ _ _ L lv 1 fun _ _ => rfl
  pre := T (W2 m)
  post := T (W3 m)
  X c := iprop(∃ r, prngReg c r)
  Y c := iprop(∃ r, prngReg c r)
  Z c := Pipeline.unscopedRest (Ix := Unit) (Name := ℕ) (U := Pipeline.UD sig nD τ) (Lvl := ℕ) spec1 c (Vin1 m c)
  hentry c := by
    rw [Pipeline.ownSems0_none]
    iintro ⟨⟨Hub, Hp, HO⟩, -, -⟩
    ihave H := (Entails.of_eq (split1 m c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m) c)
    unfold Pipeline.ΦA
    iintro ⟨Hp, -, Hr⟩
    isplitl [Hr]; · iexact Hr
    iexact Hp
  hout c := by
    rw [Pipeline.ownSems0_none]
    refine (hout1 (Vin1 m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (Entails.of_eq (join1 m c)); isplitl [Ha] <;> iassumption
    isplitl [HY]; · iexact HY
    unfold Pipeline.Dat.owesAt Pipeline.owesWithin
    icases HO with ⟨%W, -, HO⟩; iexists W; iexact HO

set_option backward.isDefEq.respectTransparency.types false in
/-- Entering region 2: every unscoped buffer at `W3` is the pipeline's arrays window by window — `main_arg1` dealt between
    windows 0 and 1 by the two halves of the full share, every other window's array whole — beside the buffers no window stands on. -/
theorem split2 (c : Dev nD) :
    (StableHlo.held (c : Thread nD τ) (Pipeline.ucRefs τ sig) (W3 m c) : sProp 𝕄)
      = iprop((pdats m 2 c).arrays ((pdats m 2 c).arrAt · 0)
          ∗ Pipeline.unscopedRest (Ix := Unit) (Name := ℕ) (U := Pipeline.UD sig nD τ) (Lvl := ℕ) spec2 c (Vin2 m c)) := by
  rw [← Pipeline.unscopedBufs_held (Ix := Unit) (Name := ℕ) (U := Pipeline.UD sig nD τ) (Lvl := ℕ) c (W3 m c)]
  exact Pipeline.unscopedBufs_eq_arrays_two_on_one (pdats m 2 c) arr_whole2 arr_unscoped2 0 1 (by decide : (0 : Fin 5) ≠ 1) rfl arr_inj2
    (share2_0 (Vin2 m) c) (share2_1 (Vin2 m) c) (share2_rest (Vin2 m) c) (Vin2 m c) _ (fun w => A_eq2 (Vin2 m) c w)
set_option backward.isDefEq.respectTransparency.types false in
/-- Leaving region 2: the arrays at what the pipeline leaves, the two halves of `main_arg1` put back together, beside the
    untouched buffers, are every unscoped buffer at `W4`. -/
theorem join2 (c : Dev nD) :
    (iprop((pdats m 2 c).arrays ((pdats m 2 c).arrAt · cfg2.N)
          ∗ Pipeline.unscopedRest (Ix := Unit) (Name := ℕ) (U := Pipeline.UD sig nD τ) (Lvl := ℕ) spec2 c (Vin2 m c)) : sProp 𝕄)
      = StableHlo.held (c : Thread nD τ) (Pipeline.ucRefs τ sig) (W4 m c) := by
  rw [← Pipeline.unscopedBufs_held (Ix := Unit) (Name := ℕ) (U := Pipeline.UD sig nD τ) (Lvl := ℕ) c (W4 m c),
    Pipeline.unscopedRest_congr spec2 c (Vin2 m c) (Vin3 m c) (hrest2 m c)]
  exact (Pipeline.unscopedBufs_eq_arrays_two_on_one (pdats m 2 c) arr_whole2 arr_unscoped2 0 1 (by decide : (0 : Fin 5) ≠ 1) rfl arr_inj2
    (share2_0 (Vin2 m) c) (share2_1 (Vin2 m) c) (share2_rest (Vin2 m) c) (Vin3 m c) _ (hF2 m c)).symm

set_option backward.isDefEq.respectTransparency.types false in
/-- Region 2, entered with every unscoped buffer at `W3` and left with them at `W4` (`split2`, `join2`). The generator
    register goes into the region's invariant and comes back; nothing owed; no semaphore of the kernel's own. -/
def reg2 :
    Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (Vin2 m) c).loose
  hwaits := Pipeline.hwaits_of_owed_zero _ _ _ _ L lv 2 fun _ _ => rfl
  pre := T (W3 m)
  post := T (W4 m)
  X c := iprop(∃ r, prngReg c r)
  Y c := iprop(∃ r, prngReg c r)
  Z c := Pipeline.unscopedRest (Ix := Unit) (Name := ℕ) (U := Pipeline.UD sig nD τ) (Lvl := ℕ) spec2 c (Vin2 m c)
  hentry c := by
    rw [Pipeline.ownSems0_none]
    iintro ⟨⟨Hub, Hp, HO⟩, -, -⟩
    ihave H := (Entails.of_eq (split2 m c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (Entails.of_eq (join2 m c)); isplitl [Ha] <;> iassumption
    isplitl [HY]; · iexact HY
    unfold Pipeline.Dat.owesAt Pipeline.owesWithin
    icases HO with ⟨%W, -, HO⟩; iexists W; iexact HO

set_option backward.isDefEq.respectTransparency.types false in
/-- Entering region 3: every unscoped buffer at `W4` is the pipeline's arrays window by window — `main_arg1` dealt between
    windows 0 and 1 by the two halves of the full share, every other window's array whole — beside the buffers no window stands on. -/
theorem split3 (c : Dev nD) :
    (StableHlo.held (c : Thread nD τ) (Pipeline.ucRefs τ sig) (W4 m c) : sProp 𝕄)
      = iprop((pdats m 3 c).arrays ((pdats m 3 c).arrAt · 0)
          ∗ Pipeline.unscopedRest (Ix := Unit) (Name := ℕ) (U := Pipeline.UD sig nD τ) (Lvl := ℕ) spec3 c (Vin3 m c)) := by
  rw [← Pipeline.unscopedBufs_held (Ix := Unit) (Name := ℕ) (U := Pipeline.UD sig nD τ) (Lvl := ℕ) c (W4 m c)]
  exact Pipeline.unscopedBufs_eq_arrays_two_on_one (pdats m 3 c) arr_whole3 arr_unscoped3 0 1 (by decide : (0 : Fin 5) ≠ 1) rfl arr_inj3
    (share3_0 (Vin3 m) c) (share3_1 (Vin3 m) c) (share3_rest (Vin3 m) c) (Vin3 m c) _ (fun w => A_eq3 (Vin3 m) c w)
set_option backward.isDefEq.respectTransparency.types false in
/-- Leaving region 3: the arrays at what the pipeline leaves, the two halves of `main_arg1` put back together, beside the
    untouched buffers, are every unscoped buffer at `W5`. -/
theorem join3 (c : Dev nD) :
    (iprop((pdats m 3 c).arrays ((pdats m 3 c).arrAt · cfg3.N)
          ∗ Pipeline.unscopedRest (Ix := Unit) (Name := ℕ) (U := Pipeline.UD sig nD τ) (Lvl := ℕ) spec3 c (Vin3 m c)) : sProp 𝕄)
      = StableHlo.held (c : Thread nD τ) (Pipeline.ucRefs τ sig) (W5 m c) := by
  rw [← Pipeline.unscopedBufs_held (Ix := Unit) (Name := ℕ) (U := Pipeline.UD sig nD τ) (Lvl := ℕ) c (W5 m c),
    Pipeline.unscopedRest_congr spec3 c (Vin3 m c) (Vin4 m c) (hrest3 m c)]
  exact (Pipeline.unscopedBufs_eq_arrays_two_on_one (pdats m 3 c) arr_whole3 arr_unscoped3 0 1 (by decide : (0 : Fin 5) ≠ 1) rfl arr_inj3
    (share3_0 (Vin3 m) c) (share3_1 (Vin3 m) c) (share3_rest (Vin3 m) c) (Vin4 m c) _ (hF3 m c)).symm

set_option backward.isDefEq.respectTransparency.types false in
/-- Region 3, entered with every unscoped buffer at `W4` and left with them at `W5` (`split3`, `join3`). The generator
    register goes into the region's invariant and comes back; nothing owed; no semaphore of the kernel's own. -/
def reg3 :
    Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (Vin3 m) c).loose
  hwaits := Pipeline.hwaits_of_owed_zero _ _ _ _ L lv 3 fun _ _ => rfl
  pre := T (W4 m)
  post := T (W5 m)
  X c := iprop(∃ r, prngReg c r)
  Y c := iprop(∃ r, prngReg c r)
  Z c := Pipeline.unscopedRest (Ix := Unit) (Name := ℕ) (U := Pipeline.UD sig nD τ) (Lvl := ℕ) spec3 c (Vin3 m c)
  hentry c := by
    rw [Pipeline.ownSems0_none]
    iintro ⟨⟨Hub, Hp, HO⟩, -, -⟩
    ihave H := (Entails.of_eq (split3 m c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (Entails.of_eq (join3 m c)); isplitl [Ha] <;> iassumption
    isplitl [HY]; · iexact HY
    unfold Pipeline.Dat.owesAt Pipeline.owesWithin
    icases HO with ⟨%W, -, HO⟩; iexists W; iexact HO

set_option backward.isDefEq.respectTransparency.types false in
/-- Entering region 4: every unscoped buffer at `W5` is the pipeline's arrays window by window — `main_arg1` dealt between
    windows 0 and 1 by the two halves of the full share, every other window's array whole — beside the buffers no window stands on. -/
theorem split4 (c : Dev nD) :
    (StableHlo.held (c : Thread nD τ) (Pipeline.ucRefs τ sig) (W5 m c) : sProp 𝕄)
      = iprop((pdats m 4 c).arrays ((pdats m 4 c).arrAt · 0)
          ∗ Pipeline.unscopedRest (Ix := Unit) (Name := ℕ) (U := Pipeline.UD sig nD τ) (Lvl := ℕ) spec4 c (Vin4 m c)) := by
  rw [← Pipeline.unscopedBufs_held (Ix := Unit) (Name := ℕ) (U := Pipeline.UD sig nD τ) (Lvl := ℕ) c (W5 m c)]
  exact Pipeline.unscopedBufs_eq_arrays_two_on_one (pdats m 4 c) arr_whole4 arr_unscoped4 0 1 (by decide : (0 : Fin 5) ≠ 1) rfl arr_inj4
    (share4_0 (Vin4 m) c) (share4_1 (Vin4 m) c) (share4_rest (Vin4 m) c) (Vin4 m c) _ (fun w => A_eq4 (Vin4 m) c w)
set_option backward.isDefEq.respectTransparency.types false in
/-- Leaving region 4: the arrays at what the pipeline leaves, the two halves of `main_arg1` put back together, beside the
    untouched buffers, are every unscoped buffer at `W6`. -/
theorem join4 (c : Dev nD) :
    (iprop((pdats m 4 c).arrays ((pdats m 4 c).arrAt · cfg4.N)
          ∗ Pipeline.unscopedRest (Ix := Unit) (Name := ℕ) (U := Pipeline.UD sig nD τ) (Lvl := ℕ) spec4 c (Vin4 m c)) : sProp 𝕄)
      = StableHlo.held (c : Thread nD τ) (Pipeline.ucRefs τ sig) (W6 m c) := by
  rw [← Pipeline.unscopedBufs_held (Ix := Unit) (Name := ℕ) (U := Pipeline.UD sig nD τ) (Lvl := ℕ) c (W6 m c),
    Pipeline.unscopedRest_congr spec4 c (Vin4 m c) (Vin5 m c) (hrest4 m c)]
  exact (Pipeline.unscopedBufs_eq_arrays_two_on_one (pdats m 4 c) arr_whole4 arr_unscoped4 0 1 (by decide : (0 : Fin 5) ≠ 1) rfl arr_inj4
    (share4_0 (Vin4 m) c) (share4_1 (Vin4 m) c) (share4_rest (Vin4 m) c) (Vin5 m c) _ (hF4 m c)).symm

set_option backward.isDefEq.respectTransparency.types false in
/-- Region 4, entered with every unscoped buffer at `W5` and left with them at `W6` (`split4`, `join4`). The generator
    register goes into the region's invariant and comes back; nothing owed; no semaphore of the kernel's own. -/
def reg4 :
    Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (Vin4 m) c).loose
  hwaits := Pipeline.hwaits_of_owed_zero _ _ _ _ L lv 4 fun _ _ => rfl
  pre := T (W5 m)
  post := T (W6 m)
  X c := iprop(∃ r, prngReg c r)
  Y c := iprop(∃ r, prngReg c r)
  Z c := Pipeline.unscopedRest (Ix := Unit) (Name := ℕ) (U := Pipeline.UD sig nD τ) (Lvl := ℕ) spec4 c (Vin4 m c)
  hentry c := by
    rw [Pipeline.ownSems0_none]
    iintro ⟨⟨Hub, Hp, HO⟩, -, -⟩
    ihave H := (Entails.of_eq (split4 m c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (Entails.of_eq (join4 m c)); isplitl [Ha] <;> iassumption
    isplitl [HY]; · iexact HY
    unfold Pipeline.Dat.owesAt Pipeline.owesWithin
    icases HO with ⟨%W, -, HO⟩; iexists W; iexact HO

set_option backward.isDefEq.respectTransparency.types false in
/-- Entering region 5: every unscoped buffer at `W6` is the pipeline's arrays window by window — `main_arg1` dealt between
    windows 0 and 1 by the two halves of the full share, every other window's array whole — beside the buffers no window stands on. -/
theorem split5 (c : Dev nD) :
    (StableHlo.held (c : Thread nD τ) (Pipeline.ucRefs τ sig) (W6 m c) : sProp 𝕄)
      = iprop((pdats m 5 c).arrays ((pdats m 5 c).arrAt · 0)
          ∗ Pipeline.unscopedRest (Ix := Unit) (Name := ℕ) (U := Pipeline.UD sig nD τ) (Lvl := ℕ) spec5 c (Vin5 m c)) := by
  rw [← Pipeline.unscopedBufs_held (Ix := Unit) (Name := ℕ) (U := Pipeline.UD sig nD τ) (Lvl := ℕ) c (W6 m c)]
  exact Pipeline.unscopedBufs_eq_arrays_two_on_one (pdats m 5 c) arr_whole5 arr_unscoped5 0 1 (by decide : (0 : Fin 5) ≠ 1) rfl arr_inj5
    (share5_0 (Vin5 m) c) (share5_1 (Vin5 m) c) (share5_rest (Vin5 m) c) (Vin5 m c) _ (fun w => A_eq5 (Vin5 m) c w)
set_option backward.isDefEq.respectTransparency.types false in
/-- Leaving region 5: the arrays at what the pipeline leaves, the two halves of `main_arg1` put back together, beside the
    untouched buffers, are every unscoped buffer at `W7`. -/
theorem join5 (c : Dev nD) :
    (iprop((pdats m 5 c).arrays ((pdats m 5 c).arrAt · cfg5.N)
          ∗ Pipeline.unscopedRest (Ix := Unit) (Name := ℕ) (U := Pipeline.UD sig nD τ) (Lvl := ℕ) spec5 c (Vin5 m c)) : sProp 𝕄)
      = StableHlo.held (c : Thread nD τ) (Pipeline.ucRefs τ sig) (W7 m c) := by
  rw [← Pipeline.unscopedBufs_held (Ix := Unit) (Name := ℕ) (U := Pipeline.UD sig nD τ) (Lvl := ℕ) c (W7 m c),
    Pipeline.unscopedRest_congr spec5 c (Vin5 m c) (Vin6 m c) (hrest5 m c)]
  exact (Pipeline.unscopedBufs_eq_arrays_two_on_one (pdats m 5 c) arr_whole5 arr_unscoped5 0 1 (by decide : (0 : Fin 5) ≠ 1) rfl arr_inj5
    (share5_0 (Vin5 m) c) (share5_1 (Vin5 m) c) (share5_rest (Vin5 m) c) (Vin6 m c) _ (hF5 m c)).symm

set_option backward.isDefEq.respectTransparency.types false in
/-- Region 5, entered with every unscoped buffer at `W6` and left with them at `W7` (`split5`, `join5`). The generator
    register goes into the region's invariant and comes back; nothing owed; no semaphore of the kernel's own. -/
def reg5 :
    Pipeline.RegionSeg (pcfgs (F := F)) adm (pdats m) () defs₀ 𝒱₀ L lv 5 where
  win := winFacts₀5
  block_pos := block_pos5
  stage_whole := stage_whole5
  K := PEmpty
  osem k := k.elim
  ho := Pipeline.OwnSemFacts.none _
  hbody c := (body_obligation5 (Vin5 m) c).loose
  hwaits := Pipeline.hwaits_of_owed_zero _ _ _ _ L lv 5 fun _ _ => rfl
  pre := T (W6 m)
  post := T (W7 m)
  X c := iprop(∃ r, prngReg c r)
  Y c := iprop(∃ r, prngReg c r)
  Z c := Pipeline.unscopedRest (Ix := Unit) (Name := ℕ) (U := Pipeline.UD sig nD τ) (Lvl := ℕ) spec5 c (Vin5 m c)
  hentry c := by
    rw [Pipeline.ownSems0_none]
    iintro ⟨⟨Hub, Hp, HO⟩, -, -⟩
    ihave H := (Entails.of_eq (split5 m c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (Entails.of_eq (join5 m c)); isplitl [Ha] <;> iassumption
    isplitl [HY]; · iexact HY
    unfold Pipeline.Dat.owesAt Pipeline.owesWithin
    icases HO with ⟨%W, -, HO⟩; iexists W; iexact HO

set_option backward.isDefEq.respectTransparency.types false in
/-- Entering region 6: every unscoped buffer at `W7` is the pipeline's arrays window by window — `main_arg1` dealt between
    windows 0 and 1 by the two halves of the full share, every other window's array whole — beside the buffers no window stands on. -/
theorem split6 (c : Dev nD) :
    (StableHlo.held (c : Thread nD τ) (Pipeline.ucRefs τ sig) (W7 m c) : sProp 𝕄)
      = iprop((pdats m 6 c).arrays ((pdats m 6 c).arrAt · 0)
          ∗ Pipeline.unscopedRest (Ix := Unit) (Name := ℕ) (U := Pipeline.UD sig nD τ) (Lvl := ℕ) spec6 c (Vin6 m c)) := by
  rw [← Pipeline.unscopedBufs_held (Ix := Unit) (Name := ℕ) (U := Pipeline.UD sig nD τ) (Lvl := ℕ) c (W7 m c)]
  exact Pipeline.unscopedBufs_eq_arrays_two_on_one (pdats m 6 c) arr_whole6 arr_unscoped6 0 1 (by decide : (0 : Fin 5) ≠ 1) rfl arr_inj6
    (share6_0 (Vin6 m) c) (share6_1 (Vin6 m) c) (share6_rest (Vin6 m) c) (Vin6 m c) _ (fun w => A_eq6 (Vin6 m) c w)
set_option backward.isDefEq.respectTransparency.types false in
/-- Leaving region 6: the arrays at what the pipeline leaves, the two halves of `main_arg1` put back together, beside the
    untouched buffers, are every unscoped buffer at `W8`. -/
theorem join6 (c : Dev nD) :
    (iprop((pdats m 6 c).arrays ((pdats m 6 c).arrAt · cfg6.N)
          ∗ Pipeline.unscopedRest (Ix := Unit) (Name := ℕ) (U := Pipeline.UD sig nD τ) (Lvl := ℕ) spec6 c (Vin6 m c)) : sProp 𝕄)
      = StableHlo.held (c : Thread nD τ) (Pipeline.ucRefs τ sig) (W8 m c) := by
  rw [← Pipeline.unscopedBufs_held (Ix := Unit) (Name := ℕ) (U := Pipeline.UD sig nD τ) (Lvl := ℕ) c (W8 m c),
    Pipeline.unscopedRest_congr spec6 c (Vin6 m c) (Vin7 m c) (hrest6 m c)]
  exact (Pipeline.unscopedBufs_eq_arrays_two_on_one (pdats m 6 c) arr_whole6 arr_unscoped6 0 1 (by decide : (0 : Fin 5) ≠ 1) rfl arr_inj6
    (share6_0 (Vin6 m) c) (share6_1 (Vin6 m) c) (share6_rest (Vin6 m) c) (Vin7 m c) _ (hF6 m c)).symm

set_option backward.isDefEq.respectTransparency.types false in
/-- Region 6, entered with every unscoped buffer at `W7` and left with them at `W8` (`split6`, `join6`). The generator
    register goes into the region's invariant and comes back; nothing owed; no semaphore of the kernel's own. -/
def reg6 :
    Pipeline.RegionSeg (pcfgs (F := F)) adm (pdats m) () defs₀ 𝒱₀ L lv 6 where
  win := winFacts₀6
  block_pos := block_pos6
  stage_whole := stage_whole6
  K := PEmpty
  osem k := k.elim
  ho := Pipeline.OwnSemFacts.none _
  hbody c := (body_obligation6 (Vin6 m) c).loose
  hwaits := Pipeline.hwaits_of_owed_zero _ _ _ _ L lv 6 fun _ _ => rfl
  pre := T (W7 m)
  post := T (W8 m)
  X c := iprop(∃ r, prngReg c r)
  Y c := iprop(∃ r, prngReg c r)
  Z c := Pipeline.unscopedRest (Ix := Unit) (Name := ℕ) (U := Pipeline.UD sig nD τ) (Lvl := ℕ) spec6 c (Vin6 m c)
  hentry c := by
    rw [Pipeline.ownSems0_none]
    iintro ⟨⟨Hub, Hp, HO⟩, -, -⟩
    ihave H := (Entails.of_eq (split6 m c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (Entails.of_eq (join6 m c)); isplitl [Ha] <;> iassumption
    isplitl [HY]; · iexact HY
    unfold Pipeline.Dat.owesAt Pipeline.owesWithin
    icases HO with ⟨%W, -, HO⟩; iexists W; iexact HO

/-! # @main as segments, and the launch -/

/-- @main's nine items in order: the four reshapes from the launch contents, the seven regions, the concatenate from `W8`. -/
abbrev segs : List (Pipeline.Seg (pcfgs (F := F)) adm (pdats m) () defs₀ 𝒱₀ L lv) :=
  [ .host (hseg hostOps0 hostOps0_sub hostOps0_fresh (W0 m)),
    .region (reg0 m), .region (reg1 m), .region (reg2 m), .region (reg3 m), .region (reg4 m), .region (reg5 m), .region (reg6 m),
    .host (hseg hostOps7 hostOps7_sub hostOps7_fresh (W8 m)) ]
/-- @main is the run of these segments. -/
theorem main_run (c : Dev nD) : main (F := F) c = Pipeline.Seg.run (segs m) :=
  main_segs adm (pdats m) () 𝒱₀ L lv _ _ (reg0 m) (reg1 m) (reg2 m) (reg3 m) (reg4 m) (reg5 m) (reg6 m) rfl rfl c

set_option backward.isDefEq.respectTransparency.types false in
/-- THE RUN. At the compiled mesh, from any memory `m` with zero counters and any generator registers, every weakly fair
    execution of @main on the TensorCores terminates, nothing faulting, and in every final state each unscoped buffer of
    each core holds the last contents of the fold, `W9`; so whatever follows from that of a final memory (`hQ`) holds of it.
    The thread state chains from item to item by name: each item is entered with the contents the one before it left. -/
theorem run_of (ρ : Dev nD → PrngReg) {Q : PUnit × MemSt nD τ sig (Elt F) → Prop}
    (hQ : ∀ s : MemSt nD τ sig (Elt F), (∀ c : Dev nD, ∀ b ∈ Pipeline.ucRefs τ sig, s.mem ((c : Thread nD τ).1, b) = W9 m c b) → Q (⟨⟩, s)) :
    θ_run defs (onTc (τ := τ) (main (F := F))) ⟨m, fun _ => 0, ρ⟩ Q :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := T (W0 m)) (Tₙ := fun c => StableHlo.held (c : Thread nD τ) (Pipeline.ucRefs τ sig) (W9 m c))
    (hch := ⟨fun _ => .rfl, fun _ => .rfl, fun _ => .rfl, fun _ => .rfl, fun _ => .rfl, fun _ => .rfl, fun _ => .rfl, fun _ => .rfl, fun _ => .rfl,
      fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W9 m c b)
    (hfin := fun c s' => by
      iintro ⟨Hh, HSI⟩
      unfold StableHlo.held
      imodintro
      iapply (pointsTo_read_all (Pipeline.ucRefs τ sig) (fun b => ((c : Thread nD τ).1, b)) (W9 m c) s')
      isplitl [Hh] <;> iassumption)
    (hQ := hQ)

/-- Every final state has every unscoped buffer of every core at `W9`. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W9 m c b) :=
  run_of m ρ fun _ h => h

/-- THE FRAME: every execution terminates, nothing faulting, and the ten argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_of m ρ fun s h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c),
     (h c _ (mem_uc main_arg9 (by decide))).trans (W9_main_arg9 m c)⟩

/-- The result array at the end: the five row bands `main_v6` … `main_v10`, as regions 2 to 6 left them, one above the other. -/
theorem W9_main_v11 (c : Dev nD) : W9 m c (Proc.devRef .tc main_v11)
    = concatenate S10000x8 0 [⟨S2000x8, W8 m c (Proc.devRef .tc main_v6)⟩, ⟨S2000x8, W8 m c (Proc.devRef .tc main_v7)⟩, ⟨S2000x8, W8 m c (Proc.devRef .tc main_v8)⟩,
        ⟨S2000x8, W8 m c (Proc.devRef .tc main_v9)⟩, ⟨S2000x8, W8 m c (Proc.devRef .tc main_v10)⟩] concatenates_S2000x8_S2000x8_S2000x8_S2000x8_S2000x8_S10000x8_d0 := by
  show StableHlo.after hostOps7 (W8 m c) (Proc.devRef .tc main_v11) = _
  generalize W8 m c = G
  after_results
  rfl

end Cert.Kernel.Hand

end
-- ==== Proof.Reg0.lean ====
/- The half of region 0 of @main (custom_call 0, `cc0__small_mm_kernel`, one point, nine windows on nine distinct
   arrays), at a parameter `V`: the core's buffer contents when the region is entered. Each window's block read off
   its array; what the body's one store per output leaves in the output's staging buffer, as a function of the input
   blocks; the body's triple; the pipeline's proof data over the invariant `ΦA`; its body obligation. Generic in
   the float model. -/
import proofs.«181509_g20452634264145_cont_8to1_1942_16_alg».proof.Proof.Gen.KernelIdeal.Launch
import proofs.«181509_g20452634264145_cont_8to1_1942_16_alg».proof.Proof.Gen.KernelIdeal.Skeleton
import proofs.«181509_g20452634264145_cont_8to1_1942_16_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's staging buffer holds its block at the point, for any proof data whose array is `V`'s and whose
    body leaves the block in place: the window is whole, uncut and never idle. -/

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rX : Rect S10000x128 := Rect.unit (s := S10000x128) ![0, 0] S10000x128.size inb_S10000x128_S10000x128_0_0
abbrev rW16 : Rect S128x16 := Rect.unit (s := S128x16) ![0, 0] S128x16.size inb_S128x16_S128x16_0_0
abbrev rW8 : Rect S128x8 := Rect.unit (s := S128x8) ![0, 0] S128x8.size inb_S128x8_S128x8_0_0
abbrev rB16 : Rect S1x16 := Rect.unit (s := S1x16) ![0, 0] S1x16.size inb_S1x16_S1x16_0_0
abbrev rB8 : Rect S1x8 := Rect.unit (s := S1x8) ![0, 0] S1x8.size inb_S1x8_S1x8_0_0
abbrev rO16 : Rect S10000x16 := Rect.unit (s := S10000x16) ![0, 0] S10000x16.size inb_S10000x16_S10000x16_0_0
abbrev rO8 : Rect S10000x8 := Rect.unit (s := S10000x8) ![0, 0] S10000x8.size inb_S10000x8_S10000x8_0_0

/-! ## What the body leaves in each output window's buffer -/

/-- Output window 6's staging buffer after the body: its one store, of `x · W1`. -/
def out0_6 (x0 : Vec F S10000x128 .f32) (x1 : Vec F S128x16 .f32) : Vec F S10000x16 .f32 :=
  View.canon [⟨rO16, k0_pay1 (View.ld x0 rX) (View.ld x1 rW16)⟩]

/-- Output window 7's staging buffer after the body: its one store, of `x · W2 + b2`. -/
def out0_7 (x0 : Vec F S10000x128 .f32) (x2 : Vec F S128x16 .f32) (x4 : Vec F S1x16 .f32) : Vec F S10000x16 .f32 :=
  View.canon [⟨rO16, k0_pay2 (View.ld x0 rX) (View.ld x2 rW16) (View.ld x4 rB16)⟩]

/-- Output window 8's staging buffer after the body: its one store, of `x · W4 + b4`. -/
def out0_8 (x0 : Vec F S10000x128 .f32) (x3 : Vec F S128x8 .f32) (x5 : Vec F S1x8 .f32) : Vec F S10000x8 .f32 :=
  View.canon [⟨rO8, k0_pay3 (View.ld x0 rX) (View.ld x3 rW8) (View.ld x5 rB8)⟩]

/-- A store of the whole buffer covers it. -/
theorem cover0_16 (p0 : Vec F S10000x16 .f32) (y : S10000x16.Idx) :
    ∃ pc ∈ ([⟨rO16, p0⟩] : List (View.Piece (Elt F) S10000x16 .f32)), y ∈ pc.1.set :=
  View.cover_of_tiled [⟨rO16, p0⟩] S10000x16.size (by rfl) y

theorem cover0_8 (p0 : Vec F S10000x8 .f32) (y : S10000x8.Idx) :
    ∃ pc ∈ ([⟨rO8, p0⟩] : List (View.Piece (Elt F) S10000x8 .f32)), y ∈ pc.1.set :=
  View.cover_of_tiled [⟨rO8, p0⟩] S10000x8.size (by rfl) y

/-! ## The body's triple -/

set_option maxHeartbeats 4000000 in
/-- The kernel body on whole staging memrefs, the inputs' at read contents and the outputs' at anything, runs to the
    continuation holding the inputs' as they were and each output's at `out0_W` of the inputs'. The body reads each
    output's buffer once before storing into it; the value read is not used. -/
theorem sound_kernel0 (c : Dev nD) (E : Set ℕ) (a0 : Memref sig .tc .vmem S10000x128 .f32) (ha0 : a0.IsWhole) (a1 : Memref sig .tc .vmem S128x16 .f32) (ha1 : a1.IsWhole) (a2 : Memref sig .tc .vmem S128x16 .f32) (ha2 : a2.IsWhole) (a3 : Memref sig .tc .vmem S128x8 .f32) (ha3 : a3.IsWhole) (a4 : Memref sig .tc .vmem S1x16 .f32) (ha4 : a4.IsWhole) (a5 : Memref sig .tc .vmem S1x8 .f32) (ha5 : a5.IsWhole) (a6 : Memref sig .tc .vmem S10000x16 .f32) (ha6 : a6.IsWhole) (a7 : Memref sig .tc .vmem S10000x16 .f32) (ha7 : a7.IsWhole) (a8 : Memref sig .tc .vmem S10000x8 .f32) (ha8 : a8.IsWhole)
    (x0 : Vec F S10000x128 .f32) (x1 : Vec F S128x16 .f32) (x2 : Vec F S128x16 .f32) (x3 : Vec F S128x8 .f32) (x4 : Vec F S1x16 .f32) (x5 : Vec F S1x8 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (∃ d, owns (c : Thread nD τ) a6 fullShare d) ∗ (∃ d, owns (c : Thread nD τ) a7 fullShare d) ∗ (∃ d, owns (c : Thread nD τ) a8 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare (out0_6 x0 x1) ∗ owns (c : Thread nD τ) a7 fullShare (out0_7 x0 x2 x4)
            ∗ owns (c : Thread nD τ) a8 fullShare (out0_8 x0 x3 x5)) -∗ K ⟨⟩))
      ⊢ wp frame (wpE (defs₀ (F := F)) Variants.none c none) E (cc0__small_mm_kernel a0 ha0 a1 ha1 a2 ha2 a3 ha3 a4 ha4 a5 ha5 a6 ha6 a7 ha7 a8 ha8) K := by
  simp only [cc0__small_mm_kernel_eq_skeleton]; unfold cc0__small_mm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_16 _)
  isplitl [H7]
  · iexists _; isplitr
    swap; · iexact H7
    ipureintro
    exact View.read_writes_eq_canon _ _ _ (cover0_16 _)
  iexists _; isplitr
  swap; · iexact H8
  ipureintro
  exact View.read_writes_eq_canon _ _ _ (cover0_8 _)

/-! ## The pipeline's proof data -/

/-- The proof data of pipeline 0 on core `c`: the arrays as the region finds them (`V`); after the body at the point
    each input's buffer at its block and each output's at `out0_W` of the input blocks; the invariant `ΦA` (the scoped
    rest and the generator register, untouched); nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t)
    | ⟨7, _⟩ => out0_7 (iblk0 V c 0 t) (iblk0 V c 2 t) (iblk0 V c 4 t)
    | ⟨8, _⟩ => out0_8 (iblk0 V c 0 t) (iblk0 V c 3 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) := by dsimp only [dat0]
theorem after0_7 (c : Dev nD) (t : Fin cfg0.N) : (dat0 V c).after 7 t = out0_7 (iblk0 V c 0 t) (iblk0 V c 2 t) (iblk0 V c 4 t) := by dsimp only [dat0]
theorem after0_8 (c : Dev nD) (t : Fin cfg0.N) : (dat0 V c).after 8 t = out0_8 (iblk0 V c 0 t) (iblk0 V c 3 t) (iblk0 V c 5 t) := by dsimp only [dat0]

/-- Each input's staging buffer holds its block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 4000000 in
/-- The body at the point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at the point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.Reg1RunB.lean ====
import proofs.«181509_g20452634264145_cont_8to1_1942_16_alg».proof.Proof.Gen.KernelIdeal.Launch
import proofs.«181509_g20452634264145_cont_8to1_1942_16_alg».proof.Proof.Gen.KernelIdeal.Skeleton
import proofs.«181509_g20452634264145_cont_8to1_1942_16_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Region 1: the branch on the first grid point -/

/-- The body's one conditional: taken exactly when the grid coordinate is zero (the scratch is then filled whole:
    columns 0..15 from the first projection, columns 16..23 with zeros). -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)

/-- The scratch the body carries from one grid point to the next, whole, and the view its contents are stated through. -/
abbrev scM1_0 : Memref sig .tc .vmem S10000x24 .f32 := Memref.whole cc1_scratch0
abbrev VS1_0 : View sig .tc .vmem S10000x24 .f32 := scM1_0.view
abbrev VO1_8 : View sig .tc .vmem S400x8 .f32 := (Memref.whole cc1_stg8_0 : Memref sig .tc .vmem S400x8 .f32).view
abbrev VO1_9 : View sig .tc .vmem S400x8 .f32 := (Memref.whole cc1_stg9_0 : Memref sig .tc .vmem S400x8 .f32).view

set_option maxHeartbeats 4000000 in
/-- At a later grid point (the conditional not taken): on whole staging memrefs holding the eight input blocks, the two
    output buffers at anything and the scratch at the contents `xs0` the point before left, the body runs; the inputs
    are as they were, each output buffer holds its two half-blocks stored, and the scratch holds `xs0` with the two
    new row blocks of its last eight columns written. -/
noncomputable def kernelRun1_B (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : ¬cond1_0 i)
    (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) (xs0 : Vec F S10000x24 .f32) :
    Σ' (L8 : List (View.Piece (Elt F) S400x8 .f32)) (L9 : List (View.Piece (Elt F) S400x8 .f32)), { LS0 : List (View.Piece (Elt F) S10000x24 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (arg11.view.loc (c : Thread nD τ) ↦[arg11.view.set]{fullShare} arg11.view.writes (Elt F) (harg11.unread xs0) LS0)) -∗ K ⟨⟩))
          ⊢ wp frame (wpE (defs₀ (F := F)) Variants.none c none) E (cc1__pass1_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__pass1_kernel_eq_skeleton]; unfold cc1__pass1_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg11.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexact HS0

end Cert.KernelIdeal.Hand

end
-- ==== Proof.Reg1RunA.lean ====
import proofs.«181509_g20452634264145_cont_8to1_1942_16_alg».proof.Proof.Reg1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- At the first grid point (the conditional taken): on whole staging memrefs holding the eight input blocks, the two
    output buffers and the scratch at anything, the body runs; the inputs are as they were, each output buffer holds its
    two half-blocks stored, and the scratch holds the pieces stored into it: its first sixteen columns and its last eight
    whole, then the two new row blocks of its last eight columns. -/
noncomputable def kernelRun1_A (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : cond1_0 i)
    (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) :
    Σ' (L8 : List (View.Piece (Elt F) S400x8 .f32)) (L9 : List (View.Piece (Elt F) S400x8 .f32)), { LS0 : List (View.Piece (Elt F) S10000x24 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc1__pass1_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__pass1_kernel_eq_skeleton]; unfold cc1__pass1_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _; iexact HS0

end Cert.KernelIdeal.Hand

end
-- ==== Proof.Reg1.lean ====
import proofs.«181509_g20452634264145_cont_8to1_1942_16_alg».proof.Proof.Reg1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1 of @main (the first pass over the adjacency, bottom-up), at the entry contents `V`

Twenty-five grid points; point `t` handles the two row blocks `48 - 2t` and `49 - 2t` of the adjacency. The scratch
`[10000, 24]` is carried from point to point: columns 0..15 hold the first projection, columns 16..23 the second
projection's rows found so far (zero elsewhere). -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not. -/
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, fetched there or not. -/
theorem before1_7_of {c : Dev nD} (dat : Dat τ (Elt F) Unit ℕ (Pipeline.UD sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it to the body. -/
abbrev ms1_0 (t : Fin cfg1.N) : Memref sig .tc .vmem S200x10000 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S200x10000 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10000x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S400x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x16 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S16x8 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S400x8 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x8 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S400x8 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S400x8 .f32 := win1_9.stage (cfg1.slots t 9)
abbrev hs1_9 (t : Fin cfg1.N) : (ms1_9 t).IsWhole := hstage1_9 ((cfg1.slots t 9).cast nbuf1_9)

/-- The class invariant with the carried scratch taken out of the scoped rest. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := Pipeline.UD sig nD τ) (Lvl := ℕ) (Val := Elt F) spec1 c [cc1_scratch0]) ∗ (∃ r, prngReg c r)) := by
  unfold Pipeline.ΦA; rw [scopedRest1_split]; simp only [scM1_0, owns_whole]; try rfl

end Region1

/-! ## What each case leaves in the two output buffers and in the scratch -/

/-- First point: each output block is its two stored halves. -/
theorem cover1_A_8 (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) (y : S400x8.Idx) :
    ∃ pc ∈ (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7).1 S200x8.size (by sl_kernel_rfl) y
theorem cover1_A_9 (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) (y : S400x8.Idx) :
    ∃ pc ∈ (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7).2.1 S200x8.size (by sl_kernel_rfl) y
theorem cover1_B_8 (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : ¬cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) (xs0 : Vec F S10000x24 .f32) (y : S400x8.Idx) :
    ∃ pc ∈ (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 xs0).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 xs0).1 S200x8.size (by sl_kernel_rfl) y
theorem cover1_B_9 (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : ¬cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) (xs0 : Vec F S10000x24 .f32) (y : S400x8.Idx) :
    ∃ pc ∈ (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 xs0).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 xs0).2.1 S200x8.size (by sl_kernel_rfl) y

/-- The two whole-height column bands `[0,16)` and `[16,24)` of the scratch. -/
abbrev r1_lo : Rect S10000x24 := Rect.unit (s := S10000x24) ![0, 0] S10000x16.size inb_S10000x24_S10000x16_0_0
abbrev r1_hi : Rect S10000x24 := Rect.unit (s := S10000x24) ![0, 16] S10000x8.size inb_S10000x24_S10000x8_0_16
/-- Every index of the scratch lies in one of the two bands. -/
theorem bands_cover (y : S10000x24.Idx) : y ∈ r1_lo.set ∨ y ∈ r1_hi.set := by
  by_cases h : (y 1).val < 16
  · left; rw [Rect.mem_set_unit]; intro a
    match a with
    | ⟨0, _⟩ => exact ⟨Nat.zero_le _, by have := (y 0).isLt; simpa using this⟩
    | ⟨1, _⟩ => exact ⟨Nat.zero_le _, by simpa using h⟩
  · right; rw [Rect.mem_set_unit]; intro a
    match a with
    | ⟨0, _⟩ => exact ⟨Nat.zero_le _, by have := (y 0).isLt; simpa using this⟩
    | ⟨1, _⟩ => exact ⟨by simpa using Nat.le_of_not_lt h, by have := (y 1).isLt; simpa using this⟩

/-- First point: the scratch is covered by what is stored into it (the two bands are stored whole before the two row blocks). -/
theorem scover1_A_0 (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) (y : S10000x24.Idx) :
    ∃ pc ∈ (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7).2.2.1, y ∈ pc.1.set := by
  have hL : ∃ a b v2 v1, (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7).2.2.1 = [a, b, ⟨r1_hi, v2⟩, ⟨r1_lo, v1⟩] := by
    unfold kernelRun1_A; dsimp only; sl_unfold_run_names; exact ⟨_, _, _, _, rfl⟩
  obtain ⟨a, b, v2, v1, hL⟩ := hL
  rw [hL]
  rcases bands_cover y with h | h
  · exact ⟨⟨r1_lo, v1⟩, by simp, h⟩
  · exact ⟨⟨r1_hi, v2⟩, by simp, h⟩

/-- What the first point leaves in the outputs and in the scratch: the pieces read back. -/
def out1_A_8 (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) : Vec F S400x8 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7).1)
def out1_A_9 (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) : Vec F S400x8 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7).2.1)
def sout1_A_0 (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) : Vec F S10000x24 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7).2.2.1)
/-- What a later point leaves: the outputs' pieces read back; the scratch's two new row blocks written over what the point before left. -/
def out1_B_8 (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : ¬cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) (xs0 : Vec F S10000x24 .f32) : Vec F S400x8 .f32 :=
  VO1_8.read (Elt F) (VO1_8.writes (Elt F) VO1_8.junk (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 xs0).1)
def out1_B_9 (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : ¬cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) (xs0 : Vec F S10000x24 .f32) : Vec F S400x8 .f32 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 xs0).2.1)
def sout1_B_0 (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : ¬cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) (xs0 : Vec F S10000x24 .f32) : Vec F S10000x24 .f32 :=
  arg11.view.read (Elt F) (arg11.view.writes (Elt F) (harg11.unread xs0) (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 xs0).2.2.1)

section Region1b

variable (V : (c : Dev nD) → (b : Ref sig .tc) → Buf (Elt F) ((c : Thread nD τ).loc b))

theorem hcA1 (hn : 0 < cfg1.N) : cond1_0 (grid1.coords ⟨0, hn⟩) := (hcond1_0 ⟨0, hn⟩).mpr (Nat.zero_mod _)
theorem hcB1 (n : ℕ) (hn : n + 1 < cfg1.N) : ¬cond1_0 (grid1.coords ⟨n + 1, hn⟩) := fun h => by
  have h' : (n + 1) % 25 = 0 := (hcond1_0 ⟨n + 1, hn⟩).mp h
  have hN : n + 1 < 25 := lt_of_lt_of_eq hn (show cfg1.N = 25 from N_1)
  omega

/-- What the two output buffers and the scratch hold after the body at point `n`: the first point from the input blocks
    alone, a later one from the input blocks and the scratch the point before left. -/
def outsAt1 (c : Dev nD) : (n : ℕ) → n < cfg1.N → Vec F S400x8 .f32 × Vec F S400x8 .f32 × Vec F S10000x24 .f32
  | 0, hn =>
    (out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) (hcA1 hn) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩),
     out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) (hcA1 hn) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) (hcA1 hn) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    (out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (hcB1 n hn) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.2,
     out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (hcB1 n hn) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.2,
     sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (hcB1 n hn) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.2)

/-- The invariant before position `n`: before the first point the class's; afterwards the scratch at what the point
    before left in it, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ Pipeline.scopedRestBut (Ix := Unit) (Name := ℕ) (U := Pipeline.UD sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2.2) ∗ Pipeline.scopedRestBut (Ix := Unit) (Name := ℕ) (U := Pipeline.UD sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ Pipeline.scopedRestBut (Ix := Unit) (Name := ℕ) (U := Pipeline.UD sig nD τ) (Lvl := ℕ) (Val := Elt F) spec1 c [cc1_scratch0]) ∗ (∃ r, prngReg c r)) := by
  cases n with
  | zero => exact absurd rfl hz
  | succ n => rfl

/-- The proof data of pipeline 1 on core `c`: the arrays as the region finds them; after the body at point `t` each
    input's buffer at its block and the outputs' at `outsAt1`; the invariant `PhiS1`; nothing owed; the adjacency,
    which two windows read, dealt to them by the two halves of the full share. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
    | ⟨9, _⟩ => (outsAt1 V c t.val t.isLt).2.1
    | ⟨_ + 10, h⟩ => absurd h (Nat.not_lt.2 (Nat.le_add_left _ _))
  Φ t := PhiS1 V c t.val (Nat.le_of_lt_succ t.isLt)
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]
theorem share1_0 (c : Dev nD) : (dat1 V c).share 0 = fullShare.left := rfl
theorem share1_1 (c : Dev nD) : (dat1 V c).share 1 = fullShare.right := rfl
theorem share1_rest (c : Dev nD) : ∀ w : Fin cfg1.W, w ≠ 0 → w ≠ 1 → (dat1 V c).share w = fullShare := by
  intro w h0 h1
  match w with
  | ⟨0, _⟩ => exact absurd rfl h0
  | ⟨1, _⟩ => exact absurd rfl h1
  | ⟨2, _⟩ | ⟨3, _⟩ | ⟨4, _⟩ | ⟨5, _⟩ | ⟨6, _⟩ | ⟨7, _⟩ | ⟨8, _⟩ | ⟨9, _⟩ => rfl
  | ⟨_ + 10, h⟩ => exact absurd h (Nat.not_lt.2 (Nat.le_add_left _ _))

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]
theorem after1_9 (c : Dev nD) (t : Fin cfg1.N) : (dat1 V c).after 9 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

end Region1b

end Cert.KernelIdeal.Hand

end
-- ==== Proof.Reg1Body.lean ====
import proofs.«181509_g20452634264145_cont_8to1_1942_16_alg».proof.Proof.Reg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1c

variable (V : (c : Dev nD) → (b : Ref sig .tc) → Buf (Elt F) ((c : Thread nD τ).loc b))

theorem hcA1' (t : Fin cfg1.N) (hz : t.val = 0) : cond1_0 (grid1.coords t) := (hcond1_0 t).mpr (by rw [hz])
theorem hcB1' (t : Fin cfg1.N) (hz : t.val ≠ 0) : ¬cond1_0 (grid1.coords t) := fun h => by
  have h' := (hcond1_0 t).mp h
  have hN : t.val < 25 := lt_of_lt_of_eq t.isLt (show cfg1.N = 25 from N_1)
  omega

/-- `outsAt1` at the first point. -/
theorem outsAt1_A (c : Dev nD) (t : Fin cfg1.N) (hz : t.val = 0) :
    outsAt1 V c t.val t.isLt =
      (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (hcA1' t hz) (iblk1 V c 0 t) (iblk1 V c 1 t) (iblk1 V c 2 t) (iblk1 V c 3 t) (iblk1 V c 4 t) (iblk1 V c 5 t) (iblk1 V c 6 t) (iblk1 V c 7 t),
       out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (hcA1' t hz) (iblk1 V c 0 t) (iblk1 V c 1 t) (iblk1 V c 2 t) (iblk1 V c 3 t) (iblk1 V c 4 t) (iblk1 V c 5 t) (iblk1 V c 6 t) (iblk1 V c 7 t),
       sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (hcA1' t hz) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => rfl
  | succ n => exact absurd hz (Nat.succ_ne_zero n)

/-- `outsAt1` at a later point: from the scratch the point before left. -/
theorem outsAt1_B (c : Dev nD) (t : Fin cfg1.N) (hz : t.val ≠ 0) :
    outsAt1 V c t.val t.isLt =
      (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (hcB1' t hz) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.2,
       out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (hcB1' t hz) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.2,
       sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (hcB1' t hz) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.2) := by
  obtain ⟨n, hn⟩ := t
  cases n with
  | zero => exact absurd rfl hz
  | succ n => rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 4800000 in
/-- The body at any point: the inputs' memrefs hold their blocks; at the first point the scratch is at anything and the
    body fills it whole, at a later point it holds what the point before left; either way the run applies and the
    invariant takes the scratch back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5, after1_6, after1_7, after1_8, after1_9]
  by_cases hz : t.val = 0
  · rw [outsAt1_A V c t hz]
    unfold out1_A_8 out1_A_9 sout1_A_0; (try dsimp only)
    rw [PhiS1_castSucc V c t, PhiS1_zero V c _ _ hz, PhiA1_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_A c (grid1.coords t) _ _ _ _ _ _ _ _ _ _ _ _ _ _ _ _ _ _ _ _ _ _ (hcA1' t hz) (iblk1 V c 0 t) (iblk1 V c 1 t) (iblk1 V c 2 t) (iblk1 V c 3 t) (iblk1 V c 4 t) (iblk1 V c 5 t) (iblk1 V c 6 t) (iblk1 V c 7 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    iintro ⟨H0, H1, H2, H3, H4, H5, H6, H7, ⟨%e8, H8⟩, ⟨%e9, H9⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover1_A_8 c _ _ _ _ _ _ _ _ _ _ _ _ _ _ _ _ _ _ _ _ _ _ _ _ _ _ _ _ _ _ _ _)
    unfold owns; iexists _; isplitr
    swap; · iexact H9
    ipureintro; exact View.read_writes_of_cover _ _ _ _ _ (cover1_A_9 c _ _ _ _ _ _ _ _ _ _ _ _ _ _ _ _ _ _ _ _ _ _ _ _ _ _ _ _ _ _ _ _)
  · rw [outsAt1_B V c t hz]
    unfold out1_B_8 out1_B_9 sout1_B_0; (try dsimp only)
    rw [PhiS1_castSucc V c t, PhiS1_pos V c _ _ hz]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_B c (grid1.coords t) _ _ _ _ _ _ _ _ _ _ _ _ _ _ _ _ _ _ _ _ _ _ (hcB1' t hz) (iblk1 V c 0 t) (iblk1 V c 1 t) (iblk1 V c 2 t) (iblk1 V c 3 t) (iblk1 V c 4 t) (iblk1 V c 5 t) (iblk1 V c 6 t) (iblk1 V c 7 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    iintro ⟨H0, H1, H2, H3, H4, H5, H6, H7, ⟨%e8, H8⟩, ⟨%e9, H9⟩, HS0⟩
    isplitl [HS0 HR Hg]
    · isplitl [HS0 HR]
      · isplitl [HS0]
        · unfold owns; iexists _; isplitr
          swap; · iexact HS0
          ipureintro; rfl
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover1_B_8 c _ _ _ _ _ _ _ _ _ _ _ _ _ _ _ _ _ _ _ _ _ _ _ _ _ _ _ _ _ _ _ _ _)
    unfold owns; iexists _; isplitr
    swap; · iexact H9
    ipureintro; exact View.read_writes_of_cover _ _ _ _ _ (cover1_B_9 c _ _ _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratch's named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi1_out V c _ (by rw [Fin.val_last]; have : cfg1.N = 25 := N_1; omega)

end Region1c

end Cert.KernelIdeal.Hand

end
-- ==== Proof.Reg2.lean ====
/-
  Region 2 of @main (custom_call 2, the second pass over rows [0, 2000) of the adjacency): the
  kernel's half of its frame, at a parameter `V` — the core's buffer contents when the region is entered.

  The pipeline has five windows over five grid points. Windows 0 and 1 both stand on the adjacency (two adjacent
  row blocks of 200 rows, the first 2048 columns of each), window 2 is the first 2048 rows of the second layer's
  input `s2` (one block, fetched once), window 3 the 400 rows of the partial result `part` the point works on,
  window 4 the 400 rows of the result. The body reads the four inputs whole, masks the rows of `s2` beyond the
  diagonal block, and writes the result's block in two halves of 200 rows: each half is the partial result's half
  plus the product of one adjacency row block with the masked `s2`.

  No transfer of these windows is cut: every block lies inside its array. The staging buffer of an input therefore
  holds the array's block whole, which is how the inputs' contents are stated (`ib2`).
-/
import proofs.«181509_g20452634264145_cont_8to1_1942_16_alg».proof.Proof.Gen.KernelIdeal.Launch
import proofs.«181509_g20452634264145_cont_8to1_1942_16_alg».proof.Proof.Gen.KernelIdeal.Skeleton
import proofs.«181509_g20452634264145_cont_8to1_1942_16_alg».proof.Proof.Gen.KernelIdeal.Points
import Idealize.ShloMosaic.Lib.Pipeline.FrameBody
import Idealize.ShloMosaic.Lib.Ring
import Idealize.ShloMosaic.Lib.Tactic

-- membership in a rectangle of long extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`): the part of the block
    inside the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The same as contents of a whole staging buffer: the block laid over contents nothing names. Every block of
    this region lies inside its array (`clip2_W`), so nothing of the underlying contents shows. -/
def ib2 (c : Dev nD) (w : Fin cfg2.W) (t : Fin cfg2.N) : (cfg2.win w).block.Idx → Elt F (cfg2.win w).elt :=
  (cfg2.win w).fill (cfg2.grid.coords t) (fun _ => Classical.arbitrary _) (iblk2 V c w t)

/-- No transfer of an input window is cut, at any point and on any axis: the block lies inside the array. -/
theorem clip2_0 : ∀ (t : Fin cfg2.N) (a : Fin (cfg2.win 0).shape.rank), (cfg2.win 0).clip (cfg2.grid.coords t) a = none :=
  (by decide +kernel : ∀ (t : Fin grid2.N) (a : Fin win2_0.shape.rank), win2_0.clip (grid2.coords t) a = none)
theorem clip2_1 : ∀ (t : Fin cfg2.N) (a : Fin (cfg2.win 1).shape.rank), (cfg2.win 1).clip (cfg2.grid.coords t) a = none :=
  (by decide +kernel : ∀ (t : Fin grid2.N) (a : Fin win2_1.shape.rank), win2_1.clip (grid2.coords t) a = none)
theorem clip2_2 : ∀ (t : Fin cfg2.N) (a : Fin (cfg2.win 2).shape.rank), (cfg2.win 2).clip (cfg2.grid.coords t) a = none :=
  (by decide +kernel : ∀ (t : Fin grid2.N) (a : Fin win2_2.shape.rank), win2_2.clip (grid2.coords t) a = none)
theorem clip2_3 : ∀ (t : Fin cfg2.N) (a : Fin (cfg2.win 3).shape.rank), (cfg2.win 3).clip (cfg2.grid.coords t) a = none :=
  (by decide +kernel : ∀ (t : Fin grid2.N) (a : Fin win2_3.shape.rank), win2_3.clip (grid2.coords t) a = none)

/-- Input window 0's current staging buffer holds its block at every point, fetched there or not, for ANY proof
    data whose array is `V`'s (`hA`) and whose body leaves the block in place (`hafter`): a window not fetched at a
    point has the block index of the point before, so its buffer still holds this point's block. -/
theorem before2_0_of {c : Dev nD} (dat : Dat τ (Elt F) Unit ℕ (Pipeline.UD sig nD τ) ℕ cfg2 c) (hA : dat.A 0 = V c (Pipeline.arrRef spec2 0))
    (hafter : ∀ t, dat.after 0 t = ib2 V c 0 t) (t : Fin cfg2.N) (d) : dat.before 0 t d = ib2 V c 0 t :=
  (dat.before_in_eq_fetched 0 rfl (fun _ => rfl) (fun t t' _ => funext fun a => (clip2_0 t a).trans (clip2_0 t' a).symm)
      (fun t => by rw [hafter]; unfold ib2; rw [Window.cut_fill]; unfold Dat.blockOf iblk2; rw [hA]) t d).trans
    ((dat.fetched_of_clip_none 0 t (clip2_0 t) d _).trans (by unfold Dat.fetched Dat.blockOf ib2 iblk2; rw [hA]))
/-- Input window 1's current staging buffer holds its block at every point, fetched there or not, for ANY proof
    data whose array is `V`'s (`hA`) and whose body leaves the block in place (`hafter`): a window not fetched at a
    point has the block index of the point before, so its buffer still holds this point's block. -/
theorem before2_1_of {c : Dev nD} (dat : Dat τ (Elt F) Unit ℕ (Pipeline.UD sig nD τ) ℕ cfg2 c) (hA : dat.A 1 = V c (Pipeline.arrRef spec2 1))
    (hafter : ∀ t, dat.after 1 t = ib2 V c 1 t) (t : Fin cfg2.N) (d) : dat.before 1 t d = ib2 V c 1 t :=
  (dat.before_in_eq_fetched 1 rfl (fun _ => rfl) (fun t t' _ => funext fun a => (clip2_1 t a).trans (clip2_1 t' a).symm)
      (fun t => by rw [hafter]; unfold ib2; rw [Window.cut_fill]; unfold Dat.blockOf iblk2; rw [hA]) t d).trans
    ((dat.fetched_of_clip_none 1 t (clip2_1 t) d _).trans (by unfold Dat.fetched Dat.blockOf ib2 iblk2; rw [hA]))
/-- Input window 2's current staging buffer holds its block at every point, fetched there or not, for ANY proof
    data whose array is `V`'s (`hA`) and whose body leaves the block in place (`hafter`): a window not fetched at a
    point has the block index of the point before, so its buffer still holds this point's block (this window is
    fetched at the first point only, and its one block serves every point). -/
theorem before2_2_of {c : Dev nD} (dat : Dat τ (Elt F) Unit ℕ (Pipeline.UD sig nD τ) ℕ cfg2 c) (hA : dat.A 2 = V c (Pipeline.arrRef spec2 2))
    (hafter : ∀ t, dat.after 2 t = ib2 V c 2 t) (t : Fin cfg2.N) (d) : dat.before 2 t d = ib2 V c 2 t :=
  (dat.before_in_eq_fetched 2 rfl (fun _ => rfl) (fun t t' _ => funext fun a => (clip2_2 t a).trans (clip2_2 t' a).symm)
      (fun t => by rw [hafter]; unfold ib2; rw [Window.cut_fill]; unfold Dat.blockOf iblk2; rw [hA]) t d).trans
    ((dat.fetched_of_clip_none 2 t (clip2_2 t) d _).trans (by unfold Dat.fetched Dat.blockOf ib2 iblk2; rw [hA]))
/-- Input window 3's current staging buffer holds its block at every point, fetched there or not, for ANY proof
    data whose array is `V`'s (`hA`) and whose body leaves the block in place (`hafter`): a window not fetched at a
    point has the block index of the point before, so its buffer still holds this point's block. -/
theorem before2_3_of {c : Dev nD} (dat : Dat τ (Elt F) Unit ℕ (Pipeline.UD sig nD τ) ℕ cfg2 c) (hA : dat.A 3 = V c (Pipeline.arrRef spec2 3))
    (hafter : ∀ t, dat.after 3 t = ib2 V c 3 t) (t : Fin cfg2.N) (d) : dat.before 3 t d = ib2 V c 3 t :=
  (dat.before_in_eq_fetched 3 rfl (fun _ => rfl) (fun t t' _ => funext fun a => (clip2_3 t a).trans (clip2_3 t' a).symm)
      (fun t => by rw [hafter]; unfold ib2; rw [Window.cut_fill]; unfold Dat.blockOf iblk2; rw [hA]) t d).trans
    ((dat.fetched_of_clip_none 3 t (clip2_3 t) d _).trans (by unfold Dat.fetched Dat.blockOf ib2 iblk2; rw [hA]))

/-! ## The body's accesses -/

abbrev r2_a : Rect S200x2048 := Rect.unit (s := S200x2048) ![0, 0] S200x2048.size inb_S200x2048_S200x2048_0_0
abbrev r2_s : Rect S2048x8 := Rect.unit (s := S2048x8) ![0, 0] S2048x8.size inb_S2048x8_S2048x8_0_0
abbrev r2_lo : Rect S400x8 := Rect.unit (s := S400x8) ![0, 0] S200x8.size inb_S400x8_S200x8_0_0
abbrev r2_hi : Rect S400x8 := Rect.unit (s := S400x8) ![200, 0] S200x8.size inb_S400x8_S200x8_200_0

/-! ## What the body leaves in the output window's buffer -/

/-- Window 4's staging buffer after the body at grid coordinates `i`, from the input windows' blocks: its two stores
    as pieces, LAST FIRST — rows 200..399 from the second adjacency row block, rows 0..199 from the first. -/
def out2_4 (i : grid2.Coords) (x0 x1 : Vec F S200x2048 .f32) (x2 : Vec F S2048x8 .f32) (x3 : Vec F S400x8 .f32) : Vec F S400x8 .f32 :=
  View.canon [⟨r2_hi, k2_pay3 i (View.ld x2 r2_s) (View.ld x3 r2_hi) (View.ld x1 r2_a)⟩,
    ⟨r2_lo, k2_pay2 i (View.ld x2 r2_s) (View.ld x3 r2_lo) (View.ld x0 r2_a)⟩]

/-- The two stores tile the buffer (checked by evaluation), so they cover it. -/
theorem cover2_4 (p1 p0 : Vec F S200x8 .f32) (y : S400x8.Idx) :
    ∃ pc ∈ ([⟨r2_hi, p1⟩, ⟨r2_lo, p0⟩] : List (View.Piece (Elt F) S400x8 .f32)), y ∈ pc.1.set :=
  View.cover_of_tiled [⟨r2_hi, p1⟩, ⟨r2_lo, p0⟩] S200x8.size (by rfl) y

/-! ## The body's triple -/

set_option maxHeartbeats 1000000 in
/-- The kernel body on whole staging memrefs, the inputs' at read contents `x0 … x3` and the output's at anything,
    runs to the continuation holding the inputs' as they were and the output's at `out2_4` of the inputs'. (The body
    also loads each half of the output's buffer before storing to it; the values are not used.) -/
theorem sound_kernel2 (c : Dev nD) (E : Set ℕ) (i : grid2.Coords)
    (arg1 : Memref sig .tc .vmem S200x2048 .f32) (harg1 : arg1.IsWhole) (arg2 : Memref sig .tc .vmem S200x2048 .f32) (harg2 : arg2.IsWhole)
    (arg3 : Memref sig .tc .vmem S2048x8 .f32) (harg3 : arg3.IsWhole) (arg4 : Memref sig .tc .vmem S400x8 .f32) (harg4 : arg4.IsWhole)
    (arg5 : Memref sig .tc .vmem S400x8 .f32) (harg5 : arg5.IsWhole)
    (x0 x1 : Vec F S200x2048 .f32) (x2 : Vec F S2048x8 .f32) (x3 : Vec F S400x8 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 i x0 x1 x2 x3)) -∗ K ⟨⟩))
      ⊢ wp frame (wpE (defs₀ (F := F)) Variants.none c none) E (cc2__pass2_kernel i arg1 harg1 arg2 harg2 arg3 harg3 arg4 harg4 arg5 harg5) K := by
  simp only [cc2__pass2_kernel_eq_skeleton]; unfold cc2__pass2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _ _)

/-! ## The pipeline's proof data -/

/-- The proof data of pipeline 2 on core `c`: the arrays as the region finds them (`V`); after the body at point `t`
    each input's buffer at its block and the output's at `out2_4` of the input blocks; the invariant the scoped rest
    and the generator register, untouched; nothing owed. The adjacency is read through two windows: they hold it by
    the left and the right half of the full share; every other window holds its array whole. -/
def dat2 (c : Dev nD) : Dat τ (Elt F) Unit ℕ (Pipeline.UD sig nD τ) ℕ cfg2 c where
  A w := V c (Pipeline.arrRef spec2 w)
  after w t := match w with
    | ⟨0, _⟩ => ib2 V c 0 t
    | ⟨1, _⟩ => ib2 V c 1 t
    | ⟨2, _⟩ => ib2 V c 2 t
    | ⟨3, _⟩ => ib2 V c 3 t
    | ⟨4, _⟩ => out2_4 (cfg2.grid.coords t) (ib2 V c 0 t) (ib2 V c 1 t) (ib2 V c 2 t) (ib2 V c 3 t)
  Φ _ := Pipeline.ΦA spec2 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq2 (c : Dev nD) (w : Fin cfg2.W) : (dat2 V c).A w = V c (Pipeline.arrRef spec2 w) := by
  dsimp only [dat2]

/-- The shares the windows hold their arrays at: the two windows on the adjacency its two halves, the rest whole. -/
theorem share2_0 (c : Dev nD) : (dat2 V c).share 0 = fullShare.left := rfl
theorem share2_1 (c : Dev nD) : (dat2 V c).share 1 = fullShare.right := rfl
theorem share2_rest (c : Dev nD) (w : Fin cfg2.W) (h0 : w ≠ 0) (h1 : w ≠ 1) : (dat2 V c).share w = fullShare := by
  match w, h0, h1 with
  | ⟨0, _⟩, h0, _ => exact absurd rfl h0
  | ⟨1, _⟩, _, h1 => exact absurd rfl h1
  | ⟨2, _⟩, _, _ => rfl
  | ⟨3, _⟩, _, _ => rfl
  | ⟨4, _⟩, _, _ => rfl

/-- What the body leaves, window by window. -/
theorem after2_0 (c : Dev nD) (t : Fin cfg2.N) : (dat2 V c).after 0 t = ib2 V c 0 t := by dsimp only [dat2]
theorem after2_1 (c : Dev nD) (t : Fin cfg2.N) : (dat2 V c).after 1 t = ib2 V c 1 t := by dsimp only [dat2]
theorem after2_2 (c : Dev nD) (t : Fin cfg2.N) : (dat2 V c).after 2 t = ib2 V c 2 t := by dsimp only [dat2]
theorem after2_3 (c : Dev nD) (t : Fin cfg2.N) : (dat2 V c).after 3 t = ib2 V c 3 t := by dsimp only [dat2]
theorem after2_4 (c : Dev nD) (t : Fin cfg2.N) :
    (dat2 V c).after 4 t = out2_4 (cfg2.grid.coords t) (ib2 V c 0 t) (ib2 V c 1 t) (ib2 V c 2 t) (ib2 V c 3 t) := by dsimp only [dat2]

/-- Each input's current staging buffer holds its block at every point, fetched there or not. -/
theorem before2_0 (c : Dev nD) (t : Fin cfg2.N) (d) : (dat2 V c).before 0 t d = ib2 V c 0 t :=
  before2_0_of V (dat2 V c) (A_eq2 V c 0) (after2_0 V c) t d
theorem before2_1 (c : Dev nD) (t : Fin cfg2.N) (d) : (dat2 V c).before 1 t d = ib2 V c 1 t :=
  before2_1_of V (dat2 V c) (A_eq2 V c 1) (after2_1 V c) t d
theorem before2_2 (c : Dev nD) (t : Fin cfg2.N) (d) : (dat2 V c).before 2 t d = ib2 V c 2 t :=
  before2_2_of V (dat2 V c) (A_eq2 V c 2) (after2_2 V c) t d
theorem before2_3 (c : Dev nD) (t : Fin cfg2.N) (d) : (dat2 V c).before 3 t d = ib2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (ib2 V c 0 t) (ib2 V c 1 t) (ib2 V c 2 t) (ib2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Reg3.lean ====
/-
  Region 3 of @main (custom_call 3, the second pass over rows [2000, 4000) of the adjacency): the
  kernel's half of its frame, at a parameter `V` — the core's buffer contents when the region is entered.

  The pipeline has five windows over five grid points. Windows 0 and 1 both stand on the adjacency (two adjacent
  row blocks of 200 rows, the first 4096 columns of each), window 2 is the first 4096 rows of the second layer's
  input `s2` (one block, fetched once), window 3 the 400 rows of the partial result `part` the point works on,
  window 4 the 400 rows of the result. The body reads the four inputs whole, masks the rows of `s2` beyond the
  diagonal block, and writes the result's block in two halves of 200 rows: each half is the partial result's half
  plus the product of one adjacency row block with the masked `s2`.

  No transfer of these windows is cut: every block lies inside its array. The staging buffer of an input therefore
  holds the array's block whole, which is how the inputs' contents are stated (`ib3`).
-/
import proofs.«181509_g20452634264145_cont_8to1_1942_16_alg».proof.Proof.Gen.KernelIdeal.Launch
import proofs.«181509_g20452634264145_cont_8to1_1942_16_alg».proof.Proof.Gen.KernelIdeal.Skeleton
import proofs.«181509_g20452634264145_cont_8to1_1942_16_alg».proof.Proof.Gen.KernelIdeal.Points
import Idealize.ShloMosaic.Lib.Pipeline.FrameBody
import Idealize.ShloMosaic.Lib.Ring
import Idealize.ShloMosaic.Lib.Tactic

-- membership in a rectangle of long extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`): the part of the block
    inside the array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The same as contents of a whole staging buffer: the block laid over contents nothing names. Every block of
    this region lies inside its array (`clip3_W`), so nothing of the underlying contents shows. -/
def ib3 (c : Dev nD) (w : Fin cfg3.W) (t : Fin cfg3.N) : (cfg3.win w).block.Idx → Elt F (cfg3.win w).elt :=
  (cfg3.win w).fill (cfg3.grid.coords t) (fun _ => Classical.arbitrary _) (iblk3 V c w t)

/-- No transfer of an input window is cut, at any point and on any axis: the block lies inside the array. -/
theorem clip3_0 : ∀ (t : Fin cfg3.N) (a : Fin (cfg3.win 0).shape.rank), (cfg3.win 0).clip (cfg3.grid.coords t) a = none :=
  (by decide +kernel : ∀ (t : Fin grid3.N) (a : Fin win3_0.shape.rank), win3_0.clip (grid3.coords t) a = none)
theorem clip3_1 : ∀ (t : Fin cfg3.N) (a : Fin (cfg3.win 1).shape.rank), (cfg3.win 1).clip (cfg3.grid.coords t) a = none :=
  (by decide +kernel : ∀ (t : Fin grid3.N) (a : Fin win3_1.shape.rank), win3_1.clip (grid3.coords t) a = none)
theorem clip3_2 : ∀ (t : Fin cfg3.N) (a : Fin (cfg3.win 2).shape.rank), (cfg3.win 2).clip (cfg3.grid.coords t) a = none :=
  (by decide +kernel : ∀ (t : Fin grid3.N) (a : Fin win3_2.shape.rank), win3_2.clip (grid3.coords t) a = none)
theorem clip3_3 : ∀ (t : Fin cfg3.N) (a : Fin (cfg3.win 3).shape.rank), (cfg3.win 3).clip (cfg3.grid.coords t) a = none :=
  (by decide +kernel : ∀ (t : Fin grid3.N) (a : Fin win3_3.shape.rank), win3_3.clip (grid3.coords t) a = none)

/-- Input window 0's current staging buffer holds its block at every point, fetched there or not, for ANY proof
    data whose array is `V`'s (`hA`) and whose body leaves the block in place (`hafter`): a window not fetched at a
    point has the block index of the point before, so its buffer still holds this point's block. -/
theorem before3_0_of {c : Dev nD} (dat : Dat τ (Elt F) Unit ℕ (Pipeline.UD sig nD τ) ℕ cfg3 c) (hA : dat.A 0 = V c (Pipeline.arrRef spec3 0))
    (hafter : ∀ t, dat.after 0 t = ib3 V c 0 t) (t : Fin cfg3.N) (d) : dat.before 0 t d = ib3 V c 0 t :=
  (dat.before_in_eq_fetched 0 rfl (fun _ => rfl) (fun t t' _ => funext fun a => (clip3_0 t a).trans (clip3_0 t' a).symm)
      (fun t => by rw [hafter]; unfold ib3; rw [Window.cut_fill]; unfold Dat.blockOf iblk3; rw [hA]) t d).trans
    ((dat.fetched_of_clip_none 0 t (clip3_0 t) d _).trans (by unfold Dat.fetched Dat.blockOf ib3 iblk3; rw [hA]))
/-- Input window 1's current staging buffer holds its block at every point, fetched there or not, for ANY proof
    data whose array is `V`'s (`hA`) and whose body leaves the block in place (`hafter`): a window not fetched at a
    point has the block index of the point before, so its buffer still holds this point's block. -/
theorem before3_1_of {c : Dev nD} (dat : Dat τ (Elt F) Unit ℕ (Pipeline.UD sig nD τ) ℕ cfg3 c) (hA : dat.A 1 = V c (Pipeline.arrRef spec3 1))
    (hafter : ∀ t, dat.after 1 t = ib3 V c 1 t) (t : Fin cfg3.N) (d) : dat.before 1 t d = ib3 V c 1 t :=
  (dat.before_in_eq_fetched 1 rfl (fun _ => rfl) (fun t t' _ => funext fun a => (clip3_1 t a).trans (clip3_1 t' a).symm)
      (fun t => by rw [hafter]; unfold ib3; rw [Window.cut_fill]; unfold Dat.blockOf iblk3; rw [hA]) t d).trans
    ((dat.fetched_of_clip_none 1 t (clip3_1 t) d _).trans (by unfold Dat.fetched Dat.blockOf ib3 iblk3; rw [hA]))
/-- Input window 2's current staging buffer holds its block at every point, fetched there or not, for ANY proof
    data whose array is `V`'s (`hA`) and whose body leaves the block in place (`hafter`): a window not fetched at a
    point has the block index of the point before, so its buffer still holds this point's block (this window is
    fetched at the first point only, and its one block serves every point). -/
theorem before3_2_of {c : Dev nD} (dat : Dat τ (Elt F) Unit ℕ (Pipeline.UD sig nD τ) ℕ cfg3 c) (hA : dat.A 2 = V c (Pipeline.arrRef spec3 2))
    (hafter : ∀ t, dat.after 2 t = ib3 V c 2 t) (t : Fin cfg3.N) (d) : dat.before 2 t d = ib3 V c 2 t :=
  (dat.before_in_eq_fetched 2 rfl (fun _ => rfl) (fun t t' _ => funext fun a => (clip3_2 t a).trans (clip3_2 t' a).symm)
      (fun t => by rw [hafter]; unfold ib3; rw [Window.cut_fill]; unfold Dat.blockOf iblk3; rw [hA]) t d).trans
    ((dat.fetched_of_clip_none 2 t (clip3_2 t) d _).trans (by unfold Dat.fetched Dat.blockOf ib3 iblk3; rw [hA]))
/-- Input window 3's current staging buffer holds its block at every point, fetched there or not, for ANY proof
    data whose array is `V`'s (`hA`) and whose body leaves the block in place (`hafter`): a window not fetched at a
    point has the block index of the point before, so its buffer still holds this point's block. -/
theorem before3_3_of {c : Dev nD} (dat : Dat τ (Elt F) Unit ℕ (Pipeline.UD sig nD τ) ℕ cfg3 c) (hA : dat.A 3 = V c (Pipeline.arrRef spec3 3))
    (hafter : ∀ t, dat.after 3 t = ib3 V c 3 t) (t : Fin cfg3.N) (d) : dat.before 3 t d = ib3 V c 3 t :=
  (dat.before_in_eq_fetched 3 rfl (fun _ => rfl) (fun t t' _ => funext fun a => (clip3_3 t a).trans (clip3_3 t' a).symm)
      (fun t => by rw [hafter]; unfold ib3; rw [Window.cut_fill]; unfold Dat.blockOf iblk3; rw [hA]) t d).trans
    ((dat.fetched_of_clip_none 3 t (clip3_3 t) d _).trans (by unfold Dat.fetched Dat.blockOf ib3 iblk3; rw [hA]))

/-! ## The body's accesses -/

abbrev r3_a : Rect S200x4096 := Rect.unit (s := S200x4096) ![0, 0] S200x4096.size inb_S200x4096_S200x4096_0_0
abbrev r3_s : Rect S4096x8 := Rect.unit (s := S4096x8) ![0, 0] S4096x8.size inb_S4096x8_S4096x8_0_0
abbrev r3_lo : Rect S400x8 := Rect.unit (s := S400x8) ![0, 0] S200x8.size inb_S400x8_S200x8_0_0
abbrev r3_hi : Rect S400x8 := Rect.unit (s := S400x8) ![200, 0] S200x8.size inb_S400x8_S200x8_200_0

/-! ## What the body leaves in the output window's buffer -/

/-- Window 4's staging buffer after the body at grid coordinates `i`, from the input windows' blocks: its two stores
    as pieces, LAST FIRST — rows 200..399 from the second adjacency row block, rows 0..199 from the first. -/
def out3_4 (i : grid3.Coords) (x0 x1 : Vec F S200x4096 .f32) (x2 : Vec F S4096x8 .f32) (x3 : Vec F S400x8 .f32) : Vec F S400x8 .f32 :=
  View.canon [⟨r3_hi, k3_pay3 i (View.ld x2 r3_s) (View.ld x3 r3_hi) (View.ld x1 r3_a)⟩,
    ⟨r3_lo, k3_pay2 i (View.ld x2 r3_s) (View.ld x3 r3_lo) (View.ld x0 r3_a)⟩]

/-- The two stores tile the buffer (checked by evaluation), so they cover it. -/
theorem cover3_4 (p1 p0 : Vec F S200x8 .f32) (y : S400x8.Idx) :
    ∃ pc ∈ ([⟨r3_hi, p1⟩, ⟨r3_lo, p0⟩] : List (View.Piece (Elt F) S400x8 .f32)), y ∈ pc.1.set :=
  View.cover_of_tiled [⟨r3_hi, p1⟩, ⟨r3_lo, p0⟩] S200x8.size (by rfl) y

/-! ## The body's triple -/

set_option maxHeartbeats 1000000 in
/-- The kernel body on whole staging memrefs, the inputs' at read contents `x0 … x3` and the output's at anything,
    runs to the continuation holding the inputs' as they were and the output's at `out3_4` of the inputs'. (The body
    also loads each half of the output's buffer before storing to it; the values are not used.) -/
theorem sound_kernel3 (c : Dev nD) (E : Set ℕ) (i : grid3.Coords)
    (arg1 : Memref sig .tc .vmem S200x4096 .f32) (harg1 : arg1.IsWhole) (arg2 : Memref sig .tc .vmem S200x4096 .f32) (harg2 : arg2.IsWhole)
    (arg3 : Memref sig .tc .vmem S4096x8 .f32) (harg3 : arg3.IsWhole) (arg4 : Memref sig .tc .vmem S400x8 .f32) (harg4 : arg4.IsWhole)
    (arg5 : Memref sig .tc .vmem S400x8 .f32) (harg5 : arg5.IsWhole)
    (x0 x1 : Vec F S200x4096 .f32) (x2 : Vec F S4096x8 .f32) (x3 : Vec F S400x8 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 i x0 x1 x2 x3)) -∗ K ⟨⟩))
      ⊢ wp frame (wpE (defs₀ (F := F)) Variants.none c none) E (cc3__pass2_kernel i arg1 harg1 arg2 harg2 arg3 harg3 arg4 harg4 arg5 harg5) K := by
  simp only [cc3__pass2_kernel_eq_skeleton]; unfold cc3__pass2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _ _)

/-! ## The pipeline's proof data -/

/-- The proof data of pipeline 3 on core `c`: the arrays as the region finds them (`V`); after the body at point `t`
    each input's buffer at its block and the output's at `out3_4` of the input blocks; the invariant the scoped rest
    and the generator register, untouched; nothing owed. The adjacency is read through two windows: they hold it by
    the left and the right half of the full share; every other window holds its array whole. -/
def dat3 (c : Dev nD) : Dat τ (Elt F) Unit ℕ (Pipeline.UD sig nD τ) ℕ cfg3 c where
  A w := V c (Pipeline.arrRef spec3 w)
  after w t := match w with
    | ⟨0, _⟩ => ib3 V c 0 t
    | ⟨1, _⟩ => ib3 V c 1 t
    | ⟨2, _⟩ => ib3 V c 2 t
    | ⟨3, _⟩ => ib3 V c 3 t
    | ⟨4, _⟩ => out3_4 (cfg3.grid.coords t) (ib3 V c 0 t) (ib3 V c 1 t) (ib3 V c 2 t) (ib3 V c 3 t)
  Φ _ := Pipeline.ΦA spec3 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq3 (c : Dev nD) (w : Fin cfg3.W) : (dat3 V c).A w = V c (Pipeline.arrRef spec3 w) := by
  dsimp only [dat3]

/-- The shares the windows hold their arrays at: the two windows on the adjacency its two halves, the rest whole. -/
theorem share3_0 (c : Dev nD) : (dat3 V c).share 0 = fullShare.left := rfl
theorem share3_1 (c : Dev nD) : (dat3 V c).share 1 = fullShare.right := rfl
theorem share3_rest (c : Dev nD) (w : Fin cfg3.W) (h0 : w ≠ 0) (h1 : w ≠ 1) : (dat3 V c).share w = fullShare := by
  match w, h0, h1 with
  | ⟨0, _⟩, h0, _ => exact absurd rfl h0
  | ⟨1, _⟩, _, h1 => exact absurd rfl h1
  | ⟨2, _⟩, _, _ => rfl
  | ⟨3, _⟩, _, _ => rfl
  | ⟨4, _⟩, _, _ => rfl

/-- What the body leaves, window by window. -/
theorem after3_0 (c : Dev nD) (t : Fin cfg3.N) : (dat3 V c).after 0 t = ib3 V c 0 t := by dsimp only [dat3]
theorem after3_1 (c : Dev nD) (t : Fin cfg3.N) : (dat3 V c).after 1 t = ib3 V c 1 t := by dsimp only [dat3]
theorem after3_2 (c : Dev nD) (t : Fin cfg3.N) : (dat3 V c).after 2 t = ib3 V c 2 t := by dsimp only [dat3]
theorem after3_3 (c : Dev nD) (t : Fin cfg3.N) : (dat3 V c).after 3 t = ib3 V c 3 t := by dsimp only [dat3]
theorem after3_4 (c : Dev nD) (t : Fin cfg3.N) :
    (dat3 V c).after 4 t = out3_4 (cfg3.grid.coords t) (ib3 V c 0 t) (ib3 V c 1 t) (ib3 V c 2 t) (ib3 V c 3 t) := by dsimp only [dat3]

/-- Each input's current staging buffer holds its block at every point, fetched there or not. -/
theorem before3_0 (c : Dev nD) (t : Fin cfg3.N) (d) : (dat3 V c).before 0 t d = ib3 V c 0 t :=
  before3_0_of V (dat3 V c) (A_eq3 V c 0) (after3_0 V c) t d
theorem before3_1 (c : Dev nD) (t : Fin cfg3.N) (d) : (dat3 V c).before 1 t d = ib3 V c 1 t :=
  before3_1_of V (dat3 V c) (A_eq3 V c 1) (after3_1 V c) t d
theorem before3_2 (c : Dev nD) (t : Fin cfg3.N) (d) : (dat3 V c).before 2 t d = ib3 V c 2 t :=
  before3_2_of V (dat3 V c) (A_eq3 V c 2) (after3_2 V c) t d
theorem before3_3 (c : Dev nD) (t : Fin cfg3.N) (d) : (dat3 V c).before 3 t d = ib3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (ib3 V c 0 t) (ib3 V c 1 t) (ib3 V c 2 t) (ib3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Reg4.lean ====
/-
  Region 4 of @main (custom_call 4, the second pass over rows [4000, 6000) of the adjacency): the
  kernel's half of its frame, at a parameter `V` — the core's buffer contents when the region is entered.

  The pipeline has five windows over five grid points. Windows 0 and 1 both stand on the adjacency (two adjacent
  row blocks of 200 rows, the first 6016 columns of each), window 2 is the first 6016 rows of the second layer's
  input `s2` (one block, fetched once), window 3 the 400 rows of the partial result `part` the point works on,
  window 4 the 400 rows of the result. The body reads the four inputs whole, masks the rows of `s2` beyond the
  diagonal block, and writes the result's block in two halves of 200 rows: each half is the partial result's half
  plus the product of one adjacency row block with the masked `s2`.

  No transfer of these windows is cut: every block lies inside its array. The staging buffer of an input therefore
  holds the array's block whole, which is how the inputs' contents are stated (`ib4`).
-/
import proofs.«181509_g20452634264145_cont_8to1_1942_16_alg».proof.Proof.Gen.KernelIdeal.Launch
import proofs.«181509_g20452634264145_cont_8to1_1942_16_alg».proof.Proof.Gen.KernelIdeal.Skeleton
import proofs.«181509_g20452634264145_cont_8to1_1942_16_alg».proof.Proof.Gen.KernelIdeal.Points
import Idealize.ShloMosaic.Lib.Pipeline.FrameBody
import Idealize.ShloMosaic.Lib.Ring
import Idealize.ShloMosaic.Lib.Tactic

-- membership in a rectangle of long extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`): the part of the block
    inside the array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The same as contents of a whole staging buffer: the block laid over contents nothing names. Every block of
    this region lies inside its array (`clip4_W`), so nothing of the underlying contents shows. -/
def ib4 (c : Dev nD) (w : Fin cfg4.W) (t : Fin cfg4.N) : (cfg4.win w).block.Idx → Elt F (cfg4.win w).elt :=
  (cfg4.win w).fill (cfg4.grid.coords t) (fun _ => Classical.arbitrary _) (iblk4 V c w t)

/-- No transfer of an input window is cut, at any point and on any axis: the block lies inside the array. -/
theorem clip4_0 : ∀ (t : Fin cfg4.N) (a : Fin (cfg4.win 0).shape.rank), (cfg4.win 0).clip (cfg4.grid.coords t) a = none :=
  (by decide +kernel : ∀ (t : Fin grid4.N) (a : Fin win4_0.shape.rank), win4_0.clip (grid4.coords t) a = none)
theorem clip4_1 : ∀ (t : Fin cfg4.N) (a : Fin (cfg4.win 1).shape.rank), (cfg4.win 1).clip (cfg4.grid.coords t) a = none :=
  (by decide +kernel : ∀ (t : Fin grid4.N) (a : Fin win4_1.shape.rank), win4_1.clip (grid4.coords t) a = none)
theorem clip4_2 : ∀ (t : Fin cfg4.N) (a : Fin (cfg4.win 2).shape.rank), (cfg4.win 2).clip (cfg4.grid.coords t) a = none :=
  (by decide +kernel : ∀ (t : Fin grid4.N) (a : Fin win4_2.shape.rank), win4_2.clip (grid4.coords t) a = none)
theorem clip4_3 : ∀ (t : Fin cfg4.N) (a : Fin (cfg4.win 3).shape.rank), (cfg4.win 3).clip (cfg4.grid.coords t) a = none :=
  (by decide +kernel : ∀ (t : Fin grid4.N) (a : Fin win4_3.shape.rank), win4_3.clip (grid4.coords t) a = none)

/-- Input window 0's current staging buffer holds its block at every point, fetched there or not, for ANY proof
    data whose array is `V`'s (`hA`) and whose body leaves the block in place (`hafter`): a window not fetched at a
    point has the block index of the point before, so its buffer still holds this point's block. -/
theorem before4_0_of {c : Dev nD} (dat : Dat τ (Elt F) Unit ℕ (Pipeline.UD sig nD τ) ℕ cfg4 c) (hA : dat.A 0 = V c (Pipeline.arrRef spec4 0))
    (hafter : ∀ t, dat.after 0 t = ib4 V c 0 t) (t : Fin cfg4.N) (d) : dat.before 0 t d = ib4 V c 0 t :=
  (dat.before_in_eq_fetched 0 rfl (fun _ => rfl) (fun t t' _ => funext fun a => (clip4_0 t a).trans (clip4_0 t' a).symm)
      (fun t => by rw [hafter]; unfold ib4; rw [Window.cut_fill]; unfold Dat.blockOf iblk4; rw [hA]) t d).trans
    ((dat.fetched_of_clip_none 0 t (clip4_0 t) d _).trans (by unfold Dat.fetched Dat.blockOf ib4 iblk4; rw [hA]))
/-- Input window 1's current staging buffer holds its block at every point, fetched there or not, for ANY proof
    data whose array is `V`'s (`hA`) and whose body leaves the block in place (`hafter`): a window not fetched at a
    point has the block index of the point before, so its buffer still holds this point's block. -/
theorem before4_1_of {c : Dev nD} (dat : Dat τ (Elt F) Unit ℕ (Pipeline.UD sig nD τ) ℕ cfg4 c) (hA : dat.A 1 = V c (Pipeline.arrRef spec4 1))
    (hafter : ∀ t, dat.after 1 t = ib4 V c 1 t) (t : Fin cfg4.N) (d) : dat.before 1 t d = ib4 V c 1 t :=
  (dat.before_in_eq_fetched 1 rfl (fun _ => rfl) (fun t t' _ => funext fun a => (clip4_1 t a).trans (clip4_1 t' a).symm)
      (fun t => by rw [hafter]; unfold ib4; rw [Window.cut_fill]; unfold Dat.blockOf iblk4; rw [hA]) t d).trans
    ((dat.fetched_of_clip_none 1 t (clip4_1 t) d _).trans (by unfold Dat.fetched Dat.blockOf ib4 iblk4; rw [hA]))
/-- Input window 2's current staging buffer holds its block at every point, fetched there or not, for ANY proof
    data whose array is `V`'s (`hA`) and whose body leaves the block in place (`hafter`): a window not fetched at a
    point has the block index of the point before, so its buffer still holds this point's block (this window is
    fetched at the first point only, and its one block serves every point). -/
theorem before4_2_of {c : Dev nD} (dat : Dat τ (Elt F) Unit ℕ (Pipeline.UD sig nD τ) ℕ cfg4 c) (hA : dat.A 2 = V c (Pipeline.arrRef spec4 2))
    (hafter : ∀ t, dat.after 2 t = ib4 V c 2 t) (t : Fin cfg4.N) (d) : dat.before 2 t d = ib4 V c 2 t :=
  (dat.before_in_eq_fetched 2 rfl (fun _ => rfl) (fun t t' _ => funext fun a => (clip4_2 t a).trans (clip4_2 t' a).symm)
      (fun t => by rw [hafter]; unfold ib4; rw [Window.cut_fill]; unfold Dat.blockOf iblk4; rw [hA]) t d).trans
    ((dat.fetched_of_clip_none 2 t (clip4_2 t) d _).trans (by unfold Dat.fetched Dat.blockOf ib4 iblk4; rw [hA]))
/-- Input window 3's current staging buffer holds its block at every point, fetched there or not, for ANY proof
    data whose array is `V`'s (`hA`) and whose body leaves the block in place (`hafter`): a window not fetched at a
    point has the block index of the point before, so its buffer still holds this point's block. -/
theorem before4_3_of {c : Dev nD} (dat : Dat τ (Elt F) Unit ℕ (Pipeline.UD sig nD τ) ℕ cfg4 c) (hA : dat.A 3 = V c (Pipeline.arrRef spec4 3))
    (hafter : ∀ t, dat.after 3 t = ib4 V c 3 t) (t : Fin cfg4.N) (d) : dat.before 3 t d = ib4 V c 3 t :=
  (dat.before_in_eq_fetched 3 rfl (fun _ => rfl) (fun t t' _ => funext fun a => (clip4_3 t a).trans (clip4_3 t' a).symm)
      (fun t => by rw [hafter]; unfold ib4; rw [Window.cut_fill]; unfold Dat.blockOf iblk4; rw [hA]) t d).trans
    ((dat.fetched_of_clip_none 3 t (clip4_3 t) d _).trans (by unfold Dat.fetched Dat.blockOf ib4 iblk4; rw [hA]))

/-! ## The body's accesses -/

abbrev r4_a : Rect S200x6016 := Rect.unit (s := S200x6016) ![0, 0] S200x6016.size inb_S200x6016_S200x6016_0_0
abbrev r4_s : Rect S6016x8 := Rect.unit (s := S6016x8) ![0, 0] S6016x8.size inb_S6016x8_S6016x8_0_0
abbrev r4_lo : Rect S400x8 := Rect.unit (s := S400x8) ![0, 0] S200x8.size inb_S400x8_S200x8_0_0
abbrev r4_hi : Rect S400x8 := Rect.unit (s := S400x8) ![200, 0] S200x8.size inb_S400x8_S200x8_200_0

/-! ## What the body leaves in the output window's buffer -/

/-- Window 4's staging buffer after the body at grid coordinates `i`, from the input windows' blocks: its two stores
    as pieces, LAST FIRST — rows 200..399 from the second adjacency row block, rows 0..199 from the first. -/
def out4_4 (i : grid4.Coords) (x0 x1 : Vec F S200x6016 .f32) (x2 : Vec F S6016x8 .f32) (x3 : Vec F S400x8 .f32) : Vec F S400x8 .f32 :=
  View.canon [⟨r4_hi, k4_pay3 i (View.ld x2 r4_s) (View.ld x3 r4_hi) (View.ld x1 r4_a)⟩,
    ⟨r4_lo, k4_pay2 i (View.ld x2 r4_s) (View.ld x3 r4_lo) (View.ld x0 r4_a)⟩]

/-- The two stores tile the buffer (checked by evaluation), so they cover it. -/
theorem cover4_4 (p1 p0 : Vec F S200x8 .f32) (y : S400x8.Idx) :
    ∃ pc ∈ ([⟨r4_hi, p1⟩, ⟨r4_lo, p0⟩] : List (View.Piece (Elt F) S400x8 .f32)), y ∈ pc.1.set :=
  View.cover_of_tiled [⟨r4_hi, p1⟩, ⟨r4_lo, p0⟩] S200x8.size (by rfl) y

/-! ## The body's triple -/

set_option maxHeartbeats 1000000 in
/-- The kernel body on whole staging memrefs, the inputs' at read contents `x0 … x3` and the output's at anything,
    runs to the continuation holding the inputs' as they were and the output's at `out4_4` of the inputs'. (The body
    also loads each half of the output's buffer before storing to it; the values are not used.) -/
theorem sound_kernel4 (c : Dev nD) (E : Set ℕ) (i : grid4.Coords)
    (arg1 : Memref sig .tc .vmem S200x6016 .f32) (harg1 : arg1.IsWhole) (arg2 : Memref sig .tc .vmem S200x6016 .f32) (harg2 : arg2.IsWhole)
    (arg3 : Memref sig .tc .vmem S6016x8 .f32) (harg3 : arg3.IsWhole) (arg4 : Memref sig .tc .vmem S400x8 .f32) (harg4 : arg4.IsWhole)
    (arg5 : Memref sig .tc .vmem S400x8 .f32) (harg5 : arg5.IsWhole)
    (x0 x1 : Vec F S200x6016 .f32) (x2 : Vec F S6016x8 .f32) (x3 : Vec F S400x8 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 i x0 x1 x2 x3)) -∗ K ⟨⟩))
      ⊢ wp frame (wpE (defs₀ (F := F)) Variants.none c none) E (cc4__pass2_kernel i arg1 harg1 arg2 harg2 arg3 harg3 arg4 harg4 arg5 harg5) K := by
  simp only [cc4__pass2_kernel_eq_skeleton]; unfold cc4__pass2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _ _)

/-! ## The pipeline's proof data -/

/-- The proof data of pipeline 4 on core `c`: the arrays as the region finds them (`V`); after the body at point `t`
    each input's buffer at its block and the output's at `out4_4` of the input blocks; the invariant the scoped rest
    and the generator register, untouched; nothing owed. The adjacency is read through two windows: they hold it by
    the left and the right half of the full share; every other window holds its array whole. -/
def dat4 (c : Dev nD) : Dat τ (Elt F) Unit ℕ (Pipeline.UD sig nD τ) ℕ cfg4 c where
  A w := V c (Pipeline.arrRef spec4 w)
  after w t := match w with
    | ⟨0, _⟩ => ib4 V c 0 t
    | ⟨1, _⟩ => ib4 V c 1 t
    | ⟨2, _⟩ => ib4 V c 2 t
    | ⟨3, _⟩ => ib4 V c 3 t
    | ⟨4, _⟩ => out4_4 (cfg4.grid.coords t) (ib4 V c 0 t) (ib4 V c 1 t) (ib4 V c 2 t) (ib4 V c 3 t)
  Φ _ := Pipeline.ΦA spec4 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq4 (c : Dev nD) (w : Fin cfg4.W) : (dat4 V c).A w = V c (Pipeline.arrRef spec4 w) := by
  dsimp only [dat4]

/-- The shares the windows hold their arrays at: the two windows on the adjacency its two halves, the rest whole. -/
theorem share4_0 (c : Dev nD) : (dat4 V c).share 0 = fullShare.left := rfl
theorem share4_1 (c : Dev nD) : (dat4 V c).share 1 = fullShare.right := rfl
theorem share4_rest (c : Dev nD) (w : Fin cfg4.W) (h0 : w ≠ 0) (h1 : w ≠ 1) : (dat4 V c).share w = fullShare := by
  match w, h0, h1 with
  | ⟨0, _⟩, h0, _ => exact absurd rfl h0
  | ⟨1, _⟩, _, h1 => exact absurd rfl h1
  | ⟨2, _⟩, _, _ => rfl
  | ⟨3, _⟩, _, _ => rfl
  | ⟨4, _⟩, _, _ => rfl

/-- What the body leaves, window by window. -/
theorem after4_0 (c : Dev nD) (t : Fin cfg4.N) : (dat4 V c).after 0 t = ib4 V c 0 t := by dsimp only [dat4]
theorem after4_1 (c : Dev nD) (t : Fin cfg4.N) : (dat4 V c).after 1 t = ib4 V c 1 t := by dsimp only [dat4]
theorem after4_2 (c : Dev nD) (t : Fin cfg4.N) : (dat4 V c).after 2 t = ib4 V c 2 t := by dsimp only [dat4]
theorem after4_3 (c : Dev nD) (t : Fin cfg4.N) : (dat4 V c).after 3 t = ib4 V c 3 t := by dsimp only [dat4]
theorem after4_4 (c : Dev nD) (t : Fin cfg4.N) :
    (dat4 V c).after 4 t = out4_4 (cfg4.grid.coords t) (ib4 V c 0 t) (ib4 V c 1 t) (ib4 V c 2 t) (ib4 V c 3 t) := by dsimp only [dat4]

/-- Each input's current staging buffer holds its block at every point, fetched there or not. -/
theorem before4_0 (c : Dev nD) (t : Fin cfg4.N) (d) : (dat4 V c).before 0 t d = ib4 V c 0 t :=
  before4_0_of V (dat4 V c) (A_eq4 V c 0) (after4_0 V c) t d
theorem before4_1 (c : Dev nD) (t : Fin cfg4.N) (d) : (dat4 V c).before 1 t d = ib4 V c 1 t :=
  before4_1_of V (dat4 V c) (A_eq4 V c 1) (after4_1 V c) t d
theorem before4_2 (c : Dev nD) (t : Fin cfg4.N) (d) : (dat4 V c).before 2 t d = ib4 V c 2 t :=
  before4_2_of V (dat4 V c) (A_eq4 V c 2) (after4_2 V c) t d
theorem before4_3 (c : Dev nD) (t : Fin cfg4.N) (d) : (dat4 V c).before 3 t d = ib4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (ib4 V c 0 t) (ib4 V c 1 t) (ib4 V c 2 t) (ib4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.Reg5.lean ====
/-
  Region 5 of @main (custom_call 5, the second pass over rows [6000, 8000) of the adjacency): the
  kernel's half of its frame, at a parameter `V` — the core's buffer contents when the region is entered.

  The pipeline has five windows over five grid points. Windows 0 and 1 both stand on the adjacency (two adjacent
  row blocks of 200 rows, the first 8064 columns of each), window 2 is the first 8064 rows of the second layer's
  input `s2` (one block, fetched once), window 3 the 400 rows of the partial result `part` the point works on,
  window 4 the 400 rows of the result. The body reads the four inputs whole, masks the rows of `s2` beyond the
  diagonal block, and writes the result's block in two halves of 200 rows: each half is the partial result's half
  plus the product of one adjacency row block with the masked `s2`.

  No transfer of these windows is cut: every block lies inside its array. The staging buffer of an input therefore
  holds the array's block whole, which is how the inputs' contents are stated (`ib5`).
-/
import proofs.«181509_g20452634264145_cont_8to1_1942_16_alg».proof.Proof.Gen.KernelIdeal.Launch
import proofs.«181509_g20452634264145_cont_8to1_1942_16_alg».proof.Proof.Gen.KernelIdeal.Skeleton
import proofs.«181509_g20452634264145_cont_8to1_1942_16_alg».proof.Proof.Gen.KernelIdeal.Points
import Idealize.ShloMosaic.Lib.Pipeline.FrameBody
import Idealize.ShloMosaic.Lib.Ring
import Idealize.ShloMosaic.Lib.Tactic

-- membership in a rectangle of long extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`): the part of the block
    inside the array. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The same as contents of a whole staging buffer: the block laid over contents nothing names. Every block of
    this region lies inside its array (`clip5_W`), so nothing of the underlying contents shows. -/
def ib5 (c : Dev nD) (w : Fin cfg5.W) (t : Fin cfg5.N) : (cfg5.win w).block.Idx → Elt F (cfg5.win w).elt :=
  (cfg5.win w).fill (cfg5.grid.coords t) (fun _ => Classical.arbitrary _) (iblk5 V c w t)

/-- No transfer of an input window is cut, at any point and on any axis: the block lies inside the array. -/
theorem clip5_0 : ∀ (t : Fin cfg5.N) (a : Fin (cfg5.win 0).shape.rank), (cfg5.win 0).clip (cfg5.grid.coords t) a = none :=
  (by decide +kernel : ∀ (t : Fin grid5.N) (a : Fin win5_0.shape.rank), win5_0.clip (grid5.coords t) a = none)
theorem clip5_1 : ∀ (t : Fin cfg5.N) (a : Fin (cfg5.win 1).shape.rank), (cfg5.win 1).clip (cfg5.grid.coords t) a = none :=
  (by decide +kernel : ∀ (t : Fin grid5.N) (a : Fin win5_1.shape.rank), win5_1.clip (grid5.coords t) a = none)
theorem clip5_2 : ∀ (t : Fin cfg5.N) (a : Fin (cfg5.win 2).shape.rank), (cfg5.win 2).clip (cfg5.grid.coords t) a = none :=
  (by decide +kernel : ∀ (t : Fin grid5.N) (a : Fin win5_2.shape.rank), win5_2.clip (grid5.coords t) a = none)
theorem clip5_3 : ∀ (t : Fin cfg5.N) (a : Fin (cfg5.win 3).shape.rank), (cfg5.win 3).clip (cfg5.grid.coords t) a = none :=
  (by decide +kernel : ∀ (t : Fin grid5.N) (a : Fin win5_3.shape.rank), win5_3.clip (grid5.coords t) a = none)

/-- Input window 0's current staging buffer holds its block at every point, fetched there or not, for ANY proof
    data whose array is `V`'s (`hA`) and whose body leaves the block in place (`hafter`): a window not fetched at a
    point has the block index of the point before, so its buffer still holds this point's block. -/
theorem before5_0_of {c : Dev nD} (dat : Dat τ (Elt F) Unit ℕ (Pipeline.UD sig nD τ) ℕ cfg5 c) (hA : dat.A 0 = V c (Pipeline.arrRef spec5 0))
    (hafter : ∀ t, dat.after 0 t = ib5 V c 0 t) (t : Fin cfg5.N) (d) : dat.before 0 t d = ib5 V c 0 t :=
  (dat.before_in_eq_fetched 0 rfl (fun _ => rfl) (fun t t' _ => funext fun a => (clip5_0 t a).trans (clip5_0 t' a).symm)
      (fun t => by rw [hafter]; unfold ib5; rw [Window.cut_fill]; unfold Dat.blockOf iblk5; rw [hA]) t d).trans
    ((dat.fetched_of_clip_none 0 t (clip5_0 t) d _).trans (by unfold Dat.fetched Dat.blockOf ib5 iblk5; rw [hA]))
/-- Input window 1's current staging buffer holds its block at every point, fetched there or not, for ANY proof
    data whose array is `V`'s (`hA`) and whose body leaves the block in place (`hafter`): a window not fetched at a
    point has the block index of the point before, so its buffer still holds this point's block. -/
theorem before5_1_of {c : Dev nD} (dat : Dat τ (Elt F) Unit ℕ (Pipeline.UD sig nD τ) ℕ cfg5 c) (hA : dat.A 1 = V c (Pipeline.arrRef spec5 1))
    (hafter : ∀ t, dat.after 1 t = ib5 V c 1 t) (t : Fin cfg5.N) (d) : dat.before 1 t d = ib5 V c 1 t :=
  (dat.before_in_eq_fetched 1 rfl (fun _ => rfl) (fun t t' _ => funext fun a => (clip5_1 t a).trans (clip5_1 t' a).symm)
      (fun t => by rw [hafter]; unfold ib5; rw [Window.cut_fill]; unfold Dat.blockOf iblk5; rw [hA]) t d).trans
    ((dat.fetched_of_clip_none 1 t (clip5_1 t) d _).trans (by unfold Dat.fetched Dat.blockOf ib5 iblk5; rw [hA]))
/-- Input window 2's current staging buffer holds its block at every point, fetched there or not, for ANY proof
    data whose array is `V`'s (`hA`) and whose body leaves the block in place (`hafter`): a window not fetched at a
    point has the block index of the point before, so its buffer still holds this point's block (this window is
    fetched at the first point only, and its one block serves every point). -/
theorem before5_2_of {c : Dev nD} (dat : Dat τ (Elt F) Unit ℕ (Pipeline.UD sig nD τ) ℕ cfg5 c) (hA : dat.A 2 = V c (Pipeline.arrRef spec5 2))
    (hafter : ∀ t, dat.after 2 t = ib5 V c 2 t) (t : Fin cfg5.N) (d) : dat.before 2 t d = ib5 V c 2 t :=
  (dat.before_in_eq_fetched 2 rfl (fun _ => rfl) (fun t t' _ => funext fun a => (clip5_2 t a).trans (clip5_2 t' a).symm)
      (fun t => by rw [hafter]; unfold ib5; rw [Window.cut_fill]; unfold Dat.blockOf iblk5; rw [hA]) t d).trans
    ((dat.fetched_of_clip_none 2 t (clip5_2 t) d _).trans (by unfold Dat.fetched Dat.blockOf ib5 iblk5; rw [hA]))
/-- Input window 3's current staging buffer holds its block at every point, fetched there or not, for ANY proof
    data whose array is `V`'s (`hA`) and whose body leaves the block in place (`hafter`): a window not fetched at a
    point has the block index of the point before, so its buffer still holds this point's block. -/
theorem before5_3_of {c : Dev nD} (dat : Dat τ (Elt F) Unit ℕ (Pipeline.UD sig nD τ) ℕ cfg5 c) (hA : dat.A 3 = V c (Pipeline.arrRef spec5 3))
    (hafter : ∀ t, dat.after 3 t = ib5 V c 3 t) (t : Fin cfg5.N) (d) : dat.before 3 t d = ib5 V c 3 t :=
  (dat.before_in_eq_fetched 3 rfl (fun _ => rfl) (fun t t' _ => funext fun a => (clip5_3 t a).trans (clip5_3 t' a).symm)
      (fun t => by rw [hafter]; unfold ib5; rw [Window.cut_fill]; unfold Dat.blockOf iblk5; rw [hA]) t d).trans
    ((dat.fetched_of_clip_none 3 t (clip5_3 t) d _).trans (by unfold Dat.fetched Dat.blockOf ib5 iblk5; rw [hA]))

/-! ## The body's accesses -/

abbrev r5_a : Rect S200x8064 := Rect.unit (s := S200x8064) ![0, 0] S200x8064.size inb_S200x8064_S200x8064_0_0
abbrev r5_s : Rect S8064x8 := Rect.unit (s := S8064x8) ![0, 0] S8064x8.size inb_S8064x8_S8064x8_0_0
abbrev r5_lo : Rect S400x8 := Rect.unit (s := S400x8) ![0, 0] S200x8.size inb_S400x8_S200x8_0_0
abbrev r5_hi : Rect S400x8 := Rect.unit (s := S400x8) ![200, 0] S200x8.size inb_S400x8_S200x8_200_0

/-! ## What the body leaves in the output window's buffer -/

/-- Window 4's staging buffer after the body at grid coordinates `i`, from the input windows' blocks: its two stores
    as pieces, LAST FIRST — rows 200..399 from the second adjacency row block, rows 0..199 from the first. -/
def out5_4 (i : grid5.Coords) (x0 x1 : Vec F S200x8064 .f32) (x2 : Vec F S8064x8 .f32) (x3 : Vec F S400x8 .f32) : Vec F S400x8 .f32 :=
  View.canon [⟨r5_hi, k5_pay3 i (View.ld x2 r5_s) (View.ld x3 r5_hi) (View.ld x1 r5_a)⟩,
    ⟨r5_lo, k5_pay2 i (View.ld x2 r5_s) (View.ld x3 r5_lo) (View.ld x0 r5_a)⟩]

/-- The two stores tile the buffer (checked by evaluation), so they cover it. -/
theorem cover5_4 (p1 p0 : Vec F S200x8 .f32) (y : S400x8.Idx) :
    ∃ pc ∈ ([⟨r5_hi, p1⟩, ⟨r5_lo, p0⟩] : List (View.Piece (Elt F) S400x8 .f32)), y ∈ pc.1.set :=
  View.cover_of_tiled [⟨r5_hi, p1⟩, ⟨r5_lo, p0⟩] S200x8.size (by rfl) y

/-! ## The body's triple -/

set_option maxHeartbeats 1000000 in
/-- The kernel body on whole staging memrefs, the inputs' at read contents `x0 … x3` and the output's at anything,
    runs to the continuation holding the inputs' as they were and the output's at `out5_4` of the inputs'. (The body
    also loads each half of the output's buffer before storing to it; the values are not used.) -/
theorem sound_kernel5 (c : Dev nD) (E : Set ℕ) (i : grid5.Coords)
    (arg1 : Memref sig .tc .vmem S200x8064 .f32) (harg1 : arg1.IsWhole) (arg2 : Memref sig .tc .vmem S200x8064 .f32) (harg2 : arg2.IsWhole)
    (arg3 : Memref sig .tc .vmem S8064x8 .f32) (harg3 : arg3.IsWhole) (arg4 : Memref sig .tc .vmem S400x8 .f32) (harg4 : arg4.IsWhole)
    (arg5 : Memref sig .tc .vmem S400x8 .f32) (harg5 : arg5.IsWhole)
    (x0 x1 : Vec F S200x8064 .f32) (x2 : Vec F S8064x8 .f32) (x3 : Vec F S400x8 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5_4 i x0 x1 x2 x3)) -∗ K ⟨⟩))
      ⊢ wp frame (wpE (defs₀ (F := F)) Variants.none c none) E (cc5__pass2_kernel i arg1 harg1 arg2 harg2 arg3 harg3 arg4 harg4 arg5 harg5) K := by
  simp only [cc5__pass2_kernel_eq_skeleton]; unfold cc5__pass2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _ _)

/-! ## The pipeline's proof data -/

/-- The proof data of pipeline 5 on core `c`: the arrays as the region finds them (`V`); after the body at point `t`
    each input's buffer at its block and the output's at `out5_4` of the input blocks; the invariant the scoped rest
    and the generator register, untouched; nothing owed. The adjacency is read through two windows: they hold it by
    the left and the right half of the full share; every other window holds its array whole. -/
def dat5 (c : Dev nD) : Dat τ (Elt F) Unit ℕ (Pipeline.UD sig nD τ) ℕ cfg5 c where
  A w := V c (Pipeline.arrRef spec5 w)
  after w t := match w with
    | ⟨0, _⟩ => ib5 V c 0 t
    | ⟨1, _⟩ => ib5 V c 1 t
    | ⟨2, _⟩ => ib5 V c 2 t
    | ⟨3, _⟩ => ib5 V c 3 t
    | ⟨4, _⟩ => out5_4 (cfg5.grid.coords t) (ib5 V c 0 t) (ib5 V c 1 t) (ib5 V c 2 t) (ib5 V c 3 t)
  Φ _ := Pipeline.ΦA spec5 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq5 (c : Dev nD) (w : Fin cfg5.W) : (dat5 V c).A w = V c (Pipeline.arrRef spec5 w) := by
  dsimp only [dat5]

/-- The shares the windows hold their arrays at: the two windows on the adjacency its two halves, the rest whole. -/
theorem share5_0 (c : Dev nD) : (dat5 V c).share 0 = fullShare.left := rfl
theorem share5_1 (c : Dev nD) : (dat5 V c).share 1 = fullShare.right := rfl
theorem share5_rest (c : Dev nD) (w : Fin cfg5.W) (h0 : w ≠ 0) (h1 : w ≠ 1) : (dat5 V c).share w = fullShare := by
  match w, h0, h1 with
  | ⟨0, _⟩, h0, _ => exact absurd rfl h0
  | ⟨1, _⟩, _, h1 => exact absurd rfl h1
  | ⟨2, _⟩, _, _ => rfl
  | ⟨3, _⟩, _, _ => rfl
  | ⟨4, _⟩, _, _ => rfl

/-- What the body leaves, window by window. -/
theorem after5_0 (c : Dev nD) (t : Fin cfg5.N) : (dat5 V c).after 0 t = ib5 V c 0 t := by dsimp only [dat5]
theorem after5_1 (c : Dev nD) (t : Fin cfg5.N) : (dat5 V c).after 1 t = ib5 V c 1 t := by dsimp only [dat5]
theorem after5_2 (c : Dev nD) (t : Fin cfg5.N) : (dat5 V c).after 2 t = ib5 V c 2 t := by dsimp only [dat5]
theorem after5_3 (c : Dev nD) (t : Fin cfg5.N) : (dat5 V c).after 3 t = ib5 V c 3 t := by dsimp only [dat5]
theorem after5_4 (c : Dev nD) (t : Fin cfg5.N) :
    (dat5 V c).after 4 t = out5_4 (cfg5.grid.coords t) (ib5 V c 0 t) (ib5 V c 1 t) (ib5 V c 2 t) (ib5 V c 3 t) := by dsimp only [dat5]

/-- Each input's current staging buffer holds its block at every point, fetched there or not. -/
theorem before5_0 (c : Dev nD) (t : Fin cfg5.N) (d) : (dat5 V c).before 0 t d = ib5 V c 0 t :=
  before5_0_of V (dat5 V c) (A_eq5 V c 0) (after5_0 V c) t d
theorem before5_1 (c : Dev nD) (t : Fin cfg5.N) (d) : (dat5 V c).before 1 t d = ib5 V c 1 t :=
  before5_1_of V (dat5 V c) (A_eq5 V c 1) (after5_1 V c) t d
theorem before5_2 (c : Dev nD) (t : Fin cfg5.N) (d) : (dat5 V c).before 2 t d = ib5 V c 2 t :=
  before5_2_of V (dat5 V c) (A_eq5 V c 2) (after5_2 V c) t d
theorem before5_3 (c : Dev nD) (t : Fin cfg5.N) (d) : (dat5 V c).before 3 t d = ib5 V c 3 t :=
  before5_3_of V (dat5 V c) (A_eq5 V c 3) (after5_3 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (ib5 V c 0 t) (ib5 V c 1 t) (ib5 V c 2 t) (ib5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.Reg6.lean ====
/-
  Region 6 of @main (custom_call 6, the second pass over rows [8000, 10000) of the adjacency): the
  kernel's half of its frame, at a parameter `V` — the core's buffer contents when the region is entered.

  The pipeline has five windows over five grid points. Windows 0 and 1 both stand on the adjacency (two adjacent
  row blocks of 200 rows, the first 10000 columns of each), window 2 is the first 10000 rows of the second layer's
  input `s2` (one block, fetched once), window 3 the 400 rows of the partial result `part` the point works on,
  window 4 the 400 rows of the result. The body reads the four inputs whole, masks the rows of `s2` beyond the
  diagonal block, and writes the result's block in two halves of 200 rows: each half is the partial result's half
  plus the product of one adjacency row block with the masked `s2`.

  No transfer of these windows is cut: every block lies inside its array. The staging buffer of an input therefore
  holds the array's block whole, which is how the inputs' contents are stated (`ib6`).
-/
import proofs.«181509_g20452634264145_cont_8to1_1942_16_alg».proof.Proof.Gen.KernelIdeal.Launch
import proofs.«181509_g20452634264145_cont_8to1_1942_16_alg».proof.Proof.Gen.KernelIdeal.Skeleton
import proofs.«181509_g20452634264145_cont_8to1_1942_16_alg».proof.Proof.Gen.KernelIdeal.Points
import Idealize.ShloMosaic.Lib.Pipeline.FrameBody
import Idealize.ShloMosaic.Lib.Ring
import Idealize.ShloMosaic.Lib.Tactic

-- membership in a rectangle of long extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`): the part of the block
    inside the array. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The same as contents of a whole staging buffer: the block laid over contents nothing names. Every block of
    this region lies inside its array (`clip6_W`), so nothing of the underlying contents shows. -/
def ib6 (c : Dev nD) (w : Fin cfg6.W) (t : Fin cfg6.N) : (cfg6.win w).block.Idx → Elt F (cfg6.win w).elt :=
  (cfg6.win w).fill (cfg6.grid.coords t) (fun _ => Classical.arbitrary _) (iblk6 V c w t)

/-- No transfer of an input window is cut, at any point and on any axis: the block lies inside the array. -/
theorem clip6_0 : ∀ (t : Fin cfg6.N) (a : Fin (cfg6.win 0).shape.rank), (cfg6.win 0).clip (cfg6.grid.coords t) a = none :=
  (by decide +kernel : ∀ (t : Fin grid6.N) (a : Fin win6_0.shape.rank), win6_0.clip (grid6.coords t) a = none)
theorem clip6_1 : ∀ (t : Fin cfg6.N) (a : Fin (cfg6.win 1).shape.rank), (cfg6.win 1).clip (cfg6.grid.coords t) a = none :=
  (by decide +kernel : ∀ (t : Fin grid6.N) (a : Fin win6_1.shape.rank), win6_1.clip (grid6.coords t) a = none)
theorem clip6_2 : ∀ (t : Fin cfg6.N) (a : Fin (cfg6.win 2).shape.rank), (cfg6.win 2).clip (cfg6.grid.coords t) a = none :=
  (by decide +kernel : ∀ (t : Fin grid6.N) (a : Fin win6_2.shape.rank), win6_2.clip (grid6.coords t) a = none)
theorem clip6_3 : ∀ (t : Fin cfg6.N) (a : Fin (cfg6.win 3).shape.rank), (cfg6.win 3).clip (cfg6.grid.coords t) a = none :=
  (by decide +kernel : ∀ (t : Fin grid6.N) (a : Fin win6_3.shape.rank), win6_3.clip (grid6.coords t) a = none)

/-- Input window 0's current staging buffer holds its block at every point, fetched there or not, for ANY proof
    data whose array is `V`'s (`hA`) and whose body leaves the block in place (`hafter`): a window not fetched at a
    point has the block index of the point before, so its buffer still holds this point's block. -/
theorem before6_0_of {c : Dev nD} (dat : Dat τ (Elt F) Unit ℕ (Pipeline.UD sig nD τ) ℕ cfg6 c) (hA : dat.A 0 = V c (Pipeline.arrRef spec6 0))
    (hafter : ∀ t, dat.after 0 t = ib6 V c 0 t) (t : Fin cfg6.N) (d) : dat.before 0 t d = ib6 V c 0 t :=
  (dat.before_in_eq_fetched 0 rfl (fun _ => rfl) (fun t t' _ => funext fun a => (clip6_0 t a).trans (clip6_0 t' a).symm)
      (fun t => by rw [hafter]; unfold ib6; rw [Window.cut_fill]; unfold Dat.blockOf iblk6; rw [hA]) t d).trans
    ((dat.fetched_of_clip_none 0 t (clip6_0 t) d _).trans (by unfold Dat.fetched Dat.blockOf ib6 iblk6; rw [hA]))
/-- Input window 1's current staging buffer holds its block at every point, fetched there or not, for ANY proof
    data whose array is `V`'s (`hA`) and whose body leaves the block in place (`hafter`): a window not fetched at a
    point has the block index of the point before, so its buffer still holds this point's block. -/
theorem before6_1_of {c : Dev nD} (dat : Dat τ (Elt F) Unit ℕ (Pipeline.UD sig nD τ) ℕ cfg6 c) (hA : dat.A 1 = V c (Pipeline.arrRef spec6 1))
    (hafter : ∀ t, dat.after 1 t = ib6 V c 1 t) (t : Fin cfg6.N) (d) : dat.before 1 t d = ib6 V c 1 t :=
  (dat.before_in_eq_fetched 1 rfl (fun _ => rfl) (fun t t' _ => funext fun a => (clip6_1 t a).trans (clip6_1 t' a).symm)
      (fun t => by rw [hafter]; unfold ib6; rw [Window.cut_fill]; unfold Dat.blockOf iblk6; rw [hA]) t d).trans
    ((dat.fetched_of_clip_none 1 t (clip6_1 t) d _).trans (by unfold Dat.fetched Dat.blockOf ib6 iblk6; rw [hA]))
/-- Input window 2's current staging buffer holds its block at every point, fetched there or not, for ANY proof
    data whose array is `V`'s (`hA`) and whose body leaves the block in place (`hafter`): a window not fetched at a
    point has the block index of the point before, so its buffer still holds this point's block (this window is
    fetched at the first point only, and its one block serves every point). -/
theorem before6_2_of {c : Dev nD} (dat : Dat τ (Elt F) Unit ℕ (Pipeline.UD sig nD τ) ℕ cfg6 c) (hA : dat.A 2 = V c (Pipeline.arrRef spec6 2))
    (hafter : ∀ t, dat.after 2 t = ib6 V c 2 t) (t : Fin cfg6.N) (d) : dat.before 2 t d = ib6 V c 2 t :=
  (dat.before_in_eq_fetched 2 rfl (fun _ => rfl) (fun t t' _ => funext fun a => (clip6_2 t a).trans (clip6_2 t' a).symm)
      (fun t => by rw [hafter]; unfold ib6; rw [Window.cut_fill]; unfold Dat.blockOf iblk6; rw [hA]) t d).trans
    ((dat.fetched_of_clip_none 2 t (clip6_2 t) d _).trans (by unfold Dat.fetched Dat.blockOf ib6 iblk6; rw [hA]))
/-- Input window 3's current staging buffer holds its block at every point, fetched there or not, for ANY proof
    data whose array is `V`'s (`hA`) and whose body leaves the block in place (`hafter`): a window not fetched at a
    point has the block index of the point before, so its buffer still holds this point's block. -/
theorem before6_3_of {c : Dev nD} (dat : Dat τ (Elt F) Unit ℕ (Pipeline.UD sig nD τ) ℕ cfg6 c) (hA : dat.A 3 = V c (Pipeline.arrRef spec6 3))
    (hafter : ∀ t, dat.after 3 t = ib6 V c 3 t) (t : Fin cfg6.N) (d) : dat.before 3 t d = ib6 V c 3 t :=
  (dat.before_in_eq_fetched 3 rfl (fun _ => rfl) (fun t t' _ => funext fun a => (clip6_3 t a).trans (clip6_3 t' a).symm)
      (fun t => by rw [hafter]; unfold ib6; rw [Window.cut_fill]; unfold Dat.blockOf iblk6; rw [hA]) t d).trans
    ((dat.fetched_of_clip_none 3 t (clip6_3 t) d _).trans (by unfold Dat.fetched Dat.blockOf ib6 iblk6; rw [hA]))

/-! ## The body's accesses -/

abbrev r6_a : Rect S200x10000 := Rect.unit (s := S200x10000) ![0, 0] S200x10000.size inb_S200x10000_S200x10000_0_0
abbrev r6_s : Rect S10000x8 := Rect.unit (s := S10000x8) ![0, 0] S10000x8.size inb_S10000x8_S10000x8_0_0
abbrev r6_lo : Rect S400x8 := Rect.unit (s := S400x8) ![0, 0] S200x8.size inb_S400x8_S200x8_0_0
abbrev r6_hi : Rect S400x8 := Rect.unit (s := S400x8) ![200, 0] S200x8.size inb_S400x8_S200x8_200_0

/-! ## What the body leaves in the output window's buffer -/

/-- Window 4's staging buffer after the body at grid coordinates `i`, from the input windows' blocks: its two stores
    as pieces, LAST FIRST — rows 200..399 from the second adjacency row block, rows 0..199 from the first. -/
def out6_4 (i : grid6.Coords) (x0 x1 : Vec F S200x10000 .f32) (x2 : Vec F S10000x8 .f32) (x3 : Vec F S400x8 .f32) : Vec F S400x8 .f32 :=
  View.canon [⟨r6_hi, k6_pay3 i (View.ld x2 r6_s) (View.ld x3 r6_hi) (View.ld x1 r6_a)⟩,
    ⟨r6_lo, k6_pay2 i (View.ld x2 r6_s) (View.ld x3 r6_lo) (View.ld x0 r6_a)⟩]

/-- The two stores tile the buffer (checked by evaluation), so they cover it. -/
theorem cover6_4 (p1 p0 : Vec F S200x8 .f32) (y : S400x8.Idx) :
    ∃ pc ∈ ([⟨r6_hi, p1⟩, ⟨r6_lo, p0⟩] : List (View.Piece (Elt F) S400x8 .f32)), y ∈ pc.1.set :=
  View.cover_of_tiled [⟨r6_hi, p1⟩, ⟨r6_lo, p0⟩] S200x8.size (by rfl) y

/-! ## The body's triple -/

set_option maxHeartbeats 1000000 in
/-- The kernel body on whole staging memrefs, the inputs' at read contents `x0 … x3` and the output's at anything,
    runs to the continuation holding the inputs' as they were and the output's at `out6_4` of the inputs'. (The body
    also loads each half of the output's buffer before storing to it; the values are not used.) -/
theorem sound_kernel6 (c : Dev nD) (E : Set ℕ) (i : grid6.Coords)
    (arg1 : Memref sig .tc .vmem S200x10000 .f32) (harg1 : arg1.IsWhole) (arg2 : Memref sig .tc .vmem S200x10000 .f32) (harg2 : arg2.IsWhole)
    (arg3 : Memref sig .tc .vmem S10000x8 .f32) (harg3 : arg3.IsWhole) (arg4 : Memref sig .tc .vmem S400x8 .f32) (harg4 : arg4.IsWhole)
    (arg5 : Memref sig .tc .vmem S400x8 .f32) (harg5 : arg5.IsWhole)
    (x0 x1 : Vec F S200x10000 .f32) (x2 : Vec F S10000x8 .f32) (x3 : Vec F S400x8 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out6_4 i x0 x1 x2 x3)) -∗ K ⟨⟩))
      ⊢ wp frame (wpE (defs₀ (F := F)) Variants.none c none) E (cc6__pass2_kernel i arg1 harg1 arg2 harg2 arg3 harg3 arg4 harg4 arg5 harg5) K := by
  simp only [cc6__pass2_kernel_eq_skeleton]; unfold cc6__pass2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _ _)

/-! ## The pipeline's proof data -/

/-- The proof data of pipeline 6 on core `c`: the arrays as the region finds them (`V`); after the body at point `t`
    each input's buffer at its block and the output's at `out6_4` of the input blocks; the invariant the scoped rest
    and the generator register, untouched; nothing owed. The adjacency is read through two windows: they hold it by
    the left and the right half of the full share; every other window holds its array whole. -/
def dat6 (c : Dev nD) : Dat τ (Elt F) Unit ℕ (Pipeline.UD sig nD τ) ℕ cfg6 c where
  A w := V c (Pipeline.arrRef spec6 w)
  after w t := match w with
    | ⟨0, _⟩ => ib6 V c 0 t
    | ⟨1, _⟩ => ib6 V c 1 t
    | ⟨2, _⟩ => ib6 V c 2 t
    | ⟨3, _⟩ => ib6 V c 3 t
    | ⟨4, _⟩ => out6_4 (cfg6.grid.coords t) (ib6 V c 0 t) (ib6 V c 1 t) (ib6 V c 2 t) (ib6 V c 3 t)
  Φ _ := Pipeline.ΦA spec6 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq6 (c : Dev nD) (w : Fin cfg6.W) : (dat6 V c).A w = V c (Pipeline.arrRef spec6 w) := by
  dsimp only [dat6]

/-- The shares the windows hold their arrays at: the two windows on the adjacency its two halves, the rest whole. -/
theorem share6_0 (c : Dev nD) : (dat6 V c).share 0 = fullShare.left := rfl
theorem share6_1 (c : Dev nD) : (dat6 V c).share 1 = fullShare.right := rfl
theorem share6_rest (c : Dev nD) (w : Fin cfg6.W) (h0 : w ≠ 0) (h1 : w ≠ 1) : (dat6 V c).share w = fullShare := by
  match w, h0, h1 with
  | ⟨0, _⟩, h0, _ => exact absurd rfl h0
  | ⟨1, _⟩, _, h1 => exact absurd rfl h1
  | ⟨2, _⟩, _, _ => rfl
  | ⟨3, _⟩, _, _ => rfl
  | ⟨4, _⟩, _, _ => rfl

/-- What the body leaves, window by window. -/
theorem after6_0 (c : Dev nD) (t : Fin cfg6.N) : (dat6 V c).after 0 t = ib6 V c 0 t := by dsimp only [dat6]
theorem after6_1 (c : Dev nD) (t : Fin cfg6.N) : (dat6 V c).after 1 t = ib6 V c 1 t := by dsimp only [dat6]
theorem after6_2 (c : Dev nD) (t : Fin cfg6.N) : (dat6 V c).after 2 t = ib6 V c 2 t := by dsimp only [dat6]
theorem after6_3 (c : Dev nD) (t : Fin cfg6.N) : (dat6 V c).after 3 t = ib6 V c 3 t := by dsimp only [dat6]
theorem after6_4 (c : Dev nD) (t : Fin cfg6.N) :
    (dat6 V c).after 4 t = out6_4 (cfg6.grid.coords t) (ib6 V c 0 t) (ib6 V c 1 t) (ib6 V c 2 t) (ib6 V c 3 t) := by dsimp only [dat6]

/-- Each input's current staging buffer holds its block at every point, fetched there or not. -/
theorem before6_0 (c : Dev nD) (t : Fin cfg6.N) (d) : (dat6 V c).before 0 t d = ib6 V c 0 t :=
  before6_0_of V (dat6 V c) (A_eq6 V c 0) (after6_0 V c) t d
theorem before6_1 (c : Dev nD) (t : Fin cfg6.N) (d) : (dat6 V c).before 1 t d = ib6 V c 1 t :=
  before6_1_of V (dat6 V c) (A_eq6 V c 1) (after6_1 V c) t d
theorem before6_2 (c : Dev nD) (t : Fin cfg6.N) (d) : (dat6 V c).before 2 t d = ib6 V c 2 t :=
  before6_2_of V (dat6 V c) (A_eq6 V c 2) (after6_2 V c) t d
theorem before6_3 (c : Dev nD) (t : Fin cfg6.N) (d) : (dat6 V c).before 3 t d = ib6 V c 3 t :=
  before6_3_of V (dat6 V c) (A_eq6 V c 3) (after6_3 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ (grid6.coords t) _ _ _ _ _ _ _ _ _ _ (ib6 V c 0 t) (ib6 V c 1 t) (ib6 V c 2 t) (ib6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.Run.lean ====
/-
  @main from the launch to the return.

  The program is a stretch of four host reshapes, seven kernel regions and one host concatenate. Each region's half —
  its proof data at the contents it is entered with and its body obligation — is in the region's own module. Here the
  buffers' contents are followed from item to item, each region is made a segment of @main entered with every unscoped
  buffer at the contents before it and left with them at the contents after it, and the segments are run from the launch:
  every execution terminates, nothing faulting, with every unscoped buffer at the last contents of the fold. From that:
  the argument arrays end as launched, and the result array is the five row bands of regions 2 to 6 one above the other.

  In regions 1 to 6 two input windows stand on one array (the adjacency matrix): the array is dealt between them by the two
  halves of the full share on the way in and the halves are put back together on the way out.
-/
import proofs.«181509_g20452634264145_cont_8to1_1942_16_alg».proof.Proof.Gen.KernelIdeal.Regions
import proofs.«181509_g20452634264145_cont_8to1_1942_16_alg».proof.Proof.Gen.KernelIdeal.Skeleton
import proofs.«181509_g20452634264145_cont_8to1_1942_16_alg».proof.Proof.Gen.KernelIdeal.Points
import proofs.«181509_g20452634264145_cont_8to1_1942_16_alg».proof.Proof.LibSharedRegion
import proofs.«181509_g20452634264145_cont_8to1_1942_16_alg».proof.Proof.Reg0
import proofs.«181509_g20452634264145_cont_8to1_1942_16_alg».proof.Proof.Reg1Body
import proofs.«181509_g20452634264145_cont_8to1_1942_16_alg».proof.Proof.Reg2
import proofs.«181509_g20452634264145_cont_8to1_1942_16_alg».proof.Proof.Reg3
import proofs.«181509_g20452634264145_cont_8to1_1942_16_alg».proof.Proof.Reg4
import proofs.«181509_g20452634264145_cont_8to1_1942_16_alg».proof.Proof.Reg5
import proofs.«181509_g20452634264145_cont_8to1_1942_16_alg».proof.Proof.Reg6
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The buffers' contents between the items of @main

Core `c`'s unscoped buffers are followed through @main's nine items. At launch they hold the memory `m`; a stretch of host
operations replaces the buffers it writes by the operations' results; a kernel region replaces each array one of its
OUTPUT windows stands on by what the pipeline's write-backs leave there (`Dat.arrAt … N`, from the region's proof data
taken at the contents the region is entered with) and leaves every other buffer alone: an input window only reads. -/

variable (m : (ℓ : Loc nD τ sig) → Buf (Elt F) ℓ)

/-- At launch. -/
abbrev W0 (c : Dev nD) : Valuation τ sig (Elt F) := fun b => m (c, b)
/-- After the four reshapes (region 0 is entered here). -/
abbrev W1 (c : Dev nD) : Valuation τ sig (Elt F) := StableHlo.after hostOps0 (W0 m c)
/-- No reshape writes `r`: it holds what it held at launch. -/
theorem W1_of (c : Dev nD) (r : Ref sig .tc) (h : r ∉ hostOps0_W) : W1 m c (Proc.devRef .tc r) = W0 m c (Proc.devRef .tc r) :=
  StableHlo.after_of_writes_sub hostOps0 _ hostOps0_writes h
/-- The contents region 0 is entered with, read at the TensorCore's references. -/
abbrev Vin0 : (c : Dev nD) → (b : Ref sig .tc) → Buf (Elt F) ((c : Thread nD τ).loc b) := fun c b => W1 m c b

/-- After region 0: `main_v4_0`, `main_v4_1`, `main_v4_2` at what the write-backs of windows 6, 7, 8 leave, the rest as entered. -/
def W2 (c : Dev nD) : Valuation τ sig (Elt F) :=
  Function.update (Function.update (Function.update (W1 m c) (Proc.devRef .tc main_v4_0) ((dat0 (Vin0 m) c).arrAt 6 cfg0.N)
    ) (Proc.devRef .tc main_v4_1) ((dat0 (Vin0 m) c).arrAt 7 cfg0.N)
    ) (Proc.devRef .tc main_v4_2) ((dat0 (Vin0 m) c).arrAt 8 cfg0.N)
/-- A buffer that is no output array of region 0 holds after it what it held before. -/
theorem W2_of (c : Dev nD) (r : Ref sig .tc) (h0 : r ≠ main_v4_0) (h1 : r ≠ main_v4_1) (h2 : r ≠ main_v4_2) :
    W2 m c (Proc.devRef .tc r) = W1 m c (Proc.devRef .tc r) := by
  simp only [W2, Function.update_of_ne (StableHlo.devRef_ne_of_ne h0 : (Proc.devRef .tc r : DevRef τ sig) ≠ Proc.devRef .tc main_v4_0), Function.update_of_ne (StableHlo.devRef_ne_of_ne h1 : (Proc.devRef .tc r : DevRef τ sig) ≠ Proc.devRef .tc main_v4_1), Function.update_of_ne (StableHlo.devRef_ne_of_ne h2 : (Proc.devRef .tc r : DevRef τ sig) ≠ Proc.devRef .tc main_v4_2)]
theorem W2_main_v4_0 (c : Dev nD) : W2 m c (Proc.devRef .tc main_v4_0) = (dat0 (Vin0 m) c).arrAt 6 cfg0.N := by
  simp only [W2, Function.update_of_ne (StableHlo.devRef_ne_of_ne (by decide) : (Proc.devRef .tc main_v4_0 : DevRef τ sig) ≠ Proc.devRef .tc main_v4_1), Function.update_of_ne (StableHlo.devRef_ne_of_ne (by decide) : (Proc.devRef .tc main_v4_0 : DevRef τ sig) ≠ Proc.devRef .tc main_v4_2), Function.update_self]
theorem W2_main_v4_1 (c : Dev nD) : W2 m c (Proc.devRef .tc main_v4_1) = (dat0 (Vin0 m) c).arrAt 7 cfg0.N := by
  simp only [W2, Function.update_of_ne (StableHlo.devRef_ne_of_ne (by decide) : (Proc.devRef .tc main_v4_1 : DevRef τ sig) ≠ Proc.devRef .tc main_v4_2), Function.update_self]
theorem W2_main_v4_2 (c : Dev nD) : W2 m c (Proc.devRef .tc main_v4_2) = (dat0 (Vin0 m) c).arrAt 8 cfg0.N := by
  simp only [W2, Function.update_self]
/-- The contents region 0 is left with and region 1 is entered with, read at the TensorCore's references. -/
abbrev Vin1 : (c : Dev nD) → (b : Ref sig .tc) → Buf (Elt F) ((c : Thread nD τ).loc b) := fun c b => W2 m c b
/-- Every window's array holds after region 0 what the pipeline leaves there: an output's by the definition of the
    contents after the region, an input's because it is never written back and is no output's array. -/
theorem hF0 (c : Dev nD) : ∀ w : Fin cfg0.W, (dat0 (Vin0 m) c).arrAt w cfg0.N = Vin1 m c (Pipeline.arrRef spec0 w)
  | 0 => ((dat0 (Vin0 m) c).arrAt_in 0 rfl _).trans ((A_eq0 (Vin0 m) c 0).trans (W2_of m c main_arg0 (by decide) (by decide) (by decide)).symm)
  | 1 => ((dat0 (Vin0 m) c).arrAt_in 1 rfl _).trans ((A_eq0 (Vin0 m) c 1).trans (W2_of m c main_arg2 (by decide) (by decide) (by decide)).symm)
  | 2 => ((dat0 (Vin0 m) c).arrAt_in 2 rfl _).trans ((A_eq0 (Vin0 m) c 2).trans (W2_of m c main_arg4 (by decide) (by decide) (by decide)).symm)
  | 3 => ((dat0 (Vin0 m) c).arrAt_in 3 rfl _).trans ((A_eq0 (Vin0 m) c 3).trans (W2_of m c main_arg8 (by decide) (by decide) (by decide)).symm)
  | 4 => ((dat0 (Vin0 m) c).arrAt_in 4 rfl _).trans ((A_eq0 (Vin0 m) c 4).trans (W2_of m c main_v1 (by decide) (by decide) (by decide)).symm)
  | 5 => ((dat0 (Vin0 m) c).arrAt_in 5 rfl _).trans ((A_eq0 (Vin0 m) c 5).trans (W2_of m c main_v3 (by decide) (by decide) (by decide)).symm)
  | 6 => (W2_main_v4_0 m c).symm
  | 7 => (W2_main_v4_1 m c).symm
  | 8 => (W2_main_v4_2 m c).symm
  | ⟨_ + 9, h⟩ => absurd h (Nat.not_lt.2 (Nat.le_add_left _ _))
/-- Off the windows' arrays region 0 changes nothing. -/
theorem hrest0 (c : Dev nD) : ∀ b, b ∉ Finset.univ.image (Pipeline.arrRef spec0) → Vin1 m c b = Vin0 m c b :=
  fun b hb => W2_of m c b (fun e => hb (Finset.mem_image.mpr ⟨6, Finset.mem_univ _, e.symm⟩)) (fun e => hb (Finset.mem_image.mpr ⟨7, Finset.mem_univ _, e.symm⟩)) (fun e => hb (Finset.mem_image.mpr ⟨8, Finset.mem_univ _, e.symm⟩))

/-- After region 1: `main_v5_0`, `main_v5_1` at what the write-backs of windows 8, 9 leave, the rest as entered. -/
def W3 (c : Dev nD) : Valuation τ sig (Elt F) :=
  Function.update (Function.update (W2 m c) (Proc.devRef .tc main_v5_0) ((dat1 (Vin1 m) c).arrAt 8 cfg1.N)
    ) (Proc.devRef .tc main_v5_1) ((dat1 (Vin1 m) c).arrAt 9 cfg1.N)
/-- A buffer that is no output array of region 1 holds after it what it held before. -/
theorem W3_of (c : Dev nD) (r : Ref sig .tc) (h0 : r ≠ main_v5_0) (h1 : r ≠ main_v5_1) :
    W3 m c (Proc.devRef .tc r) = W2 m c (Proc.devRef .tc r) := by
  simp only [W3, Function.update_of_ne (StableHlo.devRef_ne_of_ne h0 : (Proc.devRef .tc r : DevRef τ sig) ≠ Proc.devRef .tc main_v5_0), Function.update_of_ne (StableHlo.devRef_ne_of_ne h1 : (Proc.devRef .tc r : DevRef τ sig) ≠ Proc.devRef .tc main_v5_1)]
theorem W3_main_v5_0 (c : Dev nD) : W3 m c (Proc.devRef .tc main_v5_0) = (dat1 (Vin1 m) c).arrAt 8 cfg1.N := by
  simp only [W3, Function.update_of_ne (StableHlo.devRef_ne_of_ne (by decide) : (Proc.devRef .tc main_v5_0 : DevRef τ sig) ≠ Proc.devRef .tc main_v5_1), Function.update_self]
theorem W3_main_v5_1 (c : Dev nD) : W3 m c (Proc.devRef .tc main_v5_1) = (dat1 (Vin1 m) c).arrAt 9 cfg1.N := by
  simp only [W3, Function.update_self]
/-- The contents region 1 is left with and region 2 is entered with, read at the TensorCore's references. -/
abbrev Vin2 : (c : Dev nD) → (b : Ref sig .tc) → Buf (Elt F) ((c : Thread nD τ).loc b) := fun c b => W3 m c b
/-- Every window's array holds after region 1 what the pipeline leaves there: an output's by the definition of the
    contents after the region, an input's because it is never written back and is no output's array. -/
theorem hF1 (c : Dev nD) : ∀ w : Fin cfg1.W, (dat1 (Vin1 m) c).arrAt w cfg1.N = Vin2 m c (Pipeline.arrRef spec1 w)
  | 0 => ((dat1 (Vin1 m) c).arrAt_in 0 rfl _).trans ((A_eq1 (Vin1 m) c 0).trans (W3_of m c main_arg1 (by decide) (by decide)).symm)
  | 1 => ((dat1 (Vin1 m) c).arrAt_in 1 rfl _).trans ((A_eq1 (Vin1 m) c 1).trans (W3_of m c main_arg1 (by decide) (by decide)).symm)
  | 2 => ((dat1 (Vin1 m) c).arrAt_in 2 rfl _).trans ((A_eq1 (Vin1 m) c 2).trans (W3_of m c main_v4_0 (by decide) (by decide)).symm)
  | 3 => ((dat1 (Vin1 m) c).arrAt_in 3 rfl _).trans ((A_eq1 (Vin1 m) c 3).trans (W3_of m c main_v4_1 (by decide) (by decide)).symm)
  | 4 => ((dat1 (Vin1 m) c).arrAt_in 4 rfl _).trans ((A_eq1 (Vin1 m) c 4).trans (W3_of m c main_v0 (by decide) (by decide)).symm)
  | 5 => ((dat1 (Vin1 m) c).arrAt_in 5 rfl _).trans ((A_eq1 (Vin1 m) c 5).trans (W3_of m c main_arg6 (by decide) (by decide)).symm)
  | 6 => ((dat1 (Vin1 m) c).arrAt_in 6 rfl _).trans ((A_eq1 (Vin1 m) c 6).trans (W3_of m c main_v4_2 (by decide) (by decide)).symm)
  | 7 => ((dat1 (Vin1 m) c).arrAt_in 7 rfl _).trans ((A_eq1 (Vin1 m) c 7).trans (W3_of m c main_v2 (by decide) (by decide)).symm)
  | 8 => (W3_main_v5_0 m c).symm
  | 9 => (W3_main_v5_1 m c).symm
  | ⟨_ + 10, h⟩ => absurd h (Nat.not_lt.2 (Nat.le_add_left _ _))
/-- Off the windows' arrays region 1 changes nothing. -/
theorem hrest1 (c : Dev nD) : ∀ b, b ∉ Finset.univ.image (Pipeline.arrRef spec1) → Vin2 m c b = Vin1 m c b :=
  fun b hb => W3_of m c b (fun e => hb (Finset.mem_image.mpr ⟨8, Finset.mem_univ _, e.symm⟩)) (fun e => hb (Finset.mem_image.mpr ⟨9, Finset.mem_univ _, e.symm⟩))

/-- After region 2: `main_v6` at what the write-backs of window 4 leave, the rest as entered. -/
def W4 (c : Dev nD) : Valuation τ sig (Elt F) :=
  Function.update (W3 m c) (Proc.devRef .tc main_v6) ((dat2 (Vin2 m) c).arrAt 4 cfg2.N)
/-- A buffer that is no output array of region 2 holds after it what it held before. -/
theorem W4_of (c : Dev nD) (r : Ref sig .tc) (h0 : r ≠ main_v6) :
    W4 m c (Proc.devRef .tc r) = W3 m c (Proc.devRef .tc r) := by
  simp only [W4, Function.update_of_ne (StableHlo.devRef_ne_of_ne h0 : (Proc.devRef .tc r : DevRef τ sig) ≠ Proc.devRef .tc main_v6)]
theorem W4_main_v6 (c : Dev nD) : W4 m c (Proc.devRef .tc main_v6) = (dat2 (Vin2 m) c).arrAt 4 cfg2.N := by
  simp only [W4, Function.update_self]
/-- The contents region 2 is left with and region 3 is entered with, read at the TensorCore's references. -/
abbrev Vin3 : (c : Dev nD) → (b : Ref sig .tc) → Buf (Elt F) ((c : Thread nD τ).loc b) := fun c b => W4 m c b
/-- Every window's array holds after region 2 what the pipeline leaves there: an output's by the definition of the
    contents after the region, an input's because it is never written back and is no output's array. -/
theorem hF2 (c : Dev nD) : ∀ w : Fin cfg2.W, (dat2 (Vin2 m) c).arrAt w cfg2.N = Vin3 m c (Pipeline.arrRef spec2 w)
  | 0 => ((dat2 (Vin2 m) c).arrAt_in 0 rfl _).trans ((A_eq2 (Vin2 m) c 0).trans (W4_of m c main_arg1 (by decide)).symm)
  | 1 => ((dat2 (Vin2 m) c).arrAt_in 1 rfl _).trans ((A_eq2 (Vin2 m) c 1).trans (W4_of m c main_arg1 (by decide)).symm)
  | 2 => ((dat2 (Vin2 m) c).arrAt_in 2 rfl _).trans ((A_eq2 (Vin2 m) c 2).trans (W4_of m c main_v5_0 (by decide)).symm)
  | 3 => ((dat2 (Vin2 m) c).arrAt_in 3 rfl _).trans ((A_eq2 (Vin2 m) c 3).trans (W4_of m c main_v5_1 (by decide)).symm)
  | 4 => (W4_main_v6 m c).symm
  | ⟨_ + 5, h⟩ => absurd h (Nat.not_lt.2 (Nat.le_add_left _ _))
/-- Off the windows' arrays region 2 changes nothing. -/
theorem hrest2 (c : Dev nD) : ∀ b, b ∉ Finset.univ.image (Pipeline.arrRef spec2) → Vin3 m c b = Vin2 m c b :=
  fun b hb => W4_of m c b (fun e => hb (Finset.mem_image.mpr ⟨4, Finset.mem_univ _, e.symm⟩))

/-- After region 3: `main_v7` at what the write-backs of window 4 leave, the rest as entered. -/
def W5 (c : Dev nD) : Valuation τ sig (Elt F) :=
  Function.update (W4 m c) (Proc.devRef .tc main_v7) ((dat3 (Vin3 m) c).arrAt 4 cfg3.N)
/-- A buffer that is no output array of region 3 holds after it what it held before. -/
theorem W5_of (c : Dev nD) (r : Ref sig .tc) (h0 : r ≠ main_v7) :
    W5 m c (Proc.devRef .tc r) = W4 m c (Proc.devRef .tc r) := by
  simp only [W5, Function.update_of_ne (StableHlo.devRef_ne_of_ne h0 : (Proc.devRef .tc r : DevRef τ sig) ≠ Proc.devRef .tc main_v7)]
theorem W5_main_v7 (c : Dev nD) : W5 m c (Proc.devRef .tc main_v7) = (dat3 (Vin3 m) c).arrAt 4 cfg3.N := by
  simp only [W5, Function.update_self]
/-- The contents region 3 is left with and region 4 is entered with, read at the TensorCore's references. -/
abbrev Vin4 : (c : Dev nD) → (b : Ref sig .tc) → Buf (Elt F) ((c : Thread nD τ).loc b) := fun c b => W5 m c b
/-- Every window's array holds after region 3 what the pipeline leaves there: an output's by the definition of the
    contents after the region, an input's because it is never written back and is no output's array. -/
theorem hF3 (c : Dev nD) : ∀ w : Fin cfg3.W, (dat3 (Vin3 m) c).arrAt w cfg3.N = Vin4 m c (Pipeline.arrRef spec3 w)
  | 0 => ((dat3 (Vin3 m) c).arrAt_in 0 rfl _).trans ((A_eq3 (Vin3 m) c 0).trans (W5_of m c main_arg1 (by decide)).symm)
  | 1 => ((dat3 (Vin3 m) c).arrAt_in 1 rfl _).trans ((A_eq3 (Vin3 m) c 1).trans (W5_of m c main_arg1 (by decide)).symm)
  | 2 => ((dat3 (Vin3 m) c).arrAt_in 2 rfl _).trans ((A_eq3 (Vin3 m) c 2).trans (W5_of m c main_v5_0 (by decide)).symm)
  | 3 => ((dat3 (Vin3 m) c).arrAt_in 3 rfl _).trans ((A_eq3 (Vin3 m) c 3).trans (W5_of m c main_v5_1 (by decide)).symm)
  | 4 => (W5_main_v7 m c).symm
  | ⟨_ + 5, h⟩ => absurd h (Nat.not_lt.2 (Nat.le_add_left _ _))
/-- Off the windows' arrays region 3 changes nothing. -/
theorem hrest3 (c : Dev nD) : ∀ b, b ∉ Finset.univ.image (Pipeline.arrRef spec3) → Vin4 m c b = Vin3 m c b :=
  fun b hb => W5_of m c b (fun e => hb (Finset.mem_image.mpr ⟨4, Finset.mem_univ _, e.symm⟩))

/-- After region 4: `main_v8` at what the write-backs of window 4 leave, the rest as entered. -/
def W6 (c : Dev nD) : Valuation τ sig (Elt F) :=
  Function.update (W5 m c) (Proc.devRef .tc main_v8) ((dat4 (Vin4 m) c).arrAt 4 cfg4.N)
/-- A buffer that is no output array of region 4 holds after it what it held before. -/
theorem W6_of (c : Dev nD) (r : Ref sig .tc) (h0 : r ≠ main_v8) :
    W6 m c (Proc.devRef .tc r) = W5 m c (Proc.devRef .tc r) := by
  simp only [W6, Function.update_of_ne (StableHlo.devRef_ne_of_ne h0 : (Proc.devRef .tc r : DevRef τ sig) ≠ Proc.devRef .tc main_v8)]
theorem W6_main_v8 (c : Dev nD) : W6 m c (Proc.devRef .tc main_v8) = (dat4 (Vin4 m) c).arrAt 4 cfg4.N := by
  simp only [W6, Function.update_self]
/-- The contents region 4 is left with and region 5 is entered with, read at the TensorCore's references. -/
abbrev Vin5 : (c : Dev nD) → (b : Ref sig .tc) → Buf (Elt F) ((c : Thread nD τ).loc b) := fun c b => W6 m c b
/-- Every window's array holds after region 4 what the pipeline leaves there: an output's by the definition of the
    contents after the region, an input's because it is never written back and is no output's array. -/
theorem hF4 (c : Dev nD) : ∀ w : Fin cfg4.W, (dat4 (Vin4 m) c).arrAt w cfg4.N = Vin5 m c (Pipeline.arrRef spec4 w)
  | 0 => ((dat4 (Vin4 m) c).arrAt_in 0 rfl _).trans ((A_eq4 (Vin4 m) c 0).trans (W6_of m c main_arg1 (by decide)).symm)
  | 1 => ((dat4 (Vin4 m) c).arrAt_in 1 rfl _).trans ((A_eq4 (Vin4 m) c 1).trans (W6_of m c main_arg1 (by decide)).symm)
  | 2 => ((dat4 (Vin4 m) c).arrAt_in 2 rfl _).trans ((A_eq4 (Vin4 m) c 2).trans (W6_of m c main_v5_0 (by decide)).symm)
  | 3 => ((dat4 (Vin4 m) c).arrAt_in 3 rfl _).trans ((A_eq4 (Vin4 m) c 3).trans (W6_of m c main_v5_1 (by decide)).symm)
  | 4 => (W6_main_v8 m c).symm
  | ⟨_ + 5, h⟩ => absurd h (Nat.not_lt.2 (Nat.le_add_left _ _))
/-- Off the windows' arrays region 4 changes nothing. -/
theorem hrest4 (c : Dev nD) : ∀ b, b ∉ Finset.univ.image (Pipeline.arrRef spec4) → Vin5 m c b = Vin4 m c b :=
  fun b hb => W6_of m c b (fun e => hb (Finset.mem_image.mpr ⟨4, Finset.mem_univ _, e.symm⟩))

/-- After region 5: `main_v9` at what the write-backs of window 4 leave, the rest as entered. -/
def W7 (c : Dev nD) : Valuation τ sig (Elt F) :=
  Function.update (W6 m c) (Proc.devRef .tc main_v9) ((dat5 (Vin5 m) c).arrAt 4 cfg5.N)
/-- A buffer that is no output array of region 5 holds after it what it held before. -/
theorem W7_of (c : Dev nD) (r : Ref sig .tc) (h0 : r ≠ main_v9) :
    W7 m c (Proc.devRef .tc r) = W6 m c (Proc.devRef .tc r) := by
  simp only [W7, Function.update_of_ne (StableHlo.devRef_ne_of_ne h0 : (Proc.devRef .tc r : DevRef τ sig) ≠ Proc.devRef .tc main_v9)]
theorem W7_main_v9 (c : Dev nD) : W7 m c (Proc.devRef .tc main_v9) = (dat5 (Vin5 m) c).arrAt 4 cfg5.N := by
  simp only [W7, Function.update_self]
/-- The contents region 5 is left with and region 6 is entered with, read at the TensorCore's references. -/
abbrev Vin6 : (c : Dev nD) → (b : Ref sig .tc) → Buf (Elt F) ((c : Thread nD τ).loc b) := fun c b => W7 m c b
/-- Every window's array holds after region 5 what the pipeline leaves there: an output's by the definition of the
    contents after the region, an input's because it is never written back and is no output's array. -/
theorem hF5 (c : Dev nD) : ∀ w : Fin cfg5.W, (dat5 (Vin5 m) c).arrAt w cfg5.N = Vin6 m c (Pipeline.arrRef spec5 w)
  | 0 => ((dat5 (Vin5 m) c).arrAt_in 0 rfl _).trans ((A_eq5 (Vin5 m) c 0).trans (W7_of m c main_arg1 (by decide)).symm)
  | 1 => ((dat5 (Vin5 m) c).arrAt_in 1 rfl _).trans ((A_eq5 (Vin5 m) c 1).trans (W7_of m c main_arg1 (by decide)).symm)
  | 2 => ((dat5 (Vin5 m) c).arrAt_in 2 rfl _).trans ((A_eq5 (Vin5 m) c 2).trans (W7_of m c main_v5_0 (by decide)).symm)
  | 3 => ((dat5 (Vin5 m) c).arrAt_in 3 rfl _).trans ((A_eq5 (Vin5 m) c 3).trans (W7_of m c main_v5_1 (by decide)).symm)
  | 4 => (W7_main_v9 m c).symm
  | ⟨_ + 5, h⟩ => absurd h (Nat.not_lt.2 (Nat.le_add_left _ _))
/-- Off the windows' arrays region 5 changes nothing. -/
theorem hrest5 (c : Dev nD) : ∀ b, b ∉ Finset.univ.image (Pipeline.arrRef spec5) → Vin6 m c b = Vin5 m c b :=
  fun b hb => W7_of m c b (fun e => hb (Finset.mem_image.mpr ⟨4, Finset.mem_univ _, e.symm⟩))

/-- After region 6: `main_v10` at what the write-backs of window 4 leave, the rest as entered. -/
def W8 (c : Dev nD) : Valuation τ sig (Elt F) :=
  Function.update (W7 m c) (Proc.devRef .tc main_v10) ((dat6 (Vin6 m) c).arrAt 4 cfg6.N)
/-- A buffer that is no output array of region 6 holds after it what it held before. -/
theorem W8_of (c : Dev nD) (r : Ref sig .tc) (h0 : r ≠ main_v10) :
    W8 m c (Proc.devRef .tc r) = W7 m c (Proc.devRef .tc r) := by
  simp only [W8, Function.update_of_ne (StableHlo.devRef_ne_of_ne h0 : (Proc.devRef .tc r : DevRef τ sig) ≠ Proc.devRef .tc main_v10)]
theorem W8_main_v10 (c : Dev nD) : W8 m c (Proc.devRef .tc main_v10) = (dat6 (Vin6 m) c).arrAt 4 cfg6.N := by
  simp only [W8, Function.update_self]
/-- The contents region 6 is left with, read at the TensorCore's references. -/
abbrev Vin7 : (c : Dev nD) → (b : Ref sig .tc) → Buf (Elt F) ((c : Thread nD τ).loc b) := fun c b => W8 m c b
/-- Every window's array holds after region 6 what the pipeline leaves there: an output's by the definition of the
    contents after the region, an input's because it is never written back and is no output's array. -/
theorem hF6 (c : Dev nD) : ∀ w : Fin cfg6.W, (dat6 (Vin6 m) c).arrAt w cfg6.N = Vin7 m c (Pipeline.arrRef spec6 w)
  | 0 => ((dat6 (Vin6 m) c).arrAt_in 0 rfl _).trans ((A_eq6 (Vin6 m) c 0).trans (W8_of m c main_arg1 (by decide)).symm)
  | 1 => ((dat6 (Vin6 m) c).arrAt_in 1 rfl _).trans ((A_eq6 (Vin6 m) c 1).trans (W8_of m c main_arg1 (by decide)).symm)
  | 2 => ((dat6 (Vin6 m) c).arrAt_in 2 rfl _).trans ((A_eq6 (Vin6 m) c 2).trans (W8_of m c main_v5_0 (by decide)).symm)
  | 3 => ((dat6 (Vin6 m) c).arrAt_in 3 rfl _).trans ((A_eq6 (Vin6 m) c 3).trans (W8_of m c main_v5_1 (by decide)).symm)
  | 4 => (W8_main_v10 m c).symm
  | ⟨_ + 5, h⟩ => absurd h (Nat.not_lt.2 (Nat.le_add_left _ _))
/-- Off the windows' arrays region 6 changes nothing. -/
theorem hrest6 (c : Dev nD) : ∀ b, b ∉ Finset.univ.image (Pipeline.arrRef spec6) → Vin7 m c b = Vin6 m c b :=
  fun b hb => W8_of m c b (fun e => hb (Finset.mem_image.mpr ⟨4, Finset.mem_univ _, e.symm⟩))

/-- After the concatenate: the end of @main. -/
abbrev W9 (c : Dev nD) : Valuation τ sig (Elt F) := StableHlo.after hostOps7 (W8 m c)
/-- The concatenate writes `main_v11` only. -/
theorem W9_of (c : Dev nD) (r : Ref sig .tc) (h : r ∉ hostOps7_W) : W9 m c (Proc.devRef .tc r) = W8 m c (Proc.devRef .tc r) :=
  StableHlo.after_of_writes_sub hostOps7 _ hostOps7_writes h

/-! ### The arguments end as launched

No host operation and no region writes an argument array (a region reads it through input windows), so the contents at
the end, read at an argument, walk back item by item to the launch memory. -/
theorem W9_main_arg0 (c : Dev nD) : W9 m c (Proc.devRef .tc main_arg0) = m ((c : Thread nD τ).loc main_arg0) :=
  (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide) (by decide)).trans <| (W2_of m c main_arg0 (by decide) (by decide) (by decide)).trans <| (W1_of m c main_arg0 (by decide)).trans rfl
theorem W9_main_arg1 (c : Dev nD) : W9 m c (Proc.devRef .tc main_arg1) = m ((c : Thread nD τ).loc main_arg1) :=
  (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide) (by decide)).trans <| (W2_of m c main_arg1 (by decide) (by decide) (by decide)).trans <| (W1_of m c main_arg1 (by decide)).trans rfl
theorem W9_main_arg2 (c : Dev nD) : W9 m c (Proc.devRef .tc main_arg2) = m ((c : Thread nD τ).loc main_arg2) :=
  (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide) (by decide)).trans <| (W2_of m c main_arg2 (by decide) (by decide) (by decide)).trans <| (W1_of m c main_arg2 (by decide)).trans rfl
theorem W9_main_arg3 (c : Dev nD) : W9 m c (Proc.devRef .tc main_arg3) = m ((c : Thread nD τ).loc main_arg3) :=
  (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide) (by decide)).trans <| (W2_of m c main_arg3 (by decide) (by decide) (by decide)).trans <| (W1_of m c main_arg3 (by decide)).trans rfl
theorem W9_main_arg4 (c : Dev nD) : W9 m c (Proc.devRef .tc main_arg4) = m ((c : Thread nD τ).loc main_arg4) :=
  (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide) (by decide)).trans <| (W2_of m c main_arg4 (by decide) (by decide) (by decide)).trans <| (W1_of m c main_arg4 (by decide)).trans rfl
theorem W9_main_arg5 (c : Dev nD) : W9 m c (Proc.devRef .tc main_arg5) = m ((c : Thread nD τ).loc main_arg5) :=
  (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide) (by decide)).trans <| (W2_of m c main_arg5 (by decide) (by decide) (by decide)).trans <| (W1_of m c main_arg5 (by decide)).trans rfl
theorem W9_main_arg6 (c : Dev nD) : W9 m c (Proc.devRef .tc main_arg6) = m ((c : Thread nD τ).loc main_arg6) :=
  (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide) (by decide)).trans <| (W2_of m c main_arg6 (by decide) (by decide) (by decide)).trans <| (W1_of m c main_arg6 (by decide)).trans rfl
theorem W9_main_arg7 (c : Dev nD) : W9 m c (Proc.devRef .tc main_arg7) = m ((c : Thread nD τ).loc main_arg7) :=
  (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide) (by decide)).trans <| (W2_of m c main_arg7 (by decide) (by decide) (by decide)).trans <| (W1_of m c main_arg7 (by decide)).trans rfl
theorem W9_main_arg8 (c : Dev nD) : W9 m c (Proc.devRef .tc main_arg8) = m ((c : Thread nD τ).loc main_arg8) :=
  (W9_of m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide) (by decide)).trans <| (W2_of m c main_arg8 (by decide) (by decide) (by decide)).trans <| (W1_of m c main_arg8 (by decide)).trans rfl
theorem W9_main_arg9 (c : Dev nD) : W9 m c (Proc.devRef .tc main_arg9) = m ((c : Thread nD τ).loc main_arg9) :=
  (W9_of m c main_arg9 (by decide)).trans <| (W8_of m c main_arg9 (by decide)).trans <| (W7_of m c main_arg9 (by decide)).trans <| (W6_of m c main_arg9 (by decide)).trans <| (W5_of m c main_arg9 (by decide)).trans <| (W4_of m c main_arg9 (by decide)).trans <| (W3_of m c main_arg9 (by decide) (by decide)).trans <| (W2_of m c main_arg9 (by decide) (by decide) (by decide)).trans <| (W1_of m c main_arg9 (by decide)).trans rfl

/-! # The proof data family and the thread state -/

/-- Every pipeline's proof data, each at the contents its region is entered with. -/
def pdats : (p : Fin 7) → (c : Dev nD) → Dat τ (Elt F) Unit ℕ (Pipeline.UD sig nD τ) ℕ (Pipeline.pin (pcfgs (F := F)) adm p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c
  | ⟨5, _⟩ => fun c => dat5 (Vin5 m) c
  | ⟨6, _⟩ => fun c => dat6 (Vin6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's invariant
    takes it in and gives it back) and the core owing nothing. -/
abbrev R (c : Dev nD) : sProp 𝕄 := iprop((∃ r, prngReg c r) ∗ ∃ W, owes (c : Thread nD τ) (0 : CellTallies nD τ sig Unit) W)
/-- The thread state between two items: every unscoped buffer at the contents `W c`, beside `R c`. -/
abbrev T (W : Dev nD → Valuation τ sig (Elt F)) (c : Dev nD) : sProp 𝕄 :=
  iprop(StableHlo.held (c : Thread nD τ) (Pipeline.ucRefs τ sig) (W c) ∗ R c)
/-- A stretch of host operations as a segment, from the contents `W`: it leaves the contents `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ### The windows' arrays in regions 1 to 6

Windows 0 and 1 stand on `main_arg1`; away from window 1 no two windows share an array; every array is an unscoped buffer. -/
theorem arr_unscoped1 : ∀ w : Fin 10, (Pipeline.arrRef spec1 w).isScoped = false := by decide
theorem arr_inj1 : Set.InjOn (Pipeline.arrRef spec1) ((Finset.univ.erase 1 : Finset (Fin 10)) : Set (Fin 10)) := by
  have h : ∀ a ∈ (Finset.univ.erase 1 : Finset (Fin 10)), ∀ b ∈ (Finset.univ.erase 1 : Finset (Fin 10)),
      Pipeline.arrRef spec1 a = Pipeline.arrRef spec1 b → a = b := by decide
  exact fun a ha b hb e => h a (Finset.mem_coe.mp ha) b (Finset.mem_coe.mp hb) e
theorem arr_unscoped2 : ∀ w : Fin 5, (Pipeline.arrRef spec2 w).isScoped = false := by decide
theorem arr_inj2 : Set.InjOn (Pipeline.arrRef spec2) ((Finset.univ.erase 1 : Finset (Fin 5)) : Set (Fin 5)) := by
  have h : ∀ a ∈ (Finset.univ.erase 1 : Finset (Fin 5)), ∀ b ∈ (Finset.univ.erase 1 : Finset (Fin 5)),
      Pipeline.arrRef spec2 a = Pipeline.arrRef spec2 b → a = b := by decide
  exact fun a ha b hb e => h a (Finset.mem_coe.mp ha) b (Finset.mem_coe.mp hb) e
theorem arr_unscoped3 : ∀ w : Fin 5, (Pipeline.arrRef spec3 w).isScoped = false := by decide
theorem arr_inj3 : Set.InjOn (Pipeline.arrRef spec3) ((Finset.univ.erase 1 : Finset (Fin 5)) : Set (Fin 5)) := by
  have h : ∀ a ∈ (Finset.univ.erase 1 : Finset (Fin 5)), ∀ b ∈ (Finset.univ.erase 1 : Finset (Fin 5)),
      Pipeline.arrRef spec3 a = Pipeline.arrRef spec3 b → a = b := by decide
  exact fun a ha b hb e => h a (Finset.mem_coe.mp ha) b (Finset.mem_coe.mp hb) e
theorem arr_unscoped4 : ∀ w : Fin 5, (Pipeline.arrRef spec4 w).isScoped = false := by decide
theorem arr_inj4 : Set.InjOn (Pipeline.arrRef spec4) ((Finset.univ.erase 1 : Finset (Fin 5)) : Set (Fin 5)) := by
  have h : ∀ a ∈ (Finset.univ.erase 1 : Finset (Fin 5)), ∀ b ∈ (Finset.univ.erase 1 : Finset (Fin 5)),
      Pipeline.arrRef spec4 a = Pipeline.arrRef spec4 b → a = b := by decide
  exact fun a ha b hb e => h a (Finset.mem_coe.mp ha) b (Finset.mem_coe.mp hb) e
theorem arr_unscoped5 : ∀ w : Fin 5, (Pipeline.arrRef spec5 w).isScoped = false := by decide
theorem arr_inj5 : Set.InjOn (Pipeline.arrRef spec5) ((Finset.univ.erase 1 : Finset (Fin 5)) : Set (Fin 5)) := by
  have h : ∀ a ∈ (Finset.univ.erase 1 : Finset (Fin 5)), ∀ b ∈ (Finset.univ.erase 1 : Finset (Fin 5)),
      Pipeline.arrRef spec5 a = Pipeline.arrRef spec5 b → a = b := by decide
  exact fun a ha b hb e => h a (Finset.mem_coe.mp ha) b (Finset.mem_coe.mp hb) e
theorem arr_unscoped6 : ∀ w : Fin 5, (Pipeline.arrRef spec6 w).isScoped = false := by decide
theorem arr_inj6 : Set.InjOn (Pipeline.arrRef spec6) ((Finset.univ.erase 1 : Finset (Fin 5)) : Set (Fin 5)) := by
  have h : ∀ a ∈ (Finset.univ.erase 1 : Finset (Fin 5)), ∀ b ∈ (Finset.univ.erase 1 : Finset (Fin 5)),
      Pipeline.arrRef spec6 a = Pipeline.arrRef spec6 b → a = b := by decide
  exact fun a ha b hb e => h a (Finset.mem_coe.mp ha) b (Finset.mem_coe.mp hb) e

/-! # The regions as segments -/

set_option backward.isDefEq.respectTransparency.types false in
/-- Region 0, entered with every unscoped buffer at `W1` and left with them at `W2`. Every window stands on an array of its
    own: the arrays are split out of the unscoped buffers, each at the full share, and put back at the contents the
    pipeline leaves. The generator register goes into the region's invariant and comes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre := T (W1 m)
  post := T (W2 m)
  X c := iprop(∃ r, prngReg c r)
  Y c := iprop(∃ r, prngReg c r)
  Z c := Pipeline.unscopedRest (Ix := Unit) (Name := ℕ) (U := Pipeline.UD sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun w => A_eq0 (Vin0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (Vin0 m c) (Vin1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Entering region 1: every unscoped buffer at `W2` is the pipeline's arrays window by window — `main_arg1` dealt between
    windows 0 and 1 by the two halves of the full share, every other window's array whole — beside the buffers no window stands on. -/
theorem split1 (c : Dev nD) :
    (StableHlo.held (c : Thread nD τ) (Pipeline.ucRefs τ sig) (W2 m c) : sProp 𝕄)
      = iprop((pdats m 1 c).arrays ((pdats m 1 c).arrAt · 0)
          ∗ Pipeline.unscopedRest (Ix := Unit) (Name := ℕ) (U := Pipeline.UD sig nD τ) (Lvl := ℕ) spec1 c (Vin1 m c)) := by
  rw [← Pipeline.unscopedBufs_held (Ix := Unit) (Name := ℕ) (U := Pipeline.UD sig nD τ) (Lvl := ℕ) c (W2 m c)]
  exact Pipeline.unscopedBufs_eq_arrays_two_on_one (pdats m 1 c) arr_whole1 arr_unscoped1 0 1 (by decide : (0 : Fin 10) ≠ 1) rfl arr_inj1
    (share1_0 (Vin1 m) c) (share1_1 (Vin1 m) c) (share1_rest (Vin1 m) c) (Vin1 m c) _ (fun w => A_eq1 (Vin1 m) c w)
set_option backward.isDefEq.respectTransparency.types false in
/-- Leaving region 1: the arrays at what the pipeline leaves, the two halves of `main_arg1` put back together, beside the
    untouched buffers, are every unscoped buffer at `W3`. -/
theorem join1 (c : Dev nD) :
    (iprop((pdats m 1 c).arrays ((pdats m 1 c).arrAt · cfg1.N)
          ∗ Pipeline.unscopedRest (Ix := Unit) (Name := ℕ) (U := Pipeline.UD sig nD τ) (Lvl := ℕ) spec1 c (Vin1 m c)) : sProp 𝕄)
      = StableHlo.held (c : Thread nD τ) (Pipeline.ucRefs τ sig) (W3 m c) := by
  rw [← Pipeline.unscopedBufs_held (Ix := Unit) (Name := ℕ) (U := Pipeline.UD sig nD τ) (Lvl := ℕ) c (W3 m c),
    Pipeline.unscopedRest_congr spec1 c (Vin1 m c) (Vin2 m c) (hrest1 m c)]
  exact (Pipeline.unscopedBufs_eq_arrays_two_on_one (pdats m 1 c) arr_whole1 arr_unscoped1 0 1 (by decide : (0 : Fin 10) ≠ 1) rfl arr_inj1
    (share1_0 (Vin1 m) c) (share1_1 (Vin1 m) c) (share1_rest (Vin1 m) c) (Vin2 m c) _ (hF1 m c)).symm

set_option backward.isDefEq.respectTransparency.types false in
/-- Region 1, entered with every unscoped buffer at `W2` and left with them at `W3` (`split1`, `join1`). The generator
    register goes into the region's invariant and comes back, through the invariant's two ends `hin1`, `hout1`; nothing owed; no semaphore of the kernel's own. -/
def reg1 :
    Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vin1 m) c).loose
  hwaits := Pipeline.hwaits_of_owed_zero _ _ _ _ L lv 1 fun _ _ => rfl
  pre := T (W2 m)
  post := T (W3 m)
  X c := iprop(∃ r, prngReg c r)
  Y c := iprop(∃ r, prngReg c r)
  Z c := Pipeline.unscopedRest (Ix := Unit) (Name := ℕ) (U := Pipeline.UD sig nD τ) (Lvl := ℕ) spec1 c (Vin1 m c)
  hentry c := by
    rw [Pipeline.ownSems0_none]
    iintro ⟨⟨Hub, Hp, HO⟩, -, -⟩
    ihave H := (Entails.of_eq (split1 m c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m) c)
    unfold Pipeline.ΦA
    iintro ⟨Hp, -, Hr⟩
    isplitl [Hr]; · iexact Hr
    iexact Hp
  hout c := by
    rw [Pipeline.ownSems0_none]
    refine (hout1 (Vin1 m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (Entails.of_eq (join1 m c)); isplitl [Ha] <;> iassumption
    isplitl [HY]; · iexact HY
    unfold Pipeline.Dat.owesAt Pipeline.owesWithin
    icases HO with ⟨%W, -, HO⟩; iexists W; iexact HO

set_option backward.isDefEq.respectTransparency.types false in
/-- Entering region 2: every unscoped buffer at `W3` is the pipeline's arrays window by window — `main_arg1` dealt between
    windows 0 and 1 by the two halves of the full share, every other window's array whole — beside the buffers no window stands on. -/
theorem split2 (c : Dev nD) :
    (StableHlo.held (c : Thread nD τ) (Pipeline.ucRefs τ sig) (W3 m c) : sProp 𝕄)
      = iprop((pdats m 2 c).arrays ((pdats m 2 c).arrAt · 0)
          ∗ Pipeline.unscopedRest (Ix := Unit) (Name := ℕ) (U := Pipeline.UD sig nD τ) (Lvl := ℕ) spec2 c (Vin2 m c)) := by
  rw [← Pipeline.unscopedBufs_held (Ix := Unit) (Name := ℕ) (U := Pipeline.UD sig nD τ) (Lvl := ℕ) c (W3 m c)]
  exact Pipeline.unscopedBufs_eq_arrays_two_on_one (pdats m 2 c) arr_whole2 arr_unscoped2 0 1 (by decide : (0 : Fin 5) ≠ 1) rfl arr_inj2
    (share2_0 (Vin2 m) c) (share2_1 (Vin2 m) c) (share2_rest (Vin2 m) c) (Vin2 m c) _ (fun w => A_eq2 (Vin2 m) c w)
set_option backward.isDefEq.respectTransparency.types false in
/-- Leaving region 2: the arrays at what the pipeline leaves, the two halves of `main_arg1` put back together, beside the
    untouched buffers, are every unscoped buffer at `W4`. -/
theorem join2 (c : Dev nD) :
    (iprop((pdats m 2 c).arrays ((pdats m 2 c).arrAt · cfg2.N)
          ∗ Pipeline.unscopedRest (Ix := Unit) (Name := ℕ) (U := Pipeline.UD sig nD τ) (Lvl := ℕ) spec2 c (Vin2 m c)) : sProp 𝕄)
      = StableHlo.held (c : Thread nD τ) (Pipeline.ucRefs τ sig) (W4 m c) := by
  rw [← Pipeline.unscopedBufs_held (Ix := Unit) (Name := ℕ) (U := Pipeline.UD sig nD τ) (Lvl := ℕ) c (W4 m c),
    Pipeline.unscopedRest_congr spec2 c (Vin2 m c) (Vin3 m c) (hrest2 m c)]
  exact (Pipeline.unscopedBufs_eq_arrays_two_on_one (pdats m 2 c) arr_whole2 arr_unscoped2 0 1 (by decide : (0 : Fin 5) ≠ 1) rfl arr_inj2
    (share2_0 (Vin2 m) c) (share2_1 (Vin2 m) c) (share2_rest (Vin2 m) c) (Vin3 m c) _ (hF2 m c)).symm

set_option backward.isDefEq.respectTransparency.types false in
/-- Region 2, entered with every unscoped buffer at `W3` and left with them at `W4` (`split2`, `join2`). The generator
    register goes into the region's invariant and comes back; nothing owed; no semaphore of the kernel's own. -/
def reg2 :
    Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (Vin2 m) c).loose
  hwaits := Pipeline.hwaits_of_owed_zero _ _ _ _ L lv 2 fun _ _ => rfl
  pre := T (W3 m)
  post := T (W4 m)
  X c := iprop(∃ r, prngReg c r)
  Y c := iprop(∃ r, prngReg c r)
  Z c := Pipeline.unscopedRest (Ix := Unit) (Name := ℕ) (U := Pipeline.UD sig nD τ) (Lvl := ℕ) spec2 c (Vin2 m c)
  hentry c := by
    rw [Pipeline.ownSems0_none]
    iintro ⟨⟨Hub, Hp, HO⟩, -, -⟩
    ihave H := (Entails.of_eq (split2 m c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (Entails.of_eq (join2 m c)); isplitl [Ha] <;> iassumption
    isplitl [HY]; · iexact HY
    unfold Pipeline.Dat.owesAt Pipeline.owesWithin
    icases HO with ⟨%W, -, HO⟩; iexists W; iexact HO

set_option backward.isDefEq.respectTransparency.types false in
/-- Entering region 3: every unscoped buffer at `W4` is the pipeline's arrays window by window — `main_arg1` dealt between
    windows 0 and 1 by the two halves of the full share, every other window's array whole — beside the buffers no window stands on. -/
theorem split3 (c : Dev nD) :
    (StableHlo.held (c : Thread nD τ) (Pipeline.ucRefs τ sig) (W4 m c) : sProp 𝕄)
      = iprop((pdats m 3 c).arrays ((pdats m 3 c).arrAt · 0)
          ∗ Pipeline.unscopedRest (Ix := Unit) (Name := ℕ) (U := Pipeline.UD sig nD τ) (Lvl := ℕ) spec3 c (Vin3 m c)) := by
  rw [← Pipeline.unscopedBufs_held (Ix := Unit) (Name := ℕ) (U := Pipeline.UD sig nD τ) (Lvl := ℕ) c (W4 m c)]
  exact Pipeline.unscopedBufs_eq_arrays_two_on_one (pdats m 3 c) arr_whole3 arr_unscoped3 0 1 (by decide : (0 : Fin 5) ≠ 1) rfl arr_inj3
    (share3_0 (Vin3 m) c) (share3_1 (Vin3 m) c) (share3_rest (Vin3 m) c) (Vin3 m c) _ (fun w => A_eq3 (Vin3 m) c w)
set_option backward.isDefEq.respectTransparency.types false in
/-- Leaving region 3: the arrays at what the pipeline leaves, the two halves of `main_arg1` put back together, beside the
    untouched buffers, are every unscoped buffer at `W5`. -/
theorem join3 (c : Dev nD) :
    (iprop((pdats m 3 c).arrays ((pdats m 3 c).arrAt · cfg3.N)
          ∗ Pipeline.unscopedRest (Ix := Unit) (Name := ℕ) (U := Pipeline.UD sig nD τ) (Lvl := ℕ) spec3 c (Vin3 m c)) : sProp 𝕄)
      = StableHlo.held (c : Thread nD τ) (Pipeline.ucRefs τ sig) (W5 m c) := by
  rw [← Pipeline.unscopedBufs_held (Ix := Unit) (Name := ℕ) (U := Pipeline.UD sig nD τ) (Lvl := ℕ) c (W5 m c),
    Pipeline.unscopedRest_congr spec3 c (Vin3 m c) (Vin4 m c) (hrest3 m c)]
  exact (Pipeline.unscopedBufs_eq_arrays_two_on_one (pdats m 3 c) arr_whole3 arr_unscoped3 0 1 (by decide : (0 : Fin 5) ≠ 1) rfl arr_inj3
    (share3_0 (Vin3 m) c) (share3_1 (Vin3 m) c) (share3_rest (Vin3 m) c) (Vin4 m c) _ (hF3 m c)).symm

set_option backward.isDefEq.respectTransparency.types false in
/-- Region 3, entered with every unscoped buffer at `W4` and left with them at `W5` (`split3`, `join3`). The generator
    register goes into the region's invariant and comes back; nothing owed; no semaphore of the kernel's own. -/
def reg3 :
    Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (Vin3 m) c).loose
  hwaits := Pipeline.hwaits_of_owed_zero _ _ _ _ L lv 3 fun _ _ => rfl
  pre := T (W4 m)
  post := T (W5 m)
  X c := iprop(∃ r, prngReg c r)
  Y c := iprop(∃ r, prngReg c r)
  Z c := Pipeline.unscopedRest (Ix := Unit) (Name := ℕ) (U := Pipeline.UD sig nD τ) (Lvl := ℕ) spec3 c (Vin3 m c)
  hentry c := by
    rw [Pipeline.ownSems0_none]
    iintro ⟨⟨Hub, Hp, HO⟩, -, -⟩
    ihave H := (Entails.of_eq (split3 m c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (Entails.of_eq (join3 m c)); isplitl [Ha] <;> iassumption
    isplitl [HY]; · iexact HY
    unfold Pipeline.Dat.owesAt Pipeline.owesWithin
    icases HO with ⟨%W, -, HO⟩; iexists W; iexact HO

set_option backward.isDefEq.respectTransparency.types false in
/-- Entering region 4: every unscoped buffer at `W5` is the pipeline's arrays window by window — `main_arg1` dealt between
    windows 0 and 1 by the two halves of the full share, every other window's array whole — beside the buffers no window stands on. -/
theorem split4 (c : Dev nD) :
    (StableHlo.held (c : Thread nD τ) (Pipeline.ucRefs τ sig) (W5 m c) : sProp 𝕄)
      = iprop((pdats m 4 c).arrays ((pdats m 4 c).arrAt · 0)
          ∗ Pipeline.unscopedRest (Ix := Unit) (Name := ℕ) (U := Pipeline.UD sig nD τ) (Lvl := ℕ) spec4 c (Vin4 m c)) := by
  rw [← Pipeline.unscopedBufs_held (Ix := Unit) (Name := ℕ) (U := Pipeline.UD sig nD τ) (Lvl := ℕ) c (W5 m c)]
  exact Pipeline.unscopedBufs_eq_arrays_two_on_one (pdats m 4 c) arr_whole4 arr_unscoped4 0 1 (by decide : (0 : Fin 5) ≠ 1) rfl arr_inj4
    (share4_0 (Vin4 m) c) (share4_1 (Vin4 m) c) (share4_rest (Vin4 m) c) (Vin4 m c) _ (fun w => A_eq4 (Vin4 m) c w)
set_option backward.isDefEq.respectTransparency.types false in
/-- Leaving region 4: the arrays at what the pipeline leaves, the two halves of `main_arg1` put back together, beside the
    untouched buffers, are every unscoped buffer at `W6`. -/
theorem join4 (c : Dev nD) :
    (iprop((pdats m 4 c).arrays ((pdats m 4 c).arrAt · cfg4.N)
          ∗ Pipeline.unscopedRest (Ix := Unit) (Name := ℕ) (U := Pipeline.UD sig nD τ) (Lvl := ℕ) spec4 c (Vin4 m c)) : sProp 𝕄)
      = StableHlo.held (c : Thread nD τ) (Pipeline.ucRefs τ sig) (W6 m c) := by
  rw [← Pipeline.unscopedBufs_held (Ix := Unit) (Name := ℕ) (U := Pipeline.UD sig nD τ) (Lvl := ℕ) c (W6 m c),
    Pipeline.unscopedRest_congr spec4 c (Vin4 m c) (Vin5 m c) (hrest4 m c)]
  exact (Pipeline.unscopedBufs_eq_arrays_two_on_one (pdats m 4 c) arr_whole4 arr_unscoped4 0 1 (by decide : (0 : Fin 5) ≠ 1) rfl arr_inj4
    (share4_0 (Vin4 m) c) (share4_1 (Vin4 m) c) (share4_rest (Vin4 m) c) (Vin5 m c) _ (hF4 m c)).symm

set_option backward.isDefEq.respectTransparency.types false in
/-- Region 4, entered with every unscoped buffer at `W5` and left with them at `W6` (`split4`, `join4`). The generator
    register goes into the region's invariant and comes back; nothing owed; no semaphore of the kernel's own. -/
def reg4 :
    Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (Vin4 m) c).loose
  hwaits := Pipeline.hwaits_of_owed_zero _ _ _ _ L lv 4 fun _ _ => rfl
  pre := T (W5 m)
  post := T (W6 m)
  X c := iprop(∃ r, prngReg c r)
  Y c := iprop(∃ r, prngReg c r)
  Z c := Pipeline.unscopedRest (Ix := Unit) (Name := ℕ) (U := Pipeline.UD sig nD τ) (Lvl := ℕ) spec4 c (Vin4 m c)
  hentry c := by
    rw [Pipeline.ownSems0_none]
    iintro ⟨⟨Hub, Hp, HO⟩, -, -⟩
    ihave H := (Entails.of_eq (split4 m c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (Entails.of_eq (join4 m c)); isplitl [Ha] <;> iassumption
    isplitl [HY]; · iexact HY
    unfold Pipeline.Dat.owesAt Pipeline.owesWithin
    icases HO with ⟨%W, -, HO⟩; iexists W; iexact HO

set_option backward.isDefEq.respectTransparency.types false in
/-- Entering region 5: every unscoped buffer at `W6` is the pipeline's arrays window by window — `main_arg1` dealt between
    windows 0 and 1 by the two halves of the full share, every other window's array whole — beside the buffers no window stands on. -/
theorem split5 (c : Dev nD) :
    (StableHlo.held (c : Thread nD τ) (Pipeline.ucRefs τ sig) (W6 m c) : sProp 𝕄)
      = iprop((pdats m 5 c).arrays ((pdats m 5 c).arrAt · 0)
          ∗ Pipeline.unscopedRest (Ix := Unit) (Name := ℕ) (U := Pipeline.UD sig nD τ) (Lvl := ℕ) spec5 c (Vin5 m c)) := by
  rw [← Pipeline.unscopedBufs_held (Ix := Unit) (Name := ℕ) (U := Pipeline.UD sig nD τ) (Lvl := ℕ) c (W6 m c)]
  exact Pipeline.unscopedBufs_eq_arrays_two_on_one (pdats m 5 c) arr_whole5 arr_unscoped5 0 1 (by decide : (0 : Fin 5) ≠ 1) rfl arr_inj5
    (share5_0 (Vin5 m) c) (share5_1 (Vin5 m) c) (share5_rest (Vin5 m) c) (Vin5 m c) _ (fun w => A_eq5 (Vin5 m) c w)
set_option backward.isDefEq.respectTransparency.types false in
/-- Leaving region 5: the arrays at what the pipeline leaves, the two halves of `main_arg1` put back together, beside the
    untouched buffers, are every unscoped buffer at `W7`. -/
theorem join5 (c : Dev nD) :
    (iprop((pdats m 5 c).arrays ((pdats m 5 c).arrAt · cfg5.N)
          ∗ Pipeline.unscopedRest (Ix := Unit) (Name := ℕ) (U := Pipeline.UD sig nD τ) (Lvl := ℕ) spec5 c (Vin5 m c)) : sProp 𝕄)
      = StableHlo.held (c : Thread nD τ) (Pipeline.ucRefs τ sig) (W7 m c) := by
  rw [← Pipeline.unscopedBufs_held (Ix := Unit) (Name := ℕ) (U := Pipeline.UD sig nD τ) (Lvl := ℕ) c (W7 m c),
    Pipeline.unscopedRest_congr spec5 c (Vin5 m c) (Vin6 m c) (hrest5 m c)]
  exact (Pipeline.unscopedBufs_eq_arrays_two_on_one (pdats m 5 c) arr_whole5 arr_unscoped5 0 1 (by decide : (0 : Fin 5) ≠ 1) rfl arr_inj5
    (share5_0 (Vin5 m) c) (share5_1 (Vin5 m) c) (share5_rest (Vin5 m) c) (Vin6 m c) _ (hF5 m c)).symm

set_option backward.isDefEq.respectTransparency.types false in
/-- Region 5, entered with every unscoped buffer at `W6` and left with them at `W7` (`split5`, `join5`). The generator
    register goes into the region's invariant and comes back; nothing owed; no semaphore of the kernel's own. -/
def reg5 :
    Pipeline.RegionSeg (pcfgs (F := F)) adm (pdats m) () defs₀ 𝒱₀ L lv 5 where
  win := winFacts₀5
  block_pos := block_pos5
  stage_whole := stage_whole5
  K := PEmpty
  osem k := k.elim
  ho := Pipeline.OwnSemFacts.none _
  hbody c := (body_obligation5 (Vin5 m) c).loose
  hwaits := Pipeline.hwaits_of_owed_zero _ _ _ _ L lv 5 fun _ _ => rfl
  pre := T (W6 m)
  post := T (W7 m)
  X c := iprop(∃ r, prngReg c r)
  Y c := iprop(∃ r, prngReg c r)
  Z c := Pipeline.unscopedRest (Ix := Unit) (Name := ℕ) (U := Pipeline.UD sig nD τ) (Lvl := ℕ) spec5 c (Vin5 m c)
  hentry c := by
    rw [Pipeline.ownSems0_none]
    iintro ⟨⟨Hub, Hp, HO⟩, -, -⟩
    ihave H := (Entails.of_eq (split5 m c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (Entails.of_eq (join5 m c)); isplitl [Ha] <;> iassumption
    isplitl [HY]; · iexact HY
    unfold Pipeline.Dat.owesAt Pipeline.owesWithin
    icases HO with ⟨%W, -, HO⟩; iexists W; iexact HO

set_option backward.isDefEq.respectTransparency.types false in
/-- Entering region 6: every unscoped buffer at `W7` is the pipeline's arrays window by window — `main_arg1` dealt between
    windows 0 and 1 by the two halves of the full share, every other window's array whole — beside the buffers no window stands on. -/
theorem split6 (c : Dev nD) :
    (StableHlo.held (c : Thread nD τ) (Pipeline.ucRefs τ sig) (W7 m c) : sProp 𝕄)
      = iprop((pdats m 6 c).arrays ((pdats m 6 c).arrAt · 0)
          ∗ Pipeline.unscopedRest (Ix := Unit) (Name := ℕ) (U := Pipeline.UD sig nD τ) (Lvl := ℕ) spec6 c (Vin6 m c)) := by
  rw [← Pipeline.unscopedBufs_held (Ix := Unit) (Name := ℕ) (U := Pipeline.UD sig nD τ) (Lvl := ℕ) c (W7 m c)]
  exact Pipeline.unscopedBufs_eq_arrays_two_on_one (pdats m 6 c) arr_whole6 arr_unscoped6 0 1 (by decide : (0 : Fin 5) ≠ 1) rfl arr_inj6
    (share6_0 (Vin6 m) c) (share6_1 (Vin6 m) c) (share6_rest (Vin6 m) c) (Vin6 m c) _ (fun w => A_eq6 (Vin6 m) c w)
set_option backward.isDefEq.respectTransparency.types false in
/-- Leaving region 6: the arrays at what the pipeline leaves, the two halves of `main_arg1` put back together, beside the
    untouched buffers, are every unscoped buffer at `W8`. -/
theorem join6 (c : Dev nD) :
    (iprop((pdats m 6 c).arrays ((pdats m 6 c).arrAt · cfg6.N)
          ∗ Pipeline.unscopedRest (Ix := Unit) (Name := ℕ) (U := Pipeline.UD sig nD τ) (Lvl := ℕ) spec6 c (Vin6 m c)) : sProp 𝕄)
      = StableHlo.held (c : Thread nD τ) (Pipeline.ucRefs τ sig) (W8 m c) := by
  rw [← Pipeline.unscopedBufs_held (Ix := Unit) (Name := ℕ) (U := Pipeline.UD sig nD τ) (Lvl := ℕ) c (W8 m c),
    Pipeline.unscopedRest_congr spec6 c (Vin6 m c) (Vin7 m c) (hrest6 m c)]
  exact (Pipeline.unscopedBufs_eq_arrays_two_on_one (pdats m 6 c) arr_whole6 arr_unscoped6 0 1 (by decide : (0 : Fin 5) ≠ 1) rfl arr_inj6
    (share6_0 (Vin6 m) c) (share6_1 (Vin6 m) c) (share6_rest (Vin6 m) c) (Vin7 m c) _ (hF6 m c)).symm

set_option backward.isDefEq.respectTransparency.types false in
/-- Region 6, entered with every unscoped buffer at `W7` and left with them at `W8` (`split6`, `join6`). The generator
    register goes into the region's invariant and comes back; nothing owed; no semaphore of the kernel's own. -/
def reg6 :
    Pipeline.RegionSeg (pcfgs (F := F)) adm (pdats m) () defs₀ 𝒱₀ L lv 6 where
  win := winFacts₀6
  block_pos := block_pos6
  stage_whole := stage_whole6
  K := PEmpty
  osem k := k.elim
  ho := Pipeline.OwnSemFacts.none _
  hbody c := (body_obligation6 (Vin6 m) c).loose
  hwaits := Pipeline.hwaits_of_owed_zero _ _ _ _ L lv 6 fun _ _ => rfl
  pre := T (W7 m)
  post := T (W8 m)
  X c := iprop(∃ r, prngReg c r)
  Y c := iprop(∃ r, prngReg c r)
  Z c := Pipeline.unscopedRest (Ix := Unit) (Name := ℕ) (U := Pipeline.UD sig nD τ) (Lvl := ℕ) spec6 c (Vin6 m c)
  hentry c := by
    rw [Pipeline.ownSems0_none]
    iintro ⟨⟨Hub, Hp, HO⟩, -, -⟩
    ihave H := (Entails.of_eq (split6 m c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (Entails.of_eq (join6 m c)); isplitl [Ha] <;> iassumption
    isplitl [HY]; · iexact HY
    unfold Pipeline.Dat.owesAt Pipeline.owesWithin
    icases HO with ⟨%W, -, HO⟩; iexists W; iexact HO

/-! # @main as segments, and the launch -/

/-- @main's nine items in order: the four reshapes from the launch contents, the seven regions, the concatenate from `W8`. -/
abbrev segs : List (Pipeline.Seg (pcfgs (F := F)) adm (pdats m) () defs₀ 𝒱₀ L lv) :=
  [ .host (hseg hostOps0 hostOps0_sub hostOps0_fresh (W0 m)),
    .region (reg0 m), .region (reg1 m), .region (reg2 m), .region (reg3 m), .region (reg4 m), .region (reg5 m), .region (reg6 m),
    .host (hseg hostOps7 hostOps7_sub hostOps7_fresh (W8 m)) ]
/-- @main is the run of these segments. -/
theorem main_run (c : Dev nD) : main (F := F) c = Pipeline.Seg.run (segs m) :=
  main_segs adm (pdats m) () 𝒱₀ L lv _ _ (reg0 m) (reg1 m) (reg2 m) (reg3 m) (reg4 m) (reg5 m) (reg6 m) rfl rfl c

set_option backward.isDefEq.respectTransparency.types false in
/-- THE RUN. At the compiled mesh, from any memory `m` with zero counters and any generator registers, every weakly fair
    execution of @main on the TensorCores terminates, nothing faulting, and in every final state each unscoped buffer of
    each core holds the last contents of the fold, `W9`; so whatever follows from that of a final memory (`hQ`) holds of it.
    The thread state chains from item to item by name: each item is entered with the contents the one before it left. -/
theorem run_of (ρ : Dev nD → PrngReg) {Q : PUnit × MemSt nD τ sig (Elt F) → Prop}
    (hQ : ∀ s : MemSt nD τ sig (Elt F), (∀ c : Dev nD, ∀ b ∈ Pipeline.ucRefs τ sig, s.mem ((c : Thread nD τ).1, b) = W9 m c b) → Q (⟨⟩, s)) :
    θ_run defs (onTc (τ := τ) (main (F := F))) ⟨m, fun _ => 0, ρ⟩ Q :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := T (W0 m)) (Tₙ := fun c => StableHlo.held (c : Thread nD τ) (Pipeline.ucRefs τ sig) (W9 m c))
    (hch := ⟨fun _ => .rfl, fun _ => .rfl, fun _ => .rfl, fun _ => .rfl, fun _ => .rfl, fun _ => .rfl, fun _ => .rfl, fun _ => .rfl, fun _ => .rfl,
      fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W9 m c b)
    (hfin := fun c s' => by
      iintro ⟨Hh, HSI⟩
      unfold StableHlo.held
      imodintro
      iapply (pointsTo_read_all (Pipeline.ucRefs τ sig) (fun b => ((c : Thread nD τ).1, b)) (W9 m c) s')
      isplitl [Hh] <;> iassumption)
    (hQ := hQ)

/-- Every final state has every unscoped buffer of every core at `W9`. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W9 m c b) :=
  run_of m ρ fun _ h => h

/-- THE FRAME: every execution terminates, nothing faulting, and the ten argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_of m ρ fun s h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c),
     (h c _ (mem_uc main_arg9 (by decide))).trans (W9_main_arg9 m c)⟩

/-- The result array at the end: the five row bands `main_v6` … `main_v10`, as regions 2 to 6 left them, one above the other. -/
theorem W9_main_v11 (c : Dev nD) : W9 m c (Proc.devRef .tc main_v11)
    = concatenate S10000x8 0 [⟨S2000x8, W8 m c (Proc.devRef .tc main_v6)⟩, ⟨S2000x8, W8 m c (Proc.devRef .tc main_v7)⟩, ⟨S2000x8, W8 m c (Proc.devRef .tc main_v8)⟩,
        ⟨S2000x8, W8 m c (Proc.devRef .tc main_v9)⟩, ⟨S2000x8, W8 m c (Proc.devRef .tc main_v10)⟩] concatenates_S2000x8_S2000x8_S2000x8_S2000x8_S2000x8_S10000x8_d0 := by
  show StableHlo.after hostOps7 (W8 m c) (Proc.devRef .tc main_v11) = _
  generalize W8 m c = G
  after_results
  rfl

end Cert.KernelIdeal.Hand

end
-- ==== Proof.Spec.lean ====
/-
  The two-layer graph convolution with skip connections, as ONE function of the ten argument arrays, index by index
  on the extended reals, and the law between the reference's arrangement of the second aggregation and the
  triangle arrangement: for a row `i` of row block `B i = i / 200`, the columns at and above `200 (B i + 1)` are
  summed first (together with the bias and the skip term), the columns below it afterwards over a prefix of
  width `w`, any `w` between `200 (B i + 1)` and `10000`.  The law needs no finiteness: only that addition on the
  extended reals is commutative and associative and that `a * 0 = 0`.

  Arguments, in the programs' order: `x adj W1 b1 W2 b2 W3 b3 W4 b4`.
-/
import Idealize.ShloMosaic.Lib.ValueIdx

noncomputable section

open scoped BigOperators

namespace Cert.Spec

open Idealize.ShloMosaic

/-! ## Splitting a finite sum of products at a threshold -/

/-- A sum over `Fin n` of a function that vanishes from `w` on is the sum over its first `w` values. -/
theorem sum_prefix {n w : ℕ} (hw : w ≤ n) (f : Fin n → EReal) (hf : ∀ k : Fin n, w ≤ k.val → f k = 0) :
    ∑ k : Fin n, f k = ∑ k : Fin w, f ⟨k.val, lt_of_lt_of_le k.isLt hw⟩ := by
  have e : ∑ k : Fin w, f ⟨k.val, lt_of_lt_of_le k.isLt hw⟩ = ∑ k ∈ Finset.univ.map (Fin.castLEEmb hw), f k := by
    rw [Finset.sum_map]; rfl
  rw [e]
  refine (Finset.sum_subset (Finset.subset_univ _) fun k _ hk => hf k ?_).symm
  by_contra hlt
  exact hk (Finset.mem_map.2 ⟨⟨k.val, Nat.lt_of_not_le hlt⟩, Finset.mem_univ _, Fin.ext rfl⟩)

/-- The columns at and above a threshold `T`, plus the columns below it read over a prefix of width `w ≥ T`, are
    all the columns. -/
theorem sum_split {n : ℕ} (T w : ℕ) (hT : T ≤ w) (hw : w ≤ n) (a s : Fin n → EReal) :
    (∑ k : Fin n, a k * (if T ≤ k.val then s k else 0))
      + (∑ k : Fin w, a ⟨k.val, lt_of_lt_of_le k.isLt hw⟩ * (if k.val < T then s ⟨k.val, lt_of_lt_of_le k.isLt hw⟩ else 0))
      = ∑ k : Fin n, a k * s k := by
  rw [← sum_prefix hw (fun k : Fin n => a k * (if k.val < T then s k else 0))
        (fun k hk => by rw [if_neg (by omega), mul_zero]), ← Finset.sum_add_distrib]
  refine Finset.sum_congr rfl fun k _ => ?_
  by_cases h : T ≤ k.val
  · rw [if_pos h, if_neg (by omega), mul_zero, add_zero]
  · rw [if_neg h, if_pos (by omega), mul_zero, zero_add]

/-! ## The result, index by index -/

section
variable (x : Fin 10000 → Fin 128 → EReal) (adj : Fin 10000 → Fin 10000 → EReal)
  (W1 : Fin 128 → Fin 16 → EReal) (b1 : Fin 16 → EReal) (W2 : Fin 128 → Fin 16 → EReal) (b2 : Fin 16 → EReal)
  (W3 : Fin 16 → Fin 8 → EReal) (b3 : Fin 8 → EReal) (W4 : Fin 128 → Fin 8 → EReal) (b4 : Fin 8 → EReal)

/-- The leaky rectifier as both programs compute it on the extended reals: `v` where `v ≥ 0`, the slope times `v`
    elsewhere.  Zero and the slope are the programs' literal words, kept as such. -/
def act (v : EReal) : EReal :=
  Scalar.select (Ideal.cmp .oge v (Ideal.ofBits .f32 0x00000000#32)) v (Ideal.ofBits .f32 0x3E6AAAAB#32 * v)

/-- The first layer's support: `x W1`. -/
def s1 (k : Fin 10000) (c : Fin 16) : EReal := ∑ f : Fin 128, x k f * W1 f c
/-- The first layer's skip term: `x W2 + b2`. -/
def skip0 (k : Fin 10000) (c : Fin 16) : EReal := (∑ f : Fin 128, x k f * W2 f c) + b2 c
/-- The second layer's skip term: `x W4 + b4`. -/
def skip1 (i : Fin 10000) (j : Fin 8) : EReal := (∑ f : Fin 128, x i f * W4 f j) + b4 j
/-- The hidden layer before the rectifier: `adj (x W1) + b1 + (x W2 + b2)`. -/
def pre (k : Fin 10000) (c : Fin 16) : EReal :=
  ((∑ l : Fin 10000, adj k l * s1 x W1 l c) + b1 c) + skip0 x W2 b2 k c
/-- The second layer's support: the rectified hidden layer times `W3`. -/
def s2 (k : Fin 10000) (j : Fin 8) : EReal := ∑ c : Fin 16, act (pre x adj W1 b1 W2 b2 k c) * W3 c j
/-- The result: `adj s2 + b3 + (x W4 + b4)`. -/
def out (i : Fin 10000) (j : Fin 8) : EReal :=
  ((∑ k : Fin 10000, adj i k * s2 x adj W1 b1 W2 b2 W3 k j) + b3 j) + skip1 x W4 b4 i j

/-! ## The triangle arrangement of the last line -/

/-- Row `i`'s share of the second aggregation from the columns of the row blocks above its own. -/
def upper (i : Fin 10000) (j : Fin 8) : EReal :=
  ∑ k : Fin 10000, adj i k * (if 200 * (i.val / 200 + 1) ≤ k.val then s2 x adj W1 b1 W2 b2 W3 k j else 0)
/-- That share with the bias and the skip term added: what the first pass leaves. -/
def part (i : Fin 10000) (j : Fin 8) : EReal :=
  (upper x adj W1 b1 W2 b2 W3 i j + b3 j) + skip1 x W4 b4 i j
/-- Row `i`'s share from the columns up to the end of its own row block, read over a prefix of width `w`. -/
def lower (w : ℕ) (hw : w ≤ 10000) (i : Fin 10000) (j : Fin 8) : EReal :=
  ∑ k : Fin w, adj i ⟨k.val, lt_of_lt_of_le k.isLt hw⟩
    * (if k.val < 200 * (i.val / 200 + 1) then s2 x adj W1 b1 W2 b2 W3 ⟨k.val, lt_of_lt_of_le k.isLt hw⟩ j else 0)

/-- The law: the first pass's share plus the prefix share is the result, for every prefix width that reaches the end
    of the row's block. -/
theorem part_add_lower (w : ℕ) (hw : w ≤ 10000) (i : Fin 10000) (j : Fin 8) (hT : 200 * (i.val / 200 + 1) ≤ w) :
    part x adj W1 b1 W2 b2 W3 b3 W4 b4 i j + lower x adj W1 b1 W2 b2 W3 w hw i j
      = out x adj W1 b1 W2 b2 W3 b3 W4 b4 i j := by
  unfold part lower out upper
  rw [add_right_comm, add_right_comm (∑ k : Fin 10000, _) (b3 j),
    sum_split (200 * (i.val / 200 + 1)) w hT hw (adj i) (fun k => s2 x adj W1 b1 W2 b2 W3 k j)]

/-- Rows `0 … 1999` read a prefix of width 2048. -/
theorem part_add_lower_2048 (i : Fin 10000) (j : Fin 8) (hg : i.val / 2000 = 0) :
    part x adj W1 b1 W2 b2 W3 b3 W4 b4 i j + lower x adj W1 b1 W2 b2 W3 2048 (by decide) i j
      = out x adj W1 b1 W2 b2 W3 b3 W4 b4 i j :=
  part_add_lower x adj W1 b1 W2 b2 W3 b3 W4 b4 2048 _ i j (by omega)
/-- Rows `2000 … 3999` read a prefix of width 4096. -/
theorem part_add_lower_4096 (i : Fin 10000) (j : Fin 8) (hg : i.val / 2000 = 1) :
    part x adj W1 b1 W2 b2 W3 b3 W4 b4 i j + lower x adj W1 b1 W2 b2 W3 4096 (by decide) i j
      = out x adj W1 b1 W2 b2 W3 b3 W4 b4 i j :=
  part_add_lower x adj W1 b1 W2 b2 W3 b3 W4 b4 4096 _ i j (by omega)
/-- Rows `4000 … 5999` read a prefix of width 6016. -/
theorem part_add_lower_6016 (i : Fin 10000) (j : Fin 8) (hg : i.val / 2000 = 2) :
    part x adj W1 b1 W2 b2 W3 b3 W4 b4 i j + lower x adj W1 b1 W2 b2 W3 6016 (by decide) i j
      = out x adj W1 b1 W2 b2 W3 b3 W4 b4 i j :=
  part_add_lower x adj W1 b1 W2 b2 W3 b3 W4 b4 6016 _ i j (by omega)
/-- Rows `6000 … 7999` read a prefix of width 8064. -/
theorem part_add_lower_8064 (i : Fin 10000) (j : Fin 8) (hg : i.val / 2000 = 3) :
    part x adj W1 b1 W2 b2 W3 b3 W4 b4 i j + lower x adj W1 b1 W2 b2 W3 8064 (by decide) i j
      = out x adj W1 b1 W2 b2 W3 b3 W4 b4 i j :=
  part_add_lower x adj W1 b1 W2 b2 W3 b3 W4 b4 8064 _ i j (by omega)
/-- Rows `8000 … 9999` read every column. -/
theorem part_add_lower_10000 (i : Fin 10000) (j : Fin 8) (hg : i.val / 2000 = 4) :
    part x adj W1 b1 W2 b2 W3 b3 W4 b4 i j + lower x adj W1 b1 W2 b2 W3 10000 (by decide) i j
      = out x adj W1 b1 W2 b2 W3 b3 W4 b4 i j :=
  part_add_lower x adj W1 b1 W2 b2 W3 b3 W4 b4 10000 _ i j (by omega)

end

/-! ## The second layer from a given first support and skip terms

The same functions with the first layer's support, the skip terms and the biases as ARGUMENTS: what a pass computes
from arrays an earlier pass left, whatever those hold. -/

/-- The second support from a first support `t1` and a first skip term `k0`. -/
def s2Of (adj : Fin 10000 → Fin 10000 → EReal) (t1 : Fin 10000 → Fin 16 → EReal) (b1 : Fin 16 → EReal)
    (k0 : Fin 10000 → Fin 16 → EReal) (W3 : Fin 16 → Fin 8 → EReal) (k : Fin 10000) (j : Fin 8) : EReal :=
  ∑ c : Fin 16, act (((∑ l : Fin 10000, adj k l * t1 l c) + b1 c) + k0 k c) * W3 c j
/-- The first pass's share of the result from a second support `t2` and a second skip term `k1`. -/
def partOf (adj : Fin 10000 → Fin 10000 → EReal) (t2 : Fin 10000 → Fin 8 → EReal) (b3 : Fin 8 → EReal)
    (k1 : Fin 10000 → Fin 8 → EReal) (i : Fin 10000) (j : Fin 8) : EReal :=
  ((∑ k : Fin 10000, adj i k * (if 200 * (i.val / 200 + 1) ≤ k.val then t2 k j else 0)) + b3 j) + k1 i j
/-- The prefix share from a second support `t2`. -/
def lowerOf (adj : Fin 10000 → Fin 10000 → EReal) (t2 : Fin 10000 → Fin 8 → EReal) (w : ℕ) (hw : w ≤ 10000)
    (i : Fin 10000) (j : Fin 8) : EReal :=
  ∑ k : Fin w, adj i ⟨k.val, lt_of_lt_of_le k.isLt hw⟩
    * (if k.val < 200 * (i.val / 200 + 1) then t2 ⟨k.val, lt_of_lt_of_le k.isLt hw⟩ j else 0)

section
variable (x : Fin 10000 → Fin 128 → EReal) (adj : Fin 10000 → Fin 10000 → EReal)
  (W1 : Fin 128 → Fin 16 → EReal) (b1 : Fin 16 → EReal) (W2 : Fin 128 → Fin 16 → EReal) (b2 : Fin 16 → EReal)
  (W3 : Fin 16 → Fin 8 → EReal) (b3 : Fin 8 → EReal) (W4 : Fin 128 → Fin 8 → EReal) (b4 : Fin 8 → EReal)

theorem s2_eq_s2Of : s2 x adj W1 b1 W2 b2 W3 = s2Of adj (s1 x W1) b1 (skip0 x W2 b2) W3 := rfl
theorem part_eq_partOf :
    part x adj W1 b1 W2 b2 W3 b3 W4 b4 = partOf adj (s2 x adj W1 b1 W2 b2 W3) b3 (skip1 x W4 b4) := rfl
theorem lower_eq_lowerOf (w : ℕ) (hw : w ≤ 10000) :
    lower x adj W1 b1 W2 b2 W3 w hw = lowerOf adj (s2 x adj W1 b1 W2 b2 W3) w hw := rfl
end

/-! ## The result as an array of the argument arrays -/

/-- The result over the index set of shape `[10000, 8]`, from the ten argument ARRAYS (each read by coordinates): the
    one term both programs' results are stated as. -/
def result (a0 : (⟨2, ![10000, 128]⟩ : Shape).Idx → EReal) (a1 : (⟨2, ![10000, 10000]⟩ : Shape).Idx → EReal)
    (a2 : (⟨2, ![128, 16]⟩ : Shape).Idx → EReal) (a3 : (⟨1, ![16]⟩ : Shape).Idx → EReal)
    (a4 : (⟨2, ![128, 16]⟩ : Shape).Idx → EReal) (a5 : (⟨1, ![16]⟩ : Shape).Idx → EReal)
    (a6 : (⟨2, ![16, 8]⟩ : Shape).Idx → EReal) (a7 : (⟨1, ![8]⟩ : Shape).Idx → EReal)
    (a8 : (⟨2, ![128, 8]⟩ : Shape).Idx → EReal) (a9 : (⟨1, ![8]⟩ : Shape).Idx → EReal) :
    (⟨2, ![10000, 8]⟩ : Shape).Idx → EReal :=
  fun idx => out (fun k f => a0 (ValueIdx.ix2 k f)) (fun k l => a1 (ValueIdx.ix2 k l)) (fun f c => a2 (ValueIdx.ix2 f c))
    (fun c => a3 (ValueIdx.ix1 c)) (fun f c => a4 (ValueIdx.ix2 f c)) (fun c => a5 (ValueIdx.ix1 c))
    (fun c j => a6 (ValueIdx.ix2 c j)) (fun j => a7 (ValueIdx.ix1 j)) (fun f j => a8 (ValueIdx.ix2 f j))
    (fun j => a9 (ValueIdx.ix1 j)) (idx 0) (idx 1)

/-- `result` at the index of coordinates `i`, `j`. -/
theorem result_ix (a0 : (⟨2, ![10000, 128]⟩ : Shape).Idx → EReal) (a1 : (⟨2, ![10000, 10000]⟩ : Shape).Idx → EReal)
    (a2 : (⟨2, ![128, 16]⟩ : Shape).Idx → EReal) (a3 : (⟨1, ![16]⟩ : Shape).Idx → EReal)
    (a4 : (⟨2, ![128, 16]⟩ : Shape).Idx → EReal) (a5 : (⟨1, ![16]⟩ : Shape).Idx → EReal)
    (a6 : (⟨2, ![16, 8]⟩ : Shape).Idx → EReal) (a7 : (⟨1, ![8]⟩ : Shape).Idx → EReal)
    (a8 : (⟨2, ![128, 8]⟩ : Shape).Idx → EReal) (a9 : (⟨1, ![8]⟩ : Shape).Idx → EReal) (i : Fin 10000) (j : Fin 8) :
    result a0 a1 a2 a3 a4 a5 a6 a7 a8 a9 (ValueIdx.ix2 i j)
      = out (fun k f => a0 (ValueIdx.ix2 k f)) (fun k l => a1 (ValueIdx.ix2 k l)) (fun f c => a2 (ValueIdx.ix2 f c))
          (fun c => a3 (ValueIdx.ix1 c)) (fun f c => a4 (ValueIdx.ix2 f c)) (fun c => a5 (ValueIdx.ix1 c))
          (fun c j => a6 (ValueIdx.ix2 c j)) (fun j => a7 (ValueIdx.ix1 j)) (fun f j => a8 (ValueIdx.ix2 f j))
          (fun j => a9 (ValueIdx.ix1 j)) i j := rfl

end Cert.Spec

end
-- ==== Proof.RefSide.lean ====
import proofs.«181509_g20452634264145_cont_8to1_1942_16_alg».proof.Defs
import proofs.«181509_g20452634264145_cont_8to1_1942_16_alg».proof.Proof.Gen.ReferenceIdeal.Run
import proofs.«181509_g20452634264145_cont_8to1_1942_16_alg».proof.Proof.Gen.ReferenceIdeal.Read
import proofs.«181509_g20452634264145_cont_8to1_1942_16_alg».proof.Proof.Spec

/-
  The reference program is the specification: its result array, read at the index of coordinates `i`, `j`, is
  `Cert.Spec.out` of the argument arrays read by coordinates; and its run leaves the arguments unchanged.
  Each stage of the reference is read at an index in turn: the three small products, the hidden layer before the
  rectifier, the rectifier, the second support, the result.
-/

noncomputable section

open scoped BigOperators

namespace Cert.RefSide

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The index maps of the reference's stages, on coordinates -/

theorem lidx0 (p : Fin 10000) (q : Fin 16) (k : Fin 128) : lidx_main_v0 (ix2 p q) k = ix2 p k :=
  funext fun a => match a with | ⟨0, _⟩ => rfl | ⟨1, _⟩ => rfl
theorem ridx0 (p : Fin 10000) (q : Fin 16) (k : Fin 128) : ridx_main_v0 (ix2 p q) k = ix2 k q :=
  funext fun a => match a with | ⟨0, _⟩ => rfl | ⟨1, _⟩ => rfl
theorem lidx4 (p : Fin 10000) (q : Fin 8) (k : Fin 128) : lidx_main_v4 (ix2 p q) k = ix2 p k :=
  funext fun a => match a with | ⟨0, _⟩ => rfl | ⟨1, _⟩ => rfl
theorem ridx4 (p : Fin 10000) (q : Fin 8) (k : Fin 128) : ridx_main_v4 (ix2 p q) k = ix2 k q :=
  funext fun a => match a with | ⟨0, _⟩ => rfl | ⟨1, _⟩ => rfl
theorem lidx8 (p : Fin 10000) (q : Fin 16) (k : Fin 128) : lidx_main_v8 (ix2 p q) k = ix2 p k :=
  funext fun a => match a with | ⟨0, _⟩ => rfl | ⟨1, _⟩ => rfl
theorem ridx8 (p : Fin 10000) (q : Fin 16) (k : Fin 128) : ridx_main_v8 (ix2 p q) k = ix2 k q :=
  funext fun a => match a with | ⟨0, _⟩ => rfl | ⟨1, _⟩ => rfl
theorem lidx9 (p : Fin 10000) (q : Fin 16) (k : Fin 10000) : lidx_main_v9 (ix2 p q) k = ix2 p k :=
  funext fun a => match a with | ⟨0, _⟩ => rfl | ⟨1, _⟩ => rfl
theorem ridx9 (p : Fin 10000) (q : Fin 16) (k : Fin 10000) : ridx_main_v9 (ix2 p q) k = ix2 k q :=
  funext fun a => match a with | ⟨0, _⟩ => rfl | ⟨1, _⟩ => rfl
theorem lidx19 (p : Fin 10000) (q : Fin 8) (k : Fin 16) : lidx_main_v19 (ix2 p q) k = ix2 p k :=
  funext fun a => match a with | ⟨0, _⟩ => rfl | ⟨1, _⟩ => rfl
theorem ridx19 (p : Fin 10000) (q : Fin 8) (k : Fin 16) : ridx_main_v19 (ix2 p q) k = ix2 k q :=
  funext fun a => match a with | ⟨0, _⟩ => rfl | ⟨1, _⟩ => rfl
theorem lidx20 (p : Fin 10000) (q : Fin 8) (k : Fin 10000) : lidx_main_v20 (ix2 p q) k = ix2 p k :=
  funext fun a => match a with | ⟨0, _⟩ => rfl | ⟨1, _⟩ => rfl
theorem ridx20 (p : Fin 10000) (q : Fin 8) (k : Fin 10000) : ridx_main_v20 (ix2 p q) k = ix2 k q :=
  funext fun a => match a with | ⟨0, _⟩ => rfl | ⟨1, _⟩ => rfl
theorem idx2 (p : Fin 10000) (q : Fin 16) : idx_main_v1 (idx_main_v2 (ix2 p q)) = ix1 q :=
  funext fun a => match a with | ⟨0, _⟩ => rfl
theorem idx6 (p : Fin 10000) (q : Fin 8) : idx_main_v5 (idx_main_v6 (ix2 p q)) = ix1 q :=
  funext fun a => match a with | ⟨0, _⟩ => rfl
theorem idx11 (p : Fin 10000) (q : Fin 16) : idx_main_v10 (idx_main_v11 (ix2 p q)) = ix1 q :=
  funext fun a => match a with | ⟨0, _⟩ => rfl
theorem idx22 (p : Fin 10000) (q : Fin 8) : idx_main_v21 (idx_main_v22 (ix2 p q)) = ix1 q :=
  funext fun a => match a with | ⟨0, _⟩ => rfl

/-! ## The stages at an index -/

section
variable (x0 : (⟨S10000x128, .f32⟩ : BufTy).Contents (Elt Ideal)) (x1 : (⟨S10000x10000, .f32⟩ : BufTy).Contents (Elt Ideal))
  (x2 : (⟨S128x16, .f32⟩ : BufTy).Contents (Elt Ideal)) (x3 : (⟨S16, .f32⟩ : BufTy).Contents (Elt Ideal))
  (x4 : (⟨S128x16, .f32⟩ : BufTy).Contents (Elt Ideal)) (x5 : (⟨S16, .f32⟩ : BufTy).Contents (Elt Ideal))
  (x6 : (⟨S16x8, .f32⟩ : BufTy).Contents (Elt Ideal)) (x7 : (⟨S8, .f32⟩ : BufTy).Contents (Elt Ideal))
  (x8 : (⟨S128x8, .f32⟩ : BufTy).Contents (Elt Ideal)) (x9 : (⟨S8, .f32⟩ : BufTy).Contents (Elt Ideal))

/-- The first support `x W1`. -/
theorem s1_ix (k : Fin 10000) (c : Fin 16) :
    val_main_v8 (F := Ideal) x0 x2 (ix2 k c) = Spec.s1 (fun k f => x0 (ix2 k f)) (fun f c => x2 (ix2 f c)) k c := by
  rw [val_main_v8_apply]
  simp only [lidx8, ridx8]
  rfl

/-- The first skip term `x W2 + b2`. -/
theorem skip0_ix (k : Fin 10000) (c : Fin 16) :
    val_main_v3 (F := Ideal) x0 x4 x5 (ix2 k c)
      = Spec.skip0 (fun k f => x0 (ix2 k f)) (fun f c => x4 (ix2 f c)) (fun c => x5 (ix1 c)) k c := by
  rw [val_main_v3_apply, val_main_v0_apply, val_main_v2_apply, val_main_v1_apply, idx2]
  simp only [lidx0, ridx0]
  rfl

/-- The second skip term `x W4 + b4`. -/
theorem skip1_ix (i : Fin 10000) (j : Fin 8) :
    val_main_v7 (F := Ideal) x0 x8 x9 (ix2 i j)
      = Spec.skip1 (fun k f => x0 (ix2 k f)) (fun f j => x8 (ix2 f j)) (fun j => x9 (ix1 j)) i j := by
  rw [val_main_v7_apply, val_main_v4_apply, val_main_v6_apply, val_main_v5_apply, idx6]
  simp only [lidx4, ridx4]
  rfl

/-- The hidden layer before the rectifier. -/
theorem pre_ix (k : Fin 10000) (c : Fin 16) :
    val_main_v13 (F := Ideal) x0 x1 x2 x3 x4 x5 (ix2 k c)
      = Spec.pre (fun k f => x0 (ix2 k f)) (fun k l => x1 (ix2 k l)) (fun f c => x2 (ix2 f c)) (fun c => x3 (ix1 c))
          (fun f c => x4 (ix2 f c)) (fun c => x5 (ix1 c)) k c := by
  rw [val_main_v13_apply, val_main_v12_apply, val_main_v9_apply, val_main_v11_apply, val_main_v10_apply, idx11, skip0_ix]
  simp only [lidx9, ridx9, s1_ix]
  rfl

/-- The rectified hidden layer. -/
theorem act_ix (k : Fin 10000) (c : Fin 16) :
    val_main_v18 (F := Ideal) x0 x1 x2 x3 x4 x5 (ix2 k c)
      = Spec.act (Spec.pre (fun k f => x0 (ix2 k f)) (fun k l => x1 (ix2 k l)) (fun f c => x2 (ix2 f c)) (fun c => x3 (ix1 c))
          (fun f c => x4 (ix2 f c)) (fun c => x5 (ix1 c)) k c) := by
  rw [val_main_v18_apply, val_main_v15_apply, val_main_v17_apply, val_main_v14_apply, val_main_v16_apply, val_main_cst_apply,
    val_main_cst_0_apply, pre_ix]
  rfl

/-- The second support. -/
theorem s2_ix (k : Fin 10000) (j : Fin 8) :
    val_main_v19 (F := Ideal) x0 x1 x2 x3 x4 x5 x6 (ix2 k j)
      = Spec.s2 (fun k f => x0 (ix2 k f)) (fun k l => x1 (ix2 k l)) (fun f c => x2 (ix2 f c)) (fun c => x3 (ix1 c))
          (fun f c => x4 (ix2 f c)) (fun c => x5 (ix1 c)) (fun c j => x6 (ix2 c j)) k j := by
  rw [val_main_v19_apply]
  simp only [lidx19, ridx19, act_ix]
  rfl

/-- The reference's result at the index of coordinates `i`, `j` is the specification's. -/
theorem out_ix (i : Fin 10000) (j : Fin 8) :
    val_main_v24 (F := Ideal) x0 x1 x2 x3 x4 x5 x6 x7 x8 x9 (ix2 i j)
      = Spec.out (fun k f => x0 (ix2 k f)) (fun k l => x1 (ix2 k l)) (fun f c => x2 (ix2 f c)) (fun c => x3 (ix1 c))
          (fun f c => x4 (ix2 f c)) (fun c => x5 (ix1 c)) (fun c j => x6 (ix2 c j)) (fun j => x7 (ix1 j))
          (fun f j => x8 (ix2 f j)) (fun j => x9 (ix1 j)) i j := by
  rw [val_main_v24_apply, val_main_v23_apply, val_main_v20_apply, val_main_v22_apply, val_main_v21_apply, idx22, skip1_ix]
  simp only [lidx20, ridx20, s2_ix]
  rfl

/-- The reference's result array is the specification's. -/
theorem val_eq_result :
    val_main_v24 (F := Ideal) x0 x1 x2 x3 x4 x5 x6 x7 x8 x9 = Spec.result x0 x1 x2 x3 x4 x5 x6 x7 x8 x9 := by
  funext idx
  rw [eq_ix2 idx]
  exact out_ix x0 x1 x2 x3 x4 x5 x6 x7 x8 x9 (idx 0) (idx 1)

end

/-! ## The reference's run -/

/-- The reference runs and leaves its arguments unchanged. -/
theorem frame_ri [hReferenceIdeal : Cert.ReferenceIdeal.Facts] [hPre_finite_inputs : Cert.Pre_finite_inputs.Facts] :
    Cert.frame_ReferenceIdeal :=
  fun m ρ _ => (θ_run Cert.ReferenceIdeal.defs _ _).mono (fun _ h c => (h c).2.2.2.2.2)
    (Cert.ReferenceIdeal.Value.run (F := Ideal) m ρ)

end Cert.RefSide

end
-- ==== Proof.Contents.lean ====
/-
  What each region of @main reads, and what its last operation reads.

  The buffers' contents between the items of @main are a fold from the launch memory. Here the fold is read where a
  region's windows stand: an argument array holds what it held at launch, a bias reshaped on the host holds the launch
  vector under a unit axis, an array an earlier region wrote holds what that region's write-backs left; and the result of
  the concatenate is the five row bands regions 2 to 6 leave.
-/
import proofs.«181509_g20452634264145_cont_8to1_1942_16_alg».proof.Proof.Run
import Idealize.ShloMosaic.Lib.ValueLayout

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! # What each region reads, and what the concatenate reads

The contents a region is entered with, at each array one of its windows stands on, walked back through the fold to where
they were made: an argument array to the launch memory, a reshaped bias to the launch memory at the index without the unit
axis, an earlier region's output to what that region's write-backs left. -/

open Idealize.ShloMosaic.ValueIdx

/-! ### The four reshapes: a vector of length `n` as a `[1, n]` array -/
theorem W1_main_v0 (c : Dev nD) : W1 m c (Proc.devRef .tc main_v0) = fun i => shapeCast S1x16 (W0 m c (Proc.devRef .tc main_arg3)) shapeCasts_S16_S1x16 i := by
  show StableHlo.after hostOps0 (W0 m c) (Proc.devRef .tc main_v0) = _
  generalize W0 m c = G
  after_results
  rfl
theorem W1_main_v0_apply (c : Dev nD) (j : Fin 16) : W1 m c (Proc.devRef .tc main_v0) (ix2 (0 : Fin 1) j) = m ((c : Thread nD τ).loc main_arg3) (ix1 j) := by
  rw [W1_main_v0]
  exact shapeCast_a_1a_apply _ _ 0 j
theorem W1_main_v1 (c : Dev nD) : W1 m c (Proc.devRef .tc main_v1) = fun i => shapeCast S1x16 (W0 m c (Proc.devRef .tc main_arg5)) shapeCasts_S16_S1x16 i := by
  show StableHlo.after hostOps0 (W0 m c) (Proc.devRef .tc main_v1) = _
  generalize W0 m c = G
  after_results
  rfl
theorem W1_main_v1_apply (c : Dev nD) (j : Fin 16) : W1 m c (Proc.devRef .tc main_v1) (ix2 (0 : Fin 1) j) = m ((c : Thread nD τ).loc main_arg5) (ix1 j) := by
  rw [W1_main_v1]
  exact shapeCast_a_1a_apply _ _ 0 j
theorem W1_main_v2 (c : Dev nD) : W1 m c (Proc.devRef .tc main_v2) = fun i => shapeCast S1x8 (W0 m c (Proc.devRef .tc main_arg7)) shapeCasts_S8_S1x8 i := by
  show StableHlo.after hostOps0 (W0 m c) (Proc.devRef .tc main_v2) = _
  generalize W0 m c = G
  after_results
  rfl
theorem W1_main_v2_apply (c : Dev nD) (j : Fin 8) : W1 m c (Proc.devRef .tc main_v2) (ix2 (0 : Fin 1) j) = m ((c : Thread nD τ).loc main_arg7) (ix1 j) := by
  rw [W1_main_v2]
  exact shapeCast_a_1a_apply _ _ 0 j
theorem W1_main_v3 (c : Dev nD) : W1 m c (Proc.devRef .tc main_v3) = fun i => shapeCast S1x8 (W0 m c (Proc.devRef .tc main_arg9)) shapeCasts_S8_S1x8 i := by
  show StableHlo.after hostOps0 (W0 m c) (Proc.devRef .tc main_v3) = _
  generalize W0 m c = G
  after_results
  rfl
theorem W1_main_v3_apply (c : Dev nD) (j : Fin 8) : W1 m c (Proc.devRef .tc main_v3) (ix2 (0 : Fin 1) j) = m ((c : Thread nD τ).loc main_arg9) (ix1 j) := by
  rw [W1_main_v3]
  exact shapeCast_a_1a_apply _ _ 0 j

/-! ### Region 0 -/
theorem in0_arg0 (c : Dev nD) : Vin0 m c main_arg0 = m ((c : Thread nD τ).loc main_arg0) := (W1_of m c main_arg0 (by decide)).trans <| rfl
theorem in0_arg2 (c : Dev nD) : Vin0 m c main_arg2 = m ((c : Thread nD τ).loc main_arg2) := (W1_of m c main_arg2 (by decide)).trans <| rfl
theorem in0_arg4 (c : Dev nD) : Vin0 m c main_arg4 = m ((c : Thread nD τ).loc main_arg4) := (W1_of m c main_arg4 (by decide)).trans <| rfl
theorem in0_arg8 (c : Dev nD) : Vin0 m c main_arg8 = m ((c : Thread nD τ).loc main_arg8) := (W1_of m c main_arg8 (by decide)).trans <| rfl
theorem in0_v1 (c : Dev nD) (j : Fin 16) : Vin0 m c main_v1 (ix2 (0 : Fin 1) j) = m ((c : Thread nD τ).loc main_arg5) (ix1 j) := W1_main_v1_apply m c j
theorem in0_v3 (c : Dev nD) (j : Fin 8) : Vin0 m c main_v3 (ix2 (0 : Fin 1) j) = m ((c : Thread nD τ).loc main_arg9) (ix1 j) := W1_main_v3_apply m c j

/-! ### Region 1 -/
theorem in1_adj (c : Dev nD) : Vin1 m c main_arg1 = m ((c : Thread nD τ).loc main_arg1) := (W2_of m c main_arg1 (by decide) (by decide) (by decide)).trans <| (W1_of m c main_arg1 (by decide)).trans <| rfl
theorem in1_W3 (c : Dev nD) : Vin1 m c main_arg6 = m ((c : Thread nD τ).loc main_arg6) := (W2_of m c main_arg6 (by decide) (by decide) (by decide)).trans <| (W1_of m c main_arg6 (by decide)).trans <| rfl
theorem in1_s1 (c : Dev nD) : Vin1 m c main_v4_0 = (dat0 (Vin0 m) c).arrAt 6 cfg0.N := W2_main_v4_0 m c
theorem in1_skip0 (c : Dev nD) : Vin1 m c main_v4_1 = (dat0 (Vin0 m) c).arrAt 7 cfg0.N := W2_main_v4_1 m c
theorem in1_skip1 (c : Dev nD) : Vin1 m c main_v4_2 = (dat0 (Vin0 m) c).arrAt 8 cfg0.N := W2_main_v4_2 m c
theorem in1_b1 (c : Dev nD) (j : Fin 16) : Vin1 m c main_v0 (ix2 (0 : Fin 1) j) = m ((c : Thread nD τ).loc main_arg3) (ix1 j) :=
  (congrFun (W2_of m c main_v0 (by decide) (by decide) (by decide)) _).trans (W1_main_v0_apply m c j)
theorem in1_b3 (c : Dev nD) (j : Fin 8) : Vin1 m c main_v2 (ix2 (0 : Fin 1) j) = m ((c : Thread nD τ).loc main_arg7) (ix1 j) :=
  (congrFun (W2_of m c main_v2 (by decide) (by decide) (by decide)) _).trans (W1_main_v2_apply m c j)

/-! ### Regions 2 to 6 -/
theorem in2_adj (c : Dev nD) : Vin2 m c main_arg1 = m ((c : Thread nD τ).loc main_arg1) := (W3_of m c main_arg1 (by decide) (by decide)).trans <| (W2_of m c main_arg1 (by decide) (by decide) (by decide)).trans <| (W1_of m c main_arg1 (by decide)).trans <| rfl
theorem in2_s2 (c : Dev nD) : Vin2 m c main_v5_0 = (dat1 (Vin1 m) c).arrAt 8 cfg1.N := W3_main_v5_0 m c
theorem in2_part (c : Dev nD) : Vin2 m c main_v5_1 = (dat1 (Vin1 m) c).arrAt 9 cfg1.N := W3_main_v5_1 m c
theorem in3_adj (c : Dev nD) : Vin3 m c main_arg1 = m ((c : Thread nD τ).loc main_arg1) := (W4_of m c main_arg1 (by decide)).trans <| (W3_of m c main_arg1 (by decide) (by decide)).trans <| (W2_of m c main_arg1 (by decide) (by decide) (by decide)).trans <| (W1_of m c main_arg1 (by decide)).trans <| rfl
theorem in3_s2 (c : Dev nD) : Vin3 m c main_v5_0 = (dat1 (Vin1 m) c).arrAt 8 cfg1.N := (W4_of m c main_v5_0 (by decide)).trans <| W3_main_v5_0 m c
theorem in3_part (c : Dev nD) : Vin3 m c main_v5_1 = (dat1 (Vin1 m) c).arrAt 9 cfg1.N := (W4_of m c main_v5_1 (by decide)).trans <| W3_main_v5_1 m c
theorem in4_adj (c : Dev nD) : Vin4 m c main_arg1 = m ((c : Thread nD τ).loc main_arg1) := (W5_of m c main_arg1 (by decide)).trans <| (W4_of m c main_arg1 (by decide)).trans <| (W3_of m c main_arg1 (by decide) (by decide)).trans <| (W2_of m c main_arg1 (by decide) (by decide) (by decide)).trans <| (W1_of m c main_arg1 (by decide)).trans <| rfl
theorem in4_s2 (c : Dev nD) : Vin4 m c main_v5_0 = (dat1 (Vin1 m) c).arrAt 8 cfg1.N := (W5_of m c main_v5_0 (by decide)).trans <| (W4_of m c main_v5_0 (by decide)).trans <| W3_main_v5_0 m c
theorem in4_part (c : Dev nD) : Vin4 m c main_v5_1 = (dat1 (Vin1 m) c).arrAt 9 cfg1.N := (W5_of m c main_v5_1 (by decide)).trans <| (W4_of m c main_v5_1 (by decide)).trans <| W3_main_v5_1 m c
theorem in5_adj (c : Dev nD) : Vin5 m c main_arg1 = m ((c : Thread nD τ).loc main_arg1) := (W6_of m c main_arg1 (by decide)).trans <| (W5_of m c main_arg1 (by decide)).trans <| (W4_of m c main_arg1 (by decide)).trans <| (W3_of m c main_arg1 (by decide) (by decide)).trans <| (W2_of m c main_arg1 (by decide) (by decide) (by decide)).trans <| (W1_of m c main_arg1 (by decide)).trans <| rfl
theorem in5_s2 (c : Dev nD) : Vin5 m c main_v5_0 = (dat1 (Vin1 m) c).arrAt 8 cfg1.N := (W6_of m c main_v5_0 (by decide)).trans <| (W5_of m c main_v5_0 (by decide)).trans <| (W4_of m c main_v5_0 (by decide)).trans <| W3_main_v5_0 m c
theorem in5_part (c : Dev nD) : Vin5 m c main_v5_1 = (dat1 (Vin1 m) c).arrAt 9 cfg1.N := (W6_of m c main_v5_1 (by decide)).trans <| (W5_of m c main_v5_1 (by decide)).trans <| (W4_of m c main_v5_1 (by decide)).trans <| W3_main_v5_1 m c
theorem in6_adj (c : Dev nD) : Vin6 m c main_arg1 = m ((c : Thread nD τ).loc main_arg1) := (W7_of m c main_arg1 (by decide)).trans <| (W6_of m c main_arg1 (by decide)).trans <| (W5_of m c main_arg1 (by decide)).trans <| (W4_of m c main_arg1 (by decide)).trans <| (W3_of m c main_arg1 (by decide) (by decide)).trans <| (W2_of m c main_arg1 (by decide) (by decide) (by decide)).trans <| (W1_of m c main_arg1 (by decide)).trans <| rfl
theorem in6_s2 (c : Dev nD) : Vin6 m c main_v5_0 = (dat1 (Vin1 m) c).arrAt 8 cfg1.N := (W7_of m c main_v5_0 (by decide)).trans <| (W6_of m c main_v5_0 (by decide)).trans <| (W5_of m c main_v5_0 (by decide)).trans <| (W4_of m c main_v5_0 (by decide)).trans <| W3_main_v5_0 m c
theorem in6_part (c : Dev nD) : Vin6 m c main_v5_1 = (dat1 (Vin1 m) c).arrAt 9 cfg1.N := (W7_of m c main_v5_1 (by decide)).trans <| (W6_of m c main_v5_1 (by decide)).trans <| (W5_of m c main_v5_1 (by decide)).trans <| (W4_of m c main_v5_1 (by decide)).trans <| W3_main_v5_1 m c

/-! ### The concatenate: each row band as its region left it -/
theorem out_v6 (c : Dev nD) : W8 m c (Proc.devRef .tc main_v6) = (dat2 (Vin2 m) c).arrAt 4 cfg2.N := (W8_of m c main_v6 (by decide)).trans <| (W7_of m c main_v6 (by decide)).trans <| (W6_of m c main_v6 (by decide)).trans <| (W5_of m c main_v6 (by decide)).trans <| W4_main_v6 m c
theorem out_v7 (c : Dev nD) : W8 m c (Proc.devRef .tc main_v7) = (dat3 (Vin3 m) c).arrAt 4 cfg3.N := (W8_of m c main_v7 (by decide)).trans <| (W7_of m c main_v7 (by decide)).trans <| (W6_of m c main_v7 (by decide)).trans <| W5_main_v7 m c
theorem out_v8 (c : Dev nD) : W8 m c (Proc.devRef .tc main_v8) = (dat4 (Vin4 m) c).arrAt 4 cfg4.N := (W8_of m c main_v8 (by decide)).trans <| (W7_of m c main_v8 (by decide)).trans <| W6_main_v8 m c
theorem out_v9 (c : Dev nD) : W8 m c (Proc.devRef .tc main_v9) = (dat5 (Vin5 m) c).arrAt 4 cfg5.N := (W8_of m c main_v9 (by decide)).trans <| W7_main_v9 m c
theorem out_v10 (c : Dev nD) : W8 m c (Proc.devRef .tc main_v10) = (dat6 (Vin6 m) c).arrAt 4 cfg6.N := W8_main_v10 m c

/-- The result array at the end: the five row bands the write-backs of regions 2 to 6 leave, one above the other. -/
theorem W9_main_v11_bands (c : Dev nD) : W9 m c (Proc.devRef .tc main_v11)
    = concatenate S10000x8 0 [⟨S2000x8, (dat2 (Vin2 m) c).arrAt 4 cfg2.N⟩, ⟨S2000x8, (dat3 (Vin3 m) c).arrAt 4 cfg3.N⟩, ⟨S2000x8, (dat4 (Vin4 m) c).arrAt 4 cfg4.N⟩,
        ⟨S2000x8, (dat5 (Vin5 m) c).arrAt 4 cfg5.N⟩, ⟨S2000x8, (dat6 (Vin6 m) c).arrAt 4 cfg6.N⟩] concatenates_S2000x8_S2000x8_S2000x8_S2000x8_S2000x8_S10000x8_d0 := by
  rw [W9_main_v11, out_v6, out_v7, out_v8, out_v9, out_v10]

end Cert.KernelIdeal.Hand

end
-- ==== Proof.Val0.lean ====
/- What region 0 of @main leaves in each of its arrays, index by index, at the ideal values, in terms of the core's
   buffer contents `V` when the region is entered: the three outputs are the matrix products of `x` with the weight
   matrices (plus the bias row laid along every row, for the second and third), and the six inputs end as entered. -/
import proofs.«181509_g20452634264145_cont_8to1_1942_16_alg».proof.Proof.Reg0
import Idealize.ShloMosaic.Lib.Pipeline.Value
import Idealize.ShloMosaic.Lib.ValueIdx
import Idealize.ShloMosaic.Lib.ValueLayout
import Idealize.ShloMosaic.PureOps.Ideal.Laws

set_option maxRecDepth 65536

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx (ix2)

/-! ## The payloads at an index -/

theorem hz2 : (![0, 0] : Fin 2 → Nat) = fun _ => 0 := funext fun a => by fin_cases a <;> rfl

/-! The operand indices of the two dots, coordinate by coordinate. -/

theorem lhs16_0 (i : S10000x16.Idx) (q : dot_S10000x128_S128x16_S10000x16_1_0_0_1_n_n.contr.Idx) : (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
theorem lhs16_1 (i : S10000x16.Idx) (q : dot_S10000x128_S128x16_S10000x16_1_0_0_1_n_n.contr.Idx) : (dot_S10000x128_S128x16_S10000x16_1_0_0_1_n_n.lhsIdx i q 1).val = (q ⟨0, by decide⟩).val :=
  dot_S10000x128_S128x16_S10000x16_1_0_0_1_n_n.lhsIdx_val_of_single rfl i q
theorem rhs16_0 (i : S10000x16.Idx) (q : dot_S10000x128_S128x16_S10000x16_1_0_0_1_n_n.contr.Idx) : (dot_S10000x128_S128x16_S10000x16_1_0_0_1_n_n.rhsIdx i q 0).val = (q ⟨0, by decide⟩).val :=
  dot_S10000x128_S128x16_S10000x16_1_0_0_1_n_n.rhsIdx_val_of_single rfl i q
theorem rhs16_1 (i : S10000x16.Idx) (q : dot_S10000x128_S128x16_S10000x16_1_0_0_1_n_n.contr.Idx) : (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-- The product of a [10000,128] by a [128,16] matrix into the zero accumulator, at an index: the sum over the
    contraction axis. -/
theorem mm16_apply (v0 : Vec Ideal S10000x128 .f32) (v1 : Vec Ideal S128x16 .f32) (i : Fin 10000) (j : Fin 16) :
    (matmul (F := Ideal) (φ₁ := .f32) (φ₂ := .f32) dot_S10000x128_S128x16_S10000x16_1_0_0_1_n_n none v0 v1 (constant S10000x16 .f32 0x00000000#32)) (ix2 i j)
      = ∑ f : Fin 128, v0 (ix2 i f) * v1 (ix2 f j) := by
  simp only [matmul]
  rw [Ideal.matmul_constant_zero_apply, ← Equiv.sum_comp (ValueIdx.contrEquiv1 dot_S10000x128_S128x16_S10000x16_1_0_0_1_n_n 128 rfl rfl).symm]
  refine Finset.sum_congr rfl fun k _ => ?_
  have hk := ValueIdx.contrEquiv1_symm_val dot_S10000x128_S128x16_S10000x16_1_0_0_1_n_n 128 rfl rfl k
  have el : dot_S10000x128_S128x16_S10000x16_1_0_0_1_n_n.lhsIdx (ix2 i j) ((ValueIdx.contrEquiv1 dot_S10000x128_S128x16_S10000x16_1_0_0_1_n_n 128 rfl rfl).symm k) = ix2 i k := funext fun a => Fin.ext (by
    match a with
    | ⟨0, _⟩ => exact lhs16_0 _ _
    | ⟨1, _⟩ => exact (lhs16_1 _ _).trans hk)
  have er : dot_S10000x128_S128x16_S10000x16_1_0_0_1_n_n.rhsIdx (ix2 i j) ((ValueIdx.contrEquiv1 dot_S10000x128_S128x16_S10000x16_1_0_0_1_n_n 128 rfl rfl).symm k) = ix2 k j := funext fun a => Fin.ext (by
    match a with
    | ⟨0, _⟩ => exact (rhs16_0 _ _).trans hk
    | ⟨1, _⟩ => exact rhs16_1 _ _)
  rw [el, er]

theorem lhs8_0 (i : S10000x8.Idx) (q : dot_S10000x128_S128x8_S10000x8_1_0_0_1_n_n.contr.Idx) : (dot_S10000x128_S128x8_S10000x8_1_0_0_1_n_n.lhsIdx i q 0).val = (i 0).val := by
  unfold DotDims.lhsIdx
  rw [dif_neg (show ¬(0 : Fin S10000x128.rank) ∈ dot_S10000x128_S128x8_S10000x8_1_0_0_1_n_n.lhsBatch by decide), dif_pos (show (0 : Fin S10000x128.rank) ∈ dot_S10000x128_S128x8_S10000x8_1_0_0_1_n_n.lhsNonContracting by decide)]
  rfl
theorem lhs8_1 (i : S10000x8.Idx) (q : dot_S10000x128_S128x8_S10000x8_1_0_0_1_n_n.contr.Idx) : (dot_S10000x128_S128x8_S10000x8_1_0_0_1_n_n.lhsIdx i q 1).val = (q ⟨0, by decide⟩).val :=
  dot_S10000x128_S128x8_S10000x8_1_0_0_1_n_n.lhsIdx_val_of_single rfl i q
theorem rhs8_0 (i : S10000x8.Idx) (q : dot_S10000x128_S128x8_S10000x8_1_0_0_1_n_n.contr.Idx) : (dot_S10000x128_S128x8_S10000x8_1_0_0_1_n_n.rhsIdx i q 0).val = (q ⟨0, by decide⟩).val :=
  dot_S10000x128_S128x8_S10000x8_1_0_0_1_n_n.rhsIdx_val_of_single rfl i q
theorem rhs8_1 (i : S10000x8.Idx) (q : dot_S10000x128_S128x8_S10000x8_1_0_0_1_n_n.contr.Idx) : (dot_S10000x128_S128x8_S10000x8_1_0_0_1_n_n.rhsIdx i q 1).val = (i 1).val := by
  unfold DotDims.rhsIdx
  rw [dif_neg (show ¬(1 : Fin S128x8.rank) ∈ dot_S10000x128_S128x8_S10000x8_1_0_0_1_n_n.rhsBatch by decide), dif_pos (show (1 : Fin S128x8.rank) ∈ dot_S10000x128_S128x8_S10000x8_1_0_0_1_n_n.rhsNonContracting by decide)]
  rfl

/-- The product of a [10000,128] by a [128,8] matrix into the zero accumulator, at an index: the sum over the
    contraction axis. -/
theorem mm8_apply (v0 : Vec Ideal S10000x128 .f32) (v1 : Vec Ideal S128x8 .f32) (i : Fin 10000) (j : Fin 8) :
    (matmul (F := Ideal) (φ₁ := .f32) (φ₂ := .f32) dot_S10000x128_S128x8_S10000x8_1_0_0_1_n_n none v0 v1 (constant S10000x8 .f32 0x00000000#32)) (ix2 i j)
      = ∑ f : Fin 128, v0 (ix2 i f) * v1 (ix2 f j) := by
  simp only [matmul]
  rw [Ideal.matmul_constant_zero_apply, ← Equiv.sum_comp (ValueIdx.contrEquiv1 dot_S10000x128_S128x8_S10000x8_1_0_0_1_n_n 128 rfl rfl).symm]
  refine Finset.sum_congr rfl fun k _ => ?_
  have hk := ValueIdx.contrEquiv1_symm_val dot_S10000x128_S128x8_S10000x8_1_0_0_1_n_n 128 rfl rfl k
  have el : dot_S10000x128_S128x8_S10000x8_1_0_0_1_n_n.lhsIdx (ix2 i j) ((ValueIdx.contrEquiv1 dot_S10000x128_S128x8_S10000x8_1_0_0_1_n_n 128 rfl rfl).symm k) = ix2 i k := funext fun a => Fin.ext (by
    match a with
    | ⟨0, _⟩ => exact lhs8_0 _ _
    | ⟨1, _⟩ => exact (lhs8_1 _ _).trans hk)
  have er : dot_S10000x128_S128x8_S10000x8_1_0_0_1_n_n.rhsIdx (ix2 i j) ((ValueIdx.contrEquiv1 dot_S10000x128_S128x8_S10000x8_1_0_0_1_n_n 128 rfl rfl).symm k) = ix2 k j := funext fun a => Fin.ext (by
    match a with
    | ⟨0, _⟩ => exact (rhs8_0 _ _).trans hk
    | ⟨1, _⟩ => exact rhs8_1 _ _)
  rw [el, er]

/-- A [1,16] row cast to its own shape and laid along 10000 rows, at an index: the row's entry in that column. -/
theorem row16_apply (v : Vec Ideal S1x16 .f32) (i : Fin 10000) (j : Fin 16) :
    broadcastTo S10000x16 (shapeCast S1x16 v shapeCasts_S1x16_S1x16) broadcasts_S1x16_S10000x16 (ix2 i j) = v (ix2 (0 : Fin 1) j) := by
  rw [shapeCast_self]
  exact broadcastTo_apply v broadcasts_S1x16_S10000x16 (ix2 i j) (ix2 (0 : Fin 1) j) (fun a => match a with
    | ⟨0, _⟩ => by show (0 : Nat) = if (1 : Nat) = 1 then 0 else _; rw [if_pos rfl]
    | ⟨1, _⟩ => by show j.val = if (16 : Nat) = 1 then 0 else j.val; rw [if_neg (by decide)])

theorem row8_apply (v : Vec Ideal S1x8 .f32) (i : Fin 10000) (j : Fin 8) :
    broadcastTo S10000x8 (shapeCast S1x8 v shapeCasts_S1x8_S1x8) broadcasts_S1x8_S10000x8 (ix2 i j) = v (ix2 (0 : Fin 1) j) := by
  rw [shapeCast_self]
  exact broadcastTo_apply v broadcasts_S1x8_S10000x8 (ix2 i j) (ix2 (0 : Fin 1) j) (fun a => match a with
    | ⟨0, _⟩ => by show (0 : Nat) = if (1 : Nat) = 1 then 0 else _; rw [if_pos rfl]
    | ⟨1, _⟩ => by show j.val = if (8 : Nat) = 1 then 0 else j.val; rw [if_neg (by decide)])

/-- The three payloads at an index. -/
theorem pay1_apply (v0 : Vec Ideal S10000x128 .f32) (v1 : Vec Ideal S128x16 .f32) (i : Fin 10000) (j : Fin 16) :
    k0_pay1 v0 v1 (ix2 i j) = ∑ f : Fin 128, v0 (ix2 i f) * v1 (ix2 f j) := by
  unfold k0_pay1
  exact mm16_apply v0 v1 i j

theorem pay2_apply (v0 : Vec Ideal S10000x128 .f32) (v4 : Vec Ideal S128x16 .f32) (v6 : Vec Ideal S1x16 .f32) (i : Fin 10000) (j : Fin 16) :
    k0_pay2 v0 v4 v6 (ix2 i j) = (∑ f : Fin 128, v0 (ix2 i f) * v4 (ix2 f j)) + v6 (ix2 (0 : Fin 1) j) := by
  unfold k0_pay2
  refine (ValueIdx.addf_apply _ _ (ix2 i j)).trans ?_
  exact congrArg₂ (· + ·) (mm16_apply v0 v4 i j) (row16_apply v6 i j)

theorem pay3_apply (v0 : Vec Ideal S10000x128 .f32) (v11 : Vec Ideal S128x8 .f32) (v13 : Vec Ideal S1x8 .f32) (i : Fin 10000) (j : Fin 8) :
    k0_pay3 v0 v11 v13 (ix2 i j) = (∑ f : Fin 128, v0 (ix2 i f) * v11 (ix2 f j)) + v13 (ix2 (0 : Fin 1) j) := by
  unfold k0_pay3
  refine (ValueIdx.addf_apply _ _ (ix2 i j)).trans ?_
  exact congrArg₂ (· + ·) (mm8_apply v0 v11 i j) (row8_apply v13 i j)

/-! ## From the blocks to the arrays -/

variable (V : (c : Dev nD) → (b : Ref sig .tc) → Buf (Elt Ideal) ((c : Thread nD τ).loc b))

/-! Each input window is its whole array: its block at the point is the array as entered. -/
theorem iblk0_0 (c : Dev nD) (t : Fin cfg0.N) : iblk0 V c 0 t = (V c main_arg0 : S10000x128.Idx → EReal) := by
  funext y
  show V c main_arg0 (((cfg0.win 0).blk t).view.emb y) = V c main_arg0 y
  refine congrArg (V c main_arg0) (funext fun a => Fin.ext ?_)
  show win0_0.index t a * S10000x128.size a + 1 * (y a).val = (y a).val
  rw [show win0_0.index t a = 0 from rfl]; omega
theorem iblk0_1 (c : Dev nD) (t : Fin cfg0.N) : iblk0 V c 1 t = (V c main_arg2 : S128x16.Idx → EReal) := by
  funext y
  show V c main_arg2 (((cfg0.win 1).blk t).view.emb y) = V c main_arg2 y
  refine congrArg (V c main_arg2) (funext fun a => Fin.ext ?_)
  show win0_1.index t a * S128x16.size a + 1 * (y a).val = (y a).val
  rw [show win0_1.index t a = 0 from rfl]; omega
theorem iblk0_2 (c : Dev nD) (t : Fin cfg0.N) : iblk0 V c 2 t = (V c main_arg4 : S128x16.Idx → EReal) := by
  funext y
  show V c main_arg4 (((cfg0.win 2).blk t).view.emb y) = V c main_arg4 y
  refine congrArg (V c main_arg4) (funext fun a => Fin.ext ?_)
  show win0_2.index t a * S128x16.size a + 1 * (y a).val = (y a).val
  rw [show win0_2.index t a = 0 from rfl]; omega
theorem iblk0_3 (c : Dev nD) (t : Fin cfg0.N) : iblk0 V c 3 t = (V c main_arg8 : S128x8.Idx → EReal) := by
  funext y
  show V c main_arg8 (((cfg0.win 3).blk t).view.emb y) = V c main_arg8 y
  refine congrArg (V c main_arg8) (funext fun a => Fin.ext ?_)
  show win0_3.index t a * S128x8.size a + 1 * (y a).val = (y a).val
  rw [show win0_3.index t a = 0 from rfl]; omega
theorem iblk0_4 (c : Dev nD) (t : Fin cfg0.N) : iblk0 V c 4 t = (V c main_v1 : S1x16.Idx → EReal) := by
  funext y
  show V c main_v1 (((cfg0.win 4).blk t).view.emb y) = V c main_v1 y
  refine congrArg (V c main_v1) (funext fun a => Fin.ext ?_)
  show win0_4.index t a * S1x16.size a + 1 * (y a).val = (y a).val
  rw [show win0_4.index t a = 0 from rfl]; omega
theorem iblk0_5 (c : Dev nD) (t : Fin cfg0.N) : iblk0 V c 5 t = (V c main_v3 : S1x8.Idx → EReal) := by
  funext y
  show V c main_v3 (((cfg0.win 5).blk t).view.emb y) = V c main_v3 y
  refine congrArg (V c main_v3) (funext fun a => Fin.ext ?_)
  show win0_5.index t a * S1x8.size a + 1 * (y a).val = (y a).val
  rw [show win0_5.index t a = 0 from rfl]; omega

/-! One store of the whole buffer, of a payload of whole loads, leaves the payload. -/
theorem out0_6_eq (x0 : Vec Ideal S10000x128 .f32) (x1 : Vec Ideal S128x16 .f32) : out0_6 x0 x1 = k0_pay1 x0 x1 := by
  unfold out0_6
  rw [View.canon_unit_zero hz2]
  simp only [View.ld_unit_zero (S := S10000x128) hz2, View.ld_unit_zero (S := S128x16) hz2]
theorem out0_7_eq (x0 : Vec Ideal S10000x128 .f32) (x2 : Vec Ideal S128x16 .f32) (x4 : Vec Ideal S1x16 .f32) : out0_7 x0 x2 x4 = k0_pay2 x0 x2 x4 := by
  unfold out0_7
  rw [View.canon_unit_zero hz2]
  simp only [View.ld_unit_zero (S := S10000x128) hz2, View.ld_unit_zero (S := S128x16) hz2, View.ld_unit_zero (S := S1x16) hz2]
theorem out0_8_eq (x0 : Vec Ideal S10000x128 .f32) (x3 : Vec Ideal S128x8 .f32) (x5 : Vec Ideal S1x8 .f32) : out0_8 x0 x3 x5 = k0_pay3 x0 x3 x5 := by
  unfold out0_8
  rw [View.canon_unit_zero hz2]
  simp only [View.ld_unit_zero (S := S10000x128) hz2, View.ld_unit_zero (S := S128x8) hz2, View.ld_unit_zero (S := S1x8) hz2]

/-- What the point writes back from output window 6 is the payload of the entry arrays, read through the window's block. -/
theorem flushed0_6 (c : Dev nD) (t : Fin cfg0.N) :
    (dat0 V c).flushed 6 t = ((cfg0.win 6).blk t).view.read (Elt Ideal) (k0_pay1 (V c main_arg0) (V c main_arg2) : S10000x16.Idx → EReal) := by
  show (cfg0.win 6).cut (grid0.coords t) ((dat0 V c).after 6 t) = _
  rw [after0_6, iblk0_0, iblk0_1, out0_6_eq]
  funext y
  show (k0_pay1 (V c main_arg0) (V c main_arg2) : S10000x16.Idx → EReal) y = (k0_pay1 (V c main_arg0) (V c main_arg2) : S10000x16.Idx → EReal) (((cfg0.win 6).blk t).view.emb y)
  refine congrArg (k0_pay1 (V c main_arg0) (V c main_arg2) : S10000x16.Idx → EReal) (funext fun a => Fin.ext ?_)
  show (y a).val = win0_6.index t a * S10000x16.size a + 1 * (y a).val
  rw [show win0_6.index t a = 0 from rfl]; omega

/-- The one point's block of output window 6 is the whole array. -/
theorem covered0_6 (i : S10000x16.Idx) : ∃ t : Fin cfg0.N, (cfg0.win 6).flush t = true ∧ i ∈ ((cfg0.win 6).blk t).view.set := by
  refine ⟨t0_0, flush0_6 t0_0, ?_⟩
  show i ∈ ((View.whole main_v4_0).slice (win0_6.rect t0_0)).set
  rw [View.set_slice_whole, Rect.mem_set_unit]
  intro a
  show win0_6.index t0_0 a * S10000x16.size a ≤ (i a).val ∧ (i a).val < win0_6.index t0_0 a * S10000x16.size a + S10000x16.size a
  rw [show win0_6.index t0_0 a = 0 from rfl]
  have := (i a).isLt
  omega

/-- The array of output window 6 after the region: the payload of the entry arrays. -/
theorem arr0_6 (c : Dev nD) : (dat0 V c).arrAt 6 cfg0.N = (k0_pay1 (V c main_arg0) (V c main_arg2) : S10000x16.Idx → EReal) :=
  (dat0 V c).arrAt_eq_of_cover 6 _ (fun t _ => flushed0_6 V c t) covered0_6

/-- What the point writes back from output window 7 is the payload of the entry arrays, read through the window's block. -/
theorem flushed0_7 (c : Dev nD) (t : Fin cfg0.N) :
    (dat0 V c).flushed 7 t = ((cfg0.win 7).blk t).view.read (Elt Ideal) (k0_pay2 (V c main_arg0) (V c main_arg4) (V c main_v1) : S10000x16.Idx → EReal) := by
  show (cfg0.win 7).cut (grid0.coords t) ((dat0 V c).after 7 t) = _
  rw [after0_7, iblk0_0, iblk0_2, iblk0_4, out0_7_eq]
  funext y
  show (k0_pay2 (V c main_arg0) (V c main_arg4) (V c main_v1) : S10000x16.Idx → EReal) y = (k0_pay2 (V c main_arg0) (V c main_arg4) (V c main_v1) : S10000x16.Idx → EReal) (((cfg0.win 7).blk t).view.emb y)
  refine congrArg (k0_pay2 (V c main_arg0) (V c main_arg4) (V c main_v1) : S10000x16.Idx → EReal) (funext fun a => Fin.ext ?_)
  show (y a).val = win0_7.index t a * S10000x16.size a + 1 * (y a).val
  rw [show win0_7.index t a = 0 from rfl]; omega

/-- The one point's block of output window 7 is the whole array. -/
theorem covered0_7 (i : S10000x16.Idx) : ∃ t : Fin cfg0.N, (cfg0.win 7).flush t = true ∧ i ∈ ((cfg0.win 7).blk t).view.set := by
  refine ⟨t0_0, flush0_7 t0_0, ?_⟩
  show i ∈ ((View.whole main_v4_1).slice (win0_7.rect t0_0)).set
  rw [View.set_slice_whole, Rect.mem_set_unit]
  intro a
  show win0_7.index t0_0 a * S10000x16.size a ≤ (i a).val ∧ (i a).val < win0_7.index t0_0 a * S10000x16.size a + S10000x16.size a
  rw [show win0_7.index t0_0 a = 0 from rfl]
  have := (i a).isLt
  omega

/-- The array of output window 7 after the region: the payload of the entry arrays. -/
theorem arr0_7 (c : Dev nD) : (dat0 V c).arrAt 7 cfg0.N = (k0_pay2 (V c main_arg0) (V c main_arg4) (V c main_v1) : S10000x16.Idx → EReal) :=
  (dat0 V c).arrAt_eq_of_cover 7 _ (fun t _ => flushed0_7 V c t) covered0_7

/-- What the point writes back from output window 8 is the payload of the entry arrays, read through the window's block. -/
theorem flushed0_8 (c : Dev nD) (t : Fin cfg0.N) :
    (dat0 V c).flushed 8 t = ((cfg0.win 8).blk t).view.read (Elt Ideal) (k0_pay3 (V c main_arg0) (V c main_arg8) (V c main_v3) : S10000x8.Idx → EReal) := by
  show (cfg0.win 8).cut (grid0.coords t) ((dat0 V c).after 8 t) = _
  rw [after0_8, iblk0_0, iblk0_3, iblk0_5, out0_8_eq]
  funext y
  show (k0_pay3 (V c main_arg0) (V c main_arg8) (V c main_v3) : S10000x8.Idx → EReal) y = (k0_pay3 (V c main_arg0) (V c main_arg8) (V c main_v3) : S10000x8.Idx → EReal) (((cfg0.win 8).blk t).view.emb y)
  refine congrArg (k0_pay3 (V c main_arg0) (V c main_arg8) (V c main_v3) : S10000x8.Idx → EReal) (funext fun a => Fin.ext ?_)
  show (y a).val = win0_8.index t a * S10000x8.size a + 1 * (y a).val
  rw [show win0_8.index t a = 0 from rfl]; omega

/-- The one point's block of output window 8 is the whole array. -/
theorem covered0_8 (i : S10000x8.Idx) : ∃ t : Fin cfg0.N, (cfg0.win 8).flush t = true ∧ i ∈ ((cfg0.win 8).blk t).view.set := by
  refine ⟨t0_0, flush0_8 t0_0, ?_⟩
  show i ∈ ((View.whole main_v4_2).slice (win0_8.rect t0_0)).set
  rw [View.set_slice_whole, Rect.mem_set_unit]
  intro a
  show win0_8.index t0_0 a * S10000x8.size a ≤ (i a).val ∧ (i a).val < win0_8.index t0_0 a * S10000x8.size a + S10000x8.size a
  rw [show win0_8.index t0_0 a = 0 from rfl]
  have := (i a).isLt
  omega

/-- The array of output window 8 after the region: the payload of the entry arrays. -/
theorem arr0_8 (c : Dev nD) : (dat0 V c).arrAt 8 cfg0.N = (k0_pay3 (V c main_arg0) (V c main_arg8) (V c main_v3) : S10000x8.Idx → EReal) :=
  (dat0 V c).arrAt_eq_of_cover 8 _ (fun t _ => flushed0_8 V c t) covered0_8

/-! ## The region's arrays when it is left, index by index -/

/-! The statements spell the extended reals' operations at their type: an array's entry is typed by its buffer's
    element type, which computes to the extended reals but is not syntactically them. -/

/-- `main_v4_0` is `x · W1`. -/
theorem final0_6 (c : Dev nD) (i : Fin 10000) (j : Fin 16) :
    Eq (α := EReal) ((dat0 V c).arrAt 6 cfg0.N (ix2 i j))
      (∑ f : Fin 128, HMul.hMul (α := EReal) (β := EReal) (γ := EReal) (V c main_arg0 (ix2 i f)) (V c main_arg2 (ix2 f j))) :=
  (congrFun (arr0_6 V c) (ix2 i j)).trans (pay1_apply (V c main_arg0) (V c main_arg2) i j)

/-- `main_v4_1` is `x · W2` plus the row `b2` along every row. -/
theorem final0_7 (c : Dev nD) (i : Fin 10000) (j : Fin 16) :
    Eq (α := EReal) ((dat0 V c).arrAt 7 cfg0.N (ix2 i j))
      (HAdd.hAdd (α := EReal) (β := EReal) (γ := EReal)
        (∑ f : Fin 128, HMul.hMul (α := EReal) (β := EReal) (γ := EReal) (V c main_arg0 (ix2 i f)) (V c main_arg4 (ix2 f j)))
        (V c main_v1 (ix2 (0 : Fin 1) j))) :=
  (congrFun (arr0_7 V c) (ix2 i j)).trans (pay2_apply (V c main_arg0) (V c main_arg4) (V c main_v1) i j)

/-- `main_v4_2` is `x · W4` plus the row `b4` along every row. -/
theorem final0_8 (c : Dev nD) (i : Fin 10000) (j : Fin 8) :
    Eq (α := EReal) ((dat0 V c).arrAt 8 cfg0.N (ix2 i j))
      (HAdd.hAdd (α := EReal) (β := EReal) (γ := EReal)
        (∑ f : Fin 128, HMul.hMul (α := EReal) (β := EReal) (γ := EReal) (V c main_arg0 (ix2 i f)) (V c main_arg8 (ix2 f j)))
        (V c main_v3 (ix2 (0 : Fin 1) j))) :=
  (congrFun (arr0_8 V c) (ix2 i j)).trans (pay3_apply (V c main_arg0) (V c main_arg8) (V c main_v3) i j)

/-- The six input arrays end as entered. -/
theorem kept0_0 (c : Dev nD) : (dat0 V c).arrAt 0 cfg0.N = V c main_arg0 :=
  ((dat0 V c).arrAt_in 0 rfl cfg0.N).trans (A_eq0 V c 0)
theorem kept0_1 (c : Dev nD) : (dat0 V c).arrAt 1 cfg0.N = V c main_arg2 :=
  ((dat0 V c).arrAt_in 1 rfl cfg0.N).trans (A_eq0 V c 1)
theorem kept0_2 (c : Dev nD) : (dat0 V c).arrAt 2 cfg0.N = V c main_arg4 :=
  ((dat0 V c).arrAt_in 2 rfl cfg0.N).trans (A_eq0 V c 2)
theorem kept0_3 (c : Dev nD) : (dat0 V c).arrAt 3 cfg0.N = V c main_arg8 :=
  ((dat0 V c).arrAt_in 3 rfl cfg0.N).trans (A_eq0 V c 3)
theorem kept0_4 (c : Dev nD) : (dat0 V c).arrAt 4 cfg0.N = V c main_v1 :=
  ((dat0 V c).arrAt_in 4 rfl cfg0.N).trans (A_eq0 V c 4)
theorem kept0_5 (c : Dev nD) : (dat0 V c).arrAt 5 cfg0.N = V c main_v3 :=
  ((dat0 V c).arrAt_in 5 rfl cfg0.N).trans (A_eq0 V c 5)

end Cert.KernelIdeal.Hand
-- ==== Proof.Concat5.lean ====
/- The concatenation of five [2000, 8] arrays along the rows, read at row `2000 g + r`: array `g` at row `r`. -/
import proofs.«181509_g20452634264145_cont_8to1_1942_16_alg».proof.KernelIdeal
import Idealize.ShloMosaic.Lib.Pipeline.Value
import Idealize.ShloMosaic.Lib.ValueIdx

set_option maxRecDepth 16384

noncomputable section

namespace Cert.KernelIdeal.Hand

open Cert.KernelIdeal
open Idealize.ShloMosaic
open Idealize.ShloMosaic.ValueIdx (ix2)

theorem concat5_apply {α : Type} (o0 o1 o2 o3 o4 : S2000x8.Idx → α) (g : Fin 5) (r : Fin 2000) (i : Fin 10000) (j : Fin 8)
    (hi : i.val = 2000 * g.val + r.val)
    (hc : Shape.Concatenates [S2000x8, S2000x8, S2000x8, S2000x8, S2000x8] S10000x8 0) :
    concatenate S10000x8 0 [⟨S2000x8, o0⟩, ⟨S2000x8, o1⟩, ⟨S2000x8, o2⟩, ⟨S2000x8, o3⟩, ⟨S2000x8, o4⟩]
        hc (ix2 i j)
      = (match g with | ⟨0, _⟩ => o0 | ⟨1, _⟩ => o1 | ⟨2, _⟩ => o2 | ⟨3, _⟩ => o3 | ⟨4, _⟩ => o4 | ⟨_ + 5, h⟩ => absurd h (by omega)) (ix2 r j) := by
  have hside : ∀ b : Fin S2000x8.rank, b.cast (rfl : S2000x8.rank = S10000x8.rank) ≠ (0 : Fin S10000x8.rank) →
      ((ix2 r j : S2000x8.Idx) b).val = ((ix2 i j : S10000x8.Idx) (b.cast rfl)).val := by
    intro b hb
    match b with
    | ⟨0, _⟩ => exact absurd rfl hb
    | ⟨1, _⟩ => rfl
  match g, hi with
  | ⟨0, _⟩, hi =>
    exact concatenate_apply_piece (0 : Fin S10000x8.rank) _ _ (ix2 i j) 0 (by simp) S2000x8 o0 rfl rfl 0 rfl (ix2 r j) hside (by have hi' : i.val = 2000 * 0 + r.val := hi; show 0 + r.val = i.val; omega)
  | ⟨1, _⟩, hi =>
    exact concatenate_apply_piece (0 : Fin S10000x8.rank) _ _ (ix2 i j) 1 (by simp) S2000x8 o1 rfl rfl 2000 rfl (ix2 r j) hside (by have hi' : i.val = 2000 * 1 + r.val := hi; show 2000 + r.val = i.val; omega)
  | ⟨2, _⟩, hi =>
    exact concatenate_apply_piece (0 : Fin S10000x8.rank) _ _ (ix2 i j) 2 (by simp) S2000x8 o2 rfl rfl 4000 rfl (ix2 r j) hside (by have hi' : i.val = 2000 * 2 + r.val := hi; show 4000 + r.val = i.val; omega)
  | ⟨3, _⟩, hi =>
    exact concatenate_apply_piece (0 : Fin S10000x8.rank) _ _ (ix2 i j) 3 (by simp) S2000x8 o3 rfl rfl 6000 rfl (ix2 r j) hside (by have hi' : i.val = 2000 * 3 + r.val := hi; show 6000 + r.val = i.val; omega)
  | ⟨4, _⟩, hi =>
    exact concatenate_apply_piece (0 : Fin S10000x8.rank) _ _ (ix2 i j) 4 (by simp) S2000x8 o4 rfl rfl 8000 rfl (ix2 r j) hside (by have hi' : i.val = 2000 * 4 + r.val := hi; show 8000 + r.val = i.val; omega)
  | ⟨n + 5, h⟩, _ => exact absurd h (by omega)

end Cert.KernelIdeal.Hand

end
-- ==== Proof.BridgeMath.lean ====
/- From the five row groups to the whole result: each group `g` of 2000 rows holds, at row `r`, the first pass's share of
   row `2000 g + r` plus that row's prefix share over the group's width; by the triangle law that is the result's row,
   and the five groups laid one under the other are the result. -/
import proofs.«181509_g20452634264145_cont_8to1_1942_16_alg».proof.Proof.Spec
import proofs.«181509_g20452634264145_cont_8to1_1942_16_alg».proof.Proof.Concat5

set_option maxRecDepth 16384

noncomputable section

namespace Cert.KernelIdeal.Hand

open Cert.KernelIdeal
open Idealize.ShloMosaic
open Idealize.ShloMosaic.ValueIdx (ix2)

section
variable (x : Fin 10000 → Fin 128 → EReal) (adj : Fin 10000 → Fin 10000 → EReal)
  (W1 : Fin 128 → Fin 16 → EReal) (b1 : Fin 16 → EReal) (W2 : Fin 128 → Fin 16 → EReal) (b2 : Fin 16 → EReal)
  (W3 : Fin 16 → Fin 8 → EReal) (b3 : Fin 8 → EReal) (W4 : Fin 128 → Fin 8 → EReal) (b4 : Fin 8 → EReal)

/-- The row of the whole array that row `r` of group `g` is. -/
def rowOf (g : Fin 5) (r : Fin 2000) : Fin 10000 := ⟨2000 * g.val + r.val, by have := g.isLt; have := r.isLt; omega⟩

theorem rowOf_div (g : Fin 5) (r : Fin 2000) : (rowOf g r).val / 2000 = g.val := by
  have := r.isLt; show (2000 * g.val + r.val) / 2000 = g.val; omega

/-- Group `g` at row `r`, once the second support and the first pass's share are what the specification says, is the
    result at row `2000 g + r`. -/
theorem group_row (s2a parta : Fin 10000 → Fin 8 → EReal)
    (hs2 : ∀ k j, s2a k j = Spec.s2 x adj W1 b1 W2 b2 W3 k j)
    (hpart : ∀ i j, parta i j = Spec.part x adj W1 b1 W2 b2 W3 b3 W4 b4 i j)
    (g : Fin 5) (r : Fin 2000) (j : Fin 8) (w : ℕ) (hw : w ≤ 10000) (hT : 200 * ((rowOf g r).val / 200 + 1) ≤ w) :
    parta (rowOf g r) j + Spec.lowerOf adj s2a w hw (rowOf g r) j = Spec.out x adj W1 b1 W2 b2 W3 b3 W4 b4 (rowOf g r) j := by
  have e : s2a = Spec.s2 x adj W1 b1 W2 b2 W3 := funext fun k => funext fun j => hs2 k j
  rw [hpart, e]
  exact Spec.part_add_lower x adj W1 b1 W2 b2 W3 b3 W4 b4 w hw (rowOf g r) j hT

end

end Cert.KernelIdeal.Hand

end
-- ==== Proof.Val1Pay.lean ====
/- The payloads of region 1's kernel body (`cc1__pass1_kernel`) read at an index, at the ideal values, over variables of
   the literal vector types: the aggregation product over all 10000 columns, its two column slices, the rectified
   hidden block times `W3`, the accumulator updates, and the scratch's initial halves. -/
import proofs.«181509_g20452634264145_cont_8to1_1942_16_alg».proof.Proof.Gen.KernelIdeal.Skeleton
import proofs.«181509_g20452634264145_cont_8to1_1942_16_alg».proof.Proof.Spec
import Idealize.ShloMosaic.Lib.Pipeline.Value
import Idealize.ShloMosaic.Lib.ValueIdx
import Idealize.ShloMosaic.PureOps.Ideal.Laws

set_option maxRecDepth 65536

noncomputable section

namespace Cert.KernelIdeal.Hand

open Cert.KernelIdeal Cert.KernelIdeal.Gen Idealize.ShloMosaic Idealize.ShloMosaic.ValueIdx

/-! ## The two matrix products at an index -/

private theorem p1_lhsA_0 (i : S200x24.Idx) (q : dot_S200x10000_S10000x24_S200x24_1_0_0_1_n_n.contr.Idx) : (dot_S200x10000_S10000x24_S200x24_1_0_0_1_n_n.lhsIdx i q 0).val = (i 0).val := by
  unfold DotDims.lhsIdx
  rw [dif_neg (show ¬(0 : Fin S200x10000.rank) ∈ dot_S200x10000_S10000x24_S200x24_1_0_0_1_n_n.lhsBatch by decide), dif_pos (show (0 : Fin S200x10000.rank) ∈ dot_S200x10000_S10000x24_S200x24_1_0_0_1_n_n.lhsNonContracting by decide)]
  rfl
private theorem p1_lhsA_1 (i : S200x24.Idx) (q : dot_S200x10000_S10000x24_S200x24_1_0_0_1_n_n.contr.Idx) : (dot_S200x10000_S10000x24_S200x24_1_0_0_1_n_n.lhsIdx i q 1).val = (q ⟨0, by decide⟩).val :=
  dot_S200x10000_S10000x24_S200x24_1_0_0_1_n_n.lhsIdx_val_of_single rfl i q
private theorem p1_rhsA_0 (i : S200x24.Idx) (q : dot_S200x10000_S10000x24_S200x24_1_0_0_1_n_n.contr.Idx) : (dot_S200x10000_S10000x24_S200x24_1_0_0_1_n_n.rhsIdx i q 0).val = (q ⟨0, by decide⟩).val :=
  dot_S200x10000_S10000x24_S200x24_1_0_0_1_n_n.rhsIdx_val_of_single rfl i q
private theorem p1_rhsA_1 (i : S200x24.Idx) (q : dot_S200x10000_S10000x24_S200x24_1_0_0_1_n_n.contr.Idx) : (dot_S200x10000_S10000x24_S200x24_1_0_0_1_n_n.rhsIdx i q 1).val = (i 1).val := by
  unfold DotDims.rhsIdx
  rw [dif_neg (show ¬(1 : Fin S10000x24.rank) ∈ dot_S200x10000_S10000x24_S200x24_1_0_0_1_n_n.rhsBatch by decide), dif_pos (show (1 : Fin S10000x24.rank) ∈ dot_S200x10000_S10000x24_S200x24_1_0_0_1_n_n.rhsNonContracting by decide)]
  rfl

/-- A [200,10000] by [10000,24] product into the zero accumulator, at an index: the sum over the 10000 columns. -/
theorem p1_mmA_ix (a : FVec Ideal S200x10000 .f32) (b : FVec Ideal S10000x24 .f32) (r : Fin 200) (q : Fin 24) :
    (matmul (F := Ideal) (φ₁ := .f32) (φ₂ := .f32) dot_S200x10000_S10000x24_S200x24_1_0_0_1_n_n none a b (constant S200x24 .f32 0x00000000#32)) (ix2 r q)
      = ∑ k : Fin 10000, a (ix2 r k) * b (ix2 k q) := by
  simp only [matmul]
  rw [Ideal.matmul_constant_zero_apply, ← Equiv.sum_comp (ValueIdx.contrEquiv1 dot_S200x10000_S10000x24_S200x24_1_0_0_1_n_n 10000 rfl rfl).symm]
  refine Finset.sum_congr rfl fun k _ => ?_
  have hk := ValueIdx.contrEquiv1_symm_val dot_S200x10000_S10000x24_S200x24_1_0_0_1_n_n 10000 rfl rfl k
  have el : dot_S200x10000_S10000x24_S200x24_1_0_0_1_n_n.lhsIdx (ix2 r q) ((ValueIdx.contrEquiv1 dot_S200x10000_S10000x24_S200x24_1_0_0_1_n_n 10000 rfl rfl).symm k) = ix2 r k := funext fun a => Fin.ext (by
    match a with
    | ⟨0, _⟩ => exact p1_lhsA_0 _ _
    | ⟨1, _⟩ => exact (p1_lhsA_1 _ _).trans hk)
  have er : dot_S200x10000_S10000x24_S200x24_1_0_0_1_n_n.rhsIdx (ix2 r q) ((ValueIdx.contrEquiv1 dot_S200x10000_S10000x24_S200x24_1_0_0_1_n_n 10000 rfl rfl).symm k) = ix2 k q := funext fun a => Fin.ext (by
    match a with
    | ⟨0, _⟩ => exact (p1_rhsA_0 _ _).trans hk
    | ⟨1, _⟩ => exact p1_rhsA_1 _ _)
  rw [el, er]

private theorem p1_lhsB_0 (i : S200x8.Idx) (q : dot_S200x16_S16x8_S200x8_1_0_0_1_n_n.contr.Idx) : (dot_S200x16_S16x8_S200x8_1_0_0_1_n_n.lhsIdx i q 0).val = (i 0).val := by
  unfold DotDims.lhsIdx
  rw [dif_neg (show ¬(0 : Fin S200x16.rank) ∈ dot_S200x16_S16x8_S200x8_1_0_0_1_n_n.lhsBatch by decide), dif_pos (show (0 : Fin S200x16.rank) ∈ dot_S200x16_S16x8_S200x8_1_0_0_1_n_n.lhsNonContracting by decide)]
  rfl
private theorem p1_lhsB_1 (i : S200x8.Idx) (q : dot_S200x16_S16x8_S200x8_1_0_0_1_n_n.contr.Idx) : (dot_S200x16_S16x8_S200x8_1_0_0_1_n_n.lhsIdx i q 1).val = (q ⟨0, by decide⟩).val :=
  dot_S200x16_S16x8_S200x8_1_0_0_1_n_n.lhsIdx_val_of_single rfl i q
private theorem p1_rhsB_0 (i : S200x8.Idx) (q : dot_S200x16_S16x8_S200x8_1_0_0_1_n_n.contr.Idx) : (dot_S200x16_S16x8_S200x8_1_0_0_1_n_n.rhsIdx i q 0).val = (q ⟨0, by decide⟩).val :=
  dot_S200x16_S16x8_S200x8_1_0_0_1_n_n.rhsIdx_val_of_single rfl i q
private theorem p1_rhsB_1 (i : S200x8.Idx) (q : dot_S200x16_S16x8_S200x8_1_0_0_1_n_n.contr.Idx) : (dot_S200x16_S16x8_S200x8_1_0_0_1_n_n.rhsIdx i q 1).val = (i 1).val := by
  unfold DotDims.rhsIdx
  rw [dif_neg (show ¬(1 : Fin S16x8.rank) ∈ dot_S200x16_S16x8_S200x8_1_0_0_1_n_n.rhsBatch by decide), dif_pos (show (1 : Fin S16x8.rank) ∈ dot_S200x16_S16x8_S200x8_1_0_0_1_n_n.rhsNonContracting by decide)]
  rfl

/-- A [200,16] by [16,8] product into the zero accumulator, at an index: the sum over the 16 hidden channels. -/
theorem p1_mmB_ix (a : FVec Ideal S200x16 .f32) (b : FVec Ideal S16x8 .f32) (r : Fin 200) (q : Fin 8) :
    (matmul (F := Ideal) (φ₁ := .f32) (φ₂ := .f32) dot_S200x16_S16x8_S200x8_1_0_0_1_n_n none a b (constant S200x8 .f32 0x00000000#32)) (ix2 r q)
      = ∑ k : Fin 16, a (ix2 r k) * b (ix2 k q) := by
  simp only [matmul]
  rw [Ideal.matmul_constant_zero_apply, ← Equiv.sum_comp (ValueIdx.contrEquiv1 dot_S200x16_S16x8_S200x8_1_0_0_1_n_n 16 rfl rfl).symm]
  refine Finset.sum_congr rfl fun k _ => ?_
  have hk := ValueIdx.contrEquiv1_symm_val dot_S200x16_S16x8_S200x8_1_0_0_1_n_n 16 rfl rfl k
  have el : dot_S200x16_S16x8_S200x8_1_0_0_1_n_n.lhsIdx (ix2 r q) ((ValueIdx.contrEquiv1 dot_S200x16_S16x8_S200x8_1_0_0_1_n_n 16 rfl rfl).symm k) = ix2 r k := funext fun a => Fin.ext (by
    match a with
    | ⟨0, _⟩ => exact p1_lhsB_0 _ _
    | ⟨1, _⟩ => exact (p1_lhsB_1 _ _).trans hk)
  have er : dot_S200x16_S16x8_S200x8_1_0_0_1_n_n.rhsIdx (ix2 r q) ((ValueIdx.contrEquiv1 dot_S200x16_S16x8_S200x8_1_0_0_1_n_n 16 rfl rfl).symm k) = ix2 k q := funext fun a => Fin.ext (by
    match a with
    | ⟨0, _⟩ => exact (p1_rhsB_0 _ _).trans hk
    | ⟨1, _⟩ => exact p1_rhsB_1 _ _)
  rw [el, er]

/-! ## Rows laid along a block -/

/-- A [1,16] row cast to its own shape and laid along 200 rows, at an index: the row's entry in that column. -/
theorem p1_row16_ix (v : Vec Ideal S1x16 .f32) (r : Fin 200) (c : Fin 16) :
    broadcastTo S200x16 (shapeCast S1x16 v shapeCasts_S1x16_S1x16) broadcasts_S1x16_S200x16 (ix2 r c) = v (ix2 (0 : Fin 1) c) := by
  rw [shapeCast_self]
  exact broadcastTo_apply v broadcasts_S1x16_S200x16 (ix2 r c) (ix2 (0 : Fin 1) c) (fun a => match a with
    | ⟨0, _⟩ => by show (0 : Nat) = if (1 : Nat) = 1 then 0 else _; rw [if_pos rfl]
    | ⟨1, _⟩ => by show c.val = if (16 : Nat) = 1 then 0 else c.val; rw [if_neg (by decide)])

/-- The same for a [1,8] row. -/
theorem p1_row8_ix (v : Vec Ideal S1x8 .f32) (r : Fin 200) (j : Fin 8) :
    broadcastTo S200x8 (shapeCast S1x8 v shapeCasts_S1x8_S1x8) broadcasts_S1x8_S200x8 (ix2 r j) = v (ix2 (0 : Fin 1) j) := by
  rw [shapeCast_self]
  exact broadcastTo_apply v broadcasts_S1x8_S200x8 (ix2 r j) (ix2 (0 : Fin 1) j) (fun a => match a with
    | ⟨0, _⟩ => by show (0 : Nat) = if (1 : Nat) = 1 then 0 else _; rw [if_pos rfl]
    | ⟨1, _⟩ => by show j.val = if (8 : Nat) = 1 then 0 else j.val; rw [if_neg (by decide)])

/-! ## The payloads -/

variable (v5 : Vec Ideal S200x10000 .f32) (v6 : Vec Ideal S10000x24 .f32) (v9 : Vec Ideal S1x16 .f32)
  (v13 : Vec Ideal S200x16 .f32) (v21 : Vec Ideal S16x8 .f32) (v30 : FVec Ideal S200x8 .f32) (v31 : Vec Ideal S1x8 .f32)
  (v35 : Vec Ideal S200x8 .f32) (v72 : Vec Ideal S10000x16 .f32)

/-- The aggregation product: a row block of `adj` times the carried [10000,24] scratch. -/
theorem pay4_ix (r : Fin 200) (q : Fin 24) :
    k1_pay4 (F := Ideal) v5 v6 (ix2 r q) = ∑ k : Fin 10000, v5 (ix2 r k) * v6 (ix2 k q) := by
  unfold k1_pay4
  exact p1_mmA_ix v5 v6 r q

/-- Its last eight columns. -/
theorem pay7_ix (r : Fin 200) (j : Fin 8) :
    k1_pay7 (F := Ideal) v5 v6 (ix2 r j) = ∑ k : Fin 10000, v5 (ix2 r k) * v6 (ix2 k (⟨16 + j.val, by omega⟩ : Fin 24)) := by
  unfold k1_pay7
  refine (extractStridedSlice_apply ![0, 16] (k1_pay4 (F := Ideal) v5 v6) slices_S200x24_o0_16_S200x8 (ix2 r j)
    (ix2 r (⟨16 + j.val, by omega⟩ : Fin 24)) (fun a => ?_)).trans (pay4_ix v5 v6 r _)
  match a with
  | ⟨0, _⟩ => show r.val = 0 + r.val; omega
  | ⟨1, _⟩ => rfl

/-- The hidden block before the rectifier: the first sixteen columns of the aggregation product, plus the bias row, plus
    the skip block. -/
def p1_pre : FVec Ideal S200x16 .f32 :=
  addf (addf (extractStridedSlice S200x16 ![0, 0] (k1_pay4 (F := Ideal) v5 v6) slices_S200x24_o0_0_S200x16)
      (broadcastTo S200x16 (shapeCast S1x16 v9 shapeCasts_S1x16_S1x16) broadcasts_S1x16_S200x16))
    (shapeCast S200x16 v13 shapeCasts_S200x16_S200x16)

theorem p1_pre_ix (r : Fin 200) (c : Fin 16) :
    p1_pre v5 v6 v9 v13 (ix2 r c)
      = ((∑ k : Fin 10000, v5 (ix2 r k) * v6 (ix2 k (⟨c.val, by omega⟩ : Fin 24))) + v9 (ix2 (0 : Fin 1) c)) + v13 (ix2 r c) := by
  unfold p1_pre
  have h8 : extractStridedSlice S200x16 ![0, 0] (k1_pay4 (F := Ideal) v5 v6) slices_S200x24_o0_0_S200x16 (ix2 r c)
      = ∑ k : Fin 10000, v5 (ix2 r k) * v6 (ix2 k (⟨c.val, by omega⟩ : Fin 24)) :=
    (extractStridedSlice_apply ![0, 0] (k1_pay4 (F := Ideal) v5 v6) slices_S200x24_o0_0_S200x16 (ix2 r c)
      (ix2 r (⟨c.val, by omega⟩ : Fin 24)) (fun a => match a with
        | ⟨0, _⟩ => by show r.val = 0 + r.val; omega
        | ⟨1, _⟩ => by show c.val = 0 + c.val; omega)).trans (pay4_ix v5 v6 r (⟨c.val, by omega⟩ : Fin 24))
  have h14 : shapeCast S200x16 v13 shapeCasts_S200x16_S200x16 (ix2 r c) = v13 (ix2 r c) := by rw [shapeCast_self]
  refine (ValueIdx.addf_apply _ _ (ix2 r c)).trans ?_
  refine congrArg₂ (· + ·) ((ValueIdx.addf_apply _ _ (ix2 r c)).trans (congrArg₂ (· + ·) h8 (p1_row16_ix v9 r c))) h14

/-- The rectified hidden block. -/
def p1_hid : FVec Ideal S200x16 .f32 :=
  select (cmpf .oge (p1_pre v5 v6 v9 v13) (broadcast S200x16 (Scalar.ofBits (F := Ideal) .f32 0x00000000#32)))
    (p1_pre v5 v6 v9 v13)
    (mulf (broadcast S200x16 (Scalar.ofBits (F := Ideal) .f32 0x3E6AAAAB#32)) (p1_pre v5 v6 v9 v13))

theorem p1_hid_ix (r : Fin 200) (c : Fin 16) :
    p1_hid v5 v6 v9 v13 (ix2 r c) = Cert.Spec.act (p1_pre v5 v6 v9 v13 (ix2 r c)) := rfl

theorem pay5_eq_mm : k1_pay5 (F := Ideal) v5 v6 v9 v13 v21
    = matmul (F := Ideal) (φ₁ := .f32) (φ₂ := .f32) dot_S200x16_S16x8_S200x8_1_0_0_1_n_n none (p1_hid v5 v6 v9 v13) v21 (constant S200x8 .f32 0x00000000#32) := rfl

/-- The second layer's support on the block: the rectified hidden block times `W3`. -/
theorem pay5_ix (r : Fin 200) (j : Fin 8) :
    k1_pay5 (F := Ideal) v5 v6 v9 v13 v21 (ix2 r j)
      = ∑ c : Fin 16, Cert.Spec.act (((∑ k : Fin 10000, v5 (ix2 r k) * v6 (ix2 k (⟨c.val, by omega⟩ : Fin 24))) + v9 (ix2 (0 : Fin 1) c)) + v13 (ix2 r c)) * v21 (ix2 c j) := by
  rw [pay5_eq_mm]
  refine (p1_mmB_ix (p1_hid v5 v6 v9 v13) v21 r j).trans (Finset.sum_congr rfl fun c _ => ?_)
  rw [p1_hid_ix, p1_pre_ix]

theorem pay6_eq : k1_pay6 (F := Ideal) v5 v6 v9 v13 v21 = k1_pay5 (F := Ideal) v5 v6 v9 v13 v21 := by
  unfold k1_pay6
  exact shapeCast_self _ _

/-- An accumulator update: the carried slice plus the bias row plus the block read. -/
theorem pay8_ix (r : Fin 200) (j : Fin 8) :
    k1_pay8 (F := Ideal) v30 v31 v35 (ix2 r j) = (v30 (ix2 r j) + v31 (ix2 (0 : Fin 1) j)) + v35 (ix2 r j) := by
  unfold k1_pay8
  refine (ValueIdx.addf_apply _ _ (ix2 r j)).trans ?_
  refine congrArg₂ (· + ·) ((ValueIdx.addf_apply _ _ (ix2 r j)).trans (congrArg₂ (· + ·) rfl (p1_row8_ix v31 r j))) ?_
  rw [shapeCast_self]

theorem pay1_ix (r : Fin 200) (j : Fin 8) :
    k1_pay1 (F := Ideal) v30 v31 v35 (ix2 r j) = (v30 (ix2 r j) + v31 (ix2 (0 : Fin 1) j)) + v35 (ix2 r j) := by
  unfold k1_pay1
  refine (ValueIdx.addf_apply _ _ (ix2 r j)).trans ?_
  refine congrArg₂ (· + ·) ((ValueIdx.addf_apply _ _ (ix2 r j)).trans (congrArg₂ (· + ·) rfl (p1_row8_ix v31 r j))) ?_
  rw [shapeCast_self]

/-! The second half of the body computes the same payloads. -/
theorem pay9_eq : k1_pay9 (F := Ideal) v5 v6 = k1_pay4 (F := Ideal) v5 v6 := rfl
theorem pay10_eq : k1_pay10 (F := Ideal) v5 v6 v9 v13 v21 = k1_pay5 (F := Ideal) v5 v6 v9 v13 v21 := rfl
theorem pay11_eq : k1_pay11 (F := Ideal) v5 v6 v9 v13 v21 = k1_pay5 (F := Ideal) v5 v6 v9 v13 v21 := by
  unfold k1_pay11
  exact (shapeCast_self _ _).trans (pay10_eq v5 v6 v9 v13 v21)
theorem pay12_eq : k1_pay12 (F := Ideal) v5 v6 = k1_pay7 (F := Ideal) v5 v6 := rfl

/-! The scratch's initial halves: the first layer's support as read, and zero. -/
theorem pay2_eq : k1_pay2 (F := Ideal) v72 = v72 := by
  unfold k1_pay2
  exact (shapeCast_self _ _).trans (shapeCast_self _ _)

theorem pay3_ix (k : Fin 10000) (j : Fin 8) : k1_pay3 (F := Ideal) (ix2 k j) = 0 := by
  unfold k1_pay3
  rw [shapeCast_self]
  exact Ideal.ofBits_zero_f32

end Cert.KernelIdeal.Hand
-- ==== Proof.Val1Step.lean ====
/-
  One grid point of the first pass over the adjacency, as mathematics on functions of coordinates.

  The pass carries a scratch `S : [10000, 24]`: columns 0..15 hold the first support `t1`, columns 16..23 the rows of
  the second support found so far — those from a threshold row `T` on — and zero in the rows before `T`.  A point takes two
  row blocks of 200 rows, the higher one (rows from `o + 200`) first and then the lower one (rows from `o`), where
  `o + 400 = T`:
  each block's rows of the second support are computed from the scratch's first sixteen columns and stored into
  its last eight, and each block's share of the second aggregation is read off the last eight columns as they
  stand when the block is multiplied.
-/
import proofs.«181509_g20452634264145_cont_8to1_1942_16_alg».proof.Proof.Spec

noncomputable section

open scoped BigOperators

namespace Cert.Pass1

open Cert

/-- A row block's rows of the second support, from the block `A` of the adjacency, the scratch `S`, the block `K` of the
    first skip term. -/
def blkS2 (A : Fin 200 → Fin 10000 → EReal) (S : Fin 10000 → Fin 24 → EReal) (b1 : Fin 16 → EReal)
    (K : Fin 200 → Fin 16 → EReal) (W3 : Fin 16 → Fin 8 → EReal) (r : Fin 200) (j : Fin 8) : EReal :=
  ∑ c : Fin 16, Spec.act (((∑ k : Fin 10000, A r k * S k ⟨c.val, by omega⟩) + b1 c) + K r c) * W3 c j

/-- A row block's share of the second aggregation with the bias and the block `K1` of the second skip term. -/
def blkPart (A : Fin 200 → Fin 10000 → EReal) (S : Fin 10000 → Fin 24 → EReal) (b3 : Fin 8 → EReal)
    (K1 : Fin 200 → Fin 8 → EReal) (r : Fin 200) (j : Fin 8) : EReal :=
  ((∑ k : Fin 10000, A r k * S k ⟨16 + j.val, by omega⟩) + b3 j) + K1 r j

/-- The scratch with the 200 rows from `o` of its last eight columns replaced by `w`. -/
def put (o : ℕ) (w : Fin 200 → Fin 8 → EReal) (S : Fin 10000 → Fin 24 → EReal) (k : Fin 10000) (q : Fin 24) : EReal :=
  if h : o ≤ k.val ∧ k.val < o + 200 ∧ 16 ≤ q.val then w ⟨k.val - o, by omega⟩ ⟨q.val - 16, by omega⟩ else S k q

theorem put_lo (o : ℕ) (w : Fin 200 → Fin 8 → EReal) (S : Fin 10000 → Fin 24 → EReal) (k : Fin 10000) (c : Fin 16) :
    put o w S k ⟨c.val, by omega⟩ = S k ⟨c.val, by omega⟩ := by
  unfold put
  rw [dif_neg]
  intro h
  have := c.isLt
  have h3 : 16 ≤ c.val := h.2.2
  omega

theorem put_hi (o : ℕ) (w : Fin 200 → Fin 8 → EReal) (S : Fin 10000 → Fin 24 → EReal) (k : Fin 10000) (j : Fin 8) :
    put o w S k ⟨16 + j.val, by omega⟩
      = if h : o ≤ k.val ∧ k.val < o + 200 then w ⟨k.val - o, by omega⟩ j else S k ⟨16 + j.val, by omega⟩ := by
  unfold put
  by_cases h : o ≤ k.val ∧ k.val < o + 200
  · rw [dif_pos ⟨h.1, h.2, Nat.le_add_right _ _⟩, dif_pos h]
    exact congrArg (w _) (Fin.ext (by show 16 + j.val - 16 = j.val; omega))
  · rw [dif_neg (fun h' => h ⟨h'.1, h'.2.1⟩), dif_neg h]

section
variable (adj : Fin 10000 → Fin 10000 → EReal) (t1 : Fin 10000 → Fin 16 → EReal) (b1 : Fin 16 → EReal)
  (k0 : Fin 10000 → Fin 16 → EReal) (W3 : Fin 16 → Fin 8 → EReal) (b3 : Fin 8 → EReal) (k1 : Fin 10000 → Fin 8 → EReal)

/-- The scratch's invariant at threshold `T`. -/
def Inv (T : ℕ) (S : Fin 10000 → Fin 24 → EReal) : Prop :=
  (∀ (k : Fin 10000) (c : Fin 16), S k ⟨c.val, by omega⟩ = t1 k c)
    ∧ ∀ (k : Fin 10000) (j : Fin 8),
        S k ⟨16 + j.val, by omega⟩ = if T ≤ k.val then Spec.s2Of adj t1 b1 k0 W3 k j else 0

/-- A block's rows of the second support are the second support's, whatever the threshold. -/
theorem blkS2_eq {T : ℕ} {S : Fin 10000 → Fin 24 → EReal} (hS : Inv adj t1 b1 k0 W3 T S)
    (A : Fin 200 → Fin 10000 → EReal) (K : Fin 200 → Fin 16 → EReal) (r : Fin 200) (R : Fin 10000)
    (hA : ∀ k, A r k = adj R k) (hK : ∀ c, K r c = k0 R c) (j : Fin 8) :
    blkS2 A S b1 K W3 r j = Spec.s2Of adj t1 b1 k0 W3 R j := by
  unfold blkS2 Spec.s2Of
  refine Finset.sum_congr rfl fun c _ => ?_
  rw [hK c, Finset.sum_congr rfl fun k _ => by rw [hA k, hS.1 k c]]

/-- Storing a block's rows of the second support lowers the threshold by the block. -/
theorem inv_put {T o : ℕ} {S : Fin 10000 → Fin 24 → EReal} (hS : Inv adj t1 b1 k0 W3 T S) (hT : o + 200 = T)
    (w : Fin 200 → Fin 8 → EReal)
    (hw : ∀ (r : Fin 200) (R : Fin 10000), R.val = o + r.val → ∀ j, w r j = Spec.s2Of adj t1 b1 k0 W3 R j) :
    Inv adj t1 b1 k0 W3 o (put o w S) := by
  refine ⟨fun k c => (put_lo o w S k c).trans (hS.1 k c), fun k j => ?_⟩
  rw [put_hi]
  by_cases h : o ≤ k.val ∧ k.val < o + 200
  · rw [dif_pos h, if_pos h.1]
    exact hw _ k (by show k.val = o + (k.val - o); omega) j
  · rw [dif_neg h, hS.2 k j]
    by_cases h' : T ≤ k.val
    · rw [if_pos h', if_pos (by omega)]
    · rw [if_neg h', if_neg (by omega)]

/-- A block's share of the second aggregation is the first pass's share of its rows, when the threshold is the end of
    the row's own block. -/
theorem blkPart_eq {T : ℕ} {S : Fin 10000 → Fin 24 → EReal} (hS : Inv adj t1 b1 k0 W3 T S)
    (A : Fin 200 → Fin 10000 → EReal) (K1 : Fin 200 → Fin 8 → EReal) (r : Fin 200) (R : Fin 10000)
    (hA : ∀ k, A r k = adj R k) (j : Fin 8) (hK : K1 r j = k1 R j) (hT : T = 200 * (R.val / 200 + 1)) :
    blkPart A S b3 K1 r j = Spec.partOf adj (Spec.s2Of adj t1 b1 k0 W3) b3 k1 R j := by
  unfold blkPart Spec.partOf
  rw [hK, Finset.sum_congr rfl fun k _ => by rw [hA k, hS.2 k j, hT]]

end

end Cert.Pass1

end
-- ==== Proof.Val1Read.lean ====
/-
  The first pass over the adjacency, one grid point read back by coordinates.

  The body's run at a grid point leaves, in each of the two output buffers, two stored half-blocks, and in the
  carried scratch two stored row blocks (at the first point after the two whole-height stores that fill it).  Here
  the three lists of stores are put in a clean form (each payload over the blocks read), and read at an index: a
  store list is read newest first, one piece at a time.  The results are stated through the functions of
  `Cert.Pass1` on the blocks and the scratch taken by coordinates.
-/
import proofs.«181509_g20452634264145_cont_8to1_1942_16_alg».proof.Proof.Reg1
import proofs.«181509_g20452634264145_cont_8to1_1942_16_alg».proof.Proof.Val1Pay
import proofs.«181509_g20452634264145_cont_8to1_1942_16_alg».proof.Proof.Val1Step
import Idealize.ShloMosaic.Lib.Pipeline.Value
import Idealize.ShloMosaic.Lib.ValueIdx
import Idealize.ShloMosaic.Lib.WritesUnit

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

theorem hz2 : (![0, 0] : Fin 2 → Nat) = fun _ => 0 := funext fun a => by fin_cases a <;> rfl

/-- The scratch as the lower row block's product finds it: the higher block's new rows stored over what was there. -/
def mid1 (i : grid1.Coords) (arg11 : Memref sig .tc .vmem S10000x24 .f32) (f0 : arg11.view.ty.Contents (Elt F))
    (L0 : List (View.Piece (Elt F) S10000x24 .f32)) (w1 : FVec F S200x8 .f32) : Vec F S10000x24 .f32 :=
  arg11.view.read (Elt F) (arg11.view.writes (Elt F) f0 (⟨(Rect.unit (s := S10000x24) (k1_off1 i) S200x8.size (k1_off1_inb i)), w1⟩ :: L0))

set_option maxHeartbeats 1000000 in
/-- A later point's stores, each with its payload over the blocks read. -/
theorem lists1_B (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : ¬cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) (xs0 : Vec F S10000x24 .f32) :
    (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 xs0).1
        = [⟨(Rect.unit (s := S400x8) ![0, 0] S200x8.size inb_S400x8_S200x8_0_0), k1_pay10 x0 (mid1 i arg11 (harg11.unread xs0) [] (k1_pay6 x1 xs0 x4 (View.ld x3 (Rect.unit (s := S400x16) ![200, 0] S200x16.size inb_S400x16_S200x16_200_0)) x5)) x4 (View.ld x3 (Rect.unit (s := S400x16) ![0, 0] S200x16.size inb_S400x16_S200x16_0_0)) x5⟩,
           ⟨(Rect.unit (s := S400x8) ![200, 0] S200x8.size inb_S400x8_S200x8_200_0), k1_pay5 x1 xs0 x4 (View.ld x3 (Rect.unit (s := S400x16) ![200, 0] S200x16.size inb_S400x16_S200x16_200_0)) x5⟩]
      ∧ (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 xs0).2.1
        = [⟨(Rect.unit (s := S400x8) ![0, 0] S200x8.size inb_S400x8_S200x8_0_0), k1_pay1 (k1_pay12 x0 (mid1 i arg11 (harg11.unread xs0) [] (k1_pay6 x1 xs0 x4 (View.ld x3 (Rect.unit (s := S400x16) ![200, 0] S200x16.size inb_S400x16_S200x16_200_0)) x5))) x7 (View.ld x6 (Rect.unit (s := S400x8) ![0, 0] S200x8.size inb_S400x8_S200x8_0_0))⟩,
           ⟨(Rect.unit (s := S400x8) ![200, 0] S200x8.size inb_S400x8_S200x8_200_0), k1_pay8 (k1_pay7 x1 xs0) x7 (View.ld x6 (Rect.unit (s := S400x8) ![200, 0] S200x8.size inb_S400x8_S200x8_200_0))⟩]
      ∧ (kernelRun1_B c i arg1 harg1 arg2 harg2 arg3 harg3 arg4 harg4 arg5 harg5 arg6 harg6 arg7 harg7 arg8 harg8 arg9 harg9 arg10 harg10 arg11 harg11 hc0 x0 x1 x2 x3 x4 x5 x6 x7 xs0).2.2.1
        = [⟨(Rect.unit (s := S10000x24) (k1_off2 i) S200x8.size (k1_off2_inb i)), k1_pay11 x0 (mid1 i arg11 (harg11.unread xs0) [] (k1_pay6 x1 xs0 x4 (View.ld x3 (Rect.unit (s := S400x16) ![200, 0] S200x16.size inb_S400x16_S200x16_200_0)) x5)) x4 (View.ld x3 (Rect.unit (s := S400x16) ![0, 0] S200x16.size inb_S400x16_S200x16_0_0)) x5⟩,
           ⟨(Rect.unit (s := S10000x24) (k1_off1 i) S200x8.size (k1_off1_inb i)), k1_pay6 x1 xs0 x4 (View.ld x3 (Rect.unit (s := S400x16) ![200, 0] S200x16.size inb_S400x16_S200x16_200_0)) x5⟩] := by
  unfold kernelRun1_B; dsimp only; sl_unfold_run_names
  simp only [View.readAt_eq_ld, harg1.read_unread, harg2.read_unread, harg4.read_unread, harg5.read_unread, harg6.read_unread,
    harg7.read_unread, harg8.read_unread, harg11.read_unread, View.ld_unit_zero (S := S200x10000) hz2,
    View.ld_unit_zero (S := S10000x24) hz2, View.ld_unit_zero (S := S1x16) hz2, View.ld_unit_zero (S := S16x8) hz2,
    View.ld_unit_zero (S := S1x8) hz2]
  exact ⟨rfl, rfl, rfl⟩

/-- What the first point stores into the scratch before anything else: zeros in columns 16 to 23, the first support in
    columns 0 to 15. -/
def init1 (x2 : Vec F S10000x16 .f32) : List (View.Piece (Elt F) S10000x24 .f32) :=
  [⟨r1_hi, k1_pay3 (F := F)⟩, ⟨r1_lo, k1_pay2 x2⟩]

set_option maxHeartbeats 1000000 in
/-- The first point's stores, each with its payload over the blocks read. -/
theorem lists1_A (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole) (hc0 : cond1_0 i) (x0 : Vec F S200x10000 .f32) (x1 : Vec F S200x10000 .f32) (x2 : Vec F S10000x16 .f32) (x3 : Vec F S400x16 .f32) (x4 : Vec F S1x16 .f32) (x5 : Vec F S16x8 .f32) (x6 : Vec F S400x8 .f32) (x7 : Vec F S1x8 .f32) :
    (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7).1
        = [⟨(Rect.unit (s := S400x8) ![0, 0] S200x8.size inb_S400x8_S200x8_0_0), k1_pay10 x0 (mid1 i arg11 arg11.view.junk (init1 x2) (k1_pay6 x1 (arg11.view.read (Elt F) (arg11.view.writes (Elt F) arg11.view.junk (init1 x2))) x4 (View.ld x3 (Rect.unit (s := S400x16) ![200, 0] S200x16.size inb_S400x16_S200x16_200_0)) x5)) x4 (View.ld x3 (Rect.unit (s := S400x16) ![0, 0] S200x16.size inb_S400x16_S200x16_0_0)) x5⟩,
           ⟨(Rect.unit (s := S400x8) ![200, 0] S200x8.size inb_S400x8_S200x8_200_0), k1_pay5 x1 (arg11.view.read (Elt F) (arg11.view.writes (Elt F) arg11.view.junk (init1 x2))) x4 (View.ld x3 (Rect.unit (s := S400x16) ![200, 0] S200x16.size inb_S400x16_S200x16_200_0)) x5⟩]
      ∧ (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7).2.1
        = [⟨(Rect.unit (s := S400x8) ![0, 0] S200x8.size inb_S400x8_S200x8_0_0), k1_pay1 (k1_pay12 x0 (mid1 i arg11 arg11.view.junk (init1 x2) (k1_pay6 x1 (arg11.view.read (Elt F) (arg11.view.writes (Elt F) arg11.view.junk (init1 x2))) x4 (View.ld x3 (Rect.unit (s := S400x16) ![200, 0] S200x16.size inb_S400x16_S200x16_200_0)) x5))) x7 (View.ld x6 (Rect.unit (s := S400x8) ![0, 0] S200x8.size inb_S400x8_S200x8_0_0))⟩,
           ⟨(Rect.unit (s := S400x8) ![200, 0] S200x8.size inb_S400x8_S200x8_200_0), k1_pay8 (k1_pay7 x1 (arg11.view.read (Elt F) (arg11.view.writes (Elt F) arg11.view.junk (init1 x2)))) x7 (View.ld x6 (Rect.unit (s := S400x8) ![200, 0] S200x8.size inb_S400x8_S200x8_200_0))⟩]
      ∧ (kernelRun1_A c i arg1 harg1 arg2 harg2 arg3 harg3 arg4 harg4 arg5 harg5 arg6 harg6 arg7 harg7 arg8 harg8 arg9 harg9 arg10 harg10 arg11 harg11 hc0 x0 x1 x2 x3 x4 x5 x6 x7).2.2.1
        = ⟨(Rect.unit (s := S10000x24) (k1_off2 i) S200x8.size (k1_off2_inb i)), k1_pay11 x0 (mid1 i arg11 arg11.view.junk (init1 x2) (k1_pay6 x1 (arg11.view.read (Elt F) (arg11.view.writes (Elt F) arg11.view.junk (init1 x2))) x4 (View.ld x3 (Rect.unit (s := S400x16) ![200, 0] S200x16.size inb_S400x16_S200x16_200_0)) x5)) x4 (View.ld x3 (Rect.unit (s := S400x16) ![0, 0] S200x16.size inb_S400x16_S200x16_0_0)) x5⟩
            :: ⟨(Rect.unit (s := S10000x24) (k1_off1 i) S200x8.size (k1_off1_inb i)), k1_pay6 x1 (arg11.view.read (Elt F) (arg11.view.writes (Elt F) arg11.view.junk (init1 x2))) x4 (View.ld x3 (Rect.unit (s := S400x16) ![200, 0] S200x16.size inb_S400x16_S200x16_200_0)) x5⟩ :: init1 x2 := by
  unfold kernelRun1_A; dsimp only; sl_unfold_run_names
  simp only [View.readCov, View.readAt_eq_ld, harg1.read_unread, harg2.read_unread, harg3.read_unread, harg4.read_unread, harg5.read_unread,
    harg6.read_unread, harg7.read_unread, harg8.read_unread, View.ld_unit_zero (S := S200x10000) hz2,
    View.ld_unit_zero (S := S10000x24) hz2, View.ld_unit_zero (S := S1x16) hz2, View.ld_unit_zero (S := S16x8) hz2,
    View.ld_unit_zero (S := S1x8) hz2, View.ld_unit_zero (S := S10000x16) hz2]
  exact ⟨rfl, rfl, rfl⟩

/-! ## Reading a list of stores at coordinates -/

/-- A [200, 8] block stored at rows `o …`, columns `16 …` of a [10000, 24] buffer, newest of a list of stores: under it
    the block at the coordinates minus the offsets, elsewhere what the rest of the list left. -/
theorem read_put (v : View sig .tc .vmem S10000x24 .f32) (f : v.ty.Contents (Elt F)) {off : Fin 2 → ℕ}
    (inb : ∀ a, off a + S200x8.size a ≤ S10000x24.size a)
    (w : (Rect.unit (s := S10000x24) off S200x8.size inb).shape.Idx → Elt F .f32)
    (L : List (View.Piece (Elt F) S10000x24 .f32)) (o : ℕ) (hoff : off = ![o, 16]) (k : Fin 10000) (q : Fin 24) :
    v.read (Elt F) (v.writes (Elt F) f (⟨Rect.unit (s := S10000x24) off S200x8.size inb, w⟩ :: L)) (ix2 k q)
      = if h : o ≤ k.val ∧ k.val < o + 200 ∧ 16 ≤ q.val then
          w (ix2 (⟨k.val - o, by omega⟩ : Fin 200) (⟨q.val - 16, by omega⟩ : Fin 8))
        else v.read (Elt F) (v.writes (Elt F) f L) (ix2 k q) := by
  by_cases h : o ≤ k.val ∧ k.val < o + 200 ∧ 16 ≤ q.val
  · rw [dif_pos h]
    exact View.read_writes_cons_unit_of_mem v f inb w L (ix2 k q) _ hoff
      (Fin.forall_fin_two.mpr ⟨by show k.val = o + (k.val - o); omega, by show q.val = 16 + (q.val - 16); omega⟩)
  · rw [dif_neg h]
    by_cases h0 : o ≤ k.val ∧ k.val < o + 200
    · exact View.read_writes_cons_unit_of_not_mem v f inb w L (ix2 k q) hoff 1 (Or.inl (by show q.val < 16; omega))
    · exact View.read_writes_cons_unit_of_not_mem v f inb w L (ix2 k q) hoff 0
        (by show k.val < o ∨ o + 200 ≤ k.val; omega)

/-- The two halves of a [400, 8] buffer stored, the lower rows last: read at coordinates. -/
theorem read_halves (v : View sig .tc .vmem S400x8 .f32) (f : v.ty.Contents (Elt F)) (wlo whi : FVec F S200x8 .f32)
    (r : Fin 400) (j : Fin 8) :
    v.read (Elt F) (v.writes (Elt F) f [⟨(Rect.unit (s := S400x8) ![0, 0] S200x8.size inb_S400x8_S200x8_0_0), wlo⟩, ⟨(Rect.unit (s := S400x8) ![200, 0] S200x8.size inb_S400x8_S200x8_200_0), whi⟩]) (ix2 r j)
      = if h : r.val < 200 then wlo (ix2 (⟨r.val, h⟩ : Fin 200) j)
        else whi (ix2 (⟨r.val - 200, by omega⟩ : Fin 200) j) := by
  by_cases h : r.val < 200
  · rw [dif_pos h]
    exact View.read_writes_cons_unit_of_mem v f inb_S400x8_S200x8_0_0 wlo _ (ix2 r j) (ix2 (⟨r.val, h⟩ : Fin 200) j) rfl
      (Fin.forall_fin_two.mpr ⟨by show r.val = 0 + r.val; omega, by show j.val = 0 + j.val; omega⟩)
  · rw [dif_neg h, View.read_writes_cons_unit_of_not_mem v f inb_S400x8_S200x8_0_0 wlo _ (ix2 r j) rfl 0
      (Or.inr (by show 0 + 200 ≤ r.val; omega))]
    exact View.read_writes_cons_unit_of_mem v f inb_S400x8_S200x8_200_0 whi _ (ix2 r j)
      (ix2 (⟨r.val - 200, by omega⟩ : Fin 200) j) rfl
      (Fin.forall_fin_two.mpr ⟨by show r.val = 200 + (r.val - 200); omega, by show j.val = 0 + j.val; omega⟩)

/-- A load of the first or last 200 rows of a 400-row block, at coordinates. -/
theorem ld_lo16 (X : Vec F S400x16 .f32) (r : Fin 200) (c : Fin 16) :
    View.ld X (Rect.unit (s := S400x16) ![0, 0] S200x16.size inb_S400x16_S200x16_0_0) (ix2 r c) = X (ix2 (⟨r.val, by omega⟩ : Fin 400) c) :=
  congrArg X (funext fun a => Fin.ext (by
    match a with
    | ⟨0, _⟩ => show 0 + 1 * r.val = r.val; omega
    | ⟨1, _⟩ => show 0 + 1 * c.val = c.val; omega))
theorem ld_hi16 (X : Vec F S400x16 .f32) (r : Fin 200) (c : Fin 16) :
    View.ld X (Rect.unit (s := S400x16) ![200, 0] S200x16.size inb_S400x16_S200x16_200_0) (ix2 r c) = X (ix2 (⟨200 + r.val, by omega⟩ : Fin 400) c) :=
  congrArg X (funext fun a => Fin.ext (by
    match a with
    | ⟨0, _⟩ => show 200 + 1 * r.val = 200 + r.val; omega
    | ⟨1, _⟩ => show 0 + 1 * c.val = c.val; omega))
theorem ld_lo8 (X : Vec F S400x8 .f32) (r : Fin 200) (j : Fin 8) :
    View.ld X (Rect.unit (s := S400x8) ![0, 0] S200x8.size inb_S400x8_S200x8_0_0) (ix2 r j) = X (ix2 (⟨r.val, by omega⟩ : Fin 400) j) :=
  congrArg X (funext fun a => Fin.ext (by
    match a with
    | ⟨0, _⟩ => show 0 + 1 * r.val = r.val; omega
    | ⟨1, _⟩ => show 0 + 1 * j.val = j.val; omega))
theorem ld_hi8 (X : Vec F S400x8 .f32) (r : Fin 200) (j : Fin 8) :
    View.ld X (Rect.unit (s := S400x8) ![200, 0] S200x8.size inb_S400x8_S200x8_200_0) (ix2 r j) = X (ix2 (⟨200 + r.val, by omega⟩ : Fin 400) j) :=
  congrArg X (funext fun a => Fin.ext (by
    match a with
    | ⟨0, _⟩ => show 200 + 1 * r.val = 200 + r.val; omega
    | ⟨1, _⟩ => show 0 + 1 * j.val = j.val; omega))

/-! ## The blocks and the scratch by coordinates (extended reals) -/

section AtIdeal

abbrev curA (x : Vec Ideal S200x10000 .f32) : Fin 200 → Fin 10000 → EReal := fun r k => x (ix2 r k)
abbrev curS (x : Vec Ideal S10000x24 .f32) : Fin 10000 → Fin 24 → EReal := fun k q => x (ix2 k q)
abbrev curB16 (x : Vec Ideal S1x16 .f32) : Fin 16 → EReal := fun c => x (ix2 (0 : Fin 1) c)
abbrev curB8 (x : Vec Ideal S1x8 .f32) : Fin 8 → EReal := fun j => x (ix2 (0 : Fin 1) j)
abbrev curW (x : Vec Ideal S16x8 .f32) : Fin 16 → Fin 8 → EReal := fun c j => x (ix2 c j)
abbrev loK16 (x : Vec Ideal S400x16 .f32) : Fin 200 → Fin 16 → EReal := fun r c => x (ix2 (⟨r.val, by omega⟩ : Fin 400) c)
abbrev hiK16 (x : Vec Ideal S400x16 .f32) : Fin 200 → Fin 16 → EReal := fun r c => x (ix2 (⟨200 + r.val, by omega⟩ : Fin 400) c)
abbrev loK8 (x : Vec Ideal S400x8 .f32) : Fin 200 → Fin 8 → EReal := fun r j => x (ix2 (⟨r.val, by omega⟩ : Fin 400) j)
abbrev hiK8 (x : Vec Ideal S400x8 .f32) : Fin 200 → Fin 8 → EReal := fun r j => x (ix2 (⟨200 + r.val, by omega⟩ : Fin 400) j)
/-- The scratch as the first point fills it: the first support, then zeros. -/
def initS (x2 : Vec Ideal S10000x16 .f32) : Fin 10000 → Fin 24 → EReal :=
  fun k q => if h : q.val < 16 then x2 (ix2 k (⟨q.val, h⟩ : Fin 16)) else 0

section Point
variable (o1 o2 : ℕ) (S : Fin 10000 → Fin 24 → EReal) (x0 x1 : Vec Ideal S200x10000 .f32) (x3 : Vec Ideal S400x16 .f32)
  (x4 : Vec Ideal S1x16 .f32) (x5 : Vec Ideal S16x8 .f32) (x6 : Vec Ideal S400x8 .f32) (x7 : Vec Ideal S1x8 .f32)

/-- One point on a scratch `S`: the higher block's rows of the second support, the scratch with them stored, the lower
    block's rows, the scratch the point leaves, and the two output blocks. -/
def w1P : Fin 200 → Fin 8 → EReal := Pass1.blkS2 (curA x1) S (curB16 x4) (hiK16 x3) (curW x5)
def mP : Fin 10000 → Fin 24 → EReal := Pass1.put o1 (w1P S x1 x3 x4 x5) S
def w2P : Fin 200 → Fin 8 → EReal := Pass1.blkS2 (curA x0) (mP o1 S x1 x3 x4 x5) (curB16 x4) (loK16 x3) (curW x5)
def tP : Fin 10000 → Fin 24 → EReal := Pass1.put o2 (w2P o1 S x0 x1 x3 x4 x5) (mP o1 S x1 x3 x4 x5)
def o8P (r : Fin 400) (j : Fin 8) : EReal :=
  if h : r.val < 200 then w2P o1 S x0 x1 x3 x4 x5 ⟨r.val, h⟩ j else w1P S x1 x3 x4 x5 ⟨r.val - 200, by omega⟩ j
def o9P (r : Fin 400) (j : Fin 8) : EReal :=
  if h : r.val < 200 then Pass1.blkPart (curA x0) (mP o1 S x1 x3 x4 x5) (curB8 x7) (loK8 x6) ⟨r.val, h⟩ j
  else Pass1.blkPart (curA x1) S (curB8 x7) (hiK8 x6) ⟨r.val - 200, by omega⟩ j
end Point

/-- A block's rows of the second support, by coordinates. -/
theorem pay5_blk (A : Vec Ideal S200x10000 .f32) (Sv : Vec Ideal S10000x24 .f32) (x4 : Vec Ideal S1x16 .f32)
    (Kv : Vec Ideal S200x16 .f32) (x5 : Vec Ideal S16x8 .f32) (S : Fin 10000 → Fin 24 → EReal) (K : Fin 200 → Fin 16 → EReal)
    (hS : ∀ k q, Sv (ix2 k q) = S k q) (hK : ∀ r c, Kv (ix2 r c) = K r c) (r : Fin 200) (j : Fin 8) :
    k1_pay5 (F := Ideal) A Sv x4 Kv x5 (ix2 r j) = Pass1.blkS2 (curA A) S (curB16 x4) K (curW x5) r j := by
  rw [pay5_ix]
  unfold Pass1.blkS2
  refine Finset.sum_congr rfl fun c _ => ?_
  rw [hK r c, Finset.sum_congr rfl fun k _ => by rw [hS k _]]

/-- A block's share of the second aggregation, by coordinates. -/
theorem pay8_blk (A : Vec Ideal S200x10000 .f32) (Sv : Vec Ideal S10000x24 .f32) (x7 : Vec Ideal S1x8 .f32)
    (K1v : Vec Ideal S200x8 .f32) (S : Fin 10000 → Fin 24 → EReal) (K1 : Fin 200 → Fin 8 → EReal)
    (hS : ∀ k q, Sv (ix2 k q) = S k q) (hK : ∀ r j, K1v (ix2 r j) = K1 r j) (r : Fin 200) (j : Fin 8) :
    k1_pay8 (F := Ideal) (k1_pay7 (F := Ideal) A Sv) x7 K1v (ix2 r j) = Pass1.blkPart (curA A) S (curB8 x7) K1 r j := by
  rw [pay8_ix, pay7_ix, hK r j]
  unfold Pass1.blkPart
  rw [Finset.sum_congr rfl fun k _ => by rw [hS k _]]
theorem pay1_blk (A : Vec Ideal S200x10000 .f32) (Sv : Vec Ideal S10000x24 .f32) (x7 : Vec Ideal S1x8 .f32)
    (K1v : Vec Ideal S200x8 .f32) (S : Fin 10000 → Fin 24 → EReal) (K1 : Fin 200 → Fin 8 → EReal)
    (hS : ∀ k q, Sv (ix2 k q) = S k q) (hK : ∀ r j, K1v (ix2 r j) = K1 r j) (r : Fin 200) (j : Fin 8) :
    k1_pay1 (F := Ideal) (k1_pay12 (F := Ideal) A Sv) x7 K1v (ix2 r j) = Pass1.blkPart (curA A) S (curB8 x7) K1 r j := by
  rw [pay1_ix, pay12_eq, pay7_ix, hK r j]
  unfold Pass1.blkPart
  rw [Finset.sum_congr rfl fun k _ => by rw [hS k _]]

/-- A stored row block read back, by coordinates. -/
theorem read_put_eq (v : View sig .tc .vmem S10000x24 .f32) (f : v.ty.Contents (Elt Ideal)) {off : Fin 2 → ℕ}
    (inb : ∀ a, off a + S200x8.size a ≤ S10000x24.size a)
    (w : (Rect.unit (s := S10000x24) off S200x8.size inb).shape.Idx → Elt Ideal .f32)
    (L : List (View.Piece (Elt Ideal) S10000x24 .f32)) (o : ℕ) (hoff : off = ![o, 16])
    (S : Fin 10000 → Fin 24 → EReal) (wf : Fin 200 → Fin 8 → EReal)
    (hS : ∀ k q, v.read (Elt Ideal) (v.writes (Elt Ideal) f L) (ix2 k q) = S k q)
    (hw : ∀ (r : Fin 200) (j : Fin 8), w (ix2 r j) = wf r j) (k : Fin 10000) (q : Fin 24) :
    v.read (Elt Ideal) (v.writes (Elt Ideal) f (⟨Rect.unit (s := S10000x24) off S200x8.size inb, w⟩ :: L)) (ix2 k q)
      = Pass1.put o wf S k q := by
  rw [read_put v f inb w L o hoff k q]
  unfold Pass1.put
  by_cases h : o ≤ k.val ∧ k.val < o + 200 ∧ 16 ≤ q.val
  · rw [dif_pos h, dif_pos h]; exact hw _ _
  · rw [dif_neg h, dif_neg h]; exact hS k q

/-- What the first point's two whole-height stores leave, by coordinates. -/
theorem read_init (v : View sig .tc .vmem S10000x24 .f32) (x2 : Vec Ideal S10000x16 .f32) (k : Fin 10000) (q : Fin 24) :
    v.read (Elt Ideal) (v.writes (Elt Ideal) v.junk (init1 (F := Ideal) x2)) (ix2 k q) = initS x2 k q := by
  unfold init1 initS
  by_cases h : q.val < 16
  · rw [dif_pos h, View.read_writes_cons_unit_of_not_mem v _ inb_S10000x24_S10000x8_0_16 _ _ (ix2 k q) rfl 1
        (Or.inl (by show q.val < 16; exact h)),
      View.read_writes_cons_unit_of_mem v _ inb_S10000x24_S10000x16_0_0 _ _ (ix2 k q) (ix2 k (⟨q.val, h⟩ : Fin 16)) rfl
        (Fin.forall_fin_two.mpr ⟨by show k.val = 0 + k.val; omega, by show q.val = 0 + q.val; omega⟩), pay2_eq]
  · rw [dif_neg h, View.read_writes_cons_unit_of_mem v _ inb_S10000x24_S10000x8_0_16 _ _ (ix2 k q)
        (ix2 k (⟨q.val - 16, by omega⟩ : Fin 8)) rfl
        (Fin.forall_fin_two.mpr ⟨by show k.val = 0 + k.val; omega, by show q.val = 16 + (q.val - 16); omega⟩)]
    exact pay3_ix k _

end AtIdeal

/-! ## One point's three results, by coordinates -/

section Cases

variable (c : Dev nD) (i : grid1.Coords) (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole) (arg5 : Memref sig .tc .vmem S1x16 .f32) (harg5 : arg5.IsWhole) (arg6 : Memref sig .tc .vmem S16x8 .f32) (harg6 : arg6.IsWhole) (arg7 : Memref sig .tc .vmem S400x8 .f32) (harg7 : arg7.IsWhole) (arg8 : Memref sig .tc .vmem S1x8 .f32) (harg8 : arg8.IsWhole) (arg9 : Memref sig .tc .vmem S400x8 .f32) (harg9 : arg9.IsWhole) (arg10 : Memref sig .tc .vmem S400x8 .f32) (harg10 : arg10.IsWhole) (arg11 : Memref sig .tc .vmem S10000x24 .f32) (harg11 : arg11.IsWhole)
  (x0 x1 : Vec Ideal S200x10000 .f32) (x2 : Vec Ideal S10000x16 .f32) (x3 : Vec Ideal S400x16 .f32) (x4 : Vec Ideal S1x16 .f32)
  (x5 : Vec Ideal S16x8 .f32) (x6 : Vec Ideal S400x8 .f32) (x7 : Vec Ideal S1x8 .f32)
  (o1 o2 : ℕ) (h1 : k1_off1 i = ![o1, 16]) (h2 : k1_off2 i = ![o2, 16])

section Generic
variable (f0 : arg11.view.ty.Contents (Elt Ideal)) (L0 : List (View.Piece (Elt Ideal) S10000x24 .f32))
  (Sv : Vec Ideal S10000x24 .f32) (S : Fin 10000 → Fin 24 → EReal) (hSv : ∀ k q, Sv (ix2 k q) = S k q)
  (hseen : ∀ k q, arg11.view.read (Elt Ideal) (arg11.view.writes (Elt Ideal) f0 L0) (ix2 k q) = S k q)

include hSv in
theorem w1_eq (r : Fin 200) (j : Fin 8) :
    k1_pay6 (F := Ideal) x1 Sv x4 (View.ld x3 (Rect.unit (s := S400x16) ![200, 0] S200x16.size inb_S400x16_S200x16_200_0)) x5 (ix2 r j) = w1P S x1 x3 x4 x5 r j := by
  rw [pay6_eq]
  exact pay5_blk x1 Sv x4 _ x5 S _ hSv (ld_hi16 x3) r j

include hSv hseen h1 in
theorem mid_eq (k : Fin 10000) (q : Fin 24) :
    mid1 i arg11 f0 L0 (k1_pay6 (F := Ideal) x1 Sv x4 (View.ld x3 (Rect.unit (s := S400x16) ![200, 0] S200x16.size inb_S400x16_S200x16_200_0)) x5) (ix2 k q) = mP o1 S x1 x3 x4 x5 k q :=
  read_put_eq arg11.view f0 (k1_off1_inb i) _ L0 o1 h1 S _ hseen (w1_eq x1 x3 x4 x5 Sv S hSv) k q

include hSv hseen h1 in
theorem w2_eq (r : Fin 200) (j : Fin 8) :
    k1_pay11 (F := Ideal) x0 (mid1 i arg11 f0 L0 (k1_pay6 (F := Ideal) x1 Sv x4 (View.ld x3 (Rect.unit (s := S400x16) ![200, 0] S200x16.size inb_S400x16_S200x16_200_0)) x5)) x4 (View.ld x3 (Rect.unit (s := S400x16) ![0, 0] S200x16.size inb_S400x16_S200x16_0_0)) x5 (ix2 r j)
      = w2P o1 S x0 x1 x3 x4 x5 r j := by
  rw [pay11_eq]
  exact pay5_blk x0 _ x4 _ x5 _ _ (mid_eq i arg11 x1 x3 x4 x5 o1 h1 f0 L0 Sv S hSv hseen) (ld_lo16 x3) r j

end Generic

/-! ### A later point -/

section Later
variable (hc0 : ¬cond1_0 i) (xs0 : Vec Ideal S10000x24 .f32)

include harg11 in
theorem seen_B (k : Fin 10000) (q : Fin 24) :
    arg11.view.read (Elt Ideal) (arg11.view.writes (Elt Ideal) (harg11.unread xs0) []) (ix2 k q) = curS xs0 k q :=
  congrFun (harg11.read_unread xs0) (ix2 k q)

include h1 h2 in
theorem sout1_B_ix (k : Fin 10000) (q : Fin 24) :
    sout1_B_0 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 xs0 (ix2 k q) = tP o1 o2 (curS xs0) x0 x1 x3 x4 x5 k q := by
  unfold sout1_B_0
  rw [(lists1_B c i arg1 harg1 arg2 harg2 arg3 harg3 arg4 harg4 arg5 harg5 arg6 harg6 arg7 harg7 arg8 harg8 arg9 harg9 arg10 harg10 arg11 harg11 hc0 x0 x1 x2 x3 x4 x5 x6 x7 xs0).2.2]
  exact read_put_eq arg11.view _ (k1_off2_inb i) _ _ o2 h2 _ _
    (mid_eq i arg11 x1 x3 x4 x5 o1 h1 _ [] xs0 (curS xs0) (fun _ _ => rfl) (seen_B arg11 harg11 xs0))
    (w2_eq i arg11 x0 x1 x3 x4 x5 o1 h1 _ [] xs0 (curS xs0) (fun _ _ => rfl) (seen_B arg11 harg11 xs0)) k q

include h1 in
theorem out1_B_8_ix (r : Fin 400) (j : Fin 8) :
    out1_B_8 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 xs0 (ix2 r j) = o8P o1 (curS xs0) x0 x1 x3 x4 x5 r j := by
  unfold out1_B_8
  rw [(lists1_B c i arg1 harg1 arg2 harg2 arg3 harg3 arg4 harg4 arg5 harg5 arg6 harg6 arg7 harg7 arg8 harg8 arg9 harg9 arg10 harg10 arg11 harg11 hc0 x0 x1 x2 x3 x4 x5 x6 x7 xs0).1, read_halves]
  unfold o8P
  by_cases h : r.val < 200
  · rw [dif_pos h, dif_pos h, pay10_eq]
    exact pay5_blk x0 _ x4 _ x5 _ _ (mid_eq i arg11 x1 x3 x4 x5 o1 h1 _ [] xs0 (curS xs0) (fun _ _ => rfl) (seen_B arg11 harg11 xs0))
      (ld_lo16 x3) _ j
  · rw [dif_neg h, dif_neg h]
    exact pay5_blk x1 xs0 x4 _ x5 _ _ (fun _ _ => rfl) (ld_hi16 x3) _ j

include h1 in
theorem out1_B_9_ix (r : Fin 400) (j : Fin 8) :
    out1_B_9 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 xs0 (ix2 r j) = o9P o1 (curS xs0) x0 x1 x3 x4 x5 x6 x7 r j := by
  unfold out1_B_9
  rw [(lists1_B c i arg1 harg1 arg2 harg2 arg3 harg3 arg4 harg4 arg5 harg5 arg6 harg6 arg7 harg7 arg8 harg8 arg9 harg9 arg10 harg10 arg11 harg11 hc0 x0 x1 x2 x3 x4 x5 x6 x7 xs0).2.1, read_halves]
  unfold o9P
  by_cases h : r.val < 200
  · rw [dif_pos h, dif_pos h]
    exact pay1_blk x0 _ x7 _ _ _ (mid_eq i arg11 x1 x3 x4 x5 o1 h1 _ [] xs0 (curS xs0) (fun _ _ => rfl) (seen_B arg11 harg11 xs0))
      (ld_lo8 x6) _ j
  · rw [dif_neg h, dif_neg h]
    exact pay8_blk x1 xs0 x7 _ _ _ (fun _ _ => rfl) (ld_hi8 x6) _ j

end Later

/-! ### The first point -/

section First
variable (hc0 : cond1_0 i)

include h1 h2 in
theorem sout1_A_ix (k : Fin 10000) (q : Fin 24) :
    sout1_A_0 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 (ix2 k q) = tP o1 o2 (initS x2) x0 x1 x3 x4 x5 k q := by
  unfold sout1_A_0
  rw [(lists1_A c i arg1 harg1 arg2 harg2 arg3 harg3 arg4 harg4 arg5 harg5 arg6 harg6 arg7 harg7 arg8 harg8 arg9 harg9 arg10 harg10 arg11 harg11 hc0 x0 x1 x2 x3 x4 x5 x6 x7).2.2]
  exact read_put_eq VS1_0 _ (k1_off2_inb i) _ _ o2 h2 _ _
    (read_put_eq VS1_0 _ (k1_off1_inb i) _ _ o1 h1 (initS x2) _ (read_init VS1_0 x2)
      (w1_eq x1 x3 x4 x5 _ (initS x2) (read_init arg11.view x2)))
    (w2_eq i arg11 x0 x1 x3 x4 x5 o1 h1 _ (init1 x2) _ (initS x2) (read_init arg11.view x2) (read_init arg11.view x2)) k q

include h1 in
theorem out1_A_8_ix (r : Fin 400) (j : Fin 8) :
    out1_A_8 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 (ix2 r j) = o8P o1 (initS x2) x0 x1 x3 x4 x5 r j := by
  unfold out1_A_8
  rw [(lists1_A c i arg1 harg1 arg2 harg2 arg3 harg3 arg4 harg4 arg5 harg5 arg6 harg6 arg7 harg7 arg8 harg8 arg9 harg9 arg10 harg10 arg11 harg11 hc0 x0 x1 x2 x3 x4 x5 x6 x7).1, read_halves]
  unfold o8P
  by_cases h : r.val < 200
  · rw [dif_pos h, dif_pos h, pay10_eq]
    exact pay5_blk x0 _ x4 _ x5 _ _
      (mid_eq i arg11 x1 x3 x4 x5 o1 h1 _ (init1 x2) _ (initS x2) (read_init arg11.view x2) (read_init arg11.view x2))
      (ld_lo16 x3) _ j
  · rw [dif_neg h, dif_neg h]
    exact pay5_blk x1 _ x4 _ x5 _ _ (read_init arg11.view x2) (ld_hi16 x3) _ j

include h1 in
theorem out1_A_9_ix (r : Fin 400) (j : Fin 8) :
    out1_A_9 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 (ix2 r j) = o9P o1 (initS x2) x0 x1 x3 x4 x5 x6 x7 r j := by
  unfold out1_A_9
  rw [(lists1_A c i arg1 harg1 arg2 harg2 arg3 harg3 arg4 harg4 arg5 harg5 arg6 harg6 arg7 harg7 arg8 harg8 arg9 harg9 arg10 harg10 arg11 harg11 hc0 x0 x1 x2 x3 x4 x5 x6 x7).2.1, read_halves]
  unfold o9P
  by_cases h : r.val < 200
  · rw [dif_pos h, dif_pos h]
    exact pay1_blk x0 _ x7 _ _ _
      (mid_eq i arg11 x1 x3 x4 x5 o1 h1 _ (init1 x2) _ (initS x2) (read_init arg11.view x2) (read_init arg11.view x2))
      (ld_lo8 x6) _ j
  · rw [dif_neg h, dif_neg h]
    exact pay8_blk x1 _ x7 _ _ _ (read_init arg11.view x2) (ld_hi8 x6) _ j

end First

end Cases

end Cert.KernelIdeal.Hand
end
-- ==== Proof.Val1Blk.lean ====
/- Region 1's input blocks read at an index: each window's block at grid point `t`, read off the array the region finds,
   is the array at the block's place — the two adjacency row blocks `48 - 2t` and `49 - 2t` of 200 rows, the 400 rows
   from `400 (24 - t)` of the two skip arrays, and the four operands held whole. Also the two scratch offsets of the
   body's stores, in closed form. -/
import proofs.«181509_g20452634264145_cont_8to1_1942_16_alg».proof.Proof.Reg1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The scratch offsets of the body's two stores -/

theorem off1_eq (t : Fin cfg1.N) : k1_off1 (grid1.coords t) = ![200 * (49 - 2 * t.val), 16] :=
  (by decide +kernel : ∀ t : Fin grid1.N, k1_off1 (grid1.coords t) = ![200 * (49 - 2 * t.val), 16]) t
theorem off2_eq (t : Fin cfg1.N) : k1_off2 (grid1.coords t) = ![200 * (48 - 2 * t.val), 16] :=
  (by decide +kernel : ∀ t : Fin grid1.N, k1_off2 (grid1.coords t) = ![200 * (48 - 2 * t.val), 16]) t

/-! ## The input windows' block indices, decided over the grid -/

theorem idx1_0 : ∀ t : Fin cfg1.N, win1_0.index t (0 : Fin 2) = 48 - 2 * t.val ∧ win1_0.index t (1 : Fin 2) = 0 :=
  (by decide +kernel : ∀ t : Fin grid1.N, _)
theorem idx1_1 : ∀ t : Fin cfg1.N, win1_1.index t (0 : Fin 2) = 49 - 2 * t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 24 - t.val ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 24 - t.val ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)

/-! ## The blocks at an index -/

/-- Window 0: the adjacency's row block `48 - 2t`. -/
theorem iblk1_0_ix (c : Dev nD) (t : Fin cfg1.N) (r : Fin 200) (k R : Fin 10000) (hR : R.val = 200 * (48 - 2 * t.val) + r.val) :
    iblk1 (F := Ideal) V c 0 t (ix2 r k) = V c (Pipeline.arrRef spec1 0) (ix2 R k) := by
  obtain ⟨e0, e1⟩ := idx1_0 t
  show V c main_arg1 (((cfg1.win 0).blk t).view.emb (ix2 r k)) = V c main_arg1 (ix2 R k)
  refine congrArg (V c main_arg1) (funext fun a => Fin.ext ?_)
  match a with
  | ⟨0, _⟩ => show win1_0.index t (0 : Fin 2) * 200 + 1 * r.val = R.val; rw [e0, hR]; omega
  | ⟨1, _⟩ => show win1_0.index t (1 : Fin 2) * 10000 + 1 * k.val = k.val; rw [e1]; omega

/-- Window 1: the adjacency's row block `49 - 2t` (the same array as window 0's). -/
theorem iblk1_1_ix (c : Dev nD) (t : Fin cfg1.N) (r : Fin 200) (k R : Fin 10000) (hR : R.val = 200 * (49 - 2 * t.val) + r.val) :
    iblk1 (F := Ideal) V c 1 t (ix2 r k) = V c (Pipeline.arrRef spec1 0) (ix2 R k) := by
  obtain ⟨e0, e1⟩ := idx1_1 t
  show V c main_arg1 (((cfg1.win 1).blk t).view.emb (ix2 r k)) = V c main_arg1 (ix2 R k)
  refine congrArg (V c main_arg1) (funext fun a => Fin.ext ?_)
  match a with
  | ⟨0, _⟩ => show win1_1.index t (0 : Fin 2) * 200 + 1 * r.val = R.val; rw [e0, hR]; omega
  | ⟨1, _⟩ => show win1_1.index t (1 : Fin 2) * 10000 + 1 * k.val = k.val; rw [e1]; omega

/-- Window 2: the first layer's support, whole. -/
theorem iblk1_2_ix (c : Dev nD) (t : Fin cfg1.N) (k : Fin 10000) (q : Fin 16) :
    iblk1 (F := Ideal) V c 2 t (ix2 k q) = V c (Pipeline.arrRef spec1 2) (ix2 k q) := by
  obtain ⟨e0, e1⟩ := idx1_2 t
  show V c main_v4_0 (((cfg1.win 2).blk t).view.emb (ix2 k q)) = V c main_v4_0 (ix2 k q)
  refine congrArg (V c main_v4_0) (funext fun a => Fin.ext ?_)
  match a with
  | ⟨0, _⟩ => show win1_2.index t (0 : Fin 2) * 10000 + 1 * k.val = k.val; rw [e0]; omega
  | ⟨1, _⟩ => show win1_2.index t (1 : Fin 2) * 16 + 1 * q.val = q.val; rw [e1]; omega

/-- Window 3: the 400 rows of the first skip array the point works on. -/
theorem iblk1_3_ix (c : Dev nD) (t : Fin cfg1.N) (r : Fin 400) (q : Fin 16) (R : Fin 10000) (hR : R.val = 200 * (48 - 2 * t.val) + r.val) :
    iblk1 (F := Ideal) V c 3 t (ix2 r q) = V c (Pipeline.arrRef spec1 3) (ix2 R q) := by
  obtain ⟨e0, e1⟩ := idx1_3 t
  show V c main_v4_1 (((cfg1.win 3).blk t).view.emb (ix2 r q)) = V c main_v4_1 (ix2 R q)
  refine congrArg (V c main_v4_1) (funext fun a => Fin.ext ?_)
  match a with
  | ⟨0, _⟩ => show win1_3.index t (0 : Fin 2) * 400 + 1 * r.val = R.val; rw [e0, hR]; omega
  | ⟨1, _⟩ => show win1_3.index t (1 : Fin 2) * 16 + 1 * q.val = q.val; rw [e1]; omega

/-- Window 4: the first bias row, whole. -/
theorem iblk1_4_ix (c : Dev nD) (t : Fin cfg1.N) (z : Fin 1) (q : Fin 16) :
    iblk1 (F := Ideal) V c 4 t (ix2 z q) = V c (Pipeline.arrRef spec1 4) (ix2 z q) := by
  obtain ⟨e0, e1⟩ := idx1_4 t
  show V c main_v0 (((cfg1.win 4).blk t).view.emb (ix2 z q)) = V c main_v0 (ix2 z q)
  refine congrArg (V c main_v0) (funext fun a => Fin.ext ?_)
  match a with
  | ⟨0, _⟩ => show win1_4.index t (0 : Fin 2) * 1 + 1 * z.val = z.val; rw [e0]; omega
  | ⟨1, _⟩ => show win1_4.index t (1 : Fin 2) * 16 + 1 * q.val = q.val; rw [e1]; omega

/-- Window 5: `W3`, whole. -/
theorem iblk1_5_ix (c : Dev nD) (t : Fin cfg1.N) (q : Fin 16) (j : Fin 8) :
    iblk1 (F := Ideal) V c 5 t (ix2 q j) = V c (Pipeline.arrRef spec1 5) (ix2 q j) := by
  obtain ⟨e0, e1⟩ := idx1_5 t
  show V c main_arg6 (((cfg1.win 5).blk t).view.emb (ix2 q j)) = V c main_arg6 (ix2 q j)
  refine congrArg (V c main_arg6) (funext fun a => Fin.ext ?_)
  match a with
  | ⟨0, _⟩ => show win1_5.index t (0 : Fin 2) * 16 + 1 * q.val = q.val; rw [e0]; omega
  | ⟨1, _⟩ => show win1_5.index t (1 : Fin 2) * 8 + 1 * j.val = j.val; rw [e1]; omega

/-- Window 6: the 400 rows of the second skip array the point works on. -/
theorem iblk1_6_ix (c : Dev nD) (t : Fin cfg1.N) (r : Fin 400) (j : Fin 8) (R : Fin 10000) (hR : R.val = 200 * (48 - 2 * t.val) + r.val) :
    iblk1 (F := Ideal) V c 6 t (ix2 r j) = V c (Pipeline.arrRef spec1 6) (ix2 R j) := by
  obtain ⟨e0, e1⟩ := idx1_6 t
  show V c main_v4_2 (((cfg1.win 6).blk t).view.emb (ix2 r j)) = V c main_v4_2 (ix2 R j)
  refine congrArg (V c main_v4_2) (funext fun a => Fin.ext ?_)
  match a with
  | ⟨0, _⟩ => show win1_6.index t (0 : Fin 2) * 400 + 1 * r.val = R.val; rw [e0, hR]; omega
  | ⟨1, _⟩ => show win1_6.index t (1 : Fin 2) * 8 + 1 * j.val = j.val; rw [e1]; omega

/-- Window 7: the second bias row, whole. -/
theorem iblk1_7_ix (c : Dev nD) (t : Fin cfg1.N) (z : Fin 1) (j : Fin 8) :
    iblk1 (F := Ideal) V c 7 t (ix2 z j) = V c (Pipeline.arrRef spec1 7) (ix2 z j) := by
  obtain ⟨e0, e1⟩ := idx1_7 t
  show V c main_v2 (((cfg1.win 7).blk t).view.emb (ix2 z j)) = V c main_v2 (ix2 z j)
  refine congrArg (V c main_v2) (funext fun a => Fin.ext ?_)
  match a with
  | ⟨0, _⟩ => show win1_7.index t (0 : Fin 2) * 1 + 1 * z.val = z.val; rw [e0]; omega
  | ⟨1, _⟩ => show win1_7.index t (1 : Fin 2) * 8 + 1 * j.val = j.val; rw [e1]; omega

/-- Windows 0 and 1 stand on one array: read by coordinates, the region-entry contents through either window's reference
    are the same function. -/
theorem adj_ref_eq (c : Dev nD) :
    (fun a b => V c (Pipeline.arrRef spec1 1) (ix2 a b) : Fin 10000 → Fin 10000 → EReal)
      = fun a b => V c (Pipeline.arrRef spec1 0) (ix2 a b) := rfl

end Cert.KernelIdeal.Hand
-- ==== Proof.Val1Cover.lean ====
/- Region 1's two output arrays after the region, read by coordinates: each of the twenty-five grid points writes back
   one block of 400 rows — point `t` the rows from `400 (24 - t)` —, the blocks cover the array, so the array holds
   whatever function of the coordinates every block is a restriction of. -/
import proofs.«181509_g20452634264145_cont_8to1_1942_16_alg».proof.Proof.Reg1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The output windows' block indices, decided over the grid -/

theorem idx1_8 : ∀ t : Fin cfg1.N, win1_8.index t (0 : Fin 2) = 24 - t.val ∧ win1_8.index t (1 : Fin 2) = 0 :=
  (by decide +kernel : ∀ t : Fin grid1.N, _)
theorem idx1_9 : ∀ t : Fin cfg1.N, win1_9.index t (0 : Fin 2) = 24 - t.val ∧ win1_9.index t (1 : Fin 2) = 0 :=
  (by decide +kernel : ∀ t : Fin grid1.N, _)

/-! ## Output window 8 (`main_v5_0`) -/

/-- What point `t` writes back from output window 8 is block `t` of `G` read by coordinates. -/
theorem flushed1_8_of (c : Dev nD) (G : Fin 10000 → Fin 8 → EReal)
    (h : ∀ (n : ℕ) (hn : n < cfg1.N) (r : Fin 400) (j : Fin 8) (R : Fin 10000), R.val = 200 * (48 - 2 * n) + r.val →
      (outsAt1 (F := Ideal) V c n hn).1 (ix2 r j) = G R j) (t : Fin cfg1.N) :
    (dat1 (F := Ideal) V c).flushed 8 t
      = ((cfg1.win 8).blk t).view.read (Elt Ideal) (fun i : S10000x8.Idx => G (i 0) (i 1)) := by
  show (cfg1.win 8).cut (grid1.coords t) ((dat1 (F := Ideal) V c).after 8 t) = _
  rw [after1_8]
  funext y
  obtain ⟨e0, e1⟩ := idx1_8 t
  have ht : t.val < 25 := lt_of_lt_of_eq t.isLt (show cfg1.N = 25 from N_1)
  show (outsAt1 (F := Ideal) V c t.val t.isLt).1 y
    = G (((cfg1.win 8).blk t).view.emb y 0) (((cfg1.win 8).blk t).view.emb y 1)
  have hy : (y : S400x8.Idx) = ix2 (y 0) (y 1) := ValueIdx.eq_ix2 (n0 := 400) (n1 := 8) y
  have h1 : (((cfg1.win 8).blk t).view.emb y 1 : Fin 8) = y 1 := Fin.ext (by
    show win1_8.index t (1 : Fin 2) * 8 + 1 * (y 1).val = (y 1).val
    rw [e1]; omega)
  have hR : ((((cfg1.win 8).blk t).view.emb y 0 : Fin 10000)).val = 200 * (48 - 2 * t.val) + (y 0).val := by
    show win1_8.index t (0 : Fin 2) * 400 + 1 * (y 0).val = _
    rw [e0]; omega
  rw [h1]
  exact (congrArg (outsAt1 (F := Ideal) V c t.val t.isLt).1 hy).trans (h t.val t.isLt (y 0) (y 1) _ hR)

/-- An index of the array is in point `t`'s block iff each coordinate is in the block's range on its axis. -/
theorem mem_blk1_8 (t : Fin cfg1.N) (i : S10000x8.Idx) :
    i ∈ ((cfg1.win 8).blk t).view.set ↔ ∀ a : Fin 2, win1_8.index t a * S400x8.size a ≤ (i a).val ∧ (i a).val < win1_8.index t a * S400x8.size a + S400x8.size a := by
  show i ∈ ((View.whole main_v5_0).slice (win1_8.rect t)).set ↔ _
  rw [View.set_slice_whole, Rect.mem_set_unit]
  exact Iff.rfl

/-- Row `R` lies in the block of point `24 - R / 400`. -/
theorem covered1_8 (i : S10000x8.Idx) : ∃ t : Fin cfg1.N, (cfg1.win 8).flush t = true ∧ i ∈ ((cfg1.win 8).blk t).view.set := by
  have hi0 : (i 0).val < 10000 := (i 0).isLt
  have hi1 : (i 1).val < 8 := (i 1).isLt
  have hN : cfg1.N = 25 := N_1
  refine ⟨⟨24 - (i 0).val / 400, by rw [hN]; omega⟩, flush1_8 _, ?_⟩
  rw [mem_blk1_8]
  obtain ⟨e0, e1⟩ := idx1_8 ⟨24 - (i 0).val / 400, by rw [hN]; omega⟩
  intro a
  match a with
  | ⟨0, _⟩ =>
    show win1_8.index _ (0 : Fin 2) * 400 ≤ (i 0).val ∧ (i 0).val < win1_8.index _ (0 : Fin 2) * 400 + 400
    rw [e0]; show (24 - (24 - (i 0).val / 400)) * 400 ≤ (i 0).val ∧ (i 0).val < (24 - (24 - (i 0).val / 400)) * 400 + 400
    omega
  | ⟨1, _⟩ =>
    show win1_8.index _ (1 : Fin 2) * 8 ≤ (i 1).val ∧ (i 1).val < win1_8.index _ (1 : Fin 2) * 8 + 8
    rw [e1]; omega

/-- The array of output window 8 after the region, read by coordinates, is `G`, when every point's block of the
    window's buffer after the body is `G` on the block's rows. -/
theorem arr1_8_of (c : Dev nD) (G : Fin 10000 → Fin 8 → EReal)
    (h : ∀ (n : ℕ) (hn : n < cfg1.N) (r : Fin 400) (j : Fin 8) (R : Fin 10000), R.val = 200 * (48 - 2 * n) + r.val →
      (outsAt1 (F := Ideal) V c n hn).1 (ix2 r j) = G R j) (R : Fin 10000) (j : Fin 8) :
    (dat1 (F := Ideal) V c).arrAt 8 cfg1.N (ix2 R j) = G R j :=
  congrFun ((dat1 (F := Ideal) V c).arrAt_eq_of_cover 8 _ (fun t _ => flushed1_8_of V c G h t) covered1_8) (ix2 R j)

/-! ## Output window 9 (`main_v5_1`) -/

/-- What point `t` writes back from output window 9 is block `t` of `G` read by coordinates. -/
theorem flushed1_9_of (c : Dev nD) (G : Fin 10000 → Fin 8 → EReal)
    (h : ∀ (n : ℕ) (hn : n < cfg1.N) (r : Fin 400) (j : Fin 8) (R : Fin 10000), R.val = 200 * (48 - 2 * n) + r.val →
      (outsAt1 (F := Ideal) V c n hn).2.1 (ix2 r j) = G R j) (t : Fin cfg1.N) :
    (dat1 (F := Ideal) V c).flushed 9 t
      = ((cfg1.win 9).blk t).view.read (Elt Ideal) (fun i : S10000x8.Idx => G (i 0) (i 1)) := by
  show (cfg1.win 9).cut (grid1.coords t) ((dat1 (F := Ideal) V c).after 9 t) = _
  rw [after1_9]
  funext y
  obtain ⟨e0, e1⟩ := idx1_9 t
  have ht : t.val < 25 := lt_of_lt_of_eq t.isLt (show cfg1.N = 25 from N_1)
  show (outsAt1 (F := Ideal) V c t.val t.isLt).2.1 y
    = G (((cfg1.win 9).blk t).view.emb y 0) (((cfg1.win 9).blk t).view.emb y 1)
  have hy : (y : S400x8.Idx) = ix2 (y 0) (y 1) := ValueIdx.eq_ix2 (n0 := 400) (n1 := 8) y
  have h1 : (((cfg1.win 9).blk t).view.emb y 1 : Fin 8) = y 1 := Fin.ext (by
    show win1_9.index t (1 : Fin 2) * 8 + 1 * (y 1).val = (y 1).val
    rw [e1]; omega)
  have hR : ((((cfg1.win 9).blk t).view.emb y 0 : Fin 10000)).val = 200 * (48 - 2 * t.val) + (y 0).val := by
    show win1_9.index t (0 : Fin 2) * 400 + 1 * (y 0).val = _
    rw [e0]; omega
  rw [h1]
  exact (congrArg (outsAt1 (F := Ideal) V c t.val t.isLt).2.1 hy).trans (h t.val t.isLt (y 0) (y 1) _ hR)

/-- An index of the array is in point `t`'s block iff each coordinate is in the block's range on its axis. -/
theorem mem_blk1_9 (t : Fin cfg1.N) (i : S10000x8.Idx) :
    i ∈ ((cfg1.win 9).blk t).view.set ↔ ∀ a : Fin 2, win1_9.index t a * S400x8.size a ≤ (i a).val ∧ (i a).val < win1_9.index t a * S400x8.size a + S400x8.size a := by
  show i ∈ ((View.whole main_v5_1).slice (win1_9.rect t)).set ↔ _
  rw [View.set_slice_whole, Rect.mem_set_unit]
  exact Iff.rfl

/-- Row `R` lies in the block of point `24 - R / 400`. -/
theorem covered1_9 (i : S10000x8.Idx) : ∃ t : Fin cfg1.N, (cfg1.win 9).flush t = true ∧ i ∈ ((cfg1.win 9).blk t).view.set := by
  have hi0 : (i 0).val < 10000 := (i 0).isLt
  have hi1 : (i 1).val < 8 := (i 1).isLt
  have hN : cfg1.N = 25 := N_1
  refine ⟨⟨24 - (i 0).val / 400, by rw [hN]; omega⟩, flush1_9 _, ?_⟩
  rw [mem_blk1_9]
  obtain ⟨e0, e1⟩ := idx1_9 ⟨24 - (i 0).val / 400, by rw [hN]; omega⟩
  intro a
  match a with
  | ⟨0, _⟩ =>
    show win1_9.index _ (0 : Fin 2) * 400 ≤ (i 0).val ∧ (i 0).val < win1_9.index _ (0 : Fin 2) * 400 + 400
    rw [e0]; show (24 - (24 - (i 0).val / 400)) * 400 ≤ (i 0).val ∧ (i 0).val < (24 - (24 - (i 0).val / 400)) * 400 + 400
    omega
  | ⟨1, _⟩ =>
    show win1_9.index _ (1 : Fin 2) * 8 ≤ (i 1).val ∧ (i 1).val < win1_9.index _ (1 : Fin 2) * 8 + 8
    rw [e1]; omega

/-- The array of output window 9 after the region, read by coordinates, is `G`, when every point's block of the
    window's buffer after the body is `G` on the block's rows. -/
theorem arr1_9_of (c : Dev nD) (G : Fin 10000 → Fin 8 → EReal)
    (h : ∀ (n : ℕ) (hn : n < cfg1.N) (r : Fin 400) (j : Fin 8) (R : Fin 10000), R.val = 200 * (48 - 2 * n) + r.val →
      (outsAt1 (F := Ideal) V c n hn).2.1 (ix2 r j) = G R j) (R : Fin 10000) (j : Fin 8) :
    (dat1 (F := Ideal) V c).arrAt 9 cfg1.N (ix2 R j) = G R j :=
  congrFun ((dat1 (F := Ideal) V c).arrAt_eq_of_cover 9 _ (fun t _ => flushed1_9_of V c G h t) covered1_9) (ix2 R j)

end Cert.KernelIdeal.Hand
-- ==== Proof.Val1.lean ====
/-
  The first pass over the adjacency: what its two output arrays end holding.

  One point, on a scratch invariant at the threshold row just past its two row blocks, leaves the scratch invariant at its
  own first row, the second support's rows in its block of the first output and the first pass's share of the result in
  its block of the second (`point_eq`); the twenty-five points, bottom-up, by induction (`outs_eq`: the first point
  starts from the scratch it fills itself, invariant at the threshold 10000); the blocks cover the arrays
  (`final1_8`, `final1_9`).
-/
import proofs.«181509_g20452634264145_cont_8to1_1942_16_alg».proof.Proof.Val1Read
import proofs.«181509_g20452634264145_cont_8to1_1942_16_alg».proof.Proof.Val1Blk
import proofs.«181509_g20452634264145_cont_8to1_1942_16_alg».proof.Proof.Val1Cover

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## One point on an invariant scratch -/

section Pure
variable (adj : Fin 10000 → Fin 10000 → EReal) (t1 : Fin 10000 → Fin 16 → EReal) (b1 : Fin 16 → EReal)
  (k0 : Fin 10000 → Fin 16 → EReal) (W3 : Fin 16 → Fin 8 → EReal) (b3 : Fin 8 → EReal) (k1 : Fin 10000 → Fin 8 → EReal)

/-- A point whose blocks are the rows `o2 … o2 + 399` of the arrays, on a scratch invariant at the threshold
    `o2 + 400`: it leaves the scratch invariant at `o2`, the second support's rows in the first output block and the
    first pass's share of the result in the second. -/
theorem point_eq (o1 o2 m : ℕ) (ho2 : o2 = 200 * m) (ho1 : o1 = o2 + 200) (hb : o1 + 200 ≤ 10000)
    (S : Fin 10000 → Fin 24 → EReal) (hS : Pass1.Inv adj t1 b1 k0 W3 (o1 + 200) S)
    (x0 x1 : Vec Ideal S200x10000 .f32) (x3 : Vec Ideal S400x16 .f32) (x4 : Vec Ideal S1x16 .f32) (x5 : Vec Ideal S16x8 .f32)
    (x6 : Vec Ideal S400x8 .f32) (x7 : Vec Ideal S1x8 .f32)
    (hA0 : ∀ (r : Fin 200) (R : Fin 10000), R.val = o2 + r.val → ∀ k, x0 (ix2 r k) = adj R k)
    (hA1 : ∀ (r : Fin 200) (R : Fin 10000), R.val = o1 + r.val → ∀ k, x1 (ix2 r k) = adj R k)
    (hK0 : ∀ (r : Fin 400) (R : Fin 10000), R.val = o2 + r.val → ∀ q, x3 (ix2 r q) = k0 R q)
    (hB1 : ∀ q, x4 (ix2 (0 : Fin 1) q) = b1 q) (hW : ∀ q j, x5 (ix2 q j) = W3 q j)
    (hK1 : ∀ (r : Fin 400) (R : Fin 10000), R.val = o2 + r.val → ∀ j, x6 (ix2 r j) = k1 R j)
    (hB3 : ∀ j, x7 (ix2 (0 : Fin 1) j) = b3 j) :
    Pass1.Inv adj t1 b1 k0 W3 o2 (tP o1 o2 S x0 x1 x3 x4 x5)
      ∧ (∀ (r : Fin 400) (j : Fin 8) (R : Fin 10000), R.val = o2 + r.val →
          o8P o1 S x0 x1 x3 x4 x5 r j = Spec.s2Of adj t1 b1 k0 W3 R j)
      ∧ (∀ (r : Fin 400) (j : Fin 8) (R : Fin 10000), R.val = o2 + r.val →
          o9P o1 S x0 x1 x3 x4 x5 x6 x7 r j = Spec.partOf adj (Spec.s2Of adj t1 b1 k0 W3) b3 k1 R j) := by
  have e4 : curB16 x4 = b1 := funext hB1
  have e5 : curW x5 = W3 := funext fun q => funext (hW q)
  have e7 : curB8 x7 = b3 := funext hB3
  have hw1 : ∀ (r : Fin 200) (R : Fin 10000), R.val = o1 + r.val → ∀ j,
      w1P S x1 x3 x4 x5 r j = Spec.s2Of adj t1 b1 k0 W3 R j := by
    intro r R hR j
    unfold w1P
    rw [e4, e5]
    exact Pass1.blkS2_eq adj t1 b1 k0 W3 hS (curA x1) (hiK16 x3) r R (hA1 r R hR)
      (fun q => hK0 ⟨200 + r.val, by omega⟩ R (by show R.val = o2 + (200 + r.val); omega) q) j
  have hM : Pass1.Inv adj t1 b1 k0 W3 o1 (mP o1 S x1 x3 x4 x5) := Pass1.inv_put adj t1 b1 k0 W3 hS rfl _ hw1
  have hw2 : ∀ (r : Fin 200) (R : Fin 10000), R.val = o2 + r.val → ∀ j,
      w2P o1 S x0 x1 x3 x4 x5 r j = Spec.s2Of adj t1 b1 k0 W3 R j := by
    intro r R hR j
    unfold w2P
    rw [e4, e5]
    exact Pass1.blkS2_eq adj t1 b1 k0 W3 hM (curA x0) (loK16 x3) r R (hA0 r R hR)
      (fun q => hK0 ⟨r.val, by omega⟩ R hR q) j
  refine ⟨Pass1.inv_put adj t1 b1 k0 W3 hM ho1.symm _ hw2, fun r j R hR => ?_, fun r j R hR => ?_⟩
  · unfold o8P
    by_cases h : r.val < 200
    · rw [dif_pos h]; exact hw2 ⟨r.val, h⟩ R hR j
    · rw [dif_neg h]; exact hw1 ⟨r.val - 200, by omega⟩ R (by show R.val = o1 + (r.val - 200); omega) j
  · unfold o9P
    rw [e7]
    by_cases h : r.val < 200
    · rw [dif_pos h]
      exact Pass1.blkPart_eq adj t1 b1 k0 W3 b3 k1 hM (curA x0) (loK8 x6) ⟨r.val, h⟩ R (hA0 ⟨r.val, h⟩ R hR) j
        (hK1 ⟨r.val, by omega⟩ R hR j) (by omega)
    · rw [dif_neg h]
      exact Pass1.blkPart_eq adj t1 b1 k0 W3 b3 k1 hS (curA x1) (hiK8 x6) ⟨r.val - 200, by omega⟩ R
        (hA1 ⟨r.val - 200, by omega⟩ R (by show R.val = o1 + (r.val - 200); omega)) j
        (hK1 ⟨200 + (r.val - 200), by omega⟩ R (by show R.val = o2 + (200 + (r.val - 200)); omega) j) (by omega)

end Pure

/-! ## The twenty-five points -/

section Points
variable (V : (c : Dev nD) → (b : Ref sig .tc) → Buf (Elt Ideal) ((c : Thread nD τ).loc b)) (c : Dev nD)

/-- The arrays the region finds, by coordinates. -/
abbrev adjG : Fin 10000 → Fin 10000 → EReal := fun a b => V c (Pipeline.arrRef spec1 0) (ix2 a b)
abbrev s1G : Fin 10000 → Fin 16 → EReal := fun k q => V c (Pipeline.arrRef spec1 2) (ix2 k q)
abbrev k0G : Fin 10000 → Fin 16 → EReal := fun k q => V c (Pipeline.arrRef spec1 3) (ix2 k q)
abbrev b1G : Fin 16 → EReal := fun q => V c (Pipeline.arrRef spec1 4) (ix2 (0 : Fin 1) q)
abbrev W3G : Fin 16 → Fin 8 → EReal := fun q j => V c (Pipeline.arrRef spec1 5) (ix2 q j)
abbrev k1G : Fin 10000 → Fin 8 → EReal := fun k j => V c (Pipeline.arrRef spec1 6) (ix2 k j)
abbrev b3G : Fin 8 → EReal := fun j => V c (Pipeline.arrRef spec1 7) (ix2 (0 : Fin 1) j)

set_option maxHeartbeats 4000000 in
/-- After point `n`: the scratch is invariant at the row `200 (48 − 2 n)`, the first output block is the second
    support's rows from there, the second the first pass's share of the result there. -/
theorem outs_eq : ∀ (n : ℕ) (hn : n < cfg1.N),
    Pass1.Inv (adjG V c) (s1G V c) (b1G V c) (k0G V c) (W3G V c) (200 * (48 - 2 * n)) (curS (outsAt1 (F := Ideal) V c n hn).2.2)
      ∧ (∀ (r : Fin 400) (j : Fin 8) (R : Fin 10000), R.val = 200 * (48 - 2 * n) + r.val →
          (outsAt1 (F := Ideal) V c n hn).1 (ix2 r j) = Spec.s2Of (adjG V c) (s1G V c) (b1G V c) (k0G V c) (W3G V c) R j)
      ∧ (∀ (r : Fin 400) (j : Fin 8) (R : Fin 10000), R.val = 200 * (48 - 2 * n) + r.val →
          (outsAt1 (F := Ideal) V c n hn).2.1 (ix2 r j)
            = Spec.partOf (adjG V c) (Spec.s2Of (adjG V c) (s1G V c) (b1G V c) (k0G V c) (W3G V c)) (b3G V c) (k1G V c) R j)
  | 0, hn => by
    have hN : cfg1.N = 25 := N_1
    have h1 := off1_eq (⟨0, hn⟩ : Fin cfg1.N)
    have h2 := off2_eq (⟨0, hn⟩ : Fin cfg1.N)
    have hInit : Pass1.Inv (adjG V c) (s1G V c) (b1G V c) (k0G V c) (W3G V c) (200 * (49 - 2 * 0) + 200)
        (initS (iblk1 V c 2 ⟨0, hn⟩)) := by
      refine ⟨fun k q => ?_, fun k j => ?_⟩
      · unfold initS
        rw [dif_pos (show (⟨q.val, by omega⟩ : Fin 24).val < 16 from q.isLt)]
        exact iblk1_2_ix V c ⟨0, hn⟩ k q
      · unfold initS
        rw [dif_neg (show ¬(⟨16 + j.val, by omega⟩ : Fin 24).val < 16 from by show ¬(16 + j.val < 16); omega),
          if_neg (by have := k.isLt; omega)]
    obtain ⟨hI, h8, h9⟩ := point_eq (adjG V c) (s1G V c) (b1G V c) (k0G V c) (W3G V c) (b3G V c) (k1G V c)
      (200 * (49 - 2 * 0)) (200 * (48 - 2 * 0)) (48 - 2 * 0) rfl (by omega) (by omega) _ hInit
      (iblk1 V c 0 ⟨0, hn⟩) (iblk1 V c 1 ⟨0, hn⟩) (iblk1 V c 3 ⟨0, hn⟩) (iblk1 V c 4 ⟨0, hn⟩) (iblk1 V c 5 ⟨0, hn⟩)
      (iblk1 V c 6 ⟨0, hn⟩) (iblk1 V c 7 ⟨0, hn⟩)
      (fun r R hR k => iblk1_0_ix V c ⟨0, hn⟩ r k R hR) (fun r R hR k => iblk1_1_ix V c ⟨0, hn⟩ r k R hR)
      (fun r R hR q => iblk1_3_ix V c ⟨0, hn⟩ r q R hR) (fun q => iblk1_4_ix V c ⟨0, hn⟩ 0 q)
      (fun q j => iblk1_5_ix V c ⟨0, hn⟩ q j) (fun r R hR j => iblk1_6_ix V c ⟨0, hn⟩ r j R hR)
      (fun j => iblk1_7_ix V c ⟨0, hn⟩ 0 j)
    refine ⟨?_, fun r j R hR => ?_, fun r j R hR => ?_⟩
    · have e0 : ∀ k q, (outsAt1 (F := Ideal) V c 0 hn).2.2 (ix2 k q) = tP (200 * (49 - 2 * 0)) (200 * (48 - 2 * 0)) (initS (iblk1 V c 2 ⟨0, hn⟩))
          (iblk1 V c 0 ⟨0, hn⟩) (iblk1 V c 1 ⟨0, hn⟩) (iblk1 V c 3 ⟨0, hn⟩) (iblk1 V c 4 ⟨0, hn⟩) (iblk1 V c 5 ⟨0, hn⟩) k q := by
        intro k q
        rw [outsAt1]
        exact sout1_A_ix c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) _ _ h1 h2 (hcA1 hn) k q
      have e : curS (outsAt1 (F := Ideal) V c 0 hn).2.2 = tP (200 * (49 - 2 * 0)) (200 * (48 - 2 * 0)) (initS (iblk1 V c 2 ⟨0, hn⟩))
          (iblk1 V c 0 ⟨0, hn⟩) (iblk1 V c 1 ⟨0, hn⟩) (iblk1 V c 3 ⟨0, hn⟩) (iblk1 V c 4 ⟨0, hn⟩) (iblk1 V c 5 ⟨0, hn⟩) := funext fun k => funext fun q => e0 k q
      rw [e]; exact hI
    · rw [outsAt1]
      exact (out1_A_8_ix c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) _ h1 (hcA1 hn) r j).trans (h8 r j R hR)
    · rw [outsAt1]
      exact (out1_A_9_ix c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) _ h1 (hcA1 hn) r j).trans (h9 r j R hR)
  | n + 1, hn => by
    have hN : cfg1.N = 25 := N_1
    obtain ⟨ihI, -, -⟩ := outs_eq n (Nat.lt_of_succ_lt hn)
    have h1 := off1_eq (⟨n + 1, hn⟩ : Fin cfg1.N)
    have h2 := off2_eq (⟨n + 1, hn⟩ : Fin cfg1.N)
    have hT : 200 * (49 - 2 * (n + 1)) + 200 = 200 * (48 - 2 * n) := by omega
    have hPrev : Pass1.Inv (adjG V c) (s1G V c) (b1G V c) (k0G V c) (W3G V c) (200 * (49 - 2 * (n + 1)) + 200)
        (curS (outsAt1 (F := Ideal) V c n (Nat.lt_of_succ_lt hn)).2.2) := by rw [hT]; exact ihI
    obtain ⟨hI, h8, h9⟩ := point_eq (adjG V c) (s1G V c) (b1G V c) (k0G V c) (W3G V c) (b3G V c) (k1G V c)
      (200 * (49 - 2 * (n + 1))) (200 * (48 - 2 * (n + 1))) (48 - 2 * (n + 1)) rfl (by omega) (by omega) _ hPrev
      (iblk1 V c 0 ⟨n + 1, hn⟩) (iblk1 V c 1 ⟨n + 1, hn⟩) (iblk1 V c 3 ⟨n + 1, hn⟩) (iblk1 V c 4 ⟨n + 1, hn⟩) (iblk1 V c 5 ⟨n + 1, hn⟩)
      (iblk1 V c 6 ⟨n + 1, hn⟩) (iblk1 V c 7 ⟨n + 1, hn⟩)
      (fun r R hR k => iblk1_0_ix V c ⟨n + 1, hn⟩ r k R hR) (fun r R hR k => iblk1_1_ix V c ⟨n + 1, hn⟩ r k R hR)
      (fun r R hR q => iblk1_3_ix V c ⟨n + 1, hn⟩ r q R hR) (fun q => iblk1_4_ix V c ⟨n + 1, hn⟩ 0 q)
      (fun q j => iblk1_5_ix V c ⟨n + 1, hn⟩ q j) (fun r R hR j => iblk1_6_ix V c ⟨n + 1, hn⟩ r j R hR)
      (fun j => iblk1_7_ix V c ⟨n + 1, hn⟩ 0 j)
    refine ⟨?_, fun r j R hR => ?_, fun r j R hR => ?_⟩
    · have e0 : ∀ k q, (outsAt1 (F := Ideal) V c (n + 1) hn).2.2 (ix2 k q) = tP (200 * (49 - 2 * (n + 1))) (200 * (48 - 2 * (n + 1)))
          (curS (outsAt1 (F := Ideal) V c n (Nat.lt_of_succ_lt hn)).2.2)
          (iblk1 V c 0 ⟨n + 1, hn⟩) (iblk1 V c 1 ⟨n + 1, hn⟩) (iblk1 V c 3 ⟨n + 1, hn⟩) (iblk1 V c 4 ⟨n + 1, hn⟩) (iblk1 V c 5 ⟨n + 1, hn⟩) k q := by
        intro k q
        rw [outsAt1]
        exact sout1_B_ix c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) _ _ h1 h2 (hcB1 n hn) _ k q
      have e : curS (outsAt1 (F := Ideal) V c (n + 1) hn).2.2 = tP (200 * (49 - 2 * (n + 1))) (200 * (48 - 2 * (n + 1)))
          (curS (outsAt1 (F := Ideal) V c n (Nat.lt_of_succ_lt hn)).2.2)
          (iblk1 V c 0 ⟨n + 1, hn⟩) (iblk1 V c 1 ⟨n + 1, hn⟩) (iblk1 V c 3 ⟨n + 1, hn⟩) (iblk1 V c 4 ⟨n + 1, hn⟩) (iblk1 V c 5 ⟨n + 1, hn⟩) := funext fun k => funext fun q => e0 k q
      rw [e]; exact hI
    · rw [outsAt1]
      exact (out1_B_8_ix c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) _ h1 (hcB1 n hn) _ r j).trans (h8 r j R hR)
    · rw [outsAt1]
      exact (out1_B_9_ix c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) _ h1 (hcB1 n hn) _ r j).trans (h9 r j R hR)

/-- The first output array of the pass is the second support, row by row. -/
theorem final1_8 (R : Fin 10000) (j : Fin 8) :
    (dat1 (F := Ideal) V c).arrAt 8 cfg1.N (ix2 R j)
      = Spec.s2Of (adjG V c) (s1G V c) (b1G V c) (k0G V c) (W3G V c) R j :=
  arr1_8_of V c _ (fun n hn r j R hR => (outs_eq V c n hn).2.1 r j R hR) R j

/-- The second output array of the pass is the first pass's share of the result, row by row. -/
theorem final1_9 (R : Fin 10000) (j : Fin 8) :
    (dat1 (F := Ideal) V c).arrAt 9 cfg1.N (ix2 R j)
      = Spec.partOf (adjG V c) (Spec.s2Of (adjG V c) (s1G V c) (b1G V c) (k0G V c) (W3G V c)) (b3G V c) (k1G V c) R j :=
  arr1_9_of V c _ (fun n hn r j R hR => (outs_eq V c n hn).2.2 r j R hR) R j

end Points

end Cert.KernelIdeal.Hand
end
-- ==== Proof.ValCommon.lean ====
/-
  Two facts about 32-bit words used by the second-pass regions' masks, stated once over natural numbers.

  Each second-pass kernel masks the rows of `s2` at or beyond a bound it computes from the grid coordinate in 32-bit
  integer arithmetic, `(off + 2 i + a) · 200`, and compares (signed) with the row number. Every number involved is
  far below 2^31, so the words' arithmetic and comparison are those of the naturals.
-/
import Idealize.ShloMosaic.Lib.ValueIdx

namespace Cert.KernelIdeal.Hand

open Idealize.ShloMosaic

/-- The origin of a rank-2 shape, as the function it is. -/
theorem hz00 : (![0, 0] : Fin 2 → Nat) = fun _ => 0 := funext fun a => by
  match a with
  | ⟨0, _⟩ => rfl
  | ⟨1, _⟩ => rfl

/-- A natural below 2^31, as a 32-bit word read signed, is itself. -/
theorem toInt_ofNat_small (x : Nat) (hx : x < 2 ^ 31) : (BitVec.ofNat 32 x).toInt = (x : Int) := by
  have h1 : (BitVec.ofNat 32 x).toNat = x := by
    rw [BitVec.toNat_ofNat]; exact Nat.mod_eq_of_lt (by omega)
  rw [BitVec.toInt_eq_toNat_of_lt (by rw [h1]; omega), h1]

/-- The mask's bound, computed in 32-bit words from the grid coordinate, is the natural number `(off + 2 i + a) · 200`. -/
theorem bound_word (off i a : Nat) :
    Scalar.muli (Scalar.addi (Scalar.addi (BitVec.ofNat 32 off) (Scalar.muli 2#32 (BitVec.ofNat 32 i))) (BitVec.ofNat 32 a)) 200#32
      = BitVec.ofNat 32 ((off + 2 * i + a) * 200) := by
  show ((BitVec.ofNat 32 off + BitVec.ofNat 32 2 * BitVec.ofNat 32 i) + BitVec.ofNat 32 a) * BitVec.ofNat 32 200 = _
  rw [← BitVec.ofNat_mul, ← BitVec.ofNat_add, ← BitVec.ofNat_add, ← BitVec.ofNat_mul]

/-- The mask's bit at a row: the signed comparison of the row number with the bound is the comparison of the
    naturals, all of them small. -/
theorem mask_bit (off i a row : Nat) (hoff : off ≤ 40) (hi : i < 5) (ha : a ≤ 2) (hrow : row < 10001) :
    IntOp.cmpi .slt (BitVec.ofNat 32 row)
        (Scalar.muli (Scalar.addi (Scalar.addi (BitVec.ofNat 32 off) (Scalar.muli 2#32 (BitVec.ofNat 32 i))) (BitVec.ofNat 32 a)) 200#32)
      = if row < (off + 2 * i + a) * 200 then 1#1 else 0#1 := by
  rw [bound_word]
  have hb : (off + 2 * i + a) * 200 < 2 ^ 31 := by
    have : off + 2 * i + a ≤ 50 := by omega
    calc (off + 2 * i + a) * 200 ≤ 50 * 200 := Nat.mul_le_mul_right _ this
      _ < 2 ^ 31 := by norm_num
  show BitVec.ofBool ((BitVec.ofNat 32 row).slt (BitVec.ofNat 32 ((off + 2 * i + a) * 200))) = _
  unfold BitVec.slt
  rw [toInt_ofNat_small row (by omega), toInt_ofNat_small _ hb]
  by_cases h : row < (off + 2 * i + a) * 200
  · rw [if_pos h, decide_eq_true (by exact_mod_cast h)]; rfl
  · rw [if_neg h, decide_eq_false (by exact_mod_cast h)]; rfl

end Cert.KernelIdeal.Hand
-- ==== Proof.ValArr.lean ====
/-
  The three arrays the second-pass regions read, as the region finds them, typed as arrays of extended reals: the
  adjacency, the second layer's input `s2` and the partial result `part`. (The contents `V c b` of a buffer `b` have
  the buffer's own dependent type; arithmetic on their entries needs the element type named.)
-/
import proofs.«181509_g20452634264145_cont_8to1_1942_16_alg».proof.Proof.Gen.KernelIdeal
import Idealize.ShloMosaic.PureOps.Ideal

noncomputable section

namespace Cert.KernelIdeal.Hand

open Cert.KernelIdeal
open Idealize.ShloMosaic Idealize.ShloMosaic.TcCoe
open Idealize.SL Idealize.SL.Sem

variable (V : (c : Dev nD) → (b : Ref sig .tc) → Buf (Elt Ideal) ((c : Thread nD τ).loc b))

/-- The adjacency as the region finds it. -/
abbrev adjAt (c : Dev nD) : S10000x10000.Idx → Elt Ideal .f32 := V c main_arg1
/-- The second layer's input `s2` as the region finds it. -/
abbrev s2At (c : Dev nD) : S10000x8.Idx → Elt Ideal .f32 := V c main_v5_0
/-- The partial result as the region finds it. -/
abbrev partAt (c : Dev nD) : S10000x8.Idx → Elt Ideal .f32 := V c main_v5_1

end Cert.KernelIdeal.Hand

end
-- ==== Proof.Val2.lean ====
/-
  Region 2 of @main at the ideal values: what the region leaves in its output array (rows [0, 2000) of the
  result), index by index, in terms of the contents `V` the region finds.

  At row `R` of the adjacency (in row block `R / 200`) and column `j`:
      out R j = part R j + ∑ k < 2048, adj R k · (if k < 200 · (R / 200 + 1) then s2 k j else 0).
  The body computes this per half block of 200 rows: the partial result's half plus the product of an adjacency row
  block with `s2` masked beyond the diagonal block — the mask's bound is computed from the grid coordinate in
  32-bit words and is the natural number it denotes (`mask_bit`). The road from the body's block to the array is
  the usual one: what each point writes back is a block of one whole-array function (`flushed2_eq`), the five blocks
  of 400 rows cover the array (`cover2`), so the array ends holding that function (`final2_4`).
-/
import proofs.«181509_g20452634264145_cont_8to1_1942_16_alg».proof.Proof.Reg2
import proofs.«181509_g20452634264145_cont_8to1_1942_16_alg».proof.Proof.ValCommon
import proofs.«181509_g20452634264145_cont_8to1_1942_16_alg».proof.Proof.ValArr
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The product with the masked `s2`, at an index -/

theorem lhs2_0 (i : S200x8.Idx) (q : dot_S200x2048_S2048x8_S200x8_1_0_0_1_n_n.contr.Idx) :
    (dot_S200x2048_S2048x8_S200x8_1_0_0_1_n_n.lhsIdx i q 0).val = (i 0).val := by
  unfold DotDims.lhsIdx
  rw [dif_neg (show ¬(0 : Fin S200x2048.rank) ∈ dot_S200x2048_S2048x8_S200x8_1_0_0_1_n_n.lhsBatch by decide), dif_pos (show (0 : Fin S200x2048.rank) ∈ dot_S200x2048_S2048x8_S200x8_1_0_0_1_n_n.lhsNonContracting by decide)]
  rfl
theorem lhs2_1 (i : S200x8.Idx) (q : dot_S200x2048_S2048x8_S200x8_1_0_0_1_n_n.contr.Idx) :
    (dot_S200x2048_S2048x8_S200x8_1_0_0_1_n_n.lhsIdx i q 1).val = (q ⟨0, by decide⟩).val :=
  dot_S200x2048_S2048x8_S200x8_1_0_0_1_n_n.lhsIdx_val_of_single rfl i q
theorem rhs2_0 (i : S200x8.Idx) (q : dot_S200x2048_S2048x8_S200x8_1_0_0_1_n_n.contr.Idx) :
    (dot_S200x2048_S2048x8_S200x8_1_0_0_1_n_n.rhsIdx i q 0).val = (q ⟨0, by decide⟩).val :=
  dot_S200x2048_S2048x8_S200x8_1_0_0_1_n_n.rhsIdx_val_of_single rfl i q
theorem rhs2_1 (i : S200x8.Idx) (q : dot_S200x2048_S2048x8_S200x8_1_0_0_1_n_n.contr.Idx) :
    (dot_S200x2048_S2048x8_S200x8_1_0_0_1_n_n.rhsIdx i q 1).val = (i 1).val := by
  unfold DotDims.rhsIdx
  rw [dif_neg (show ¬(1 : Fin S2048x8.rank) ∈ dot_S200x2048_S2048x8_S200x8_1_0_0_1_n_n.rhsBatch by decide), dif_pos (show (1 : Fin S2048x8.rank) ∈ dot_S200x2048_S2048x8_S200x8_1_0_0_1_n_n.rhsNonContracting by decide)]
  rfl

/-- One adjacency row block times `s2` masked at the bound `(0 + 2 i + a) · 200`, at row `r` and column `j`: the sum
    over the first 2048 columns of the adjacency entry times the `s2` entry, the latter replaced by zero at and beyond
    the bound. -/
theorem mm2_apply (i0 a : Nat) (hi : i0 < 5) (ha : a ≤ 2) (x2 : Vec Ideal S2048x8 .f32) (M : Vec Ideal S200x2048 .f32) (r : Fin 200) (j : Fin 8) :
    FloatOps.matmul (F := Ideal) (φ₁ := .f32) (φ₂ := .f32) dot_S200x2048_S2048x8_S200x8_1_0_0_1_n_n none M
        (select (cmpi .slt (iota .tc S2048x8 32 [0] iota_S2048x8_d0_w32)
            (broadcast S2048x8 (Scalar.muli (Scalar.addi (Scalar.addi (BitVec.ofNat 32 0) (Scalar.muli 2#32 (BitVec.ofNat 32 i0))) (BitVec.ofNat 32 a)) 200#32)))
          x2 (broadcast S2048x8 (Ideal.ofBits .f32 0x00000000#32)))
        (constant (F := Ideal) S200x8 .f32 0x00000000#32) (ix2 r j)
      = ∑ k : Fin 2048, M (ix2 r k) * (if k.val < (0 + 2 * i0 + a) * 200 then x2 (ix2 k j) else 0) := by
  rw [Ideal.matmul_constant_zero_apply, ← Equiv.sum_comp (contrEquiv1 dot_S200x2048_S2048x8_S200x8_1_0_0_1_n_n 2048 rfl rfl).symm]
  refine Finset.sum_congr rfl fun k _ => ?_
  have hk := contrEquiv1_symm_val dot_S200x2048_S2048x8_S200x8_1_0_0_1_n_n 2048 rfl rfl k
  have el : dot_S200x2048_S2048x8_S200x8_1_0_0_1_n_n.lhsIdx (ix2 r j) ((contrEquiv1 dot_S200x2048_S2048x8_S200x8_1_0_0_1_n_n 2048 rfl rfl).symm k) = ix2 r k := funext fun a => Fin.ext (by
    match a with
    | ⟨0, _⟩ => exact lhs2_0 _ _
    | ⟨1, _⟩ => exact (lhs2_1 _ _).trans hk)
  have er : dot_S200x2048_S2048x8_S200x8_1_0_0_1_n_n.rhsIdx (ix2 r j) ((contrEquiv1 dot_S200x2048_S2048x8_S200x8_1_0_0_1_n_n 2048 rfl rfl).symm k) = ix2 k j := funext fun a => Fin.ext (by
    match a with
    | ⟨0, _⟩ => exact (rhs2_0 _ _).trans hk
    | ⟨1, _⟩ => exact rhs2_1 _ _)
  rw [el, er, select_apply]
  show M (ix2 r k) * Scalar.select (IntOp.cmpi .slt (iota .tc S2048x8 32 [0] iota_S2048x8_d0_w32 (ix2 k j))
      (Scalar.muli (Scalar.addi (Scalar.addi (BitVec.ofNat 32 0) (Scalar.muli 2#32 (BitVec.ofNat 32 i0))) (BitVec.ofNat 32 a)) 200#32))
    (x2 (ix2 k j)) (Ideal.ofBits .f32 0x00000000#32) = _
  rw [iota_single_apply]
  show M (ix2 r k) * Scalar.select (IntOp.cmpi .slt (BitVec.ofNat 32 k.val)
      (Scalar.muli (Scalar.addi (Scalar.addi (BitVec.ofNat 32 0) (Scalar.muli 2#32 (BitVec.ofNat 32 i0))) (BitVec.ofNat 32 a)) 200#32))
    (x2 (ix2 k j)) (Ideal.ofBits .f32 0x00000000#32) = _
  rw [mask_bit 0 i0 a k.val (by omega) hi ha (by have := k.isLt; omega)]
  by_cases h : k.val < (0 + 2 * i0 + a) * 200
  · rw [if_pos h, if_pos h, select_one]
  · rw [if_neg h, if_neg h, select_zero, Ideal.ofBits_zero_f32]

/-- The first store's payload at row `r` and column `j`. -/
theorem pay2_2_apply (i : grid2.Coords) (x2 : Vec Ideal S2048x8 .f32) (p : Vec Ideal S200x8 .f32) (M : Vec Ideal S200x2048 .f32) (r : Fin 200) (j : Fin 8) :
    k2_pay2 (F := Ideal) i x2 p M (ix2 r j)
      = p (ix2 r j) + ∑ k : Fin 2048, M (ix2 r k) * (if k.val < (0 + 2 * (i 0).val + 1) * 200 then x2 (ix2 k j) else 0) := by
  unfold k2_pay2 k2_pay1
  dsimp only
  rw [addf_apply, shapeCast_self, shapeCast_self]
  exact congrArg (p (ix2 r j) + ·) (mm2_apply (i 0).val 1 (i 0).isLt (by omega) x2 M r j)

/-- The second store's payload at row `r` and column `j`. -/
theorem pay2_3_apply (i : grid2.Coords) (x2 : Vec Ideal S2048x8 .f32) (p : Vec Ideal S200x8 .f32) (M : Vec Ideal S200x2048 .f32) (r : Fin 200) (j : Fin 8) :
    k2_pay3 (F := Ideal) i x2 p M (ix2 r j)
      = p (ix2 r j) + ∑ k : Fin 2048, M (ix2 r k) * (if k.val < (0 + 2 * (i 0).val + 2) * 200 then x2 (ix2 k j) else 0) := by
  unfold k2_pay3 k2_pay1
  dsimp only
  rw [addf_apply, shapeCast_self, shapeCast_self]
  exact congrArg (p (ix2 r j) + ·) (mm2_apply (i 0).val 2 (i 0).isLt (by omega) x2 M r j)

/-! ## The output block after the body, at an index -/

/-- Rows 0..199 of the block: the first store's. -/
theorem out2_4_lo (i : grid2.Coords) (x0 x1 : Vec Ideal S200x2048 .f32) (x2 : Vec Ideal S2048x8 .f32) (x3 : Vec Ideal S400x8 .f32) (r : Fin 200) (j : Fin 8) :
    out2_4 (F := Ideal) i x0 x1 x2 x3 (ix2 (⟨r.val, by omega⟩ : Fin 400) j)
      = x3 (ix2 (⟨r.val, by omega⟩ : Fin 400) j)
        + ∑ k : Fin 2048, x0 (ix2 r k) * (if k.val < (0 + 2 * (i 0).val + 1) * 200 then x2 (ix2 k j) else 0) := by
  have hy : (ix2 (⟨r.val, by omega⟩ : Fin 400) j : S400x8.Idx) = r2_lo.emb (ix2 r j) := funext fun a => Fin.ext (by
    match a with
    | ⟨0, _⟩ => show r.val = 0 + 1 * r.val; omega
    | ⟨1, _⟩ => show j.val = 0 + 1 * j.val; omega)
  have hnot : (ix2 (⟨r.val, by omega⟩ : Fin 400) j : S400x8.Idx) ∉ r2_hi.set := by
    rw [Rect.mem_set_unit]; intro h
    have h0 : 200 ≤ r.val := (h 0).1
    omega
  unfold out2_4
  rw [View.canon_cons_of_not_mem (⟨r2_hi, k2_pay3 i (View.ld x2 r2_s) (View.ld x3 r2_hi) (View.ld x1 r2_a)⟩ : View.Piece (Elt Ideal) S400x8 .f32) _ hnot, hy, View.canon_cons_emb, pay2_2_apply, View.ld_unit_zero hz00, View.ld_unit_zero hz00]
  rfl

/-- Rows 200..399 of the block: the second store's. -/
theorem out2_4_hi (i : grid2.Coords) (x0 x1 : Vec Ideal S200x2048 .f32) (x2 : Vec Ideal S2048x8 .f32) (x3 : Vec Ideal S400x8 .f32) (r : Fin 200) (j : Fin 8) :
    out2_4 (F := Ideal) i x0 x1 x2 x3 (ix2 (⟨200 + r.val, by omega⟩ : Fin 400) j)
      = x3 (ix2 (⟨200 + r.val, by omega⟩ : Fin 400) j)
        + ∑ k : Fin 2048, x1 (ix2 r k) * (if k.val < (0 + 2 * (i 0).val + 2) * 200 then x2 (ix2 k j) else 0) := by
  have hy : (ix2 (⟨200 + r.val, by omega⟩ : Fin 400) j : S400x8.Idx) = r2_hi.emb (ix2 r j) := funext fun a => Fin.ext (by
    match a with
    | ⟨0, _⟩ => show 200 + r.val = 200 + 1 * r.val; omega
    | ⟨1, _⟩ => show j.val = 0 + 1 * j.val; omega)
  unfold out2_4
  rw [hy, View.canon_cons_emb, pay2_3_apply, View.ld_unit_zero hz00, View.ld_unit_zero hz00]
  rfl

/-! ## The input blocks, at an index -/

section Blocks

-- the core's buffer contents when the region is entered
variable (V : (c : Dev nD) → (b : Ref sig .tc) → Buf (Elt Ideal) ((c : Thread nD τ).loc b))

/-- The printed index maps, decided over the grid: the two adjacency windows stand on consecutive row blocks, the
    `s2` window on block 0, the partial result's and the output's blocks move with the point. -/
theorem idx_facts2 : ∀ t : Fin cfg2.N,
    win2_0.index t (0 : Fin 2) = 0 + 2 * t.val ∧ win2_0.index t (1 : Fin 2) = 0
    ∧ win2_1.index t (0 : Fin 2) = 0 + 2 * t.val + 1 ∧ win2_1.index t (1 : Fin 2) = 0
    ∧ win2_2.index t (0 : Fin 2) = 0 ∧ win2_2.index t (1 : Fin 2) = 0
    ∧ win2_3.index t (0 : Fin 2) = 0 + t.val ∧ win2_3.index t (1 : Fin 2) = 0
    ∧ win2_4.index t (0 : Fin 2) = t.val ∧ win2_4.index t (1 : Fin 2) = 0
    ∧ (grid2.coords t 0).val = t.val :=
  (by decide +kernel : ∀ t : Fin grid2.N, _)

theorem lt_N2 (t : Fin cfg2.N) : t.val < 5 := lt_of_lt_of_eq t.isLt N_2

/-- A block laid into a whole buffer reads, where the transfer is not cut, as the block. -/
theorem ib2_eq (c : Dev nD) (w : Fin cfg2.W) (t : Fin cfg2.N) (hc : ∀ a, (cfg2.win w).clip (cfg2.grid.coords t) a = none)
    (j : (cfg2.win w).block.Idx) :
    ib2 V c w t j = iblk2 V c w t (fun a => ⟨(j a).val, by
      show (j a).val < ((cfg2.win w).clip (cfg2.grid.coords t) a).extent ((cfg2.win w).size a)
      rw [hc a]; exact (j a).isLt⟩) := by
  unfold ib2 Window.fill
  rw [dif_pos (((cfg2.win w).moved_iff _ j).mpr fun a => by
    show (j a).val < ((cfg2.win w).clip (cfg2.grid.coords t) a).extent ((cfg2.win w).size a)
    rw [hc a]; exact (j a).isLt)]

/-- Window 0's block at a point: rows of the adjacency's row block `0 + 2 t`, the first 2048 columns. -/
theorem ib2_0_apply (c : Dev nD) (t : Fin cfg2.N) (r : Fin 200) (k : Fin 2048) (R : Fin 10000)
    (hR : R.val = (0 + 2 * t.val) * 200 + r.val) :
    ib2 V c 0 t (ix2 r k) = V c main_arg1 (ix2 R (⟨k.val, by have := k.isLt; omega⟩ : Fin 10000)) := by
  obtain ⟨f00, f01, -⟩ := idx_facts2 t
  refine (ib2_eq V c 0 t (clip2_0 t) (ix2 r k)).trans ?_
  show V c main_arg1 (((cfg2.win 0).blk t).view.emb _) = V c main_arg1 _
  congr 1
  funext a; apply Fin.ext
  match a with
  | ⟨0, _⟩ => show win2_0.index t (0 : Fin 2) * 200 + 1 * r.val = R.val; omega
  | ⟨1, _⟩ => show win2_0.index t (1 : Fin 2) * 2048 + 1 * k.val = k.val; omega

/-- Window 1's block at a point: rows of the adjacency's row block `0 + 2 t + 1`, the first 2048 columns. -/
theorem ib2_1_apply (c : Dev nD) (t : Fin cfg2.N) (r : Fin 200) (k : Fin 2048) (R : Fin 10000)
    (hR : R.val = (0 + 2 * t.val + 1) * 200 + r.val) :
    ib2 V c 1 t (ix2 r k) = V c main_arg1 (ix2 R (⟨k.val, by have := k.isLt; omega⟩ : Fin 10000)) := by
  obtain ⟨-, -, f10, f11, -⟩ := idx_facts2 t
  refine (ib2_eq V c 1 t (clip2_1 t) (ix2 r k)).trans ?_
  show V c main_arg1 (((cfg2.win 1).blk t).view.emb _) = V c main_arg1 _
  congr 1
  funext a; apply Fin.ext
  match a with
  | ⟨0, _⟩ => show win2_1.index t (0 : Fin 2) * 200 + 1 * r.val = R.val; omega
  | ⟨1, _⟩ => show win2_1.index t (1 : Fin 2) * 2048 + 1 * k.val = k.val; omega

/-- Window 2's block: the first 2048 rows of `s2`, at every point. -/
theorem ib2_2_apply (c : Dev nD) (t : Fin cfg2.N) (k : Fin 2048) (j : Fin 8) :
    ib2 V c 2 t (ix2 k j) = V c main_v5_0 (ix2 (⟨k.val, by have := k.isLt; omega⟩ : Fin 10000) j) := by
  obtain ⟨-, -, -, -, f20, f21, -⟩ := idx_facts2 t
  refine (ib2_eq V c 2 t (clip2_2 t) (ix2 k j)).trans ?_
  show V c main_v5_0 (((cfg2.win 2).blk t).view.emb _) = V c main_v5_0 _
  congr 1
  funext a; apply Fin.ext
  match a with
  | ⟨0, _⟩ => show win2_2.index t (0 : Fin 2) * 2048 + 1 * k.val = k.val; omega
  | ⟨1, _⟩ => show win2_2.index t (1 : Fin 2) * 8 + 1 * j.val = j.val; omega

/-- Window 3's block at a point: 400 rows of the partial result, block `0 + t`. -/
theorem ib2_3_apply (c : Dev nD) (t : Fin cfg2.N) (p : Fin 400) (j : Fin 8) (R : Fin 10000)
    (hR : R.val = (0 + t.val) * 400 + p.val) :
    ib2 V c 3 t (ix2 p j) = V c main_v5_1 (ix2 R j) := by
  obtain ⟨-, -, -, -, -, -, f30, f31, -⟩ := idx_facts2 t
  refine (ib2_eq V c 3 t (clip2_3 t) (ix2 p j)).trans ?_
  show V c main_v5_1 (((cfg2.win 3).blk t).view.emb _) = V c main_v5_1 _
  congr 1
  funext a; apply Fin.ext
  match a with
  | ⟨0, _⟩ => show win2_3.index t (0 : Fin 2) * 400 + 1 * p.val = R.val; omega
  | ⟨1, _⟩ => show win2_3.index t (1 : Fin 2) * 8 + 1 * j.val = j.val; omega

/-! ## From the blocks to the array -/

/-- The region's result at row `R` of the adjacency and column `j`, from the contents the region finds. -/
def row2 (c : Dev nD) (R : Fin 10000) (j : Fin 8) : Elt Ideal .f32 :=
  partAt V c (ix2 R j)
    + ∑ k : Fin 2048, adjAt V c (ix2 R (⟨k.val, by have := k.isLt; omega⟩ : Fin 10000))
        * (if k.val < 200 * (R.val / 200 + 1) then s2At V c (ix2 (⟨k.val, by have := k.isLt; omega⟩ : Fin 10000) j) else 0)

/-- The whole output array as one function: row `r` of it is row `0 + r` of the result. -/
def G2 (c : Dev nD) : S2000x8.Idx → Elt Ideal .f32 := fun y =>
  row2 V c (⟨0 + (y 0).val, by have := idx2_lt0 y; omega⟩ : Fin 10000) (y 1)

/-- WHAT POINT `t` WRITES BACK is block `t` of `G2`. -/
theorem flushed2_eq (c : Dev nD) (t : Fin cfg2.N) :
    (dat2 V c).flushed 4 t = ((cfg2.win 4).blk t).view.read (Elt Ideal) (G2 V c) := by
  show (cfg2.win 4).cut (grid2.coords t) ((dat2 V c).after 4 t) = _
  rw [after2_4]
  obtain ⟨-, -, -, -, -, -, -, -, f40, f41, fc⟩ := idx_facts2 t
  have ht := lt_N2 t
  funext y
  obtain ⟨p, q, rfl⟩ : ∃ (p : Fin 400) (q : Fin 8), y = ix2 p q := ⟨y 0, y 1, eq_ix2 y⟩
  show out2_4 (grid2.coords t) (ib2 V c 0 t) (ib2 V c 1 t) (ib2 V c 2 t) (ib2 V c 3 t) (ix2 p q)
    = G2 V c (((cfg2.win 4).blk t).view.emb (ix2 p q))
  by_cases h : p.val < 200
  · have hp := p.isLt
    have hemb : ((cfg2.win 4).blk t).view.emb (ix2 p q) = (ix2 (⟨t.val * 400 + p.val, by omega⟩ : Fin 2000) q : S2000x8.Idx) :=
      funext fun a => Fin.ext (by
        match a with
        | ⟨0, _⟩ => show win2_4.index t (0 : Fin 2) * 400 + 1 * p.val = t.val * 400 + p.val; omega
        | ⟨1, _⟩ => show win2_4.index t (1 : Fin 2) * 8 + 1 * q.val = q.val; omega)
    rw [hemb]
    show _ = row2 V c (⟨0 + (t.val * 400 + p.val), by omega⟩ : Fin 10000) q
    refine (out2_4_lo (grid2.coords t) (ib2 V c 0 t) (ib2 V c 1 t) (ib2 V c 2 t) (ib2 V c 3 t) ⟨p.val, h⟩ q).trans ?_
    rw [ib2_3_apply V c t (⟨p.val, by omega⟩ : Fin 400) q (⟨0 + (t.val * 400 + p.val), by omega⟩ : Fin 10000) (by show 0 + (t.val * 400 + p.val) = (0 + t.val) * 400 + p.val; omega)]
    simp only [fun k => ib2_0_apply V c t ⟨p.val, h⟩ k (⟨0 + (t.val * 400 + p.val), by omega⟩ : Fin 10000) (by show 0 + (t.val * 400 + p.val) = (0 + 2 * t.val) * 200 + p.val; omega),
      fun k => ib2_2_apply V c t k q]
    rw [show (0 + 2 * (grid2.coords t 0).val + 1) * 200 = 200 * ((0 + (t.val * 400 + p.val)) / 200 + 1) by rw [fc]; omega]
    rfl
  · obtain ⟨r, rfl⟩ : ∃ r : Fin 200, p = (⟨200 + r.val, Nat.add_lt_add_left r.isLt 200⟩ : Fin 400) :=
      ⟨⟨p.val - 200, by have := p.isLt; omega⟩, Fin.ext (by show p.val = 200 + (p.val - 200); omega)⟩
    have hr := r.isLt
    have hemb : ((cfg2.win 4).blk t).view.emb (ix2 (⟨200 + r.val, by omega⟩ : Fin 400) q)
        = (ix2 (⟨t.val * 400 + (200 + r.val), by omega⟩ : Fin 2000) q : S2000x8.Idx) :=
      funext fun a => Fin.ext (by
        match a with
        | ⟨0, _⟩ => show win2_4.index t (0 : Fin 2) * 400 + 1 * (200 + r.val) = t.val * 400 + (200 + r.val); omega
        | ⟨1, _⟩ => show win2_4.index t (1 : Fin 2) * 8 + 1 * q.val = q.val; omega)
    rw [hemb]
    show _ = row2 V c (⟨0 + (t.val * 400 + (200 + r.val)), by omega⟩ : Fin 10000) q
    refine (out2_4_hi (grid2.coords t) (ib2 V c 0 t) (ib2 V c 1 t) (ib2 V c 2 t) (ib2 V c 3 t) r q).trans ?_
    rw [ib2_3_apply V c t (⟨200 + r.val, by omega⟩ : Fin 400) q (⟨0 + (t.val * 400 + (200 + r.val)), by omega⟩ : Fin 10000) (by show 0 + (t.val * 400 + (200 + r.val)) = (0 + t.val) * 400 + (200 + r.val); omega)]
    simp only [fun k => ib2_1_apply V c t r k (⟨0 + (t.val * 400 + (200 + r.val)), by omega⟩ : Fin 10000) (by show 0 + (t.val * 400 + (200 + r.val)) = (0 + 2 * t.val + 1) * 200 + r.val; omega),
      fun k => ib2_2_apply V c t k q]
    rw [show (0 + 2 * (grid2.coords t 0).val + 2) * 200 = 200 * ((0 + (t.val * 400 + (200 + r.val))) / 200 + 1) by rw [fc]; omega]
    rfl

/-- An index of the output array is in point `t`'s block iff each coordinate is in the block's range on its axis. -/
theorem mem_blk2 (t : Fin cfg2.N) (i : S2000x8.Idx) :
    i ∈ ((cfg2.win 4).blk t).view.set ↔ ∀ a : Fin 2, win2_4.index t a * S400x8.size a ≤ (i a).val ∧ (i a).val < win2_4.index t a * S400x8.size a + S400x8.size a := by
  show i ∈ ((View.whole main_v6).slice (win2_4.rect t)).set ↔ _
  rw [View.set_slice_whole, Rect.mem_set_unit]
  exact Iff.rfl

/-- The five blocks of 400 rows cover the array: row `r` lies in block `r / 400`. -/
theorem cover2 (i : S2000x8.Idx) : ∃ t : Fin cfg2.N, (cfg2.win 4).flush t = true ∧ i ∈ ((cfg2.win 4).blk t).view.set := by
  have hi0 : (i 0).val < 2000 := idx2_lt0 i
  have hi1 : (i 1).val < 8 := idx2_lt1 i
  have hN : (i 0).val / 400 < cfg2.N := by rw [show cfg2.N = 5 from N_2]; omega
  obtain ⟨-, -, -, -, -, -, -, -, f40, f41, -⟩ := idx_facts2 ⟨(i 0).val / 400, hN⟩
  refine ⟨⟨(i 0).val / 400, hN⟩, flush2_4 _, ?_⟩
  rw [mem_blk2]
  intro a
  match a with
  | ⟨0, _⟩ =>
    show win2_4.index ⟨(i 0).val / 400, hN⟩ (0 : Fin 2) * 400 ≤ (i 0).val ∧ (i 0).val < win2_4.index ⟨(i 0).val / 400, hN⟩ (0 : Fin 2) * 400 + 400
    rw [f40]; show (i 0).val / 400 * 400 ≤ (i 0).val ∧ (i 0).val < (i 0).val / 400 * 400 + 400; omega
  | ⟨1, _⟩ =>
    show win2_4.index ⟨(i 0).val / 400, hN⟩ (1 : Fin 2) * 8 ≤ (i 1).val ∧ (i 1).val < win2_4.index ⟨(i 0).val / 400, hN⟩ (1 : Fin 2) * 8 + 8
    rw [f41]; omega

/-- THE OUTPUT ARRAY after the region, index by index: row `r` and column `j` of it hold the partial result at row
    `R = 0 + r` plus the sum over the first 2048 columns `k` of the adjacency's entry `(R, k)` times `s2`'s entry
    `(k, j)`, the latter taken as zero from the end of `R`'s diagonal block on. -/
theorem final2_4 (c : Dev nD) (r : Fin 2000) (j : Fin 8) :
    (dat2 V c).arrAt 4 cfg2.N (ix2 r j)
      = partAt V c (ix2 (⟨0 + r.val, by have := r.isLt; omega⟩ : Fin 10000) j)
        + ∑ k : Fin 2048, adjAt V c (ix2 (⟨0 + r.val, by have := r.isLt; omega⟩ : Fin 10000) (⟨k.val, by have := k.isLt; omega⟩ : Fin 10000))
            * (if k.val < 200 * ((0 + r.val) / 200 + 1) then s2At V c (ix2 (⟨k.val, by have := k.isLt; omega⟩ : Fin 10000) j) else 0) := by
  rw [(dat2 V c).arrAt_eq_of_cover 4 (G2 V c) (fun t _ => flushed2_eq V c t) (cover2)]
  rfl

end Blocks

end Cert.KernelIdeal.Hand

end
-- ==== Proof.Val3.lean ====
/-
  Region 3 of @main at the ideal values: what the region leaves in its output array (rows [2000, 4000) of the
  result), index by index, in terms of the contents `V` the region finds.

  At row `R` of the adjacency (in row block `R / 200`) and column `j`:
      out R j = part R j + ∑ k < 4096, adj R k · (if k < 200 · (R / 200 + 1) then s2 k j else 0).
  The body computes this per half block of 200 rows: the partial result's half plus the product of an adjacency row
  block with `s2` masked beyond the diagonal block — the mask's bound is computed from the grid coordinate in
  32-bit words and is the natural number it denotes (`mask_bit`). The road from the body's block to the array is
  the usual one: what each point writes back is a block of one whole-array function (`flushed3_eq`), the five blocks
  of 400 rows cover the array (`cover3`), so the array ends holding that function (`final3_4`).
-/
import proofs.«181509_g20452634264145_cont_8to1_1942_16_alg».proof.Proof.Reg3
import proofs.«181509_g20452634264145_cont_8to1_1942_16_alg».proof.Proof.ValCommon
import proofs.«181509_g20452634264145_cont_8to1_1942_16_alg».proof.Proof.ValArr
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The product with the masked `s2`, at an index -/

theorem lhs3_0 (i : S200x8.Idx) (q : dot_S200x4096_S4096x8_S200x8_1_0_0_1_n_n.contr.Idx) :
    (dot_S200x4096_S4096x8_S200x8_1_0_0_1_n_n.lhsIdx i q 0).val = (i 0).val := by
  unfold DotDims.lhsIdx
  rw [dif_neg (show ¬(0 : Fin S200x4096.rank) ∈ dot_S200x4096_S4096x8_S200x8_1_0_0_1_n_n.lhsBatch by decide), dif_pos (show (0 : Fin S200x4096.rank) ∈ dot_S200x4096_S4096x8_S200x8_1_0_0_1_n_n.lhsNonContracting by decide)]
  rfl
theorem lhs3_1 (i : S200x8.Idx) (q : dot_S200x4096_S4096x8_S200x8_1_0_0_1_n_n.contr.Idx) :
    (dot_S200x4096_S4096x8_S200x8_1_0_0_1_n_n.lhsIdx i q 1).val = (q ⟨0, by decide⟩).val :=
  dot_S200x4096_S4096x8_S200x8_1_0_0_1_n_n.lhsIdx_val_of_single rfl i q
theorem rhs3_0 (i : S200x8.Idx) (q : dot_S200x4096_S4096x8_S200x8_1_0_0_1_n_n.contr.Idx) :
    (dot_S200x4096_S4096x8_S200x8_1_0_0_1_n_n.rhsIdx i q 0).val = (q ⟨0, by decide⟩).val :=
  dot_S200x4096_S4096x8_S200x8_1_0_0_1_n_n.rhsIdx_val_of_single rfl i q
theorem rhs3_1 (i : S200x8.Idx) (q : dot_S200x4096_S4096x8_S200x8_1_0_0_1_n_n.contr.Idx) :
    (dot_S200x4096_S4096x8_S200x8_1_0_0_1_n_n.rhsIdx i q 1).val = (i 1).val := by
  unfold DotDims.rhsIdx
  rw [dif_neg (show ¬(1 : Fin S4096x8.rank) ∈ dot_S200x4096_S4096x8_S200x8_1_0_0_1_n_n.rhsBatch by decide), dif_pos (show (1 : Fin S4096x8.rank) ∈ dot_S200x4096_S4096x8_S200x8_1_0_0_1_n_n.rhsNonContracting by decide)]
  rfl

/-- One adjacency row block times `s2` masked at the bound `(10 + 2 i + a) · 200`, at row `r` and column `j`: the sum
    over the first 4096 columns of the adjacency entry times the `s2` entry, the latter replaced by zero at and beyond
    the bound. -/
theorem mm3_apply (i0 a : Nat) (hi : i0 < 5) (ha : a ≤ 2) (x2 : Vec Ideal S4096x8 .f32) (M : Vec Ideal S200x4096 .f32) (r : Fin 200) (j : Fin 8) :
    FloatOps.matmul (F := Ideal) (φ₁ := .f32) (φ₂ := .f32) dot_S200x4096_S4096x8_S200x8_1_0_0_1_n_n none M
        (select (cmpi .slt (iota .tc S4096x8 32 [0] iota_S4096x8_d0_w32)
            (broadcast S4096x8 (Scalar.muli (Scalar.addi (Scalar.addi (BitVec.ofNat 32 10) (Scalar.muli 2#32 (BitVec.ofNat 32 i0))) (BitVec.ofNat 32 a)) 200#32)))
          x2 (broadcast S4096x8 (Ideal.ofBits .f32 0x00000000#32)))
        (constant (F := Ideal) S200x8 .f32 0x00000000#32) (ix2 r j)
      = ∑ k : Fin 4096, M (ix2 r k) * (if k.val < (10 + 2 * i0 + a) * 200 then x2 (ix2 k j) else 0) := by
  rw [Ideal.matmul_constant_zero_apply, ← Equiv.sum_comp (contrEquiv1 dot_S200x4096_S4096x8_S200x8_1_0_0_1_n_n 4096 rfl rfl).symm]
  refine Finset.sum_congr rfl fun k _ => ?_
  have hk := contrEquiv1_symm_val dot_S200x4096_S4096x8_S200x8_1_0_0_1_n_n 4096 rfl rfl k
  have el : dot_S200x4096_S4096x8_S200x8_1_0_0_1_n_n.lhsIdx (ix2 r j) ((contrEquiv1 dot_S200x4096_S4096x8_S200x8_1_0_0_1_n_n 4096 rfl rfl).symm k) = ix2 r k := funext fun a => Fin.ext (by
    match a with
    | ⟨0, _⟩ => exact lhs3_0 _ _
    | ⟨1, _⟩ => exact (lhs3_1 _ _).trans hk)
  have er : dot_S200x4096_S4096x8_S200x8_1_0_0_1_n_n.rhsIdx (ix2 r j) ((contrEquiv1 dot_S200x4096_S4096x8_S200x8_1_0_0_1_n_n 4096 rfl rfl).symm k) = ix2 k j := funext fun a => Fin.ext (by
    match a with
    | ⟨0, _⟩ => exact (rhs3_0 _ _).trans hk
    | ⟨1, _⟩ => exact rhs3_1 _ _)
  rw [el, er, select_apply]
  show M (ix2 r k) * Scalar.select (IntOp.cmpi .slt (iota .tc S4096x8 32 [0] iota_S4096x8_d0_w32 (ix2 k j))
      (Scalar.muli (Scalar.addi (Scalar.addi (BitVec.ofNat 32 10) (Scalar.muli 2#32 (BitVec.ofNat 32 i0))) (BitVec.ofNat 32 a)) 200#32))
    (x2 (ix2 k j)) (Ideal.ofBits .f32 0x00000000#32) = _
  rw [iota_single_apply]
  show M (ix2 r k) * Scalar.select (IntOp.cmpi .slt (BitVec.ofNat 32 k.val)
      (Scalar.muli (Scalar.addi (Scalar.addi (BitVec.ofNat 32 10) (Scalar.muli 2#32 (BitVec.ofNat 32 i0))) (BitVec.ofNat 32 a)) 200#32))
    (x2 (ix2 k j)) (Ideal.ofBits .f32 0x00000000#32) = _
  rw [mask_bit 10 i0 a k.val (by omega) hi ha (by have := k.isLt; omega)]
  by_cases h : k.val < (10 + 2 * i0 + a) * 200
  · rw [if_pos h, if_pos h, select_one]
  · rw [if_neg h, if_neg h, select_zero, Ideal.ofBits_zero_f32]

/-- The first store's payload at row `r` and column `j`. -/
theorem pay3_2_apply (i : grid3.Coords) (x2 : Vec Ideal S4096x8 .f32) (p : Vec Ideal S200x8 .f32) (M : Vec Ideal S200x4096 .f32) (r : Fin 200) (j : Fin 8) :
    k3_pay2 (F := Ideal) i x2 p M (ix2 r j)
      = p (ix2 r j) + ∑ k : Fin 4096, M (ix2 r k) * (if k.val < (10 + 2 * (i 0).val + 1) * 200 then x2 (ix2 k j) else 0) := by
  unfold k3_pay2 k3_pay1
  dsimp only
  rw [addf_apply, shapeCast_self, shapeCast_self]
  exact congrArg (p (ix2 r j) + ·) (mm3_apply (i 0).val 1 (i 0).isLt (by omega) x2 M r j)

/-- The second store's payload at row `r` and column `j`. -/
theorem pay3_3_apply (i : grid3.Coords) (x2 : Vec Ideal S4096x8 .f32) (p : Vec Ideal S200x8 .f32) (M : Vec Ideal S200x4096 .f32) (r : Fin 200) (j : Fin 8) :
    k3_pay3 (F := Ideal) i x2 p M (ix2 r j)
      = p (ix2 r j) + ∑ k : Fin 4096, M (ix2 r k) * (if k.val < (10 + 2 * (i 0).val + 2) * 200 then x2 (ix2 k j) else 0) := by
  unfold k3_pay3 k3_pay1
  dsimp only
  rw [addf_apply, shapeCast_self, shapeCast_self]
  exact congrArg (p (ix2 r j) + ·) (mm3_apply (i 0).val 2 (i 0).isLt (by omega) x2 M r j)

/-! ## The output block after the body, at an index -/

/-- Rows 0..199 of the block: the first store's. -/
theorem out3_4_lo (i : grid3.Coords) (x0 x1 : Vec Ideal S200x4096 .f32) (x2 : Vec Ideal S4096x8 .f32) (x3 : Vec Ideal S400x8 .f32) (r : Fin 200) (j : Fin 8) :
    out3_4 (F := Ideal) i x0 x1 x2 x3 (ix2 (⟨r.val, by omega⟩ : Fin 400) j)
      = x3 (ix2 (⟨r.val, by omega⟩ : Fin 400) j)
        + ∑ k : Fin 4096, x0 (ix2 r k) * (if k.val < (10 + 2 * (i 0).val + 1) * 200 then x2 (ix2 k j) else 0) := by
  have hy : (ix2 (⟨r.val, by omega⟩ : Fin 400) j : S400x8.Idx) = r3_lo.emb (ix2 r j) := funext fun a => Fin.ext (by
    match a with
    | ⟨0, _⟩ => show r.val = 0 + 1 * r.val; omega
    | ⟨1, _⟩ => show j.val = 0 + 1 * j.val; omega)
  have hnot : (ix2 (⟨r.val, by omega⟩ : Fin 400) j : S400x8.Idx) ∉ r3_hi.set := by
    rw [Rect.mem_set_unit]; intro h
    have h0 : 200 ≤ r.val := (h 0).1
    omega
  unfold out3_4
  rw [View.canon_cons_of_not_mem (⟨r3_hi, k3_pay3 i (View.ld x2 r3_s) (View.ld x3 r3_hi) (View.ld x1 r3_a)⟩ : View.Piece (Elt Ideal) S400x8 .f32) _ hnot, hy, View.canon_cons_emb, pay3_2_apply, View.ld_unit_zero hz00, View.ld_unit_zero hz00]
  rfl

/-- Rows 200..399 of the block: the second store's. -/
theorem out3_4_hi (i : grid3.Coords) (x0 x1 : Vec Ideal S200x4096 .f32) (x2 : Vec Ideal S4096x8 .f32) (x3 : Vec Ideal S400x8 .f32) (r : Fin 200) (j : Fin 8) :
    out3_4 (F := Ideal) i x0 x1 x2 x3 (ix2 (⟨200 + r.val, by omega⟩ : Fin 400) j)
      = x3 (ix2 (⟨200 + r.val, by omega⟩ : Fin 400) j)
        + ∑ k : Fin 4096, x1 (ix2 r k) * (if k.val < (10 + 2 * (i 0).val + 2) * 200 then x2 (ix2 k j) else 0) := by
  have hy : (ix2 (⟨200 + r.val, by omega⟩ : Fin 400) j : S400x8.Idx) = r3_hi.emb (ix2 r j) := funext fun a => Fin.ext (by
    match a with
    | ⟨0, _⟩ => show 200 + r.val = 200 + 1 * r.val; omega
    | ⟨1, _⟩ => show j.val = 0 + 1 * j.val; omega)
  unfold out3_4
  rw [hy, View.canon_cons_emb, pay3_3_apply, View.ld_unit_zero hz00, View.ld_unit_zero hz00]
  rfl

/-! ## The input blocks, at an index -/

section Blocks

-- the core's buffer contents when the region is entered
variable (V : (c : Dev nD) → (b : Ref sig .tc) → Buf (Elt Ideal) ((c : Thread nD τ).loc b))

/-- The printed index maps, decided over the grid: the two adjacency windows stand on consecutive row blocks, the
    `s2` window on block 0, the partial result's and the output's blocks move with the point. -/
theorem idx_facts3 : ∀ t : Fin cfg3.N,
    win3_0.index t (0 : Fin 2) = 10 + 2 * t.val ∧ win3_0.index t (1 : Fin 2) = 0
    ∧ win3_1.index t (0 : Fin 2) = 10 + 2 * t.val + 1 ∧ win3_1.index t (1 : Fin 2) = 0
    ∧ win3_2.index t (0 : Fin 2) = 0 ∧ win3_2.index t (1 : Fin 2) = 0
    ∧ win3_3.index t (0 : Fin 2) = 5 + t.val ∧ win3_3.index t (1 : Fin 2) = 0
    ∧ win3_4.index t (0 : Fin 2) = t.val ∧ win3_4.index t (1 : Fin 2) = 0
    ∧ (grid3.coords t 0).val = t.val :=
  (by decide +kernel : ∀ t : Fin grid3.N, _)

theorem lt_N3 (t : Fin cfg3.N) : t.val < 5 := lt_of_lt_of_eq t.isLt N_3

/-- A block laid into a whole buffer reads, where the transfer is not cut, as the block. -/
theorem ib3_eq (c : Dev nD) (w : Fin cfg3.W) (t : Fin cfg3.N) (hc : ∀ a, (cfg3.win w).clip (cfg3.grid.coords t) a = none)
    (j : (cfg3.win w).block.Idx) :
    ib3 V c w t j = iblk3 V c w t (fun a => ⟨(j a).val, by
      show (j a).val < ((cfg3.win w).clip (cfg3.grid.coords t) a).extent ((cfg3.win w).size a)
      rw [hc a]; exact (j a).isLt⟩) := by
  unfold ib3 Window.fill
  rw [dif_pos (((cfg3.win w).moved_iff _ j).mpr fun a => by
    show (j a).val < ((cfg3.win w).clip (cfg3.grid.coords t) a).extent ((cfg3.win w).size a)
    rw [hc a]; exact (j a).isLt)]

/-- Window 0's block at a point: rows of the adjacency's row block `10 + 2 t`, the first 4096 columns. -/
theorem ib3_0_apply (c : Dev nD) (t : Fin cfg3.N) (r : Fin 200) (k : Fin 4096) (R : Fin 10000)
    (hR : R.val = (10 + 2 * t.val) * 200 + r.val) :
    ib3 V c 0 t (ix2 r k) = V c main_arg1 (ix2 R (⟨k.val, by have := k.isLt; omega⟩ : Fin 10000)) := by
  obtain ⟨f00, f01, -⟩ := idx_facts3 t
  refine (ib3_eq V c 0 t (clip3_0 t) (ix2 r k)).trans ?_
  show V c main_arg1 (((cfg3.win 0).blk t).view.emb _) = V c main_arg1 _
  congr 1
  funext a; apply Fin.ext
  match a with
  | ⟨0, _⟩ => show win3_0.index t (0 : Fin 2) * 200 + 1 * r.val = R.val; omega
  | ⟨1, _⟩ => show win3_0.index t (1 : Fin 2) * 4096 + 1 * k.val = k.val; omega

/-- Window 1's block at a point: rows of the adjacency's row block `10 + 2 t + 1`, the first 4096 columns. -/
theorem ib3_1_apply (c : Dev nD) (t : Fin cfg3.N) (r : Fin 200) (k : Fin 4096) (R : Fin 10000)
    (hR : R.val = (10 + 2 * t.val + 1) * 200 + r.val) :
    ib3 V c 1 t (ix2 r k) = V c main_arg1 (ix2 R (⟨k.val, by have := k.isLt; omega⟩ : Fin 10000)) := by
  obtain ⟨-, -, f10, f11, -⟩ := idx_facts3 t
  refine (ib3_eq V c 1 t (clip3_1 t) (ix2 r k)).trans ?_
  show V c main_arg1 (((cfg3.win 1).blk t).view.emb _) = V c main_arg1 _
  congr 1
  funext a; apply Fin.ext
  match a with
  | ⟨0, _⟩ => show win3_1.index t (0 : Fin 2) * 200 + 1 * r.val = R.val; omega
  | ⟨1, _⟩ => show win3_1.index t (1 : Fin 2) * 4096 + 1 * k.val = k.val; omega

/-- Window 2's block: the first 4096 rows of `s2`, at every point. -/
theorem ib3_2_apply (c : Dev nD) (t : Fin cfg3.N) (k : Fin 4096) (j : Fin 8) :
    ib3 V c 2 t (ix2 k j) = V c main_v5_0 (ix2 (⟨k.val, by have := k.isLt; omega⟩ : Fin 10000) j) := by
  obtain ⟨-, -, -, -, f20, f21, -⟩ := idx_facts3 t
  refine (ib3_eq V c 2 t (clip3_2 t) (ix2 k j)).trans ?_
  show V c main_v5_0 (((cfg3.win 2).blk t).view.emb _) = V c main_v5_0 _
  congr 1
  funext a; apply Fin.ext
  match a with
  | ⟨0, _⟩ => show win3_2.index t (0 : Fin 2) * 4096 + 1 * k.val = k.val; omega
  | ⟨1, _⟩ => show win3_2.index t (1 : Fin 2) * 8 + 1 * j.val = j.val; omega

/-- Window 3's block at a point: 400 rows of the partial result, block `5 + t`. -/
theorem ib3_3_apply (c : Dev nD) (t : Fin cfg3.N) (p : Fin 400) (j : Fin 8) (R : Fin 10000)
    (hR : R.val = (5 + t.val) * 400 + p.val) :
    ib3 V c 3 t (ix2 p j) = V c main_v5_1 (ix2 R j) := by
  obtain ⟨-, -, -, -, -, -, f30, f31, -⟩ := idx_facts3 t
  refine (ib3_eq V c 3 t (clip3_3 t) (ix2 p j)).trans ?_
  show V c main_v5_1 (((cfg3.win 3).blk t).view.emb _) = V c main_v5_1 _
  congr 1
  funext a; apply Fin.ext
  match a with
  | ⟨0, _⟩ => show win3_3.index t (0 : Fin 2) * 400 + 1 * p.val = R.val; omega
  | ⟨1, _⟩ => show win3_3.index t (1 : Fin 2) * 8 + 1 * j.val = j.val; omega

/-! ## From the blocks to the array -/

/-- The region's result at row `R` of the adjacency and column `j`, from the contents the region finds. -/
def row3 (c : Dev nD) (R : Fin 10000) (j : Fin 8) : Elt Ideal .f32 :=
  partAt V c (ix2 R j)
    + ∑ k : Fin 4096, adjAt V c (ix2 R (⟨k.val, by have := k.isLt; omega⟩ : Fin 10000))
        * (if k.val < 200 * (R.val / 200 + 1) then s2At V c (ix2 (⟨k.val, by have := k.isLt; omega⟩ : Fin 10000) j) else 0)

/-- The whole output array as one function: row `r` of it is row `2000 + r` of the result. -/
def G3 (c : Dev nD) : S2000x8.Idx → Elt Ideal .f32 := fun y =>
  row3 V c (⟨2000 + (y 0).val, by have := idx2_lt0 y; omega⟩ : Fin 10000) (y 1)

/-- WHAT POINT `t` WRITES BACK is block `t` of `G3`. -/
theorem flushed3_eq (c : Dev nD) (t : Fin cfg3.N) :
    (dat3 V c).flushed 4 t = ((cfg3.win 4).blk t).view.read (Elt Ideal) (G3 V c) := by
  show (cfg3.win 4).cut (grid3.coords t) ((dat3 V c).after 4 t) = _
  rw [after3_4]
  obtain ⟨-, -, -, -, -, -, -, -, f40, f41, fc⟩ := idx_facts3 t
  have ht := lt_N3 t
  funext y
  obtain ⟨p, q, rfl⟩ : ∃ (p : Fin 400) (q : Fin 8), y = ix2 p q := ⟨y 0, y 1, eq_ix2 y⟩
  show out3_4 (grid3.coords t) (ib3 V c 0 t) (ib3 V c 1 t) (ib3 V c 2 t) (ib3 V c 3 t) (ix2 p q)
    = G3 V c (((cfg3.win 4).blk t).view.emb (ix2 p q))
  by_cases h : p.val < 200
  · have hp := p.isLt
    have hemb : ((cfg3.win 4).blk t).view.emb (ix2 p q) = (ix2 (⟨t.val * 400 + p.val, by omega⟩ : Fin 2000) q : S2000x8.Idx) :=
      funext fun a => Fin.ext (by
        match a with
        | ⟨0, _⟩ => show win3_4.index t (0 : Fin 2) * 400 + 1 * p.val = t.val * 400 + p.val; omega
        | ⟨1, _⟩ => show win3_4.index t (1 : Fin 2) * 8 + 1 * q.val = q.val; omega)
    rw [hemb]
    show _ = row3 V c (⟨2000 + (t.val * 400 + p.val), by omega⟩ : Fin 10000) q
    refine (out3_4_lo (grid3.coords t) (ib3 V c 0 t) (ib3 V c 1 t) (ib3 V c 2 t) (ib3 V c 3 t) ⟨p.val, h⟩ q).trans ?_
    rw [ib3_3_apply V c t (⟨p.val, by omega⟩ : Fin 400) q (⟨2000 + (t.val * 400 + p.val), by omega⟩ : Fin 10000) (by show 2000 + (t.val * 400 + p.val) = (5 + t.val) * 400 + p.val; omega)]
    simp only [fun k => ib3_0_apply V c t ⟨p.val, h⟩ k (⟨2000 + (t.val * 400 + p.val), by omega⟩ : Fin 10000) (by show 2000 + (t.val * 400 + p.val) = (10 + 2 * t.val) * 200 + p.val; omega),
      fun k => ib3_2_apply V c t k q]
    rw [show (10 + 2 * (grid3.coords t 0).val + 1) * 200 = 200 * ((2000 + (t.val * 400 + p.val)) / 200 + 1) by rw [fc]; omega]
    rfl
  · obtain ⟨r, rfl⟩ : ∃ r : Fin 200, p = (⟨200 + r.val, Nat.add_lt_add_left r.isLt 200⟩ : Fin 400) :=
      ⟨⟨p.val - 200, by have := p.isLt; omega⟩, Fin.ext (by show p.val = 200 + (p.val - 200); omega)⟩
    have hr := r.isLt
    have hemb : ((cfg3.win 4).blk t).view.emb (ix2 (⟨200 + r.val, by omega⟩ : Fin 400) q)
        = (ix2 (⟨t.val * 400 + (200 + r.val), by omega⟩ : Fin 2000) q : S2000x8.Idx) :=
      funext fun a => Fin.ext (by
        match a with
        | ⟨0, _⟩ => show win3_4.index t (0 : Fin 2) * 400 + 1 * (200 + r.val) = t.val * 400 + (200 + r.val); omega
        | ⟨1, _⟩ => show win3_4.index t (1 : Fin 2) * 8 + 1 * q.val = q.val; omega)
    rw [hemb]
    show _ = row3 V c (⟨2000 + (t.val * 400 + (200 + r.val)), by omega⟩ : Fin 10000) q
    refine (out3_4_hi (grid3.coords t) (ib3 V c 0 t) (ib3 V c 1 t) (ib3 V c 2 t) (ib3 V c 3 t) r q).trans ?_
    rw [ib3_3_apply V c t (⟨200 + r.val, by omega⟩ : Fin 400) q (⟨2000 + (t.val * 400 + (200 + r.val)), by omega⟩ : Fin 10000) (by show 2000 + (t.val * 400 + (200 + r.val)) = (5 + t.val) * 400 + (200 + r.val); omega)]
    simp only [fun k => ib3_1_apply V c t r k (⟨2000 + (t.val * 400 + (200 + r.val)), by omega⟩ : Fin 10000) (by show 2000 + (t.val * 400 + (200 + r.val)) = (10 + 2 * t.val + 1) * 200 + r.val; omega),
      fun k => ib3_2_apply V c t k q]
    rw [show (10 + 2 * (grid3.coords t 0).val + 2) * 200 = 200 * ((2000 + (t.val * 400 + (200 + r.val))) / 200 + 1) by rw [fc]; omega]
    rfl

/-- An index of the output array is in point `t`'s block iff each coordinate is in the block's range on its axis. -/
theorem mem_blk3 (t : Fin cfg3.N) (i : S2000x8.Idx) :
    i ∈ ((cfg3.win 4).blk t).view.set ↔ ∀ a : Fin 2, win3_4.index t a * S400x8.size a ≤ (i a).val ∧ (i a).val < win3_4.index t a * S400x8.size a + S400x8.size a := by
  show i ∈ ((View.whole main_v7).slice (win3_4.rect t)).set ↔ _
  rw [View.set_slice_whole, Rect.mem_set_unit]
  exact Iff.rfl

/-- The five blocks of 400 rows cover the array: row `r` lies in block `r / 400`. -/
theorem cover3 (i : S2000x8.Idx) : ∃ t : Fin cfg3.N, (cfg3.win 4).flush t = true ∧ i ∈ ((cfg3.win 4).blk t).view.set := by
  have hi0 : (i 0).val < 2000 := idx2_lt0 i
  have hi1 : (i 1).val < 8 := idx2_lt1 i
  have hN : (i 0).val / 400 < cfg3.N := by rw [show cfg3.N = 5 from N_3]; omega
  obtain ⟨-, -, -, -, -, -, -, -, f40, f41, -⟩ := idx_facts3 ⟨(i 0).val / 400, hN⟩
  refine ⟨⟨(i 0).val / 400, hN⟩, flush3_4 _, ?_⟩
  rw [mem_blk3]
  intro a
  match a with
  | ⟨0, _⟩ =>
    show win3_4.index ⟨(i 0).val / 400, hN⟩ (0 : Fin 2) * 400 ≤ (i 0).val ∧ (i 0).val < win3_4.index ⟨(i 0).val / 400, hN⟩ (0 : Fin 2) * 400 + 400
    rw [f40]; show (i 0).val / 400 * 400 ≤ (i 0).val ∧ (i 0).val < (i 0).val / 400 * 400 + 400; omega
  | ⟨1, _⟩ =>
    show win3_4.index ⟨(i 0).val / 400, hN⟩ (1 : Fin 2) * 8 ≤ (i 1).val ∧ (i 1).val < win3_4.index ⟨(i 0).val / 400, hN⟩ (1 : Fin 2) * 8 + 8
    rw [f41]; omega

/-- THE OUTPUT ARRAY after the region, index by index: row `r` and column `j` of it hold the partial result at row
    `R = 2000 + r` plus the sum over the first 4096 columns `k` of the adjacency's entry `(R, k)` times `s2`'s entry
    `(k, j)`, the latter taken as zero from the end of `R`'s diagonal block on. -/
theorem final3_4 (c : Dev nD) (r : Fin 2000) (j : Fin 8) :
    (dat3 V c).arrAt 4 cfg3.N (ix2 r j)
      = partAt V c (ix2 (⟨2000 + r.val, by have := r.isLt; omega⟩ : Fin 10000) j)
        + ∑ k : Fin 4096, adjAt V c (ix2 (⟨2000 + r.val, by have := r.isLt; omega⟩ : Fin 10000) (⟨k.val, by have := k.isLt; omega⟩ : Fin 10000))
            * (if k.val < 200 * ((2000 + r.val) / 200 + 1) then s2At V c (ix2 (⟨k.val, by have := k.isLt; omega⟩ : Fin 10000) j) else 0) := by
  rw [(dat3 V c).arrAt_eq_of_cover 4 (G3 V c) (fun t _ => flushed3_eq V c t) (cover3)]
  rfl

end Blocks

end Cert.KernelIdeal.Hand

end
-- ==== Proof.Val4.lean ====
/-
  Region 4 of @main at the ideal values: what the region leaves in its output array (rows [4000, 6000) of the
  result), index by index, in terms of the contents `V` the region finds.

  At row `R` of the adjacency (in row block `R / 200`) and column `j`:
      out R j = part R j + ∑ k < 6016, adj R k · (if k < 200 · (R / 200 + 1) then s2 k j else 0).
  The body computes this per half block of 200 rows: the partial result's half plus the product of an adjacency row
  block with `s2` masked beyond the diagonal block — the mask's bound is computed from the grid coordinate in
  32-bit words and is the natural number it denotes (`mask_bit`). The road from the body's block to the array is
  the usual one: what each point writes back is a block of one whole-array function (`flushed4_eq`), the five blocks
  of 400 rows cover the array (`cover4`), so the array ends holding that function (`final4_4`).
-/
import proofs.«181509_g20452634264145_cont_8to1_1942_16_alg».proof.Proof.Reg4
import proofs.«181509_g20452634264145_cont_8to1_1942_16_alg».proof.Proof.ValCommon
import proofs.«181509_g20452634264145_cont_8to1_1942_16_alg».proof.Proof.ValArr
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The product with the masked `s2`, at an index -/

theorem lhs4_0 (i : S200x8.Idx) (q : dot_S200x6016_S6016x8_S200x8_1_0_0_1_n_n.contr.Idx) :
    (dot_S200x6016_S6016x8_S200x8_1_0_0_1_n_n.lhsIdx i q 0).val = (i 0).val := by
  unfold DotDims.lhsIdx
  rw [dif_neg (show ¬(0 : Fin S200x6016.rank) ∈ dot_S200x6016_S6016x8_S200x8_1_0_0_1_n_n.lhsBatch by decide), dif_pos (show (0 : Fin S200x6016.rank) ∈ dot_S200x6016_S6016x8_S200x8_1_0_0_1_n_n.lhsNonContracting by decide)]
  rfl
theorem lhs4_1 (i : S200x8.Idx) (q : dot_S200x6016_S6016x8_S200x8_1_0_0_1_n_n.contr.Idx) :
    (dot_S200x6016_S6016x8_S200x8_1_0_0_1_n_n.lhsIdx i q 1).val = (q ⟨0, by decide⟩).val :=
  dot_S200x6016_S6016x8_S200x8_1_0_0_1_n_n.lhsIdx_val_of_single rfl i q
theorem rhs4_0 (i : S200x8.Idx) (q : dot_S200x6016_S6016x8_S200x8_1_0_0_1_n_n.contr.Idx) :
    (dot_S200x6016_S6016x8_S200x8_1_0_0_1_n_n.rhsIdx i q 0).val = (q ⟨0, by decide⟩).val :=
  dot_S200x6016_S6016x8_S200x8_1_0_0_1_n_n.rhsIdx_val_of_single rfl i q
theorem rhs4_1 (i : S200x8.Idx) (q : dot_S200x6016_S6016x8_S200x8_1_0_0_1_n_n.contr.Idx) :
    (dot_S200x6016_S6016x8_S200x8_1_0_0_1_n_n.rhsIdx i q 1).val = (i 1).val := by
  unfold DotDims.rhsIdx
  rw [dif_neg (show ¬(1 : Fin S6016x8.rank) ∈ dot_S200x6016_S6016x8_S200x8_1_0_0_1_n_n.rhsBatch by decide), dif_pos (show (1 : Fin S6016x8.rank) ∈ dot_S200x6016_S6016x8_S200x8_1_0_0_1_n_n.rhsNonContracting by decide)]
  rfl

/-- One adjacency row block times `s2` masked at the bound `(20 + 2 i + a) · 200`, at row `r` and column `j`: the sum
    over the first 6016 columns of the adjacency entry times the `s2` entry, the latter replaced by zero at and beyond
    the bound. -/
theorem mm4_apply (i0 a : Nat) (hi : i0 < 5) (ha : a ≤ 2) (x2 : Vec Ideal S6016x8 .f32) (M : Vec Ideal S200x6016 .f32) (r : Fin 200) (j : Fin 8) :
    FloatOps.matmul (F := Ideal) (φ₁ := .f32) (φ₂ := .f32) dot_S200x6016_S6016x8_S200x8_1_0_0_1_n_n none M
        (select (cmpi .slt (iota .tc S6016x8 32 [0] iota_S6016x8_d0_w32)
            (broadcast S6016x8 (Scalar.muli (Scalar.addi (Scalar.addi (BitVec.ofNat 32 20) (Scalar.muli 2#32 (BitVec.ofNat 32 i0))) (BitVec.ofNat 32 a)) 200#32)))
          x2 (broadcast S6016x8 (Ideal.ofBits .f32 0x00000000#32)))
        (constant (F := Ideal) S200x8 .f32 0x00000000#32) (ix2 r j)
      = ∑ k : Fin 6016, M (ix2 r k) * (if k.val < (20 + 2 * i0 + a) * 200 then x2 (ix2 k j) else 0) := by
  rw [Ideal.matmul_constant_zero_apply, ← Equiv.sum_comp (contrEquiv1 dot_S200x6016_S6016x8_S200x8_1_0_0_1_n_n 6016 rfl rfl).symm]
  refine Finset.sum_congr rfl fun k _ => ?_
  have hk := contrEquiv1_symm_val dot_S200x6016_S6016x8_S200x8_1_0_0_1_n_n 6016 rfl rfl k
  have el : dot_S200x6016_S6016x8_S200x8_1_0_0_1_n_n.lhsIdx (ix2 r j) ((contrEquiv1 dot_S200x6016_S6016x8_S200x8_1_0_0_1_n_n 6016 rfl rfl).symm k) = ix2 r k := funext fun a => Fin.ext (by
    match a with
    | ⟨0, _⟩ => exact lhs4_0 _ _
    | ⟨1, _⟩ => exact (lhs4_1 _ _).trans hk)
  have er : dot_S200x6016_S6016x8_S200x8_1_0_0_1_n_n.rhsIdx (ix2 r j) ((contrEquiv1 dot_S200x6016_S6016x8_S200x8_1_0_0_1_n_n 6016 rfl rfl).symm k) = ix2 k j := funext fun a => Fin.ext (by
    match a with
    | ⟨0, _⟩ => exact (rhs4_0 _ _).trans hk
    | ⟨1, _⟩ => exact rhs4_1 _ _)
  rw [el, er, select_apply]
  show M (ix2 r k) * Scalar.select (IntOp.cmpi .slt (iota .tc S6016x8 32 [0] iota_S6016x8_d0_w32 (ix2 k j))
      (Scalar.muli (Scalar.addi (Scalar.addi (BitVec.ofNat 32 20) (Scalar.muli 2#32 (BitVec.ofNat 32 i0))) (BitVec.ofNat 32 a)) 200#32))
    (x2 (ix2 k j)) (Ideal.ofBits .f32 0x00000000#32) = _
  rw [iota_single_apply]
  show M (ix2 r k) * Scalar.select (IntOp.cmpi .slt (BitVec.ofNat 32 k.val)
      (Scalar.muli (Scalar.addi (Scalar.addi (BitVec.ofNat 32 20) (Scalar.muli 2#32 (BitVec.ofNat 32 i0))) (BitVec.ofNat 32 a)) 200#32))
    (x2 (ix2 k j)) (Ideal.ofBits .f32 0x00000000#32) = _
  rw [mask_bit 20 i0 a k.val (by omega) hi ha (by have := k.isLt; omega)]
  by_cases h : k.val < (20 + 2 * i0 + a) * 200
  · rw [if_pos h, if_pos h, select_one]
  · rw [if_neg h, if_neg h, select_zero, Ideal.ofBits_zero_f32]

/-- The first store's payload at row `r` and column `j`. -/
theorem pay4_2_apply (i : grid4.Coords) (x2 : Vec Ideal S6016x8 .f32) (p : Vec Ideal S200x8 .f32) (M : Vec Ideal S200x6016 .f32) (r : Fin 200) (j : Fin 8) :
    k4_pay2 (F := Ideal) i x2 p M (ix2 r j)
      = p (ix2 r j) + ∑ k : Fin 6016, M (ix2 r k) * (if k.val < (20 + 2 * (i 0).val + 1) * 200 then x2 (ix2 k j) else 0) := by
  unfold k4_pay2 k4_pay1
  dsimp only
  rw [addf_apply, shapeCast_self, shapeCast_self]
  exact congrArg (p (ix2 r j) + ·) (mm4_apply (i 0).val 1 (i 0).isLt (by omega) x2 M r j)

/-- The second store's payload at row `r` and column `j`. -/
theorem pay4_3_apply (i : grid4.Coords) (x2 : Vec Ideal S6016x8 .f32) (p : Vec Ideal S200x8 .f32) (M : Vec Ideal S200x6016 .f32) (r : Fin 200) (j : Fin 8) :
    k4_pay3 (F := Ideal) i x2 p M (ix2 r j)
      = p (ix2 r j) + ∑ k : Fin 6016, M (ix2 r k) * (if k.val < (20 + 2 * (i 0).val + 2) * 200 then x2 (ix2 k j) else 0) := by
  unfold k4_pay3 k4_pay1
  dsimp only
  rw [addf_apply, shapeCast_self, shapeCast_self]
  exact congrArg (p (ix2 r j) + ·) (mm4_apply (i 0).val 2 (i 0).isLt (by omega) x2 M r j)

/-! ## The output block after the body, at an index -/

/-- Rows 0..199 of the block: the first store's. -/
theorem out4_4_lo (i : grid4.Coords) (x0 x1 : Vec Ideal S200x6016 .f32) (x2 : Vec Ideal S6016x8 .f32) (x3 : Vec Ideal S400x8 .f32) (r : Fin 200) (j : Fin 8) :
    out4_4 (F := Ideal) i x0 x1 x2 x3 (ix2 (⟨r.val, by omega⟩ : Fin 400) j)
      = x3 (ix2 (⟨r.val, by omega⟩ : Fin 400) j)
        + ∑ k : Fin 6016, x0 (ix2 r k) * (if k.val < (20 + 2 * (i 0).val + 1) * 200 then x2 (ix2 k j) else 0) := by
  have hy : (ix2 (⟨r.val, by omega⟩ : Fin 400) j : S400x8.Idx) = r4_lo.emb (ix2 r j) := funext fun a => Fin.ext (by
    match a with
    | ⟨0, _⟩ => show r.val = 0 + 1 * r.val; omega
    | ⟨1, _⟩ => show j.val = 0 + 1 * j.val; omega)
  have hnot : (ix2 (⟨r.val, by omega⟩ : Fin 400) j : S400x8.Idx) ∉ r4_hi.set := by
    rw [Rect.mem_set_unit]; intro h
    have h0 : 200 ≤ r.val := (h 0).1
    omega
  unfold out4_4
  rw [View.canon_cons_of_not_mem (⟨r4_hi, k4_pay3 i (View.ld x2 r4_s) (View.ld x3 r4_hi) (View.ld x1 r4_a)⟩ : View.Piece (Elt Ideal) S400x8 .f32) _ hnot, hy, View.canon_cons_emb, pay4_2_apply, View.ld_unit_zero hz00, View.ld_unit_zero hz00]
  rfl

/-- Rows 200..399 of the block: the second store's. -/
theorem out4_4_hi (i : grid4.Coords) (x0 x1 : Vec Ideal S200x6016 .f32) (x2 : Vec Ideal S6016x8 .f32) (x3 : Vec Ideal S400x8 .f32) (r : Fin 200) (j : Fin 8) :
    out4_4 (F := Ideal) i x0 x1 x2 x3 (ix2 (⟨200 + r.val, by omega⟩ : Fin 400) j)
      = x3 (ix2 (⟨200 + r.val, by omega⟩ : Fin 400) j)
        + ∑ k : Fin 6016, x1 (ix2 r k) * (if k.val < (20 + 2 * (i 0).val + 2) * 200 then x2 (ix2 k j) else 0) := by
  have hy : (ix2 (⟨200 + r.val, by omega⟩ : Fin 400) j : S400x8.Idx) = r4_hi.emb (ix2 r j) := funext fun a => Fin.ext (by
    match a with
    | ⟨0, _⟩ => show 200 + r.val = 200 + 1 * r.val; omega
    | ⟨1, _⟩ => show j.val = 0 + 1 * j.val; omega)
  unfold out4_4
  rw [hy, View.canon_cons_emb, pay4_3_apply, View.ld_unit_zero hz00, View.ld_unit_zero hz00]
  rfl

/-! ## The input blocks, at an index -/

section Blocks

-- the core's buffer contents when the region is entered
variable (V : (c : Dev nD) → (b : Ref sig .tc) → Buf (Elt Ideal) ((c : Thread nD τ).loc b))

/-- The printed index maps, decided over the grid: the two adjacency windows stand on consecutive row blocks, the
    `s2` window on block 0, the partial result's and the output's blocks move with the point. -/
theorem idx_facts4 : ∀ t : Fin cfg4.N,
    win4_0.index t (0 : Fin 2) = 20 + 2 * t.val ∧ win4_0.index t (1 : Fin 2) = 0
    ∧ win4_1.index t (0 : Fin 2) = 20 + 2 * t.val + 1 ∧ win4_1.index t (1 : Fin 2) = 0
    ∧ win4_2.index t (0 : Fin 2) = 0 ∧ win4_2.index t (1 : Fin 2) = 0
    ∧ win4_3.index t (0 : Fin 2) = 10 + t.val ∧ win4_3.index t (1 : Fin 2) = 0
    ∧ win4_4.index t (0 : Fin 2) = t.val ∧ win4_4.index t (1 : Fin 2) = 0
    ∧ (grid4.coords t 0).val = t.val :=
  (by decide +kernel : ∀ t : Fin grid4.N, _)

theorem lt_N4 (t : Fin cfg4.N) : t.val < 5 := lt_of_lt_of_eq t.isLt N_4

/-- A block laid into a whole buffer reads, where the transfer is not cut, as the block. -/
theorem ib4_eq (c : Dev nD) (w : Fin cfg4.W) (t : Fin cfg4.N) (hc : ∀ a, (cfg4.win w).clip (cfg4.grid.coords t) a = none)
    (j : (cfg4.win w).block.Idx) :
    ib4 V c w t j = iblk4 V c w t (fun a => ⟨(j a).val, by
      show (j a).val < ((cfg4.win w).clip (cfg4.grid.coords t) a).extent ((cfg4.win w).size a)
      rw [hc a]; exact (j a).isLt⟩) := by
  unfold ib4 Window.fill
  rw [dif_pos (((cfg4.win w).moved_iff _ j).mpr fun a => by
    show (j a).val < ((cfg4.win w).clip (cfg4.grid.coords t) a).extent ((cfg4.win w).size a)
    rw [hc a]; exact (j a).isLt)]

/-- Window 0's block at a point: rows of the adjacency's row block `20 + 2 t`, the first 6016 columns. -/
theorem ib4_0_apply (c : Dev nD) (t : Fin cfg4.N) (r : Fin 200) (k : Fin 6016) (R : Fin 10000)
    (hR : R.val = (20 + 2 * t.val) * 200 + r.val) :
    ib4 V c 0 t (ix2 r k) = V c main_arg1 (ix2 R (⟨k.val, by have := k.isLt; omega⟩ : Fin 10000)) := by
  obtain ⟨f00, f01, -⟩ := idx_facts4 t
  refine (ib4_eq V c 0 t (clip4_0 t) (ix2 r k)).trans ?_
  show V c main_arg1 (((cfg4.win 0).blk t).view.emb _) = V c main_arg1 _
  congr 1
  funext a; apply Fin.ext
  match a with
  | ⟨0, _⟩ => show win4_0.index t (0 : Fin 2) * 200 + 1 * r.val = R.val; omega
  | ⟨1, _⟩ => show win4_0.index t (1 : Fin 2) * 6016 + 1 * k.val = k.val; omega

/-- Window 1's block at a point: rows of the adjacency's row block `20 + 2 t + 1`, the first 6016 columns. -/
theorem ib4_1_apply (c : Dev nD) (t : Fin cfg4.N) (r : Fin 200) (k : Fin 6016) (R : Fin 10000)
    (hR : R.val = (20 + 2 * t.val + 1) * 200 + r.val) :
    ib4 V c 1 t (ix2 r k) = V c main_arg1 (ix2 R (⟨k.val, by have := k.isLt; omega⟩ : Fin 10000)) := by
  obtain ⟨-, -, f10, f11, -⟩ := idx_facts4 t
  refine (ib4_eq V c 1 t (clip4_1 t) (ix2 r k)).trans ?_
  show V c main_arg1 (((cfg4.win 1).blk t).view.emb _) = V c main_arg1 _
  congr 1
  funext a; apply Fin.ext
  match a with
  | ⟨0, _⟩ => show win4_1.index t (0 : Fin 2) * 200 + 1 * r.val = R.val; omega
  | ⟨1, _⟩ => show win4_1.index t (1 : Fin 2) * 6016 + 1 * k.val = k.val; omega

/-- Window 2's block: the first 6016 rows of `s2`, at every point. -/
theorem ib4_2_apply (c : Dev nD) (t : Fin cfg4.N) (k : Fin 6016) (j : Fin 8) :
    ib4 V c 2 t (ix2 k j) = V c main_v5_0 (ix2 (⟨k.val, by have := k.isLt; omega⟩ : Fin 10000) j) := by
  obtain ⟨-, -, -, -, f20, f21, -⟩ := idx_facts4 t
  refine (ib4_eq V c 2 t (clip4_2 t) (ix2 k j)).trans ?_
  show V c main_v5_0 (((cfg4.win 2).blk t).view.emb _) = V c main_v5_0 _
  congr 1
  funext a; apply Fin.ext
  match a with
  | ⟨0, _⟩ => show win4_2.index t (0 : Fin 2) * 6016 + 1 * k.val = k.val; omega
  | ⟨1, _⟩ => show win4_2.index t (1 : Fin 2) * 8 + 1 * j.val = j.val; omega

/-- Window 3's block at a point: 400 rows of the partial result, block `10 + t`. -/
theorem ib4_3_apply (c : Dev nD) (t : Fin cfg4.N) (p : Fin 400) (j : Fin 8) (R : Fin 10000)
    (hR : R.val = (10 + t.val) * 400 + p.val) :
    ib4 V c 3 t (ix2 p j) = V c main_v5_1 (ix2 R j) := by
  obtain ⟨-, -, -, -, -, -, f30, f31, -⟩ := idx_facts4 t
  refine (ib4_eq V c 3 t (clip4_3 t) (ix2 p j)).trans ?_
  show V c main_v5_1 (((cfg4.win 3).blk t).view.emb _) = V c main_v5_1 _
  congr 1
  funext a; apply Fin.ext
  match a with
  | ⟨0, _⟩ => show win4_3.index t (0 : Fin 2) * 400 + 1 * p.val = R.val; omega
  | ⟨1, _⟩ => show win4_3.index t (1 : Fin 2) * 8 + 1 * j.val = j.val; omega

/-! ## From the blocks to the array -/

/-- The region's result at row `R` of the adjacency and column `j`, from the contents the region finds. -/
def row4 (c : Dev nD) (R : Fin 10000) (j : Fin 8) : Elt Ideal .f32 :=
  partAt V c (ix2 R j)
    + ∑ k : Fin 6016, adjAt V c (ix2 R (⟨k.val, by have := k.isLt; omega⟩ : Fin 10000))
        * (if k.val < 200 * (R.val / 200 + 1) then s2At V c (ix2 (⟨k.val, by have := k.isLt; omega⟩ : Fin 10000) j) else 0)

/-- The whole output array as one function: row `r` of it is row `4000 + r` of the result. -/
def G4 (c : Dev nD) : S2000x8.Idx → Elt Ideal .f32 := fun y =>
  row4 V c (⟨4000 + (y 0).val, by have := idx2_lt0 y; omega⟩ : Fin 10000) (y 1)

/-- WHAT POINT `t` WRITES BACK is block `t` of `G4`. -/
theorem flushed4_eq (c : Dev nD) (t : Fin cfg4.N) :
    (dat4 V c).flushed 4 t = ((cfg4.win 4).blk t).view.read (Elt Ideal) (G4 V c) := by
  show (cfg4.win 4).cut (grid4.coords t) ((dat4 V c).after 4 t) = _
  rw [after4_4]
  obtain ⟨-, -, -, -, -, -, -, -, f40, f41, fc⟩ := idx_facts4 t
  have ht := lt_N4 t
  funext y
  obtain ⟨p, q, rfl⟩ : ∃ (p : Fin 400) (q : Fin 8), y = ix2 p q := ⟨y 0, y 1, eq_ix2 y⟩
  show out4_4 (grid4.coords t) (ib4 V c 0 t) (ib4 V c 1 t) (ib4 V c 2 t) (ib4 V c 3 t) (ix2 p q)
    = G4 V c (((cfg4.win 4).blk t).view.emb (ix2 p q))
  by_cases h : p.val < 200
  · have hp := p.isLt
    have hemb : ((cfg4.win 4).blk t).view.emb (ix2 p q) = (ix2 (⟨t.val * 400 + p.val, by omega⟩ : Fin 2000) q : S2000x8.Idx) :=
      funext fun a => Fin.ext (by
        match a with
        | ⟨0, _⟩ => show win4_4.index t (0 : Fin 2) * 400 + 1 * p.val = t.val * 400 + p.val; omega
        | ⟨1, _⟩ => show win4_4.index t (1 : Fin 2) * 8 + 1 * q.val = q.val; omega)
    rw [hemb]
    show _ = row4 V c (⟨4000 + (t.val * 400 + p.val), by omega⟩ : Fin 10000) q
    refine (out4_4_lo (grid4.coords t) (ib4 V c 0 t) (ib4 V c 1 t) (ib4 V c 2 t) (ib4 V c 3 t) ⟨p.val, h⟩ q).trans ?_
    rw [ib4_3_apply V c t (⟨p.val, by omega⟩ : Fin 400) q (⟨4000 + (t.val * 400 + p.val), by omega⟩ : Fin 10000) (by show 4000 + (t.val * 400 + p.val) = (10 + t.val) * 400 + p.val; omega)]
    simp only [fun k => ib4_0_apply V c t ⟨p.val, h⟩ k (⟨4000 + (t.val * 400 + p.val), by omega⟩ : Fin 10000) (by show 4000 + (t.val * 400 + p.val) = (20 + 2 * t.val) * 200 + p.val; omega),
      fun k => ib4_2_apply V c t k q]
    rw [show (20 + 2 * (grid4.coords t 0).val + 1) * 200 = 200 * ((4000 + (t.val * 400 + p.val)) / 200 + 1) by rw [fc]; omega]
    rfl
  · obtain ⟨r, rfl⟩ : ∃ r : Fin 200, p = (⟨200 + r.val, Nat.add_lt_add_left r.isLt 200⟩ : Fin 400) :=
      ⟨⟨p.val - 200, by have := p.isLt; omega⟩, Fin.ext (by show p.val = 200 + (p.val - 200); omega)⟩
    have hr := r.isLt
    have hemb : ((cfg4.win 4).blk t).view.emb (ix2 (⟨200 + r.val, by omega⟩ : Fin 400) q)
        = (ix2 (⟨t.val * 400 + (200 + r.val), by omega⟩ : Fin 2000) q : S2000x8.Idx) :=
      funext fun a => Fin.ext (by
        match a with
        | ⟨0, _⟩ => show win4_4.index t (0 : Fin 2) * 400 + 1 * (200 + r.val) = t.val * 400 + (200 + r.val); omega
        | ⟨1, _⟩ => show win4_4.index t (1 : Fin 2) * 8 + 1 * q.val = q.val; omega)
    rw [hemb]
    show _ = row4 V c (⟨4000 + (t.val * 400 + (200 + r.val)), by omega⟩ : Fin 10000) q
    refine (out4_4_hi (grid4.coords t) (ib4 V c 0 t) (ib4 V c 1 t) (ib4 V c 2 t) (ib4 V c 3 t) r q).trans ?_
    rw [ib4_3_apply V c t (⟨200 + r.val, by omega⟩ : Fin 400) q (⟨4000 + (t.val * 400 + (200 + r.val)), by omega⟩ : Fin 10000) (by show 4000 + (t.val * 400 + (200 + r.val)) = (10 + t.val) * 400 + (200 + r.val); omega)]
    simp only [fun k => ib4_1_apply V c t r k (⟨4000 + (t.val * 400 + (200 + r.val)), by omega⟩ : Fin 10000) (by show 4000 + (t.val * 400 + (200 + r.val)) = (20 + 2 * t.val + 1) * 200 + r.val; omega),
      fun k => ib4_2_apply V c t k q]
    rw [show (20 + 2 * (grid4.coords t 0).val + 2) * 200 = 200 * ((4000 + (t.val * 400 + (200 + r.val))) / 200 + 1) by rw [fc]; omega]
    rfl

/-- An index of the output array is in point `t`'s block iff each coordinate is in the block's range on its axis. -/
theorem mem_blk4 (t : Fin cfg4.N) (i : S2000x8.Idx) :
    i ∈ ((cfg4.win 4).blk t).view.set ↔ ∀ a : Fin 2, win4_4.index t a * S400x8.size a ≤ (i a).val ∧ (i a).val < win4_4.index t a * S400x8.size a + S400x8.size a := by
  show i ∈ ((View.whole main_v8).slice (win4_4.rect t)).set ↔ _
  rw [View.set_slice_whole, Rect.mem_set_unit]
  exact Iff.rfl

/-- The five blocks of 400 rows cover the array: row `r` lies in block `r / 400`. -/
theorem cover4 (i : S2000x8.Idx) : ∃ t : Fin cfg4.N, (cfg4.win 4).flush t = true ∧ i ∈ ((cfg4.win 4).blk t).view.set := by
  have hi0 : (i 0).val < 2000 := idx2_lt0 i
  have hi1 : (i 1).val < 8 := idx2_lt1 i
  have hN : (i 0).val / 400 < cfg4.N := by rw [show cfg4.N = 5 from N_4]; omega
  obtain ⟨-, -, -, -, -, -, -, -, f40, f41, -⟩ := idx_facts4 ⟨(i 0).val / 400, hN⟩
  refine ⟨⟨(i 0).val / 400, hN⟩, flush4_4 _, ?_⟩
  rw [mem_blk4]
  intro a
  match a with
  | ⟨0, _⟩ =>
    show win4_4.index ⟨(i 0).val / 400, hN⟩ (0 : Fin 2) * 400 ≤ (i 0).val ∧ (i 0).val < win4_4.index ⟨(i 0).val / 400, hN⟩ (0 : Fin 2) * 400 + 400
    rw [f40]; show (i 0).val / 400 * 400 ≤ (i 0).val ∧ (i 0).val < (i 0).val / 400 * 400 + 400; omega
  | ⟨1, _⟩ =>
    show win4_4.index ⟨(i 0).val / 400, hN⟩ (1 : Fin 2) * 8 ≤ (i 1).val ∧ (i 1).val < win4_4.index ⟨(i 0).val / 400, hN⟩ (1 : Fin 2) * 8 + 8
    rw [f41]; omega

/-- THE OUTPUT ARRAY after the region, index by index: row `r` and column `j` of it hold the partial result at row
    `R = 4000 + r` plus the sum over the first 6016 columns `k` of the adjacency's entry `(R, k)` times `s2`'s entry
    `(k, j)`, the latter taken as zero from the end of `R`'s diagonal block on. -/
theorem final4_4 (c : Dev nD) (r : Fin 2000) (j : Fin 8) :
    (dat4 V c).arrAt 4 cfg4.N (ix2 r j)
      = partAt V c (ix2 (⟨4000 + r.val, by have := r.isLt; omega⟩ : Fin 10000) j)
        + ∑ k : Fin 6016, adjAt V c (ix2 (⟨4000 + r.val, by have := r.isLt; omega⟩ : Fin 10000) (⟨k.val, by have := k.isLt; omega⟩ : Fin 10000))
            * (if k.val < 200 * ((4000 + r.val) / 200 + 1) then s2At V c (ix2 (⟨k.val, by have := k.isLt; omega⟩ : Fin 10000) j) else 0) := by
  rw [(dat4 V c).arrAt_eq_of_cover 4 (G4 V c) (fun t _ => flushed4_eq V c t) (cover4)]
  rfl

end Blocks

end Cert.KernelIdeal.Hand

end
-- ==== Proof.Val5.lean ====
/-
  Region 5 of @main at the ideal values: what the region leaves in its output array (rows [6000, 8000) of the
  result), index by index, in terms of the contents `V` the region finds.

  At row `R` of the adjacency (in row block `R / 200`) and column `j`:
      out R j = part R j + ∑ k < 8064, adj R k · (if k < 200 · (R / 200 + 1) then s2 k j else 0).
  The body computes this per half block of 200 rows: the partial result's half plus the product of an adjacency row
  block with `s2` masked beyond the diagonal block — the mask's bound is computed from the grid coordinate in
  32-bit words and is the natural number it denotes (`mask_bit`). The road from the body's block to the array is
  the usual one: what each point writes back is a block of one whole-array function (`flushed5_eq`), the five blocks
  of 400 rows cover the array (`cover5`), so the array ends holding that function (`final5_4`).
-/
import proofs.«181509_g20452634264145_cont_8to1_1942_16_alg».proof.Proof.Reg5
import proofs.«181509_g20452634264145_cont_8to1_1942_16_alg».proof.Proof.ValCommon
import proofs.«181509_g20452634264145_cont_8to1_1942_16_alg».proof.Proof.ValArr
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The product with the masked `s2`, at an index -/

theorem lhs5_0 (i : S200x8.Idx) (q : dot_S200x8064_S8064x8_S200x8_1_0_0_1_n_n.contr.Idx) :
    (dot_S200x8064_S8064x8_S200x8_1_0_0_1_n_n.lhsIdx i q 0).val = (i 0).val := by
  unfold DotDims.lhsIdx
  rw [dif_neg (show ¬(0 : Fin S200x8064.rank) ∈ dot_S200x8064_S8064x8_S200x8_1_0_0_1_n_n.lhsBatch by decide), dif_pos (show (0 : Fin S200x8064.rank) ∈ dot_S200x8064_S8064x8_S200x8_1_0_0_1_n_n.lhsNonContracting by decide)]
  rfl
theorem lhs5_1 (i : S200x8.Idx) (q : dot_S200x8064_S8064x8_S200x8_1_0_0_1_n_n.contr.Idx) :
    (dot_S200x8064_S8064x8_S200x8_1_0_0_1_n_n.lhsIdx i q 1).val = (q ⟨0, by decide⟩).val :=
  dot_S200x8064_S8064x8_S200x8_1_0_0_1_n_n.lhsIdx_val_of_single rfl i q
theorem rhs5_0 (i : S200x8.Idx) (q : dot_S200x8064_S8064x8_S200x8_1_0_0_1_n_n.contr.Idx) :
    (dot_S200x8064_S8064x8_S200x8_1_0_0_1_n_n.rhsIdx i q 0).val = (q ⟨0, by decide⟩).val :=
  dot_S200x8064_S8064x8_S200x8_1_0_0_1_n_n.rhsIdx_val_of_single rfl i q
theorem rhs5_1 (i : S200x8.Idx) (q : dot_S200x8064_S8064x8_S200x8_1_0_0_1_n_n.contr.Idx) :
    (dot_S200x8064_S8064x8_S200x8_1_0_0_1_n_n.rhsIdx i q 1).val = (i 1).val := by
  unfold DotDims.rhsIdx
  rw [dif_neg (show ¬(1 : Fin S8064x8.rank) ∈ dot_S200x8064_S8064x8_S200x8_1_0_0_1_n_n.rhsBatch by decide), dif_pos (show (1 : Fin S8064x8.rank) ∈ dot_S200x8064_S8064x8_S200x8_1_0_0_1_n_n.rhsNonContracting by decide)]
  rfl

/-- One adjacency row block times `s2` masked at the bound `(30 + 2 i + a) · 200`, at row `r` and column `j`: the sum
    over the first 8064 columns of the adjacency entry times the `s2` entry, the latter replaced by zero at and beyond
    the bound. -/
theorem mm5_apply (i0 a : Nat) (hi : i0 < 5) (ha : a ≤ 2) (x2 : Vec Ideal S8064x8 .f32) (M : Vec Ideal S200x8064 .f32) (r : Fin 200) (j : Fin 8) :
    FloatOps.matmul (F := Ideal) (φ₁ := .f32) (φ₂ := .f32) dot_S200x8064_S8064x8_S200x8_1_0_0_1_n_n none M
        (select (cmpi .slt (iota .tc S8064x8 32 [0] iota_S8064x8_d0_w32)
            (broadcast S8064x8 (Scalar.muli (Scalar.addi (Scalar.addi (BitVec.ofNat 32 30) (Scalar.muli 2#32 (BitVec.ofNat 32 i0))) (BitVec.ofNat 32 a)) 200#32)))
          x2 (broadcast S8064x8 (Ideal.ofBits .f32 0x00000000#32)))
        (constant (F := Ideal) S200x8 .f32 0x00000000#32) (ix2 r j)
      = ∑ k : Fin 8064, M (ix2 r k) * (if k.val < (30 + 2 * i0 + a) * 200 then x2 (ix2 k j) else 0) := by
  rw [Ideal.matmul_constant_zero_apply, ← Equiv.sum_comp (contrEquiv1 dot_S200x8064_S8064x8_S200x8_1_0_0_1_n_n 8064 rfl rfl).symm]
  refine Finset.sum_congr rfl fun k _ => ?_
  have hk := contrEquiv1_symm_val dot_S200x8064_S8064x8_S200x8_1_0_0_1_n_n 8064 rfl rfl k
  have el : dot_S200x8064_S8064x8_S200x8_1_0_0_1_n_n.lhsIdx (ix2 r j) ((contrEquiv1 dot_S200x8064_S8064x8_S200x8_1_0_0_1_n_n 8064 rfl rfl).symm k) = ix2 r k := funext fun a => Fin.ext (by
    match a with
    | ⟨0, _⟩ => exact lhs5_0 _ _
    | ⟨1, _⟩ => exact (lhs5_1 _ _).trans hk)
  have er : dot_S200x8064_S8064x8_S200x8_1_0_0_1_n_n.rhsIdx (ix2 r j) ((contrEquiv1 dot_S200x8064_S8064x8_S200x8_1_0_0_1_n_n 8064 rfl rfl).symm k) = ix2 k j := funext fun a => Fin.ext (by
    match a with
    | ⟨0, _⟩ => exact (rhs5_0 _ _).trans hk
    | ⟨1, _⟩ => exact rhs5_1 _ _)
  rw [el, er, select_apply]
  show M (ix2 r k) * Scalar.select (IntOp.cmpi .slt (iota .tc S8064x8 32 [0] iota_S8064x8_d0_w32 (ix2 k j))
      (Scalar.muli (Scalar.addi (Scalar.addi (BitVec.ofNat 32 30) (Scalar.muli 2#32 (BitVec.ofNat 32 i0))) (BitVec.ofNat 32 a)) 200#32))
    (x2 (ix2 k j)) (Ideal.ofBits .f32 0x00000000#32) = _
  rw [iota_single_apply]
  show M (ix2 r k) * Scalar.select (IntOp.cmpi .slt (BitVec.ofNat 32 k.val)
      (Scalar.muli (Scalar.addi (Scalar.addi (BitVec.ofNat 32 30) (Scalar.muli 2#32 (BitVec.ofNat 32 i0))) (BitVec.ofNat 32 a)) 200#32))
    (x2 (ix2 k j)) (Ideal.ofBits .f32 0x00000000#32) = _
  rw [mask_bit 30 i0 a k.val (by omega) hi ha (by have := k.isLt; omega)]
  by_cases h : k.val < (30 + 2 * i0 + a) * 200
  · rw [if_pos h, if_pos h, select_one]
  · rw [if_neg h, if_neg h, select_zero, Ideal.ofBits_zero_f32]

/-- The first store's payload at row `r` and column `j`. -/
theorem pay5_2_apply (i : grid5.Coords) (x2 : Vec Ideal S8064x8 .f32) (p : Vec Ideal S200x8 .f32) (M : Vec Ideal S200x8064 .f32) (r : Fin 200) (j : Fin 8) :
    k5_pay2 (F := Ideal) i x2 p M (ix2 r j)
      = p (ix2 r j) + ∑ k : Fin 8064, M (ix2 r k) * (if k.val < (30 + 2 * (i 0).val + 1) * 200 then x2 (ix2 k j) else 0) := by
  unfold k5_pay2 k5_pay1
  dsimp only
  rw [addf_apply, shapeCast_self, shapeCast_self]
  exact congrArg (p (ix2 r j) + ·) (mm5_apply (i 0).val 1 (i 0).isLt (by omega) x2 M r j)

/-- The second store's payload at row `r` and column `j`. -/
theorem pay5_3_apply (i : grid5.Coords) (x2 : Vec Ideal S8064x8 .f32) (p : Vec Ideal S200x8 .f32) (M : Vec Ideal S200x8064 .f32) (r : Fin 200) (j : Fin 8) :
    k5_pay3 (F := Ideal) i x2 p M (ix2 r j)
      = p (ix2 r j) + ∑ k : Fin 8064, M (ix2 r k) * (if k.val < (30 + 2 * (i 0).val + 2) * 200 then x2 (ix2 k j) else 0) := by
  unfold k5_pay3 k5_pay1
  dsimp only
  rw [addf_apply, shapeCast_self, shapeCast_self]
  exact congrArg (p (ix2 r j) + ·) (mm5_apply (i 0).val 2 (i 0).isLt (by omega) x2 M r j)

/-! ## The output block after the body, at an index -/

/-- Rows 0..199 of the block: the first store's. -/
theorem out5_4_lo (i : grid5.Coords) (x0 x1 : Vec Ideal S200x8064 .f32) (x2 : Vec Ideal S8064x8 .f32) (x3 : Vec Ideal S400x8 .f32) (r : Fin 200) (j : Fin 8) :
    out5_4 (F := Ideal) i x0 x1 x2 x3 (ix2 (⟨r.val, by omega⟩ : Fin 400) j)
      = x3 (ix2 (⟨r.val, by omega⟩ : Fin 400) j)
        + ∑ k : Fin 8064, x0 (ix2 r k) * (if k.val < (30 + 2 * (i 0).val + 1) * 200 then x2 (ix2 k j) else 0) := by
  have hy : (ix2 (⟨r.val, by omega⟩ : Fin 400) j : S400x8.Idx) = r5_lo.emb (ix2 r j) := funext fun a => Fin.ext (by
    match a with
    | ⟨0, _⟩ => show r.val = 0 + 1 * r.val; omega
    | ⟨1, _⟩ => show j.val = 0 + 1 * j.val; omega)
  have hnot : (ix2 (⟨r.val, by omega⟩ : Fin 400) j : S400x8.Idx) ∉ r5_hi.set := by
    rw [Rect.mem_set_unit]; intro h
    have h0 : 200 ≤ r.val := (h 0).1
    omega
  unfold out5_4
  rw [View.canon_cons_of_not_mem (⟨r5_hi, k5_pay3 i (View.ld x2 r5_s) (View.ld x3 r5_hi) (View.ld x1 r5_a)⟩ : View.Piece (Elt Ideal) S400x8 .f32) _ hnot, hy, View.canon_cons_emb, pay5_2_apply, View.ld_unit_zero hz00, View.ld_unit_zero hz00]
  rfl

/-- Rows 200..399 of the block: the second store's. -/
theorem out5_4_hi (i : grid5.Coords) (x0 x1 : Vec Ideal S200x8064 .f32) (x2 : Vec Ideal S8064x8 .f32) (x3 : Vec Ideal S400x8 .f32) (r : Fin 200) (j : Fin 8) :
    out5_4 (F := Ideal) i x0 x1 x2 x3 (ix2 (⟨200 + r.val, by omega⟩ : Fin 400) j)
      = x3 (ix2 (⟨200 + r.val, by omega⟩ : Fin 400) j)
        + ∑ k : Fin 8064, x1 (ix2 r k) * (if k.val < (30 + 2 * (i 0).val + 2) * 200 then x2 (ix2 k j) else 0) := by
  have hy : (ix2 (⟨200 + r.val, by omega⟩ : Fin 400) j : S400x8.Idx) = r5_hi.emb (ix2 r j) := funext fun a => Fin.ext (by
    match a with
    | ⟨0, _⟩ => show 200 + r.val = 200 + 1 * r.val; omega
    | ⟨1, _⟩ => show j.val = 0 + 1 * j.val; omega)
  unfold out5_4
  rw [hy, View.canon_cons_emb, pay5_3_apply, View.ld_unit_zero hz00, View.ld_unit_zero hz00]
  rfl

/-! ## The input blocks, at an index -/

section Blocks

-- the core's buffer contents when the region is entered
variable (V : (c : Dev nD) → (b : Ref sig .tc) → Buf (Elt Ideal) ((c : Thread nD τ).loc b))

/-- The printed index maps, decided over the grid: the two adjacency windows stand on consecutive row blocks, the
    `s2` window on block 0, the partial result's and the output's blocks move with the point. -/
theorem idx_facts5 : ∀ t : Fin cfg5.N,
    win5_0.index t (0 : Fin 2) = 30 + 2 * t.val ∧ win5_0.index t (1 : Fin 2) = 0
    ∧ win5_1.index t (0 : Fin 2) = 30 + 2 * t.val + 1 ∧ win5_1.index t (1 : Fin 2) = 0
    ∧ win5_2.index t (0 : Fin 2) = 0 ∧ win5_2.index t (1 : Fin 2) = 0
    ∧ win5_3.index t (0 : Fin 2) = 15 + t.val ∧ win5_3.index t (1 : Fin 2) = 0
    ∧ win5_4.index t (0 : Fin 2) = t.val ∧ win5_4.index t (1 : Fin 2) = 0
    ∧ (grid5.coords t 0).val = t.val :=
  (by decide +kernel : ∀ t : Fin grid5.N, _)

theorem lt_N5 (t : Fin cfg5.N) : t.val < 5 := lt_of_lt_of_eq t.isLt N_5

/-- A block laid into a whole buffer reads, where the transfer is not cut, as the block. -/
theorem ib5_eq (c : Dev nD) (w : Fin cfg5.W) (t : Fin cfg5.N) (hc : ∀ a, (cfg5.win w).clip (cfg5.grid.coords t) a = none)
    (j : (cfg5.win w).block.Idx) :
    ib5 V c w t j = iblk5 V c w t (fun a => ⟨(j a).val, by
      show (j a).val < ((cfg5.win w).clip (cfg5.grid.coords t) a).extent ((cfg5.win w).size a)
      rw [hc a]; exact (j a).isLt⟩) := by
  unfold ib5 Window.fill
  rw [dif_pos (((cfg5.win w).moved_iff _ j).mpr fun a => by
    show (j a).val < ((cfg5.win w).clip (cfg5.grid.coords t) a).extent ((cfg5.win w).size a)
    rw [hc a]; exact (j a).isLt)]

/-- Window 0's block at a point: rows of the adjacency's row block `30 + 2 t`, the first 8064 columns. -/
theorem ib5_0_apply (c : Dev nD) (t : Fin cfg5.N) (r : Fin 200) (k : Fin 8064) (R : Fin 10000)
    (hR : R.val = (30 + 2 * t.val) * 200 + r.val) :
    ib5 V c 0 t (ix2 r k) = V c main_arg1 (ix2 R (⟨k.val, by have := k.isLt; omega⟩ : Fin 10000)) := by
  obtain ⟨f00, f01, -⟩ := idx_facts5 t
  refine (ib5_eq V c 0 t (clip5_0 t) (ix2 r k)).trans ?_
  show V c main_arg1 (((cfg5.win 0).blk t).view.emb _) = V c main_arg1 _
  congr 1
  funext a; apply Fin.ext
  match a with
  | ⟨0, _⟩ => show win5_0.index t (0 : Fin 2) * 200 + 1 * r.val = R.val; omega
  | ⟨1, _⟩ => show win5_0.index t (1 : Fin 2) * 8064 + 1 * k.val = k.val; omega

/-- Window 1's block at a point: rows of the adjacency's row block `30 + 2 t + 1`, the first 8064 columns. -/
theorem ib5_1_apply (c : Dev nD) (t : Fin cfg5.N) (r : Fin 200) (k : Fin 8064) (R : Fin 10000)
    (hR : R.val = (30 + 2 * t.val + 1) * 200 + r.val) :
    ib5 V c 1 t (ix2 r k) = V c main_arg1 (ix2 R (⟨k.val, by have := k.isLt; omega⟩ : Fin 10000)) := by
  obtain ⟨-, -, f10, f11, -⟩ := idx_facts5 t
  refine (ib5_eq V c 1 t (clip5_1 t) (ix2 r k)).trans ?_
  show V c main_arg1 (((cfg5.win 1).blk t).view.emb _) = V c main_arg1 _
  congr 1
  funext a; apply Fin.ext
  match a with
  | ⟨0, _⟩ => show win5_1.index t (0 : Fin 2) * 200 + 1 * r.val = R.val; omega
  | ⟨1, _⟩ => show win5_1.index t (1 : Fin 2) * 8064 + 1 * k.val = k.val; omega

/-- Window 2's block: the first 8064 rows of `s2`, at every point. -/
theorem ib5_2_apply (c : Dev nD) (t : Fin cfg5.N) (k : Fin 8064) (j : Fin 8) :
    ib5 V c 2 t (ix2 k j) = V c main_v5_0 (ix2 (⟨k.val, by have := k.isLt; omega⟩ : Fin 10000) j) := by
  obtain ⟨-, -, -, -, f20, f21, -⟩ := idx_facts5 t
  refine (ib5_eq V c 2 t (clip5_2 t) (ix2 k j)).trans ?_
  show V c main_v5_0 (((cfg5.win 2).blk t).view.emb _) = V c main_v5_0 _
  congr 1
  funext a; apply Fin.ext
  match a with
  | ⟨0, _⟩ => show win5_2.index t (0 : Fin 2) * 8064 + 1 * k.val = k.val; omega
  | ⟨1, _⟩ => show win5_2.index t (1 : Fin 2) * 8 + 1 * j.val = j.val; omega

/-- Window 3's block at a point: 400 rows of the partial result, block `15 + t`. -/
theorem ib5_3_apply (c : Dev nD) (t : Fin cfg5.N) (p : Fin 400) (j : Fin 8) (R : Fin 10000)
    (hR : R.val = (15 + t.val) * 400 + p.val) :
    ib5 V c 3 t (ix2 p j) = V c main_v5_1 (ix2 R j) := by
  obtain ⟨-, -, -, -, -, -, f30, f31, -⟩ := idx_facts5 t
  refine (ib5_eq V c 3 t (clip5_3 t) (ix2 p j)).trans ?_
  show V c main_v5_1 (((cfg5.win 3).blk t).view.emb _) = V c main_v5_1 _
  congr 1
  funext a; apply Fin.ext
  match a with
  | ⟨0, _⟩ => show win5_3.index t (0 : Fin 2) * 400 + 1 * p.val = R.val; omega
  | ⟨1, _⟩ => show win5_3.index t (1 : Fin 2) * 8 + 1 * j.val = j.val; omega

/-! ## From the blocks to the array -/

/-- The region's result at row `R` of the adjacency and column `j`, from the contents the region finds. -/
def row5 (c : Dev nD) (R : Fin 10000) (j : Fin 8) : Elt Ideal .f32 :=
  partAt V c (ix2 R j)
    + ∑ k : Fin 8064, adjAt V c (ix2 R (⟨k.val, by have := k.isLt; omega⟩ : Fin 10000))
        * (if k.val < 200 * (R.val / 200 + 1) then s2At V c (ix2 (⟨k.val, by have := k.isLt; omega⟩ : Fin 10000) j) else 0)

/-- The whole output array as one function: row `r` of it is row `6000 + r` of the result. -/
def G5 (c : Dev nD) : S2000x8.Idx → Elt Ideal .f32 := fun y =>
  row5 V c (⟨6000 + (y 0).val, by have := idx2_lt0 y; omega⟩ : Fin 10000) (y 1)

/-- WHAT POINT `t` WRITES BACK is block `t` of `G5`. -/
theorem flushed5_eq (c : Dev nD) (t : Fin cfg5.N) :
    (dat5 V c).flushed 4 t = ((cfg5.win 4).blk t).view.read (Elt Ideal) (G5 V c) := by
  show (cfg5.win 4).cut (grid5.coords t) ((dat5 V c).after 4 t) = _
  rw [after5_4]
  obtain ⟨-, -, -, -, -, -, -, -, f40, f41, fc⟩ := idx_facts5 t
  have ht := lt_N5 t
  funext y
  obtain ⟨p, q, rfl⟩ : ∃ (p : Fin 400) (q : Fin 8), y = ix2 p q := ⟨y 0, y 1, eq_ix2 y⟩
  show out5_4 (grid5.coords t) (ib5 V c 0 t) (ib5 V c 1 t) (ib5 V c 2 t) (ib5 V c 3 t) (ix2 p q)
    = G5 V c (((cfg5.win 4).blk t).view.emb (ix2 p q))
  by_cases h : p.val < 200
  · have hp := p.isLt
    have hemb : ((cfg5.win 4).blk t).view.emb (ix2 p q) = (ix2 (⟨t.val * 400 + p.val, by omega⟩ : Fin 2000) q : S2000x8.Idx) :=
      funext fun a => Fin.ext (by
        match a with
        | ⟨0, _⟩ => show win5_4.index t (0 : Fin 2) * 400 + 1 * p.val = t.val * 400 + p.val; omega
        | ⟨1, _⟩ => show win5_4.index t (1 : Fin 2) * 8 + 1 * q.val = q.val; omega)
    rw [hemb]
    show _ = row5 V c (⟨6000 + (t.val * 400 + p.val), by omega⟩ : Fin 10000) q
    refine (out5_4_lo (grid5.coords t) (ib5 V c 0 t) (ib5 V c 1 t) (ib5 V c 2 t) (ib5 V c 3 t) ⟨p.val, h⟩ q).trans ?_
    rw [ib5_3_apply V c t (⟨p.val, by omega⟩ : Fin 400) q (⟨6000 + (t.val * 400 + p.val), by omega⟩ : Fin 10000) (by show 6000 + (t.val * 400 + p.val) = (15 + t.val) * 400 + p.val; omega)]
    simp only [fun k => ib5_0_apply V c t ⟨p.val, h⟩ k (⟨6000 + (t.val * 400 + p.val), by omega⟩ : Fin 10000) (by show 6000 + (t.val * 400 + p.val) = (30 + 2 * t.val) * 200 + p.val; omega),
      fun k => ib5_2_apply V c t k q]
    rw [show (30 + 2 * (grid5.coords t 0).val + 1) * 200 = 200 * ((6000 + (t.val * 400 + p.val)) / 200 + 1) by rw [fc]; omega]
    rfl
  · obtain ⟨r, rfl⟩ : ∃ r : Fin 200, p = (⟨200 + r.val, Nat.add_lt_add_left r.isLt 200⟩ : Fin 400) :=
      ⟨⟨p.val - 200, by have := p.isLt; omega⟩, Fin.ext (by show p.val = 200 + (p.val - 200); omega)⟩
    have hr := r.isLt
    have hemb : ((cfg5.win 4).blk t).view.emb (ix2 (⟨200 + r.val, by omega⟩ : Fin 400) q)
        = (ix2 (⟨t.val * 400 + (200 + r.val), by omega⟩ : Fin 2000) q : S2000x8.Idx) :=
      funext fun a => Fin.ext (by
        match a with
        | ⟨0, _⟩ => show win5_4.index t (0 : Fin 2) * 400 + 1 * (200 + r.val) = t.val * 400 + (200 + r.val); omega
        | ⟨1, _⟩ => show win5_4.index t (1 : Fin 2) * 8 + 1 * q.val = q.val; omega)
    rw [hemb]
    show _ = row5 V c (⟨6000 + (t.val * 400 + (200 + r.val)), by omega⟩ : Fin 10000) q
    refine (out5_4_hi (grid5.coords t) (ib5 V c 0 t) (ib5 V c 1 t) (ib5 V c 2 t) (ib5 V c 3 t) r q).trans ?_
    rw [ib5_3_apply V c t (⟨200 + r.val, by omega⟩ : Fin 400) q (⟨6000 + (t.val * 400 + (200 + r.val)), by omega⟩ : Fin 10000) (by show 6000 + (t.val * 400 + (200 + r.val)) = (15 + t.val) * 400 + (200 + r.val); omega)]
    simp only [fun k => ib5_1_apply V c t r k (⟨6000 + (t.val * 400 + (200 + r.val)), by omega⟩ : Fin 10000) (by show 6000 + (t.val * 400 + (200 + r.val)) = (30 + 2 * t.val + 1) * 200 + r.val; omega),
      fun k => ib5_2_apply V c t k q]
    rw [show (30 + 2 * (grid5.coords t 0).val + 2) * 200 = 200 * ((6000 + (t.val * 400 + (200 + r.val))) / 200 + 1) by rw [fc]; omega]
    rfl

/-- An index of the output array is in point `t`'s block iff each coordinate is in the block's range on its axis. -/
theorem mem_blk5 (t : Fin cfg5.N) (i : S2000x8.Idx) :
    i ∈ ((cfg5.win 4).blk t).view.set ↔ ∀ a : Fin 2, win5_4.index t a * S400x8.size a ≤ (i a).val ∧ (i a).val < win5_4.index t a * S400x8.size a + S400x8.size a := by
  show i ∈ ((View.whole main_v9).slice (win5_4.rect t)).set ↔ _
  rw [View.set_slice_whole, Rect.mem_set_unit]
  exact Iff.rfl

/-- The five blocks of 400 rows cover the array: row `r` lies in block `r / 400`. -/
theorem cover5 (i : S2000x8.Idx) : ∃ t : Fin cfg5.N, (cfg5.win 4).flush t = true ∧ i ∈ ((cfg5.win 4).blk t).view.set := by
  have hi0 : (i 0).val < 2000 := idx2_lt0 i
  have hi1 : (i 1).val < 8 := idx2_lt1 i
  have hN : (i 0).val / 400 < cfg5.N := by rw [show cfg5.N = 5 from N_5]; omega
  obtain ⟨-, -, -, -, -, -, -, -, f40, f41, -⟩ := idx_facts5 ⟨(i 0).val / 400, hN⟩
  refine ⟨⟨(i 0).val / 400, hN⟩, flush5_4 _, ?_⟩
  rw [mem_blk5]
  intro a
  match a with
  | ⟨0, _⟩ =>
    show win5_4.index ⟨(i 0).val / 400, hN⟩ (0 : Fin 2) * 400 ≤ (i 0).val ∧ (i 0).val < win5_4.index ⟨(i 0).val / 400, hN⟩ (0 : Fin 2) * 400 + 400
    rw [f40]; show (i 0).val / 400 * 400 ≤ (i 0).val ∧ (i 0).val < (i 0).val / 400 * 400 + 400; omega
  | ⟨1, _⟩ =>
    show win5_4.index ⟨(i 0).val / 400, hN⟩ (1 : Fin 2) * 8 ≤ (i 1).val ∧ (i 1).val < win5_4.index ⟨(i 0).val / 400, hN⟩ (1 : Fin 2) * 8 + 8
    rw [f41]; omega

/-- THE OUTPUT ARRAY after the region, index by index: row `r` and column `j` of it hold the partial result at row
    `R = 6000 + r` plus the sum over the first 8064 columns `k` of the adjacency's entry `(R, k)` times `s2`'s entry
    `(k, j)`, the latter taken as zero from the end of `R`'s diagonal block on. -/
theorem final5_4 (c : Dev nD) (r : Fin 2000) (j : Fin 8) :
    (dat5 V c).arrAt 4 cfg5.N (ix2 r j)
      = partAt V c (ix2 (⟨6000 + r.val, by have := r.isLt; omega⟩ : Fin 10000) j)
        + ∑ k : Fin 8064, adjAt V c (ix2 (⟨6000 + r.val, by have := r.isLt; omega⟩ : Fin 10000) (⟨k.val, by have := k.isLt; omega⟩ : Fin 10000))
            * (if k.val < 200 * ((6000 + r.val) / 200 + 1) then s2At V c (ix2 (⟨k.val, by have := k.isLt; omega⟩ : Fin 10000) j) else 0) := by
  rw [(dat5 V c).arrAt_eq_of_cover 4 (G5 V c) (fun t _ => flushed5_eq V c t) (cover5)]
  rfl

end Blocks

end Cert.KernelIdeal.Hand

end
-- ==== Proof.Val6.lean ====
/-
  Region 6 of @main at the ideal values: what the region leaves in its output array (rows [8000, 10000) of the
  result), index by index, in terms of the contents `V` the region finds.

  At row `R` of the adjacency (in row block `R / 200`) and column `j`:
      out R j = part R j + ∑ k < 10000, adj R k · (if k < 200 · (R / 200 + 1) then s2 k j else 0).
  The body computes this per half block of 200 rows: the partial result's half plus the product of an adjacency row
  block with `s2` masked beyond the diagonal block — the mask's bound is computed from the grid coordinate in
  32-bit words and is the natural number it denotes (`mask_bit`). The road from the body's block to the array is
  the usual one: what each point writes back is a block of one whole-array function (`flushed6_eq`), the five blocks
  of 400 rows cover the array (`cover6`), so the array ends holding that function (`final6_4`).
-/
import proofs.«181509_g20452634264145_cont_8to1_1942_16_alg».proof.Proof.Reg6
import proofs.«181509_g20452634264145_cont_8to1_1942_16_alg».proof.Proof.ValCommon
import proofs.«181509_g20452634264145_cont_8to1_1942_16_alg».proof.Proof.ValArr
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The product with the masked `s2`, at an index -/

theorem lhs6_0 (i : S200x8.Idx) (q : dot_S200x10000_S10000x8_S200x8_1_0_0_1_n_n.contr.Idx) :
    (dot_S200x10000_S10000x8_S200x8_1_0_0_1_n_n.lhsIdx i q 0).val = (i 0).val := by
  unfold DotDims.lhsIdx
  rw [dif_neg (show ¬(0 : Fin S200x10000.rank) ∈ dot_S200x10000_S10000x8_S200x8_1_0_0_1_n_n.lhsBatch by decide), dif_pos (show (0 : Fin S200x10000.rank) ∈ dot_S200x10000_S10000x8_S200x8_1_0_0_1_n_n.lhsNonContracting by decide)]
  rfl
theorem lhs6_1 (i : S200x8.Idx) (q : dot_S200x10000_S10000x8_S200x8_1_0_0_1_n_n.contr.Idx) :
    (dot_S200x10000_S10000x8_S200x8_1_0_0_1_n_n.lhsIdx i q 1).val = (q ⟨0, by decide⟩).val :=
  dot_S200x10000_S10000x8_S200x8_1_0_0_1_n_n.lhsIdx_val_of_single rfl i q
theorem rhs6_0 (i : S200x8.Idx) (q : dot_S200x10000_S10000x8_S200x8_1_0_0_1_n_n.contr.Idx) :
    (dot_S200x10000_S10000x8_S200x8_1_0_0_1_n_n.rhsIdx i q 0).val = (q ⟨0, by decide⟩).val :=
  dot_S200x10000_S10000x8_S200x8_1_0_0_1_n_n.rhsIdx_val_of_single rfl i q
theorem rhs6_1 (i : S200x8.Idx) (q : dot_S200x10000_S10000x8_S200x8_1_0_0_1_n_n.contr.Idx) :
    (dot_S200x10000_S10000x8_S200x8_1_0_0_1_n_n.rhsIdx i q 1).val = (i 1).val := by
  unfold DotDims.rhsIdx
  rw [dif_neg (show ¬(1 : Fin S10000x8.rank) ∈ dot_S200x10000_S10000x8_S200x8_1_0_0_1_n_n.rhsBatch by decide), dif_pos (show (1 : Fin S10000x8.rank) ∈ dot_S200x10000_S10000x8_S200x8_1_0_0_1_n_n.rhsNonContracting by decide)]
  rfl

/-- One adjacency row block times `s2` masked at the bound `(40 + 2 i + a) · 200`, at row `r` and column `j`: the sum
    over the first 10000 columns of the adjacency entry times the `s2` entry, the latter replaced by zero at and beyond
    the bound. -/
theorem mm6_apply (i0 a : Nat) (hi : i0 < 5) (ha : a ≤ 2) (x2 : Vec Ideal S10000x8 .f32) (M : Vec Ideal S200x10000 .f32) (r : Fin 200) (j : Fin 8) :
    FloatOps.matmul (F := Ideal) (φ₁ := .f32) (φ₂ := .f32) dot_S200x10000_S10000x8_S200x8_1_0_0_1_n_n none M
        (select (cmpi .slt (iota .tc S10000x8 32 [0] iota_S10000x8_d0_w32)
            (broadcast S10000x8 (Scalar.muli (Scalar.addi (Scalar.addi (BitVec.ofNat 32 40) (Scalar.muli 2#32 (BitVec.ofNat 32 i0))) (BitVec.ofNat 32 a)) 200#32)))
          x2 (broadcast S10000x8 (Ideal.ofBits .f32 0x00000000#32)))
        (constant (F := Ideal) S200x8 .f32 0x00000000#32) (ix2 r j)
      = ∑ k : Fin 10000, M (ix2 r k) * (if k.val < (40 + 2 * i0 + a) * 200 then x2 (ix2 k j) else 0) := by
  rw [Ideal.matmul_constant_zero_apply, ← Equiv.sum_comp (contrEquiv1 dot_S200x10000_S10000x8_S200x8_1_0_0_1_n_n 10000 rfl rfl).symm]
  refine Finset.sum_congr rfl fun k _ => ?_
  have hk := contrEquiv1_symm_val dot_S200x10000_S10000x8_S200x8_1_0_0_1_n_n 10000 rfl rfl k
  have el : dot_S200x10000_S10000x8_S200x8_1_0_0_1_n_n.lhsIdx (ix2 r j) ((contrEquiv1 dot_S200x10000_S10000x8_S200x8_1_0_0_1_n_n 10000 rfl rfl).symm k) = ix2 r k := funext fun a => Fin.ext (by
    match a with
    | ⟨0, _⟩ => exact lhs6_0 _ _
    | ⟨1, _⟩ => exact (lhs6_1 _ _).trans hk)
  have er : dot_S200x10000_S10000x8_S200x8_1_0_0_1_n_n.rhsIdx (ix2 r j) ((contrEquiv1 dot_S200x10000_S10000x8_S200x8_1_0_0_1_n_n 10000 rfl rfl).symm k) = ix2 k j := funext fun a => Fin.ext (by
    match a with
    | ⟨0, _⟩ => exact (rhs6_0 _ _).trans hk
    | ⟨1, _⟩ => exact rhs6_1 _ _)
  rw [el, er, select_apply]
  show M (ix2 r k) * Scalar.select (IntOp.cmpi .slt (iota .tc S10000x8 32 [0] iota_S10000x8_d0_w32 (ix2 k j))
      (Scalar.muli (Scalar.addi (Scalar.addi (BitVec.ofNat 32 40) (Scalar.muli 2#32 (BitVec.ofNat 32 i0))) (BitVec.ofNat 32 a)) 200#32))
    (x2 (ix2 k j)) (Ideal.ofBits .f32 0x00000000#32) = _
  rw [iota_single_apply]
  show M (ix2 r k) * Scalar.select (IntOp.cmpi .slt (BitVec.ofNat 32 k.val)
      (Scalar.muli (Scalar.addi (Scalar.addi (BitVec.ofNat 32 40) (Scalar.muli 2#32 (BitVec.ofNat 32 i0))) (BitVec.ofNat 32 a)) 200#32))
    (x2 (ix2 k j)) (Ideal.ofBits .f32 0x00000000#32) = _
  rw [mask_bit 40 i0 a k.val (by omega) hi ha (by have := k.isLt; omega)]
  by_cases h : k.val < (40 + 2 * i0 + a) * 200
  · rw [if_pos h, if_pos h, select_one]
  · rw [if_neg h, if_neg h, select_zero, Ideal.ofBits_zero_f32]

/-- The first store's payload at row `r` and column `j`. -/
theorem pay6_2_apply (i : grid6.Coords) (x2 : Vec Ideal S10000x8 .f32) (p : Vec Ideal S200x8 .f32) (M : Vec Ideal S200x10000 .f32) (r : Fin 200) (j : Fin 8) :
    k6_pay2 (F := Ideal) i x2 p M (ix2 r j)
      = p (ix2 r j) + ∑ k : Fin 10000, M (ix2 r k) * (if k.val < (40 + 2 * (i 0).val + 1) * 200 then x2 (ix2 k j) else 0) := by
  unfold k6_pay2 k6_pay1
  dsimp only
  rw [addf_apply, shapeCast_self, shapeCast_self]
  exact congrArg (p (ix2 r j) + ·) (mm6_apply (i 0).val 1 (i 0).isLt (by omega) x2 M r j)

/-- The second store's payload at row `r` and column `j`. -/
theorem pay6_3_apply (i : grid6.Coords) (x2 : Vec Ideal S10000x8 .f32) (p : Vec Ideal S200x8 .f32) (M : Vec Ideal S200x10000 .f32) (r : Fin 200) (j : Fin 8) :
    k6_pay3 (F := Ideal) i x2 p M (ix2 r j)
      = p (ix2 r j) + ∑ k : Fin 10000, M (ix2 r k) * (if k.val < (40 + 2 * (i 0).val + 2) * 200 then x2 (ix2 k j) else 0) := by
  unfold k6_pay3 k6_pay1
  dsimp only
  rw [addf_apply, shapeCast_self, shapeCast_self]
  exact congrArg (p (ix2 r j) + ·) (mm6_apply (i 0).val 2 (i 0).isLt (by omega) x2 M r j)

/-! ## The output block after the body, at an index -/

/-- Rows 0..199 of the block: the first store's. -/
theorem out6_4_lo (i : grid6.Coords) (x0 x1 : Vec Ideal S200x10000 .f32) (x2 : Vec Ideal S10000x8 .f32) (x3 : Vec Ideal S400x8 .f32) (r : Fin 200) (j : Fin 8) :
    out6_4 (F := Ideal) i x0 x1 x2 x3 (ix2 (⟨r.val, by omega⟩ : Fin 400) j)
      = x3 (ix2 (⟨r.val, by omega⟩ : Fin 400) j)
        + ∑ k : Fin 10000, x0 (ix2 r k) * (if k.val < (40 + 2 * (i 0).val + 1) * 200 then x2 (ix2 k j) else 0) := by
  have hy : (ix2 (⟨r.val, by omega⟩ : Fin 400) j : S400x8.Idx) = r6_lo.emb (ix2 r j) := funext fun a => Fin.ext (by
    match a with
    | ⟨0, _⟩ => show r.val = 0 + 1 * r.val; omega
    | ⟨1, _⟩ => show j.val = 0 + 1 * j.val; omega)
  have hnot : (ix2 (⟨r.val, by omega⟩ : Fin 400) j : S400x8.Idx) ∉ r6_hi.set := by
    rw [Rect.mem_set_unit]; intro h
    have h0 : 200 ≤ r.val := (h 0).1
    omega
  unfold out6_4
  rw [View.canon_cons_of_not_mem (⟨r6_hi, k6_pay3 i (View.ld x2 r6_s) (View.ld x3 r6_hi) (View.ld x1 r6_a)⟩ : View.Piece (Elt Ideal) S400x8 .f32) _ hnot, hy, View.canon_cons_emb, pay6_2_apply, View.ld_unit_zero hz00, View.ld_unit_zero hz00]
  rfl

/-- Rows 200..399 of the block: the second store's. -/
theorem out6_4_hi (i : grid6.Coords) (x0 x1 : Vec Ideal S200x10000 .f32) (x2 : Vec Ideal S10000x8 .f32) (x3 : Vec Ideal S400x8 .f32) (r : Fin 200) (j : Fin 8) :
    out6_4 (F := Ideal) i x0 x1 x2 x3 (ix2 (⟨200 + r.val, by omega⟩ : Fin 400) j)
      = x3 (ix2 (⟨200 + r.val, by omega⟩ : Fin 400) j)
        + ∑ k : Fin 10000, x1 (ix2 r k) * (if k.val < (40 + 2 * (i 0).val + 2) * 200 then x2 (ix2 k j) else 0) := by
  have hy : (ix2 (⟨200 + r.val, by omega⟩ : Fin 400) j : S400x8.Idx) = r6_hi.emb (ix2 r j) := funext fun a => Fin.ext (by
    match a with
    | ⟨0, _⟩ => show 200 + r.val = 200 + 1 * r.val; omega
    | ⟨1, _⟩ => show j.val = 0 + 1 * j.val; omega)
  unfold out6_4
  rw [hy, View.canon_cons_emb, pay6_3_apply, View.ld_unit_zero hz00, View.ld_unit_zero hz00]
  rfl

/-! ## The input blocks, at an index -/

section Blocks

-- the core's buffer contents when the region is entered
variable (V : (c : Dev nD) → (b : Ref sig .tc) → Buf (Elt Ideal) ((c : Thread nD τ).loc b))

/-- The printed index maps, decided over the grid: the two adjacency windows stand on consecutive row blocks, the
    `s2` window on block 0, the partial result's and the output's blocks move with the point. -/
theorem idx_facts6 : ∀ t : Fin cfg6.N,
    win6_0.index t (0 : Fin 2) = 40 + 2 * t.val ∧ win6_0.index t (1 : Fin 2) = 0
    ∧ win6_1.index t (0 : Fin 2) = 40 + 2 * t.val + 1 ∧ win6_1.index t (1 : Fin 2) = 0
    ∧ win6_2.index t (0 : Fin 2) = 0 ∧ win6_2.index t (1 : Fin 2) = 0
    ∧ win6_3.index t (0 : Fin 2) = 20 + t.val ∧ win6_3.index t (1 : Fin 2) = 0
    ∧ win6_4.index t (0 : Fin 2) = t.val ∧ win6_4.index t (1 : Fin 2) = 0
    ∧ (grid6.coords t 0).val = t.val :=
  (by decide +kernel : ∀ t : Fin grid6.N, _)

theorem lt_N6 (t : Fin cfg6.N) : t.val < 5 := lt_of_lt_of_eq t.isLt N_6

/-- A block laid into a whole buffer reads, where the transfer is not cut, as the block. -/
theorem ib6_eq (c : Dev nD) (w : Fin cfg6.W) (t : Fin cfg6.N) (hc : ∀ a, (cfg6.win w).clip (cfg6.grid.coords t) a = none)
    (j : (cfg6.win w).block.Idx) :
    ib6 V c w t j = iblk6 V c w t (fun a => ⟨(j a).val, by
      show (j a).val < ((cfg6.win w).clip (cfg6.grid.coords t) a).extent ((cfg6.win w).size a)
      rw [hc a]; exact (j a).isLt⟩) := by
  unfold ib6 Window.fill
  rw [dif_pos (((cfg6.win w).moved_iff _ j).mpr fun a => by
    show (j a).val < ((cfg6.win w).clip (cfg6.grid.coords t) a).extent ((cfg6.win w).size a)
    rw [hc a]; exact (j a).isLt)]

/-- Window 0's block at a point: rows of the adjacency's row block `40 + 2 t`, the first 10000 columns. -/
theorem ib6_0_apply (c : Dev nD) (t : Fin cfg6.N) (r : Fin 200) (k : Fin 10000) (R : Fin 10000)
    (hR : R.val = (40 + 2 * t.val) * 200 + r.val) :
    ib6 V c 0 t (ix2 r k) = V c main_arg1 (ix2 R (⟨k.val, by have := k.isLt; omega⟩ : Fin 10000)) := by
  obtain ⟨f00, f01, -⟩ := idx_facts6 t
  refine (ib6_eq V c 0 t (clip6_0 t) (ix2 r k)).trans ?_
  show V c main_arg1 (((cfg6.win 0).blk t).view.emb _) = V c main_arg1 _
  congr 1
  funext a; apply Fin.ext
  match a with
  | ⟨0, _⟩ => show win6_0.index t (0 : Fin 2) * 200 + 1 * r.val = R.val; omega
  | ⟨1, _⟩ => show win6_0.index t (1 : Fin 2) * 10000 + 1 * k.val = k.val; omega

/-- Window 1's block at a point: rows of the adjacency's row block `40 + 2 t + 1`, the first 10000 columns. -/
theorem ib6_1_apply (c : Dev nD) (t : Fin cfg6.N) (r : Fin 200) (k : Fin 10000) (R : Fin 10000)
    (hR : R.val = (40 + 2 * t.val + 1) * 200 + r.val) :
    ib6 V c 1 t (ix2 r k) = V c main_arg1 (ix2 R (⟨k.val, by have := k.isLt; omega⟩ : Fin 10000)) := by
  obtain ⟨-, -, f10, f11, -⟩ := idx_facts6 t
  refine (ib6_eq V c 1 t (clip6_1 t) (ix2 r k)).trans ?_
  show V c main_arg1 (((cfg6.win 1).blk t).view.emb _) = V c main_arg1 _
  congr 1
  funext a; apply Fin.ext
  match a with
  | ⟨0, _⟩ => show win6_1.index t (0 : Fin 2) * 200 + 1 * r.val = R.val; omega
  | ⟨1, _⟩ => show win6_1.index t (1 : Fin 2) * 10000 + 1 * k.val = k.val; omega

/-- Window 2's block: the first 10000 rows of `s2`, at every point. -/
theorem ib6_2_apply (c : Dev nD) (t : Fin cfg6.N) (k : Fin 10000) (j : Fin 8) :
    ib6 V c 2 t (ix2 k j) = V c main_v5_0 (ix2 (⟨k.val, by have := k.isLt; omega⟩ : Fin 10000) j) := by
  obtain ⟨-, -, -, -, f20, f21, -⟩ := idx_facts6 t
  refine (ib6_eq V c 2 t (clip6_2 t) (ix2 k j)).trans ?_
  show V c main_v5_0 (((cfg6.win 2).blk t).view.emb _) = V c main_v5_0 _
  congr 1
  funext a; apply Fin.ext
  match a with
  | ⟨0, _⟩ => show win6_2.index t (0 : Fin 2) * 10000 + 1 * k.val = k.val; omega
  | ⟨1, _⟩ => show win6_2.index t (1 : Fin 2) * 8 + 1 * j.val = j.val; omega

/-- Window 3's block at a point: 400 rows of the partial result, block `20 + t`. -/
theorem ib6_3_apply (c : Dev nD) (t : Fin cfg6.N) (p : Fin 400) (j : Fin 8) (R : Fin 10000)
    (hR : R.val = (20 + t.val) * 400 + p.val) :
    ib6 V c 3 t (ix2 p j) = V c main_v5_1 (ix2 R j) := by
  obtain ⟨-, -, -, -, -, -, f30, f31, -⟩ := idx_facts6 t
  refine (ib6_eq V c 3 t (clip6_3 t) (ix2 p j)).trans ?_
  show V c main_v5_1 (((cfg6.win 3).blk t).view.emb _) = V c main_v5_1 _
  congr 1
  funext a; apply Fin.ext
  match a with
  | ⟨0, _⟩ => show win6_3.index t (0 : Fin 2) * 400 + 1 * p.val = R.val; omega
  | ⟨1, _⟩ => show win6_3.index t (1 : Fin 2) * 8 + 1 * j.val = j.val; omega

/-! ## From the blocks to the array -/

/-- The region's result at row `R` of the adjacency and column `j`, from the contents the region finds. -/
def row6 (c : Dev nD) (R : Fin 10000) (j : Fin 8) : Elt Ideal .f32 :=
  partAt V c (ix2 R j)
    + ∑ k : Fin 10000, adjAt V c (ix2 R (⟨k.val, by have := k.isLt; omega⟩ : Fin 10000))
        * (if k.val < 200 * (R.val / 200 + 1) then s2At V c (ix2 (⟨k.val, by have := k.isLt; omega⟩ : Fin 10000) j) else 0)

/-- The whole output array as one function: row `r` of it is row `8000 + r` of the result. -/
def G6 (c : Dev nD) : S2000x8.Idx → Elt Ideal .f32 := fun y =>
  row6 V c (⟨8000 + (y 0).val, by have := idx2_lt0 y; omega⟩ : Fin 10000) (y 1)

/-- WHAT POINT `t` WRITES BACK is block `t` of `G6`. -/
theorem flushed6_eq (c : Dev nD) (t : Fin cfg6.N) :
    (dat6 V c).flushed 4 t = ((cfg6.win 4).blk t).view.read (Elt Ideal) (G6 V c) := by
  show (cfg6.win 4).cut (grid6.coords t) ((dat6 V c).after 4 t) = _
  rw [after6_4]
  obtain ⟨-, -, -, -, -, -, -, -, f40, f41, fc⟩ := idx_facts6 t
  have ht := lt_N6 t
  funext y
  obtain ⟨p, q, rfl⟩ : ∃ (p : Fin 400) (q : Fin 8), y = ix2 p q := ⟨y 0, y 1, eq_ix2 y⟩
  show out6_4 (grid6.coords t) (ib6 V c 0 t) (ib6 V c 1 t) (ib6 V c 2 t) (ib6 V c 3 t) (ix2 p q)
    = G6 V c (((cfg6.win 4).blk t).view.emb (ix2 p q))
  by_cases h : p.val < 200
  · have hp := p.isLt
    have hemb : ((cfg6.win 4).blk t).view.emb (ix2 p q) = (ix2 (⟨t.val * 400 + p.val, by omega⟩ : Fin 2000) q : S2000x8.Idx) :=
      funext fun a => Fin.ext (by
        match a with
        | ⟨0, _⟩ => show win6_4.index t (0 : Fin 2) * 400 + 1 * p.val = t.val * 400 + p.val; omega
        | ⟨1, _⟩ => show win6_4.index t (1 : Fin 2) * 8 + 1 * q.val = q.val; omega)
    rw [hemb]
    show _ = row6 V c (⟨8000 + (t.val * 400 + p.val), by omega⟩ : Fin 10000) q
    refine (out6_4_lo (grid6.coords t) (ib6 V c 0 t) (ib6 V c 1 t) (ib6 V c 2 t) (ib6 V c 3 t) ⟨p.val, h⟩ q).trans ?_
    rw [ib6_3_apply V c t (⟨p.val, by omega⟩ : Fin 400) q (⟨8000 + (t.val * 400 + p.val), by omega⟩ : Fin 10000) (by show 8000 + (t.val * 400 + p.val) = (20 + t.val) * 400 + p.val; omega)]
    simp only [fun k => ib6_0_apply V c t ⟨p.val, h⟩ k (⟨8000 + (t.val * 400 + p.val), by omega⟩ : Fin 10000) (by show 8000 + (t.val * 400 + p.val) = (40 + 2 * t.val) * 200 + p.val; omega),
      fun k => ib6_2_apply V c t k q]
    rw [show (40 + 2 * (grid6.coords t 0).val + 1) * 200 = 200 * ((8000 + (t.val * 400 + p.val)) / 200 + 1) by rw [fc]; omega]
    rfl
  · obtain ⟨r, rfl⟩ : ∃ r : Fin 200, p = (⟨200 + r.val, Nat.add_lt_add_left r.isLt 200⟩ : Fin 400) :=
      ⟨⟨p.val - 200, by have := p.isLt; omega⟩, Fin.ext (by show p.val = 200 + (p.val - 200); omega)⟩
    have hr := r.isLt
    have hemb : ((cfg6.win 4).blk t).view.emb (ix2 (⟨200 + r.val, by omega⟩ : Fin 400) q)
        = (ix2 (⟨t.val * 400 + (200 + r.val), by omega⟩ : Fin 2000) q : S2000x8.Idx) :=
      funext fun a => Fin.ext (by
        match a with
        | ⟨0, _⟩ => show win6_4.index t (0 : Fin 2) * 400 + 1 * (200 + r.val) = t.val * 400 + (200 + r.val); omega
        | ⟨1, _⟩ => show win6_4.index t (1 : Fin 2) * 8 + 1 * q.val = q.val; omega)
    rw [hemb]
    show _ = row6 V c (⟨8000 + (t.val * 400 + (200 + r.val)), by omega⟩ : Fin 10000) q
    refine (out6_4_hi (grid6.coords t) (ib6 V c 0 t) (ib6 V c 1 t) (ib6 V c 2 t) (ib6 V c 3 t) r q).trans ?_
    rw [ib6_3_apply V c t (⟨200 + r.val, by omega⟩ : Fin 400) q (⟨8000 + (t.val * 400 + (200 + r.val)), by omega⟩ : Fin 10000) (by show 8000 + (t.val * 400 + (200 + r.val)) = (20 + t.val) * 400 + (200 + r.val); omega)]
    simp only [fun k => ib6_1_apply V c t r k (⟨8000 + (t.val * 400 + (200 + r.val)), by omega⟩ : Fin 10000) (by show 8000 + (t.val * 400 + (200 + r.val)) = (40 + 2 * t.val + 1) * 200 + r.val; omega),
      fun k => ib6_2_apply V c t k q]
    rw [show (40 + 2 * (grid6.coords t 0).val + 2) * 200 = 200 * ((8000 + (t.val * 400 + (200 + r.val))) / 200 + 1) by rw [fc]; omega]
    rfl

/-- An index of the output array is in point `t`'s block iff each coordinate is in the block's range on its axis. -/
theorem mem_blk6 (t : Fin cfg6.N) (i : S2000x8.Idx) :
    i ∈ ((cfg6.win 4).blk t).view.set ↔ ∀ a : Fin 2, win6_4.index t a * S400x8.size a ≤ (i a).val ∧ (i a).val < win6_4.index t a * S400x8.size a + S400x8.size a := by
  show i ∈ ((View.whole main_v10).slice (win6_4.rect t)).set ↔ _
  rw [View.set_slice_whole, Rect.mem_set_unit]
  exact Iff.rfl

/-- The five blocks of 400 rows cover the array: row `r` lies in block `r / 400`. -/
theorem cover6 (i : S2000x8.Idx) : ∃ t : Fin cfg6.N, (cfg6.win 4).flush t = true ∧ i ∈ ((cfg6.win 4).blk t).view.set := by
  have hi0 : (i 0).val < 2000 := idx2_lt0 i
  have hi1 : (i 1).val < 8 := idx2_lt1 i
  have hN : (i 0).val / 400 < cfg6.N := by rw [show cfg6.N = 5 from N_6]; omega
  obtain ⟨-, -, -, -, -, -, -, -, f40, f41, -⟩ := idx_facts6 ⟨(i 0).val / 400, hN⟩
  refine ⟨⟨(i 0).val / 400, hN⟩, flush6_4 _, ?_⟩
  rw [mem_blk6]
  intro a
  match a with
  | ⟨0, _⟩ =>
    show win6_4.index ⟨(i 0).val / 400, hN⟩ (0 : Fin 2) * 400 ≤ (i 0).val ∧ (i 0).val < win6_4.index ⟨(i 0).val / 400, hN⟩ (0 : Fin 2) * 400 + 400
    rw [f40]; show (i 0).val / 400 * 400 ≤ (i 0).val ∧ (i 0).val < (i 0).val / 400 * 400 + 400; omega
  | ⟨1, _⟩ =>
    show win6_4.index ⟨(i 0).val / 400, hN⟩ (1 : Fin 2) * 8 ≤ (i 1).val ∧ (i 1).val < win6_4.index ⟨(i 0).val / 400, hN⟩ (1 : Fin 2) * 8 + 8
    rw [f41]; omega

/-- THE OUTPUT ARRAY after the region, index by index: row `r` and column `j` of it hold the partial result at row
    `R = 8000 + r` plus the sum over the first 10000 columns `k` of the adjacency's entry `(R, k)` times `s2`'s entry
    `(k, j)`, the latter taken as zero from the end of `R`'s diagonal block on. -/
theorem final6_4 (c : Dev nD) (r : Fin 2000) (j : Fin 8) :
    (dat6 V c).arrAt 4 cfg6.N (ix2 r j)
      = partAt V c (ix2 (⟨8000 + r.val, by have := r.isLt; omega⟩ : Fin 10000) j)
        + ∑ k : Fin 10000, adjAt V c (ix2 (⟨8000 + r.val, by have := r.isLt; omega⟩ : Fin 10000) (⟨k.val, by have := k.isLt; omega⟩ : Fin 10000))
            * (if k.val < 200 * ((8000 + r.val) / 200 + 1) then s2At V c (ix2 (⟨k.val, by have := k.isLt; omega⟩ : Fin 10000) j) else 0) := by
  rw [(dat6 V c).arrAt_eq_of_cover 4 (G6 V c) (fun t _ => flushed6_eq V c t) (cover6)]
  rfl

end Blocks

end Cert.KernelIdeal.Hand

end
-- ==== Proof.Bridge.lean ====
/-
  From the buffers at the end of @main to the specification.

  The contents of the result array at the end are the five row bands regions 2 to 6 leave. Each band's entry is, by its
  region's own account, the first pass's share of its row plus the row's prefix share of the second aggregation, both
  read off arrays earlier regions left; those arrays are, by their regions' accounts, the first support, the skip terms,
  the second support and the first pass's share of the specification, computed from the argument arrays as launched.
  Put together row by row, the result array is the specification's result of the ten argument arrays.
-/
import proofs.«181509_g20452634264145_cont_8to1_1942_16_alg».proof.Proof.Contents
import proofs.«181509_g20452634264145_cont_8to1_1942_16_alg».proof.Proof.Spec
import proofs.«181509_g20452634264145_cont_8to1_1942_16_alg».proof.Proof.Val0
import proofs.«181509_g20452634264145_cont_8to1_1942_16_alg».proof.Proof.BridgeMath
import proofs.«181509_g20452634264145_cont_8to1_1942_16_alg».proof.Proof.Val1
import proofs.«181509_g20452634264145_cont_8to1_1942_16_alg».proof.Proof.Val2
import proofs.«181509_g20452634264145_cont_8to1_1942_16_alg».proof.Proof.Val3
import proofs.«181509_g20452634264145_cont_8to1_1942_16_alg».proof.Proof.Val4
import proofs.«181509_g20452634264145_cont_8to1_1942_16_alg».proof.Proof.Val5
import proofs.«181509_g20452634264145_cont_8to1_1942_16_alg».proof.Proof.Val6

set_option maxRecDepth 16384

noncomputable section

open scoped BigOperators

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx (ix1 ix2)

variable (m : (ℓ : Loc nD τ sig) → Buf (Elt Ideal) ℓ) (c : Dev nD)

/-! ## The ten argument arrays as launched, read by coordinates

In the programs' order: `x adj W1 b1 W2 b2 W3 b3 W4 b4`. -/

abbrev aX : Fin 10000 → Fin 128 → EReal := fun k f => m ((c : Thread nD τ).loc main_arg0) (ix2 k f)
abbrev aAdj : Fin 10000 → Fin 10000 → EReal := fun k l => m ((c : Thread nD τ).loc main_arg1) (ix2 k l)
abbrev aW1 : Fin 128 → Fin 16 → EReal := fun f q => m ((c : Thread nD τ).loc main_arg2) (ix2 f q)
abbrev ab1 : Fin 16 → EReal := fun q => m ((c : Thread nD τ).loc main_arg3) (ix1 q)
abbrev aW2 : Fin 128 → Fin 16 → EReal := fun f q => m ((c : Thread nD τ).loc main_arg4) (ix2 f q)
abbrev ab2 : Fin 16 → EReal := fun q => m ((c : Thread nD τ).loc main_arg5) (ix1 q)
abbrev aW3 : Fin 16 → Fin 8 → EReal := fun q j => m ((c : Thread nD τ).loc main_arg6) (ix2 q j)
abbrev ab3 : Fin 8 → EReal := fun j => m ((c : Thread nD τ).loc main_arg7) (ix1 j)
abbrev aW4 : Fin 128 → Fin 8 → EReal := fun f j => m ((c : Thread nD τ).loc main_arg8) (ix2 f j)
abbrev ab4 : Fin 8 → EReal := fun j => m ((c : Thread nD τ).loc main_arg9) (ix1 j)

/-! ## Region 0 leaves the first support and the two skip terms -/

/-- `main_v4_0`, as region 1 finds it, is `x W1`. -/
theorem stage_s1 (k : Fin 10000) (q : Fin 16) :
    Eq (α := EReal) (Vin1 m c main_v4_0 (ix2 k q)) (Spec.s1 (aX m c) (aW1 m c) k q) := by
  refine (congrFun (in1_s1 m c) (ix2 k q)).trans ((final0_6 (Vin0 m) c k q).trans ?_)
  rw [in0_arg0 m c, in0_arg2 m c]
  rfl
/-- `main_v4_1`, as region 1 finds it, is `x W2 + b2`. -/
theorem stage_skip0 (k : Fin 10000) (q : Fin 16) :
    Eq (α := EReal) (Vin1 m c main_v4_1 (ix2 k q)) (Spec.skip0 (aX m c) (aW2 m c) (ab2 m c) k q) := by
  refine (congrFun (in1_skip0 m c) (ix2 k q)).trans ((final0_7 (Vin0 m) c k q).trans ?_)
  rw [in0_arg0 m c, in0_arg4 m c, in0_v1 m c q]
  rfl
/-- `main_v4_2`, as region 1 finds it, is `x W4 + b4`. -/
theorem stage_skip1 (i : Fin 10000) (j : Fin 8) :
    Eq (α := EReal) (Vin1 m c main_v4_2 (ix2 i j)) (Spec.skip1 (aX m c) (aW4 m c) (ab4 m c) i j) := by
  refine (congrFun (in1_skip1 m c) (ix2 i j)).trans ((final0_8 (Vin0 m) c i j).trans ?_)
  rw [in0_arg0 m c, in0_arg8 m c, in0_v3 m c j]
  rfl

/-! ## Region 1 leaves the second support and the first pass's share -/

/-- The second support computed from arrays that hold, entry by entry, the adjacency, the first support, the first bias, the first
    skip term and the third weight matrix, is the specification's. -/
theorem s2Of_eq (adjV : Fin 10000 → Fin 10000 → EReal) (s1V : Fin 10000 → Fin 16 → EReal) (b1V : Fin 16 → EReal)
    (k0V : Fin 10000 → Fin 16 → EReal) (W3V : Fin 16 → Fin 8 → EReal)
    (hadj : ∀ i k, adjV i k = aAdj m c i k) (hs1 : ∀ k q, s1V k q = Spec.s1 (aX m c) (aW1 m c) k q) (hb1 : ∀ q, b1V q = ab1 m c q)
    (hk0 : ∀ k q, k0V k q = Spec.skip0 (aX m c) (aW2 m c) (ab2 m c) k q) (hW3 : ∀ q j, W3V q j = aW3 m c q j) :
    Spec.s2Of adjV s1V b1V k0V W3V = Spec.s2 (aX m c) (aAdj m c) (aW1 m c) (ab1 m c) (aW2 m c) (ab2 m c) (aW3 m c) := by
  have e1 : adjV = aAdj m c := funext fun i => funext fun k => hadj i k
  have e2 : s1V = Spec.s1 (aX m c) (aW1 m c) := funext fun k => funext fun q => hs1 k q
  have e3 : b1V = ab1 m c := funext hb1
  have e4 : k0V = Spec.skip0 (aX m c) (aW2 m c) (ab2 m c) := funext fun k => funext fun q => hk0 k q
  have e5 : W3V = aW3 m c := funext fun q => funext fun j => hW3 q j
  rw [e1, e2, e3, e4, e5]
  rfl
/-- Likewise the first pass's share, from the adjacency, the second support, the second bias and the second skip term. -/
theorem partOf_eq (adjV : Fin 10000 → Fin 10000 → EReal) (t2V : Fin 10000 → Fin 8 → EReal) (b3V : Fin 8 → EReal)
    (k1V : Fin 10000 → Fin 8 → EReal)
    (hadj : ∀ i k, adjV i k = aAdj m c i k) (ht2 : ∀ k j, t2V k j = Spec.s2 (aX m c) (aAdj m c) (aW1 m c) (ab1 m c) (aW2 m c) (ab2 m c) (aW3 m c) k j) (hb3 : ∀ j, b3V j = ab3 m c j)
    (hk1 : ∀ i j, k1V i j = Spec.skip1 (aX m c) (aW4 m c) (ab4 m c) i j) :
    Spec.partOf adjV t2V b3V k1V = Spec.part (aX m c) (aAdj m c) (aW1 m c) (ab1 m c) (aW2 m c) (ab2 m c) (aW3 m c) (ab3 m c) (aW4 m c) (ab4 m c) := by
  have e1 : adjV = aAdj m c := funext fun i => funext fun k => hadj i k
  have e2 : t2V = Spec.s2 (aX m c) (aAdj m c) (aW1 m c) (ab1 m c) (aW2 m c) (ab2 m c) (aW3 m c) := funext fun k => funext fun j => ht2 k j
  have e3 : b3V = ab3 m c := funext hb3
  have e4 : k1V = Spec.skip1 (aX m c) (aW4 m c) (ab4 m c) := funext fun i => funext fun j => hk1 i j
  rw [e1, e2, e3, e4]
  rfl

/-- The second support as region 1 computes it from what it finds is the specification's. -/
theorem s2_found :
    Spec.s2Of (fun i k => (Vin1 m c main_arg1 (ix2 i k) : EReal)) (fun k q => (Vin1 m c main_v4_0 (ix2 k q) : EReal))
        (fun q => (Vin1 m c main_v0 (ix2 (0 : Fin 1) q) : EReal)) (fun k q => (Vin1 m c main_v4_1 (ix2 k q) : EReal))
        (fun q j => (Vin1 m c main_arg6 (ix2 q j) : EReal))
      = Spec.s2 (aX m c) (aAdj m c) (aW1 m c) (ab1 m c) (aW2 m c) (ab2 m c) (aW3 m c) :=
  s2Of_eq m c _ _ _ _ _ (fun i k => congrFun (in1_adj m c) (ix2 i k)) (stage_s1 m c) (in1_b1 m c) (stage_skip0 m c)
    (fun q j => congrFun (in1_W3 m c) (ix2 q j))
/-- `main_v5_0` after region 1 is the second support. -/
theorem v5_0_eq (R : Fin 10000) (j : Fin 8) :
    Eq (α := EReal) ((dat1 (Vin1 m) c).arrAt 8 cfg1.N (ix2 R j)) (Spec.s2 (aX m c) (aAdj m c) (aW1 m c) (ab1 m c) (aW2 m c) (ab2 m c) (aW3 m c) R j) :=
  (final1_8 (Vin1 m) c R j).trans (congrFun (congrFun (s2_found m c) R) j)
/-- `main_v5_1` after region 1 is the first pass's share of the result. -/
theorem v5_1_eq (R : Fin 10000) (j : Fin 8) :
    Eq (α := EReal) ((dat1 (Vin1 m) c).arrAt 9 cfg1.N (ix2 R j)) (Spec.part (aX m c) (aAdj m c) (aW1 m c) (ab1 m c) (aW2 m c) (ab2 m c) (aW3 m c) (ab3 m c) (aW4 m c) (ab4 m c) R j) :=
  (final1_9 (Vin1 m) c R j).trans (congrFun (congrFun
    (partOf_eq m c _ _ _ _ (fun i k => congrFun (in1_adj m c) (ix2 i k)) (fun k j => congrFun (congrFun (s2_found m c) k) j)
      (in1_b3 m c) (stage_skip1 m c)) R) j)

/-! ## Regions 2 to 6 leave the five row bands of the result -/

/-- A band's entry — the first pass's share of its row plus the row's prefix share over a width that reaches the end of the
    row's block, both read off arrays that hold the adjacency, the second support and the first pass's share — is the
    specification's result at that row (the triangle law). -/
theorem band_of (g : Fin 5) (off w : ℕ) (hoff : off = 2000 * g.val) (hw : w ≤ 10000)
    (adjV : S10000x10000.Idx → EReal) (s2V partV : S10000x8.Idx → EReal)
    (hadj : ∀ i k, adjV (ix2 i k) = aAdj m c i k) (hs2 : ∀ k j, s2V (ix2 k j) = Spec.s2 (aX m c) (aAdj m c) (aW1 m c) (ab1 m c) (aW2 m c) (ab2 m c) (aW3 m c) k j)
    (hpart : ∀ i j, partV (ix2 i j) = Spec.part (aX m c) (aAdj m c) (aW1 m c) (ab1 m c) (aW2 m c) (ab2 m c) (aW3 m c) (ab3 m c) (aW4 m c) (ab4 m c) i j)
    (r : Fin 2000) (j : Fin 8) (hT : 200 * ((off + r.val) / 200 + 1) ≤ w) (hlt : off + r.val < 10000)
    (hk : ∀ k : Fin w, k.val < 10000) :
    partV (ix2 (⟨off + r.val, hlt⟩ : Fin 10000) j)
        + ∑ k : Fin w, adjV (ix2 (⟨off + r.val, hlt⟩ : Fin 10000) (⟨k.val, hk k⟩ : Fin 10000))
            * (if k.val < 200 * ((off + r.val) / 200 + 1) then s2V (ix2 (⟨k.val, hk k⟩ : Fin 10000) j) else 0)
      = Spec.out (aX m c) (aAdj m c) (aW1 m c) (ab1 m c) (aW2 m c) (ab2 m c) (aW3 m c) (ab3 m c) (aW4 m c) (ab4 m c) (rowOf g r) j := by
  subst hoff
  rw [hpart, Finset.sum_congr rfl fun k _ => by rw [hadj, hs2]]
  exact Spec.part_add_lower (aX m c) (aAdj m c) (aW1 m c) (ab1 m c) (aW2 m c) (ab2 m c) (aW3 m c) (ab3 m c) (aW4 m c) (ab4 m c) w hw (rowOf g r) j hT

/-- The second support and the first pass's share as region 2 finds them. -/
theorem s2_at2 (k : Fin 10000) (j : Fin 8) : Eq (α := EReal) (s2At (Vin2 m) c (ix2 k j)) (Spec.s2 (aX m c) (aAdj m c) (aW1 m c) (ab1 m c) (aW2 m c) (ab2 m c) (aW3 m c) k j) :=
  (congrFun (in2_s2 m c) (ix2 k j)).trans (v5_0_eq m c k j)
theorem part_at2 (i : Fin 10000) (j : Fin 8) : Eq (α := EReal) (partAt (Vin2 m) c (ix2 i j)) (Spec.part (aX m c) (aAdj m c) (aW1 m c) (ab1 m c) (aW2 m c) (ab2 m c) (aW3 m c) (ab3 m c) (aW4 m c) (ab4 m c) i j) :=
  (congrFun (in2_part m c) (ix2 i j)).trans (v5_1_eq m c i j)
/-- Rows 0 … 1999 of the result, as region 2 leaves them in `main_v6`. -/
theorem band2 (r : Fin 2000) (j : Fin 8) :
    Eq (α := EReal) ((dat2 (Vin2 m) c).arrAt 4 cfg2.N (ix2 r j)) (Spec.out (aX m c) (aAdj m c) (aW1 m c) (ab1 m c) (aW2 m c) (ab2 m c) (aW3 m c) (ab3 m c) (aW4 m c) (ab4 m c) (rowOf 0 r) j) :=
  (final2_4 (Vin2 m) c r j).trans
    (band_of m c 0 0 2048 rfl (by decide) (adjAt (Vin2 m) c) (s2At (Vin2 m) c) (partAt (Vin2 m) c)
      (fun i k => congrFun (in2_adj m c) (ix2 i k)) (s2_at2 m c) (part_at2 m c) r j
      (by have := r.isLt; omega) (by have := r.isLt; omega) (fun k => by have := k.isLt; omega))

/-- The second support and the first pass's share as region 3 finds them. -/
theorem s2_at3 (k : Fin 10000) (j : Fin 8) : Eq (α := EReal) (s2At (Vin3 m) c (ix2 k j)) (Spec.s2 (aX m c) (aAdj m c) (aW1 m c) (ab1 m c) (aW2 m c) (ab2 m c) (aW3 m c) k j) :=
  (congrFun (in3_s2 m c) (ix2 k j)).trans (v5_0_eq m c k j)
theorem part_at3 (i : Fin 10000) (j : Fin 8) : Eq (α := EReal) (partAt (Vin3 m) c (ix2 i j)) (Spec.part (aX m c) (aAdj m c) (aW1 m c) (ab1 m c) (aW2 m c) (ab2 m c) (aW3 m c) (ab3 m c) (aW4 m c) (ab4 m c) i j) :=
  (congrFun (in3_part m c) (ix2 i j)).trans (v5_1_eq m c i j)
/-- Rows 2000 … 3999 of the result, as region 3 leaves them in `main_v7`. -/
theorem band3 (r : Fin 2000) (j : Fin 8) :
    Eq (α := EReal) ((dat3 (Vin3 m) c).arrAt 4 cfg3.N (ix2 r j)) (Spec.out (aX m c) (aAdj m c) (aW1 m c) (ab1 m c) (aW2 m c) (ab2 m c) (aW3 m c) (ab3 m c) (aW4 m c) (ab4 m c) (rowOf 1 r) j) :=
  (final3_4 (Vin3 m) c r j).trans
    (band_of m c 1 2000 4096 rfl (by decide) (adjAt (Vin3 m) c) (s2At (Vin3 m) c) (partAt (Vin3 m) c)
      (fun i k => congrFun (in3_adj m c) (ix2 i k)) (s2_at3 m c) (part_at3 m c) r j
      (by have := r.isLt; omega) (by have := r.isLt; omega) (fun k => by have := k.isLt; omega))

/-- The second support and the first pass's share as region 4 finds them. -/
theorem s2_at4 (k : Fin 10000) (j : Fin 8) : Eq (α := EReal) (s2At (Vin4 m) c (ix2 k j)) (Spec.s2 (aX m c) (aAdj m c) (aW1 m c) (ab1 m c) (aW2 m c) (ab2 m c) (aW3 m c) k j) :=
  (congrFun (in4_s2 m c) (ix2 k j)).trans (v5_0_eq m c k j)
theorem part_at4 (i : Fin 10000) (j : Fin 8) : Eq (α := EReal) (partAt (Vin4 m) c (ix2 i j)) (Spec.part (aX m c) (aAdj m c) (aW1 m c) (ab1 m c) (aW2 m c) (ab2 m c) (aW3 m c) (ab3 m c) (aW4 m c) (ab4 m c) i j) :=
  (congrFun (in4_part m c) (ix2 i j)).trans (v5_1_eq m c i j)
/-- Rows 4000 … 5999 of the result, as region 4 leaves them in `main_v8`. -/
theorem band4 (r : Fin 2000) (j : Fin 8) :
    Eq (α := EReal) ((dat4 (Vin4 m) c).arrAt 4 cfg4.N (ix2 r j)) (Spec.out (aX m c) (aAdj m c) (aW1 m c) (ab1 m c) (aW2 m c) (ab2 m c) (aW3 m c) (ab3 m c) (aW4 m c) (ab4 m c) (rowOf 2 r) j) :=
  (final4_4 (Vin4 m) c r j).trans
    (band_of m c 2 4000 6016 rfl (by decide) (adjAt (Vin4 m) c) (s2At (Vin4 m) c) (partAt (Vin4 m) c)
      (fun i k => congrFun (in4_adj m c) (ix2 i k)) (s2_at4 m c) (part_at4 m c) r j
      (by have := r.isLt; omega) (by have := r.isLt; omega) (fun k => by have := k.isLt; omega))

/-- The second support and the first pass's share as region 5 finds them. -/
theorem s2_at5 (k : Fin 10000) (j : Fin 8) : Eq (α := EReal) (s2At (Vin5 m) c (ix2 k j)) (Spec.s2 (aX m c) (aAdj m c) (aW1 m c) (ab1 m c) (aW2 m c) (ab2 m c) (aW3 m c) k j) :=
  (congrFun (in5_s2 m c) (ix2 k j)).trans (v5_0_eq m c k j)
theorem part_at5 (i : Fin 10000) (j : Fin 8) : Eq (α := EReal) (partAt (Vin5 m) c (ix2 i j)) (Spec.part (aX m c) (aAdj m c) (aW1 m c) (ab1 m c) (aW2 m c) (ab2 m c) (aW3 m c) (ab3 m c) (aW4 m c) (ab4 m c) i j) :=
  (congrFun (in5_part m c) (ix2 i j)).trans (v5_1_eq m c i j)
/-- Rows 6000 … 7999 of the result, as region 5 leaves them in `main_v9`. -/
theorem band5 (r : Fin 2000) (j : Fin 8) :
    Eq (α := EReal) ((dat5 (Vin5 m) c).arrAt 4 cfg5.N (ix2 r j)) (Spec.out (aX m c) (aAdj m c) (aW1 m c) (ab1 m c) (aW2 m c) (ab2 m c) (aW3 m c) (ab3 m c) (aW4 m c) (ab4 m c) (rowOf 3 r) j) :=
  (final5_4 (Vin5 m) c r j).trans
    (band_of m c 3 6000 8064 rfl (by decide) (adjAt (Vin5 m) c) (s2At (Vin5 m) c) (partAt (Vin5 m) c)
      (fun i k => congrFun (in5_adj m c) (ix2 i k)) (s2_at5 m c) (part_at5 m c) r j
      (by have := r.isLt; omega) (by have := r.isLt; omega) (fun k => by have := k.isLt; omega))

/-- The second support and the first pass's share as region 6 finds them. -/
theorem s2_at6 (k : Fin 10000) (j : Fin 8) : Eq (α := EReal) (s2At (Vin6 m) c (ix2 k j)) (Spec.s2 (aX m c) (aAdj m c) (aW1 m c) (ab1 m c) (aW2 m c) (ab2 m c) (aW3 m c) k j) :=
  (congrFun (in6_s2 m c) (ix2 k j)).trans (v5_0_eq m c k j)
theorem part_at6 (i : Fin 10000) (j : Fin 8) : Eq (α := EReal) (partAt (Vin6 m) c (ix2 i j)) (Spec.part (aX m c) (aAdj m c) (aW1 m c) (ab1 m c) (aW2 m c) (ab2 m c) (aW3 m c) (ab3 m c) (aW4 m c) (ab4 m c) i j) :=
  (congrFun (in6_part m c) (ix2 i j)).trans (v5_1_eq m c i j)
/-- Rows 8000 … 9999 of the result, as region 6 leaves them in `main_v10`. -/
theorem band6 (r : Fin 2000) (j : Fin 8) :
    Eq (α := EReal) ((dat6 (Vin6 m) c).arrAt 4 cfg6.N (ix2 r j)) (Spec.out (aX m c) (aAdj m c) (aW1 m c) (ab1 m c) (aW2 m c) (ab2 m c) (aW3 m c) (ab3 m c) (aW4 m c) (ab4 m c) (rowOf 4 r) j) :=
  (final6_4 (Vin6 m) c r j).trans
    (band_of m c 4 8000 10000 rfl (by decide) (adjAt (Vin6 m) c) (s2At (Vin6 m) c) (partAt (Vin6 m) c)
      (fun i k => congrFun (in6_adj m c) (ix2 i k)) (s2_at6 m c) (part_at6 m c) r j
      (by have := r.isLt; omega) (by have := r.isLt; omega) (fun k => by have := k.isLt; omega))

/-! ## The result array -/

/-- Every row of the result array at the end of @main is the specification's: row `2000 g + r` lies in band `g`. -/
theorem W9_row (g : Fin 5) (r : Fin 2000) (j : Fin 8) :
    Eq (α := EReal) (W9 m c (Proc.devRef .tc main_v11) (ix2 (rowOf g r) j)) (Spec.out (aX m c) (aAdj m c) (aW1 m c) (ab1 m c) (aW2 m c) (ab2 m c) (aW3 m c) (ab3 m c) (aW4 m c) (ab4 m c) (rowOf g r) j) := by
  rw [W9_main_v11_bands m c]
  refine (concat5_apply _ _ _ _ _ g r (rowOf g r) j rfl _).trans ?_
  match g with
  | ⟨0, _⟩ => exact band2 m c r j
  | ⟨1, _⟩ => exact band3 m c r j
  | ⟨2, _⟩ => exact band4 m c r j
  | ⟨3, _⟩ => exact band5 m c r j
  | ⟨4, _⟩ => exact band6 m c r j
  | ⟨n + 5, h⟩ => exact absurd h (by omega)

/-- Every entry of the result array at the end of @main is the specification's: row `i` is row `i % 2000` of band `i / 2000`. -/
theorem W9_at (i : Fin 10000) (j : Fin 8) :
    Eq (α := EReal) (W9 m c (Proc.devRef .tc main_v11) (ix2 i j)) (Spec.out (aX m c) (aAdj m c) (aW1 m c) (ab1 m c) (aW2 m c) (ab2 m c) (aW3 m c) (ab3 m c) (aW4 m c) (ab4 m c) i j) := by
  obtain ⟨g, r, rfl⟩ : ∃ (g : Fin 5) (r : Fin 2000), i = rowOf g r :=
    ⟨⟨i.val / 2000, by have := i.isLt; omega⟩, ⟨i.val % 2000, Nat.mod_lt _ (by decide)⟩, Fin.ext (Nat.div_add_mod _ _).symm⟩
  exact W9_row m c g r j

/-- THE RESULT: at the end of @main the result array holds the specification's result of the ten argument arrays as launched. -/
theorem W9_result : W9 m c (Proc.devRef .tc main_v11)
    = Cert.Spec.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  funext idx
  rw [Idealize.ShloMosaic.ValueIdx.eq_ix2 idx]
  exact W9_at m c _ _

end Cert.KernelIdeal.Hand

end
-- ==== Proof.lean ====
/- The two-layer graph convolution kernel against its reference.

   The kernel computes the first projections in one region, then walks the adjacency's row blocks bottom-up: when a row
   block is resident every row block above it already has its second support, so one product against the scratch
   `[first support | second support found so far]` yields both the hidden block and the strict-upper-triangle share of
   the second aggregation; five further regions add, per row block, the share of the columns up to the end of that block,
   read over a prefix of the adjacency's columns. On the extended reals the two shares add up to the reference's whole
   aggregation (commutativity and associativity of addition, `a * 0 = 0`), and every other stage is the reference's own.
   The three frames: each program terminates without a fault and leaves its ten arguments as launched. -/
import proofs.«181509_g20452634264145_cont_8to1_1942_16_alg».proof.Defs
import proofs.«181509_g20452634264145_cont_8to1_1942_16_alg».proof.Proof.Gen.Kernel
import proofs.«181509_g20452634264145_cont_8to1_1942_16_alg».proof.Proof.Gen.KernelIdeal
import proofs.«181509_g20452634264145_cont_8to1_1942_16_alg».proof.Proof.Gen.ReferenceIdeal
import proofs.«181509_g20452634264145_cont_8to1_1942_16_alg».proof.Proof.Gen.Pre_finite_inputs
import proofs.«181509_g20452634264145_cont_8to1_1942_16_alg».proof.Proof.BRun
import proofs.«181509_g20452634264145_cont_8to1_1942_16_alg».proof.Proof.Run
import proofs.«181509_g20452634264145_cont_8to1_1942_16_alg».proof.Proof.RefSide
import proofs.«181509_g20452634264145_cont_8to1_1942_16_alg».proof.Proof.Bridge

noncomputable section

namespace Cert.Proof

open Idealize.ShloMosaic Idealize.SL.Sem

/-- The word-level kernel terminates without a fault and leaves its arguments as launched. -/
theorem frame_k : Cert.frame_Kernel := fun m ρ _ => Cert.Kernel.Hand.frame (F := Bits) m ρ
/-- So does its reading on the extended reals. -/
theorem frame_ki : Cert.frame_KernelIdeal := fun m ρ _ => Cert.KernelIdeal.Hand.frame (F := Ideal) m ρ

/-- From memories that agree on the arguments both idealized programs end with the same result — the specification's
    one function of the ten arguments — and the four weight matrices they return as they are. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => m ((c.tc : Thread Cert.KernelIdeal.nD Cert.KernelIdeal.τ).loc Cert.KernelIdeal.main_arg2), fun c => m ((c.tc : Thread Cert.KernelIdeal.nD Cert.KernelIdeal.τ).loc Cert.KernelIdeal.main_arg4), fun c => m ((c.tc : Thread Cert.KernelIdeal.nD Cert.KernelIdeal.τ).loc Cert.KernelIdeal.main_arg6), fun c => m ((c.tc : Thread Cert.KernelIdeal.nD Cert.KernelIdeal.τ).loc Cert.KernelIdeal.main_arg8), ?_, ?_⟩
  · exact Cert.KernelIdeal.Hand.run_of (F := Ideal) m ρ fun s h c =>
      ⟨(h c _ (Cert.KernelIdeal.Hand.mem_uc Cert.KernelIdeal.main_v11 (by decide))).trans (Cert.KernelIdeal.Hand.W9_result m c),
       (h c _ (Cert.KernelIdeal.Hand.mem_uc Cert.KernelIdeal.main_arg2 (by decide))).trans (Cert.KernelIdeal.Hand.W9_main_arg2 m c),
       (h c _ (Cert.KernelIdeal.Hand.mem_uc Cert.KernelIdeal.main_arg4 (by decide))).trans (Cert.KernelIdeal.Hand.W9_main_arg4 m c),
       (h c _ (Cert.KernelIdeal.Hand.mem_uc Cert.KernelIdeal.main_arg6 (by decide))).trans (Cert.KernelIdeal.Hand.W9_main_arg6 m c),
       (h c _ (Cert.KernelIdeal.Hand.mem_uc Cert.KernelIdeal.main_arg8 (by decide))).trans (Cert.KernelIdeal.Hand.W9_main_arg8 m c),
       (h c _ (Cert.KernelIdeal.Hand.mem_uc Cert.KernelIdeal.main_arg0 (by decide))).trans (Cert.KernelIdeal.Hand.W9_main_arg0 m c),
       (h c _ (Cert.KernelIdeal.Hand.mem_uc Cert.KernelIdeal.main_arg1 (by decide))).trans (Cert.KernelIdeal.Hand.W9_main_arg1 m c),
       (h c _ (Cert.KernelIdeal.Hand.mem_uc Cert.KernelIdeal.main_arg2 (by decide))).trans (Cert.KernelIdeal.Hand.W9_main_arg2 m c),
       (h c _ (Cert.KernelIdeal.Hand.mem_uc Cert.KernelIdeal.main_arg3 (by decide))).trans (Cert.KernelIdeal.Hand.W9_main_arg3 m c),
       (h c _ (Cert.KernelIdeal.Hand.mem_uc Cert.KernelIdeal.main_arg4 (by decide))).trans (Cert.KernelIdeal.Hand.W9_main_arg4 m c),
       (h c _ (Cert.KernelIdeal.Hand.mem_uc Cert.KernelIdeal.main_arg5 (by decide))).trans (Cert.KernelIdeal.Hand.W9_main_arg5 m c),
       (h c _ (Cert.KernelIdeal.Hand.mem_uc Cert.KernelIdeal.main_arg6 (by decide))).trans (Cert.KernelIdeal.Hand.W9_main_arg6 m c),
       (h c _ (Cert.KernelIdeal.Hand.mem_uc Cert.KernelIdeal.main_arg7 (by decide))).trans (Cert.KernelIdeal.Hand.W9_main_arg7 m c),
       (h c _ (Cert.KernelIdeal.Hand.mem_uc Cert.KernelIdeal.main_arg8 (by decide))).trans (Cert.KernelIdeal.Hand.W9_main_arg8 m c),
       (h c _ (Cert.KernelIdeal.Hand.mem_uc Cert.KernelIdeal.main_arg9 (by decide))).trans (Cert.KernelIdeal.Hand.W9_main_arg9 m c)⟩
  · refine (θ_run Cert.ReferenceIdeal.defs _ _).mono (fun _ h c => ?_) (Cert.ReferenceIdeal.Value.run (F := Ideal) m' ρ')
    obtain ⟨h24, h2, h4, h6, h8, hargs⟩ := h c
    obtain ⟨a0, a1, a2, a3, a4, a5, a6, a7, a8, a9⟩ := hagree c
    refine ⟨?_, h2.trans a2, h4.trans a4, h6.trans a6, h8.trans a8, hargs⟩
    rw [h24, Cert.ReferenceIdeal.Read.val_main_v24_eq, Cert.RefSide.val_eq_result, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, Cert.RefSide.frame_ri, trivial, algebraic⟩

end Cert.Proof

end
